-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x8192 : Shape := ⟨2, ![1024, 8192]⟩
abbrev S_ : Shape := ⟨0, ![]⟩

class Facts : Prop where
  bcast_S_S1024x8192 : S_.BroadcastsInDim S1024x8192 (![] : Fin 0 → Fin S1024x8192.rank)
  reducesTo_S1024x8192_S_d0_1 : S1024x8192.ReducesTo [0, 1] S_
  h_S_ : 0 < S_.numel

variable [Facts]

def fn {F : FTy → Type} [FloatOps F] (main_arg0 : FVec F S1024x8192 .f32) (main_arg1 : FVec F S1024x8192 .f32) : IVec S_ 1 :=
  let main_v0 : FVec F S1024x8192 .f32 := Host.absf main_arg0
  let main_cst : FVec F S_ .f32 := constant S_ .f32 0x7F800000#32
  let main_v1 : FVec F S1024x8192 .f32 := broadcastInDim S1024x8192 ![] bcast_S_S1024x8192 main_cst
  let main_v2 : IVec S1024x8192 1 := cmpf .olt main_v0 main_v1
  let main_c : IVec S_ 1 := constantI S_ 1 1#1
  let main_v3 : IVec S_ 1 := (fun x v => Host.reduce IntOp.andi x v reducesTo_S1024x8192_S_d0_1 h_S_) main_v2 main_c
  let main_v4 : FVec F S1024x8192 .f32 := Host.absf main_arg1
  let main_cst_0 : FVec F S_ .f32 := constant S_ .f32 0x7F800000#32
  let main_v5 : FVec F S1024x8192 .f32 := broadcastInDim S1024x8192 ![] bcast_S_S1024x8192 main_cst_0
  let main_v6 : IVec S1024x8192 1 := cmpf .olt main_v4 main_v5
  let main_c_1 : IVec S_ 1 := constantI S_ 1 1#1
  let main_v7 : IVec S_ 1 := (fun x v => Host.reduce IntOp.andi x v reducesTo_S1024x8192_S_d0_1 h_S_) main_v6 main_c_1
  let main_v8 : IVec S_ 1 := andi main_v3 main_v7
  main_v8
-- ==== Kernel.lean ====
abbrev S1024x8192 : Shape := ⟨2, ![1024, 8192]⟩
abbrev S1024x1024 : Shape := ⟨2, ![1024, 1024]⟩
abbrev S1024x1 : Shape := ⟨2, ![1024, 1]⟩
abbrev S512x512 : Shape := ⟨2, ![512, 512]⟩
abbrev S1024x512 : Shape := ⟨2, ![1024, 512]⟩
abbrev S512x1024 : Shape := ⟨2, ![512, 1024]⟩
abbrev S512x1 : Shape := ⟨2, ![512, 1]⟩
abbrev S512 : Shape := ⟨1, ![512]⟩
abbrev S1x1024 : Shape := ⟨2, ![1, 1024]⟩
abbrev S1x1 : Shape := ⟨2, ![1, 1]⟩
abbrev S128x1024 : Shape := ⟨2, ![128, 1024]⟩
abbrev S128x1 : Shape := ⟨2, ![128, 1]⟩
abbrev S128 : Shape := ⟨1, ![128]⟩
abbrev S1 : Shape := ⟨1, ![1]⟩
abbrev S_ : Shape := ⟨0, ![]⟩

abbrev nBuf : Space → Nat
  | .hbm => 10
  | .vmem => 23
  | .smem => 0
  | _ => 0

abbrev bufTy : (tb : Table) → Fin (tcTables nBuf tb) → BufTy
  | .hbm, ⟨0, _⟩ => ⟨S1024x8192, .f32⟩
  | .hbm, ⟨1, _⟩ => ⟨S1024x8192, .f32⟩
  | .hbm, ⟨2, _⟩ => ⟨S1024x1024, .f32⟩
  | .hbm, ⟨3, _⟩ => ⟨S1024x1024, .f32⟩
  | .hbm, ⟨4, _⟩ => ⟨S1024x1, .f32⟩
  | .hbm, ⟨5, _⟩ => ⟨S1024x1, .f32⟩
  | .hbm, ⟨6, _⟩ => ⟨S1x1024, .f32⟩
  | .hbm, ⟨7, _⟩ => ⟨S1x1024, .f32⟩
  | .hbm, ⟨8, _⟩ => ⟨S1x1, .f32⟩
  | .hbm, ⟨9, _⟩ => ⟨S_, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S512x1024, .f32⟩
  | .local _ .vmem, ⟨9, _⟩ => ⟨S512x1024, .f32⟩
  | .local _ .vmem, ⟨10, _⟩ => ⟨S512x1, .f32⟩
  | .local _ .vmem, ⟨11, _⟩ => ⟨S512x1, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1, .f32⟩
  | .local _ .vmem, ⟨17, _⟩ => ⟨S128x1, .f32⟩
  | .local _ .vmem, ⟨18, _⟩ => ⟨S128x1, .f32⟩
  | .local _ .vmem, ⟨19, _⟩ => ⟨S128x1, .f32⟩
  | .local _ .vmem, ⟨20, _⟩ => ⟨S1x1024, .f32⟩
  | .local _ .vmem, ⟨21, _⟩ => ⟨S1x1024, .f32⟩
  | .local _ .vmem, ⟨22, _⟩ => ⟨S1x1, .f32⟩
  | _, _ => ⟨S1024x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem5_0 : DmaSem sig := 21
abbrev cc1_sem6_0 : DmaSem sig := 22

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S512x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S512x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S128x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

class Facts₀ : Prop where
  inb_S512x1024_S512x1024_0_0 : ∀ a, (![0, 0] : Fin 2 → Nat) a + S512x1024.size a ≤ S512x1024.size a
  h_S512x1024 : 0 < S512x1024.numel
  inb_S512x1_S512x1_0_0 : ∀ a, (![0, 0] : Fin 2 → Nat) a + S512x1.size a ≤ S512x1.size a
  h_S512x1 : 0 < S512x1.numel
  inb_S512x512_S512x512_0_0 : ∀ a, (![0, 0] : Fin 2 → Nat) a + S512x512.size a ≤ S512x512.size a
  h_S512x512 : 0 < S512x512.numel
  inb_S1024x512_S1024x512_0_0 : ∀ a, (![0, 0] : Fin 2 → Nat) a + S1024x512.size a ≤ S1024x512.size a
  h_S1024x512 : 0 < S1024x512.numel
  shapeCasts_S512x1_S512x1 : S512x1.ShapeCasts S512x1
  reduces_S512x512_S512 : S512x512.Reduces [1] S512
  shapeCasts_S512_S512x1 : S512.ShapeCasts S512x1
  bitsLt_bf16_f32 : FTy.bits .bf16 < FTy.bits .f32
  shapeCasts_S512x1024_S512x1024 : S512x1024.ShapeCasts S512x1024
  transposes_S1024x512_p1_0_S512x1024 : S1024x512.Transposes [1, 0] S512x1024
  transposes_S1024x1_S1x1024_1_0 : S1024x1.Transposes [1, 0] S1x1024
  inb_S1x1_S1x1_0_0 : ∀ a, (![0, 0] : Fin 2 → Nat) a + S1x1.size a ≤ S1x1.size a
  h_S1x1 : 0 < S1x1.numel
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S128x1_S128x1024 : S128x1.Broadcasts S128x1024
  broadcasts_S1x1024_S128x1024 : S1x1024.Broadcasts S128x1024
  iota_S128x1024_d0_w32 : S128x1024.Iotas .tc 32 [0]
  iota_S128x1024_d1_w32 : S128x1024.Iotas .tc 32 [1]
  natLt_1_32 : 1 < 32
  reduces_S128x1024_S128 : S128x1024.Reduces [1] S128
  shapeCasts_S128_S128x1 : S128.ShapeCasts S128x1
  reduces_S128x1_S1 : S128x1.Reduces [0] S1
  shapeCasts_S1_S1x1 : S1.ShapeCasts S1x1
  shapeCasts_S1x1_S1x1 : S1x1.ShapeCasts S1x1
  shapeCasts_S1x1_S_ : S1x1.ShapeCasts S_
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S1024x8192.size a
  hwx0_0 : ∀ i : grid0.Coords, EltTy.bits .f32 = 32 ∨ (Rect.block (s := S1024x8192) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S1024x8192.size a
  hwx0_1 : ∀ i : grid0.Coords, EltTy.bits .f32 = 32 ∨ (Rect.block (s := S1024x8192) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S1024x8192.size a
  hwx0_2 : ∀ i : grid0.Coords, EltTy.bits .f32 = 32 ∨ (Rect.block (s := S1024x8192) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S1024x8192.size a
  hwx0_3 : ∀ i : grid0.Coords, EltTy.bits .f32 = 32 ∨ (Rect.block (s := S1024x8192) S1024x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S1024x1024.size a
  hwx0_4 : ∀ i : grid0.Coords, EltTy.bits .f32 = 32 ∨ (Rect.block (s := S1024x1024) S512x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S1024x1024.size a
  hwx0_5 : ∀ i : grid0.Coords, EltTy.bits .f32 = 32 ∨ (Rect.block (s := S1024x1024) S512x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x1.size a ≤ S1024x1.size a
  hwx0_6 : ∀ i : grid0.Coords, EltTy.bits .f32 = 32 ∨ (Rect.block (s := S1024x1) S512x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x1.size a ≤ S1024x1.size a
  hwx0_7 : ∀ i : grid0.Coords, EltTy.bits .f32 = 32 ∨ (Rect.block (s := S1024x1) S512x1.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x1024.size a ≤ S1024x1024.size a
  hwx1_0 : ∀ i : grid1.Coords, EltTy.bits .f32 = 32 ∨ (Rect.block (s := S1024x1024) S128x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x1024.size a ≤ S1024x1024.size a
  hwx1_1 : ∀ i : grid1.Coords, EltTy.bits .f32 = 32 ∨ (Rect.block (s := S1024x1024) S128x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x1.size a ≤ S1024x1.size a
  hwx1_2 : ∀ i : grid1.Coords, EltTy.bits .f32 = 32 ∨ (Rect.block (s := S1024x1) S128x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x1.size a ≤ S1024x1.size a
  hwx1_3 : ∀ i : grid1.Coords, EltTy.bits .f32 = 32 ∨ (Rect.block (s := S1024x1) S128x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1024.size a ≤ S1x1024.size a
  hwx1_5 : ∀ i : grid1.Coords, EltTy.bits .f32 = 32 ∨ (Rect.block (s := S1x1024) S1x1024.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)

variable [Facts₀]

def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1024x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S512x1024.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S512x1024.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S512x1.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0_3) S512x1.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v0_0) S128x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S128x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_2) S128x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0_3) S128x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v2) S1x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v3) S1x1.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S1024x8192 : Shape := ⟨2, ![1024, 8192]⟩
abbrev S_ : Shape := ⟨0, ![]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S8192x1024 : Shape := ⟨2, ![8192, 1024]⟩
abbrev S1048576 : Shape := ⟨1, ![1048576]⟩
abbrev S523776 : Shape := ⟨1, ![523776]⟩
abbrev S1048576x1 : Shape := ⟨2, ![1048576, 1]⟩
abbrev S523776x1 : Shape := ⟨2, ![523776, 1]⟩
abbrev S523776x2 : Shape := ⟨2, ![523776, 2]⟩

abbrev nBuf : Space → Nat
  | .hbm => 314
  | .vmem => 0
  | .smem => 0
  | _ => 0

abbrev hbmTy0_0 (i : Nat) : BufTy := match i % 128 with
  | 0 => ⟨S1024x8192, .f32⟩
  | 1 => ⟨S1024x8192, .f32⟩
  | 2 => ⟨S1024x8192, .f32⟩
  | 3 => ⟨S_, .f32⟩
  | 4 => ⟨S1024, .f32⟩
  | 5 => ⟨S1024x1, .f32⟩
  | 6 => ⟨S1x1024, .f32⟩
  | 7 => ⟨S1024x1024, .f32⟩
  | 8 => ⟨S1024x1024, .f32⟩
  | 9 => ⟨S1024x1024, .f32⟩
  | 10 => ⟨S8192x1024, .f32⟩
  | 11 => ⟨S1024x1024, .f32⟩
  | 12 => ⟨S_, .f32⟩
  | 13 => ⟨S1024x1024, .f32⟩
  | 14 => ⟨S1024x1024, .f32⟩
  | 15 => ⟨S1024x1024, .f32⟩
  | 16 => ⟨S_, .f32⟩
  | 17 => ⟨S1024x1024, .f32⟩
  | 18 => ⟨S1024x1024, .f32⟩
  | 19 => ⟨S_, .f32⟩
  | 20 => ⟨S1024x1024, .f32⟩
  | 21 => ⟨S1024x1024, .i32⟩
  | 22 => ⟨S_, .i32⟩
  | 23 => ⟨S1024x1024, .i32⟩
  | 24 => ⟨S1024x1024, .i32⟩
  | 25 => ⟨S1024x1024, .i32⟩
  | 26 => ⟨S1024x1024, .i1⟩
  | 27 => ⟨S_, .f32⟩
  | 28 => ⟨S1024x1024, .f32⟩
  | 29 => ⟨S1024x1024, .f32⟩
  | 30 => ⟨S_, .f32⟩
  | 31 => ⟨S1024x1024, .f32⟩
  | 32 => ⟨S1024x1024, .i1⟩
  | 33 => ⟨S1048576, .i1⟩
  | 34 => ⟨S1048576, .i32⟩
  | 35 => ⟨S_, .i32⟩
  | 36 => ⟨S_, .i32⟩
  | 37 => ⟨S1048576, .i32⟩
  | 38 => ⟨S_, .i32⟩
  | 39 => ⟨S523776, .i32⟩
  | 40 => ⟨S_, .i32⟩
  | 41 => ⟨S_, .i32⟩
  | 42 => ⟨S1048576, .i32⟩
  | 43 => ⟨S1048576, .i32⟩
  | 44 => ⟨S_, .i32⟩
  | 45 => ⟨S1048576, .i32⟩
  | 46 => ⟨S1048576, .i1⟩
  | 47 => ⟨S_, .i32⟩
  | 48 => ⟨S1048576, .i32⟩
  | 49 => ⟨S1048576, .i32⟩
  | 50 => ⟨S1048576, .i32⟩
  | 51 => ⟨S1048576x1, .i32⟩
  | 52 => ⟨S_, .i32⟩
  | 53 => ⟨S1048576, .i32⟩
  | 54 => ⟨S523776, .i32⟩
  | 55 => ⟨S_, .i32⟩
  | 56 => ⟨S_, .i32⟩
  | 57 => ⟨S523776, .i32⟩
  | 58 => ⟨S_, .i32⟩
  | 59 => ⟨S523776, .i32⟩
  | 60 => ⟨S523776, .i32⟩
  | 61 => ⟨S523776, .i32⟩
  | 62 => ⟨S_, .i32⟩
  | 63 => ⟨S523776, .i32⟩
  | 64 => ⟨S523776, .i1⟩
  | 65 => ⟨S523776, .i32⟩
  | 66 => ⟨S523776, .i32⟩
  | 67 => ⟨S_, .i32⟩
  | 68 => ⟨S523776, .i32⟩
  | 69 => ⟨S523776, .i1⟩
  | 70 => ⟨S523776, .i1⟩
  | 71 => ⟨S_, .i32⟩
  | 72 => ⟨S523776, .i32⟩
  | 73 => ⟨S523776, .i32⟩
  | 74 => ⟨S523776, .i32⟩
  | 75 => ⟨S_, .i32⟩
  | 76 => ⟨S_, .i32⟩
  | 77 => ⟨S_, .i32⟩
  | 78 => ⟨S_, .i1⟩
  | 79 => ⟨S_, .i32⟩
  | 80 => ⟨S_, .i32⟩
  | 81 => ⟨S523776, .i32⟩
  | 82 => ⟨S523776, .i32⟩
  | 83 => ⟨S_, .i32⟩
  | 84 => ⟨S523776, .i32⟩
  | 85 => ⟨S523776, .i1⟩
  | 86 => ⟨S_, .i32⟩
  | 87 => ⟨S523776, .i32⟩
  | 88 => ⟨S523776, .i1⟩
  | 89 => ⟨S_, .i32⟩
  | 90 => ⟨S_, .i1⟩
  | 91 => ⟨S523776, .i1⟩
  | 92 => ⟨S523776, .i1⟩
  | 93 => ⟨S523776, .i1⟩
  | 94 => ⟨S523776, .i32⟩
  | 95 => ⟨S523776, .i32⟩
  | 96 => ⟨S523776, .i32⟩
  | 97 => ⟨S_, .i32⟩
  | 98 => ⟨S523776, .i32⟩
  | 99 => ⟨S523776, .i32⟩
  | 100 => ⟨S523776, .i32⟩
  | 101 => ⟨S_, .i32⟩
  | 102 => ⟨S523776, .i32⟩
  | 103 => ⟨S523776, .i1⟩
  | 104 => ⟨S523776, .i32⟩
  | 105 => ⟨S523776, .i32⟩
  | 106 => ⟨S_, .i32⟩
  | 107 => ⟨S523776, .i32⟩
  | 108 => ⟨S523776, .i1⟩
  | 109 => ⟨S523776, .i1⟩
  | 110 => ⟨S_, .i32⟩
  | 111 => ⟨S523776, .i32⟩
  | 112 => ⟨S523776, .i32⟩
  | 113 => ⟨S523776, .i32⟩
  | 114 => ⟨S_, .i32⟩
  | 115 => ⟨S_, .i32⟩
  | 116 => ⟨S_, .i32⟩
  | 117 => ⟨S_, .i1⟩
  | 118 => ⟨S_, .i32⟩
  | 119 => ⟨S_, .i32⟩
  | 120 => ⟨S523776, .i32⟩
  | 121 => ⟨S523776, .i32⟩
  | 122 => ⟨S_, .i32⟩
  | 123 => ⟨S523776, .i32⟩
  | 124 => ⟨S523776, .i1⟩
  | 125 => ⟨S_, .i32⟩
  | 126 => ⟨S523776, .i32⟩
  | 127 => ⟨S523776, .i1⟩
  | _ => ⟨S1024x8192, .f32⟩

abbrev hbmTy0_1 (i : Nat) : BufTy := match i % 128 with
  | 0 => ⟨S_, .i32⟩
  | 1 => ⟨S_, .i1⟩
  | 2 => ⟨S523776, .i1⟩
  | 3 => ⟨S523776, .i1⟩
  | 4 => ⟨S523776, .i1⟩
  | 5 => ⟨S523776, .i32⟩
  | 6 => ⟨S523776, .i32⟩
  | 7 => ⟨S523776, .i32⟩
  | 8 => ⟨S_, .i32⟩
  | 9 => ⟨S523776, .i32⟩
  | 10 => ⟨S523776, .i1⟩
  | 11 => ⟨S_, .i32⟩
  | 12 => ⟨S523776, .i32⟩
  | 13 => ⟨S523776, .i32⟩
  | 14 => ⟨S523776, .i32⟩
  | 15 => ⟨S_, .i32⟩
  | 16 => ⟨S523776, .i32⟩
  | 17 => ⟨S523776, .i1⟩
  | 18 => ⟨S_, .i32⟩
  | 19 => ⟨S523776, .i32⟩
  | 20 => ⟨S523776, .i32⟩
  | 21 => ⟨S523776, .i32⟩
  | 22 => ⟨S523776x1, .i32⟩
  | 23 => ⟨S523776x1, .i32⟩
  | 24 => ⟨S523776x2, .i32⟩
  | 25 => ⟨S523776, .f32⟩
  | 26 => ⟨S523776, .f32⟩
  | 27 => ⟨S1024x8192, .f32⟩
  | 28 => ⟨S_, .f32⟩
  | 29 => ⟨S1024, .f32⟩
  | 30 => ⟨S1024x1, .f32⟩
  | 31 => ⟨S1x1024, .f32⟩
  | 32 => ⟨S1024x1024, .f32⟩
  | 33 => ⟨S1024x1024, .f32⟩
  | 34 => ⟨S1024x1024, .f32⟩
  | 35 => ⟨S8192x1024, .f32⟩
  | 36 => ⟨S1024x1024, .f32⟩
  | 37 => ⟨S_, .f32⟩
  | 38 => ⟨S1024x1024, .f32⟩
  | 39 => ⟨S1024x1024, .f32⟩
  | 40 => ⟨S1024x1024, .f32⟩
  | 41 => ⟨S_, .f32⟩
  | 42 => ⟨S1024x1024, .f32⟩
  | 43 => ⟨S1024x1024, .f32⟩
  | 44 => ⟨S_, .f32⟩
  | 45 => ⟨S1024x1024, .f32⟩
  | 46 => ⟨S1024x1024, .i32⟩
  | 47 => ⟨S_, .i32⟩
  | 48 => ⟨S1024x1024, .i32⟩
  | 49 => ⟨S1024x1024, .i32⟩
  | 50 => ⟨S1024x1024, .i32⟩
  | 51 => ⟨S1024x1024, .i1⟩
  | 52 => ⟨S_, .f32⟩
  | 53 => ⟨S1024x1024, .f32⟩
  | 54 => ⟨S1024x1024, .f32⟩
  | 55 => ⟨S_, .f32⟩
  | 56 => ⟨S1024x1024, .f32⟩
  | 57 => ⟨S1024x1024, .i1⟩
  | 58 => ⟨S1048576, .i1⟩
  | 59 => ⟨S1048576, .i32⟩
  | 60 => ⟨S_, .i32⟩
  | 61 => ⟨S_, .i32⟩
  | 62 => ⟨S1048576, .i32⟩
  | 63 => ⟨S_, .i32⟩
  | 64 => ⟨S523776, .i32⟩
  | 65 => ⟨S_, .i32⟩
  | 66 => ⟨S_, .i32⟩
  | 67 => ⟨S1048576, .i32⟩
  | 68 => ⟨S1048576, .i32⟩
  | 69 => ⟨S_, .i32⟩
  | 70 => ⟨S1048576, .i32⟩
  | 71 => ⟨S1048576, .i1⟩
  | 72 => ⟨S_, .i32⟩
  | 73 => ⟨S1048576, .i32⟩
  | 74 => ⟨S1048576, .i32⟩
  | 75 => ⟨S1048576, .i32⟩
  | 76 => ⟨S1048576x1, .i32⟩
  | 77 => ⟨S_, .i32⟩
  | 78 => ⟨S1048576, .i32⟩
  | 79 => ⟨S523776, .i32⟩
  | 80 => ⟨S_, .i32⟩
  | 81 => ⟨S_, .i32⟩
  | 82 => ⟨S523776, .i32⟩
  | 83 => ⟨S_, .i32⟩
  | 84 => ⟨S523776, .i32⟩
  | 85 => ⟨S523776, .i32⟩
  | 86 => ⟨S523776, .i32⟩
  | 87 => ⟨S_, .i32⟩
  | 88 => ⟨S523776, .i32⟩
  | 89 => ⟨S523776, .i1⟩
  | 90 => ⟨S523776, .i32⟩
  | 91 => ⟨S523776, .i32⟩
  | 92 => ⟨S_, .i32⟩
  | 93 => ⟨S523776, .i32⟩
  | 94 => ⟨S523776, .i1⟩
  | 95 => ⟨S523776, .i1⟩
  | 96 => ⟨S_, .i32⟩
  | 97 => ⟨S523776, .i32⟩
  | 98 => ⟨S523776, .i32⟩
  | 99 => ⟨S523776, .i32⟩
  | 100 => ⟨S_, .i32⟩
  | 101 => ⟨S_, .i32⟩
  | 102 => ⟨S_, .i32⟩
  | 103 => ⟨S_, .i1⟩
  | 104 => ⟨S_, .i32⟩
  | 105 => ⟨S_, .i32⟩
  | 106 => ⟨S523776, .i32⟩
  | 107 => ⟨S523776, .i32⟩
  | 108 => ⟨S_, .i32⟩
  | 109 => ⟨S523776, .i32⟩
  | 110 => ⟨S523776, .i1⟩
  | 111 => ⟨S_, .i32⟩
  | 112 => ⟨S523776, .i32⟩
  | 113 => ⟨S523776, .i1⟩
  | 114 => ⟨S_, .i32⟩
  | 115 => ⟨S_, .i1⟩
  | 116 => ⟨S523776, .i1⟩
  | 117 => ⟨S523776, .i1⟩
  | 118 => ⟨S523776, .i1⟩
  | 119 => ⟨S523776, .i32⟩
  | 120 => ⟨S523776, .i32⟩
  | 121 => ⟨S523776, .i32⟩
  | 122 => ⟨S_, .i32⟩
  | 123 => ⟨S523776, .i32⟩
  | 124 => ⟨S523776, .i32⟩
  | 125 => ⟨S523776, .i32⟩
  | 126 => ⟨S_, .i32⟩
  | 127 => ⟨S523776, .i32⟩
  | _ => ⟨S1024x8192, .f32⟩

abbrev hbmTy0_2 (i : Nat) : BufTy := match i % 128 with
  | 0 => ⟨S523776, .i1⟩
  | 1 => ⟨S523776, .i32⟩
  | 2 => ⟨S523776, .i32⟩
  | 3 => ⟨S_, .i32⟩
  | 4 => ⟨S523776, .i32⟩
  | 5 => ⟨S523776, .i1⟩
  | 6 => ⟨S523776, .i1⟩
  | 7 => ⟨S_, .i32⟩
  | 8 => ⟨S523776, .i32⟩
  | 9 => ⟨S523776, .i32⟩
  | 10 => ⟨S523776, .i32⟩
  | 11 => ⟨S_, .i32⟩
  | 12 => ⟨S_, .i32⟩
  | 13 => ⟨S_, .i32⟩
  | 14 => ⟨S_, .i1⟩
  | 15 => ⟨S_, .i32⟩
  | 16 => ⟨S_, .i32⟩
  | 17 => ⟨S523776, .i32⟩
  | 18 => ⟨S523776, .i32⟩
  | 19 => ⟨S_, .i32⟩
  | 20 => ⟨S523776, .i32⟩
  | 21 => ⟨S523776, .i1⟩
  | 22 => ⟨S_, .i32⟩
  | 23 => ⟨S523776, .i32⟩
  | 24 => ⟨S523776, .i1⟩
  | 25 => ⟨S_, .i32⟩
  | 26 => ⟨S_, .i1⟩
  | 27 => ⟨S523776, .i1⟩
  | 28 => ⟨S523776, .i1⟩
  | 29 => ⟨S523776, .i1⟩
  | 30 => ⟨S523776, .i32⟩
  | 31 => ⟨S523776, .i32⟩
  | 32 => ⟨S523776, .i32⟩
  | 33 => ⟨S_, .i32⟩
  | 34 => ⟨S523776, .i32⟩
  | 35 => ⟨S523776, .i1⟩
  | 36 => ⟨S_, .i32⟩
  | 37 => ⟨S523776, .i32⟩
  | 38 => ⟨S523776, .i32⟩
  | 39 => ⟨S523776, .i32⟩
  | 40 => ⟨S_, .i32⟩
  | 41 => ⟨S523776, .i32⟩
  | 42 => ⟨S523776, .i1⟩
  | 43 => ⟨S_, .i32⟩
  | 44 => ⟨S523776, .i32⟩
  | 45 => ⟨S523776, .i32⟩
  | 46 => ⟨S523776, .i32⟩
  | 47 => ⟨S523776x1, .i32⟩
  | 48 => ⟨S523776x1, .i32⟩
  | 49 => ⟨S523776x2, .i32⟩
  | 50 => ⟨S523776, .f32⟩
  | 51 => ⟨S523776, .f32⟩
  | 52 => ⟨S523776, .f32⟩
  | 53 => ⟨S523776, .f32⟩
  | 54 => ⟨S_, .f32⟩
  | 55 => ⟨S_, .f32⟩
  | 56 => ⟨S_, .f32⟩
  | 57 => ⟨S_, .f32⟩
  | _ => ⟨S1024x8192, .f32⟩

abbrev hbmTy (i : Nat) : BufTy := match i / 128 with
  | 0 => hbmTy0_0 i
  | 1 => hbmTy0_1 i
  | 2 => hbmTy0_2 i
  | _ => ⟨S1024x8192, .f32⟩

abbrev bufTy : (tb : Table) → Fin (tcTables nBuf tb) → BufTy
  | .hbm, ⟨i, _⟩ => hbmTy i
  | _, _ => ⟨S1024x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_call0_v0 : Ref sig .tc := ⟨.hbm, 21, rfl⟩
abbrev main_call0_c : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_cst : Ref sig .tc := ⟨.hbm, 27, rfl⟩
abbrev main_call0_v5 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_call1_v0 : Ref sig .tc := ⟨.hbm, 33, rfl⟩
abbrev main_call1_v1 : Ref sig .tc := ⟨.hbm, 34, rfl⟩
abbrev main_call1_call0_c : Ref sig .tc := ⟨.hbm, 35, rfl⟩
abbrev main_call1_call0_v0 : Ref sig .tc := ⟨.hbm, 36, rfl⟩
abbrev main_v18 : Ref sig .tc := ⟨.hbm, 37, rfl⟩
abbrev main_c : Ref sig .tc := ⟨.hbm, 38, rfl⟩
abbrev main_v19 : Ref sig .tc := ⟨.hbm, 39, rfl⟩
abbrev main_c_4 : Ref sig .tc := ⟨.hbm, 40, rfl⟩
abbrev main_call2_v0 : Ref sig .tc := ⟨.hbm, 41, rfl⟩
abbrev main_call2_v1 : Ref sig .tc := ⟨.hbm, 42, rfl⟩
abbrev main_v20 : Ref sig .tc := ⟨.hbm, 43, rfl⟩
abbrev main_c_5 : Ref sig .tc := ⟨.hbm, 44, rfl⟩
abbrev main_v21 : Ref sig .tc := ⟨.hbm, 45, rfl⟩
abbrev main_v22 : Ref sig .tc := ⟨.hbm, 46, rfl⟩
abbrev main_c_6 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_c_7 : Ref sig .tc := ⟨.hbm, 52, rfl⟩
abbrev main_v27 : Ref sig .tc := ⟨.hbm, 53, rfl⟩
abbrev main_v28 : Ref sig .tc := ⟨.hbm, 54, rfl⟩
abbrev main_call3_call0_c : Ref sig .tc := ⟨.hbm, 55, rfl⟩
abbrev main_call3_call0_v0 : Ref sig .tc := ⟨.hbm, 56, rfl⟩
abbrev main_v29 : Ref sig .tc := ⟨.hbm, 57, rfl⟩
abbrev main_c_8 : Ref sig .tc := ⟨.hbm, 58, rfl⟩
abbrev main_call4_v0 : Ref sig .tc := ⟨.hbm, 59, rfl⟩
abbrev main_call4_v1 : Ref sig .tc := ⟨.hbm, 60, rfl⟩
abbrev main_call4_v2 : Ref sig .tc := ⟨.hbm, 61, rfl⟩
abbrev main_call4_v3 : Ref sig .tc := ⟨.hbm, 62, rfl⟩
abbrev main_call4_v4 : Ref sig .tc := ⟨.hbm, 63, rfl⟩
abbrev main_call4_v5 : Ref sig .tc := ⟨.hbm, 64, rfl⟩
abbrev main_call4_v6 : Ref sig .tc := ⟨.hbm, 65, rfl⟩
abbrev main_call4_v7 : Ref sig .tc := ⟨.hbm, 66, rfl⟩
abbrev main_call4_c : Ref sig .tc := ⟨.hbm, 67, rfl⟩
abbrev main_call4_v8 : Ref sig .tc := ⟨.hbm, 68, rfl⟩
abbrev main_call4_v9 : Ref sig .tc := ⟨.hbm, 69, rfl⟩
abbrev main_call4_v10 : Ref sig .tc := ⟨.hbm, 70, rfl⟩
abbrev main_call4_c_0 : Ref sig .tc := ⟨.hbm, 71, rfl⟩
abbrev main_call4_v11 : Ref sig .tc := ⟨.hbm, 72, rfl⟩
abbrev main_call4_v12 : Ref sig .tc := ⟨.hbm, 73, rfl⟩
abbrev main_v30 : Ref sig .tc := ⟨.hbm, 74, rfl⟩
abbrev main_c_9 : Ref sig .tc := ⟨.hbm, 75, rfl⟩
abbrev main_call5_v0 : Ref sig .tc := ⟨.hbm, 76, rfl⟩
abbrev main_call5_c : Ref sig .tc := ⟨.hbm, 77, rfl⟩
abbrev main_call5_v1 : Ref sig .tc := ⟨.hbm, 78, rfl⟩
abbrev main_call5_c_0 : Ref sig .tc := ⟨.hbm, 79, rfl⟩
abbrev main_call5_v2 : Ref sig .tc := ⟨.hbm, 80, rfl⟩
abbrev main_call5_v3 : Ref sig .tc := ⟨.hbm, 81, rfl⟩
abbrev main_call5_v4 : Ref sig .tc := ⟨.hbm, 82, rfl⟩
abbrev main_call5_c_1 : Ref sig .tc := ⟨.hbm, 83, rfl⟩
abbrev main_call5_v5 : Ref sig .tc := ⟨.hbm, 84, rfl⟩
abbrev main_call5_v6 : Ref sig .tc := ⟨.hbm, 85, rfl⟩
abbrev main_call5_c_2 : Ref sig .tc := ⟨.hbm, 86, rfl⟩
abbrev main_call5_v7 : Ref sig .tc := ⟨.hbm, 87, rfl⟩
abbrev main_call5_v8 : Ref sig .tc := ⟨.hbm, 88, rfl⟩
abbrev main_call5_c_3 : Ref sig .tc := ⟨.hbm, 89, rfl⟩
abbrev main_call5_v9 : Ref sig .tc := ⟨.hbm, 90, rfl⟩
abbrev main_call5_v10 : Ref sig .tc := ⟨.hbm, 91, rfl⟩
abbrev main_call5_v11 : Ref sig .tc := ⟨.hbm, 92, rfl⟩
abbrev main_call5_v12 : Ref sig .tc := ⟨.hbm, 93, rfl⟩
abbrev main_call5_v13 : Ref sig .tc := ⟨.hbm, 94, rfl⟩
abbrev main_call5_v14 : Ref sig .tc := ⟨.hbm, 95, rfl⟩
abbrev main_v31 : Ref sig .tc := ⟨.hbm, 96, rfl⟩
abbrev main_c_10 : Ref sig .tc := ⟨.hbm, 97, rfl⟩
abbrev main_call6_v0 : Ref sig .tc := ⟨.hbm, 98, rfl⟩
abbrev main_call6_v1 : Ref sig .tc := ⟨.hbm, 99, rfl⟩
abbrev main_call6_v2 : Ref sig .tc := ⟨.hbm, 100, rfl⟩
abbrev main_call6_v3 : Ref sig .tc := ⟨.hbm, 101, rfl⟩
abbrev main_call6_v4 : Ref sig .tc := ⟨.hbm, 102, rfl⟩
abbrev main_call6_v5 : Ref sig .tc := ⟨.hbm, 103, rfl⟩
abbrev main_call6_v6 : Ref sig .tc := ⟨.hbm, 104, rfl⟩
abbrev main_call6_v7 : Ref sig .tc := ⟨.hbm, 105, rfl⟩
abbrev main_call6_c : Ref sig .tc := ⟨.hbm, 106, rfl⟩
abbrev main_call6_v8 : Ref sig .tc := ⟨.hbm, 107, rfl⟩
abbrev main_call6_v9 : Ref sig .tc := ⟨.hbm, 108, rfl⟩
abbrev main_call6_v10 : Ref sig .tc := ⟨.hbm, 109, rfl⟩
abbrev main_call6_c_0 : Ref sig .tc := ⟨.hbm, 110, rfl⟩
abbrev main_call6_v11 : Ref sig .tc := ⟨.hbm, 111, rfl⟩
abbrev main_call6_v12 : Ref sig .tc := ⟨.hbm, 112, rfl⟩
abbrev main_v32 : Ref sig .tc := ⟨.hbm, 113, rfl⟩
abbrev main_c_11 : Ref sig .tc := ⟨.hbm, 114, rfl⟩
abbrev main_call7_v0 : Ref sig .tc := ⟨.hbm, 115, rfl⟩
abbrev main_call7_c : Ref sig .tc := ⟨.hbm, 116, rfl⟩
abbrev main_call7_v1 : Ref sig .tc := ⟨.hbm, 117, rfl⟩
abbrev main_call7_c_0 : Ref sig .tc := ⟨.hbm, 118, rfl⟩
abbrev main_call7_v2 : Ref sig .tc := ⟨.hbm, 119, rfl⟩
abbrev main_call7_v3 : Ref sig .tc := ⟨.hbm, 120, rfl⟩
abbrev main_call7_v4 : Ref sig .tc := ⟨.hbm, 121, rfl⟩
abbrev main_call7_c_1 : Ref sig .tc := ⟨.hbm, 122, rfl⟩
abbrev main_call7_v5 : Ref sig .tc := ⟨.hbm, 123, rfl⟩
abbrev main_call7_v6 : Ref sig .tc := ⟨.hbm, 124, rfl⟩
abbrev main_call7_c_2 : Ref sig .tc := ⟨.hbm, 125, rfl⟩
abbrev main_call7_v7 : Ref sig .tc := ⟨.hbm, 126, rfl⟩
abbrev main_call7_v8 : Ref sig .tc := ⟨.hbm, 127, rfl⟩
abbrev main_call7_c_3 : Ref sig .tc := ⟨.hbm, 128, rfl⟩
abbrev main_call7_v9 : Ref sig .tc := ⟨.hbm, 129, rfl⟩
abbrev main_call7_v10 : Ref sig .tc := ⟨.hbm, 130, rfl⟩
abbrev main_call7_v11 : Ref sig .tc := ⟨.hbm, 131, rfl⟩
abbrev main_call7_v12 : Ref sig .tc := ⟨.hbm, 132, rfl⟩
abbrev main_call7_v13 : Ref sig .tc := ⟨.hbm, 133, rfl⟩
abbrev main_call7_v14 : Ref sig .tc := ⟨.hbm, 134, rfl⟩
abbrev main_v33 : Ref sig .tc := ⟨.hbm, 135, rfl⟩
abbrev main_c_12 : Ref sig .tc := ⟨.hbm, 136, rfl⟩
abbrev main_v34 : Ref sig .tc := ⟨.hbm, 137, rfl⟩
abbrev main_v35 : Ref sig .tc := ⟨.hbm, 138, rfl⟩
abbrev main_c_13 : Ref sig .tc := ⟨.hbm, 139, rfl⟩
abbrev main_v36 : Ref sig .tc := ⟨.hbm, 140, rfl⟩
abbrev main_v37 : Ref sig .tc := ⟨.hbm, 141, rfl⟩
abbrev main_v38 : Ref sig .tc := ⟨.hbm, 142, rfl⟩
abbrev main_c_14 : Ref sig .tc := ⟨.hbm, 143, rfl⟩
abbrev main_v39 : Ref sig .tc := ⟨.hbm, 144, rfl⟩
abbrev main_v40 : Ref sig .tc := ⟨.hbm, 145, rfl⟩
abbrev main_c_15 : Ref sig .tc := ⟨.hbm, 146, rfl⟩
abbrev main_v41 : Ref sig .tc := ⟨.hbm, 147, rfl⟩
abbrev main_v42 : Ref sig .tc := ⟨.hbm, 148, rfl⟩
abbrev main_v43 : Ref sig .tc := ⟨.hbm, 149, rfl⟩
abbrev main_v44 : Ref sig .tc := ⟨.hbm, 150, rfl⟩
abbrev main_v45 : Ref sig .tc := ⟨.hbm, 151, rfl⟩
abbrev main_v46 : Ref sig .tc := ⟨.hbm, 152, rfl⟩
abbrev main_v47 : Ref sig .tc := ⟨.hbm, 153, rfl⟩
abbrev main_v48 : Ref sig .tc := ⟨.hbm, 154, rfl⟩
abbrev main_v49 : Ref sig .tc := ⟨.hbm, 155, rfl⟩
abbrev main_cst_16 : Ref sig .tc := ⟨.hbm, 156, rfl⟩
abbrev main_v50 : Ref sig .tc := ⟨.hbm, 157, rfl⟩
abbrev main_v51 : Ref sig .tc := ⟨.hbm, 158, rfl⟩
abbrev main_v52 : Ref sig .tc := ⟨.hbm, 159, rfl⟩
abbrev main_v53 : Ref sig .tc := ⟨.hbm, 160, rfl⟩
abbrev main_v54 : Ref sig .tc := ⟨.hbm, 161, rfl⟩
abbrev main_v55 : Ref sig .tc := ⟨.hbm, 162, rfl⟩
abbrev main_v56 : Ref sig .tc := ⟨.hbm, 163, rfl⟩
abbrev main_v57 : Ref sig .tc := ⟨.hbm, 164, rfl⟩
abbrev main_cst_17 : Ref sig .tc := ⟨.hbm, 165, rfl⟩
abbrev main_v58 : Ref sig .tc := ⟨.hbm, 166, rfl⟩
abbrev main_v59 : Ref sig .tc := ⟨.hbm, 167, rfl⟩
abbrev main_v60 : Ref sig .tc := ⟨.hbm, 168, rfl⟩
abbrev main_cst_18 : Ref sig .tc := ⟨.hbm, 169, rfl⟩
abbrev main_v61 : Ref sig .tc := ⟨.hbm, 170, rfl⟩
abbrev main_v62 : Ref sig .tc := ⟨.hbm, 171, rfl⟩
abbrev main_cst_19 : Ref sig .tc := ⟨.hbm, 172, rfl⟩
abbrev main_v63 : Ref sig .tc := ⟨.hbm, 173, rfl⟩
abbrev main_call8_v0 : Ref sig .tc := ⟨.hbm, 174, rfl⟩
abbrev main_call8_c : Ref sig .tc := ⟨.hbm, 175, rfl⟩
abbrev main_call8_v1 : Ref sig .tc := ⟨.hbm, 176, rfl⟩
abbrev main_call8_v2 : Ref sig .tc := ⟨.hbm, 177, rfl⟩
abbrev main_call8_v3 : Ref sig .tc := ⟨.hbm, 178, rfl⟩
abbrev main_call8_v4 : Ref sig .tc := ⟨.hbm, 179, rfl⟩
abbrev main_call8_cst : Ref sig .tc := ⟨.hbm, 180, rfl⟩
abbrev main_call8_v5 : Ref sig .tc := ⟨.hbm, 181, rfl⟩
abbrev main_v64 : Ref sig .tc := ⟨.hbm, 182, rfl⟩
abbrev main_cst_20 : Ref sig .tc := ⟨.hbm, 183, rfl⟩
abbrev main_v65 : Ref sig .tc := ⟨.hbm, 184, rfl⟩
abbrev main_v66 : Ref sig .tc := ⟨.hbm, 185, rfl⟩
abbrev main_call9_v0 : Ref sig .tc := ⟨.hbm, 186, rfl⟩
abbrev main_call9_v1 : Ref sig .tc := ⟨.hbm, 187, rfl⟩
abbrev main_call9_call0_c : Ref sig .tc := ⟨.hbm, 188, rfl⟩
abbrev main_call9_call0_v0 : Ref sig .tc := ⟨.hbm, 189, rfl⟩
abbrev main_v67 : Ref sig .tc := ⟨.hbm, 190, rfl⟩
abbrev main_c_21 : Ref sig .tc := ⟨.hbm, 191, rfl⟩
abbrev main_v68 : Ref sig .tc := ⟨.hbm, 192, rfl⟩
abbrev main_c_22 : Ref sig .tc := ⟨.hbm, 193, rfl⟩
abbrev main_call10_v0 : Ref sig .tc := ⟨.hbm, 194, rfl⟩
abbrev main_call10_v1 : Ref sig .tc := ⟨.hbm, 195, rfl⟩
abbrev main_v69 : Ref sig .tc := ⟨.hbm, 196, rfl⟩
abbrev main_c_23 : Ref sig .tc := ⟨.hbm, 197, rfl⟩
abbrev main_v70 : Ref sig .tc := ⟨.hbm, 198, rfl⟩
abbrev main_v71 : Ref sig .tc := ⟨.hbm, 199, rfl⟩
abbrev main_c_24 : Ref sig .tc := ⟨.hbm, 200, rfl⟩
abbrev main_v72 : Ref sig .tc := ⟨.hbm, 201, rfl⟩
abbrev main_v73 : Ref sig .tc := ⟨.hbm, 202, rfl⟩
abbrev main_v74 : Ref sig .tc := ⟨.hbm, 203, rfl⟩
abbrev main_v75 : Ref sig .tc := ⟨.hbm, 204, rfl⟩
abbrev main_c_25 : Ref sig .tc := ⟨.hbm, 205, rfl⟩
abbrev main_v76 : Ref sig .tc := ⟨.hbm, 206, rfl⟩
abbrev main_v77 : Ref sig .tc := ⟨.hbm, 207, rfl⟩
abbrev main_call11_call0_c : Ref sig .tc := ⟨.hbm, 208, rfl⟩
abbrev main_call11_call0_v0 : Ref sig .tc := ⟨.hbm, 209, rfl⟩
abbrev main_v78 : Ref sig .tc := ⟨.hbm, 210, rfl⟩
abbrev main_c_26 : Ref sig .tc := ⟨.hbm, 211, rfl⟩
abbrev main_call12_v0 : Ref sig .tc := ⟨.hbm, 212, rfl⟩
abbrev main_call12_v1 : Ref sig .tc := ⟨.hbm, 213, rfl⟩
abbrev main_call12_v2 : Ref sig .tc := ⟨.hbm, 214, rfl⟩
abbrev main_call12_v3 : Ref sig .tc := ⟨.hbm, 215, rfl⟩
abbrev main_call12_v4 : Ref sig .tc := ⟨.hbm, 216, rfl⟩
abbrev main_call12_v5 : Ref sig .tc := ⟨.hbm, 217, rfl⟩
abbrev main_call12_v6 : Ref sig .tc := ⟨.hbm, 218, rfl⟩
abbrev main_call12_v7 : Ref sig .tc := ⟨.hbm, 219, rfl⟩
abbrev main_call12_c : Ref sig .tc := ⟨.hbm, 220, rfl⟩
abbrev main_call12_v8 : Ref sig .tc := ⟨.hbm, 221, rfl⟩
abbrev main_call12_v9 : Ref sig .tc := ⟨.hbm, 222, rfl⟩
abbrev main_call12_v10 : Ref sig .tc := ⟨.hbm, 223, rfl⟩
abbrev main_call12_c_0 : Ref sig .tc := ⟨.hbm, 224, rfl⟩
abbrev main_call12_v11 : Ref sig .tc := ⟨.hbm, 225, rfl⟩
abbrev main_call12_v12 : Ref sig .tc := ⟨.hbm, 226, rfl⟩
abbrev main_v79 : Ref sig .tc := ⟨.hbm, 227, rfl⟩
abbrev main_c_27 : Ref sig .tc := ⟨.hbm, 228, rfl⟩
abbrev main_call13_v0 : Ref sig .tc := ⟨.hbm, 229, rfl⟩
abbrev main_call13_c : Ref sig .tc := ⟨.hbm, 230, rfl⟩
abbrev main_call13_v1 : Ref sig .tc := ⟨.hbm, 231, rfl⟩
abbrev main_call13_c_0 : Ref sig .tc := ⟨.hbm, 232, rfl⟩
abbrev main_call13_v2 : Ref sig .tc := ⟨.hbm, 233, rfl⟩
abbrev main_call13_v3 : Ref sig .tc := ⟨.hbm, 234, rfl⟩
abbrev main_call13_v4 : Ref sig .tc := ⟨.hbm, 235, rfl⟩
abbrev main_call13_c_1 : Ref sig .tc := ⟨.hbm, 236, rfl⟩
abbrev main_call13_v5 : Ref sig .tc := ⟨.hbm, 237, rfl⟩
abbrev main_call13_v6 : Ref sig .tc := ⟨.hbm, 238, rfl⟩
abbrev main_call13_c_2 : Ref sig .tc := ⟨.hbm, 239, rfl⟩
abbrev main_call13_v7 : Ref sig .tc := ⟨.hbm, 240, rfl⟩
abbrev main_call13_v8 : Ref sig .tc := ⟨.hbm, 241, rfl⟩
abbrev main_call13_c_3 : Ref sig .tc := ⟨.hbm, 242, rfl⟩
abbrev main_call13_v9 : Ref sig .tc := ⟨.hbm, 243, rfl⟩
abbrev main_call13_v10 : Ref sig .tc := ⟨.hbm, 244, rfl⟩
abbrev main_call13_v11 : Ref sig .tc := ⟨.hbm, 245, rfl⟩
abbrev main_call13_v12 : Ref sig .tc := ⟨.hbm, 246, rfl⟩
abbrev main_call13_v13 : Ref sig .tc := ⟨.hbm, 247, rfl⟩
abbrev main_call13_v14 : Ref sig .tc := ⟨.hbm, 248, rfl⟩
abbrev main_v80 : Ref sig .tc := ⟨.hbm, 249, rfl⟩
abbrev main_c_28 : Ref sig .tc := ⟨.hbm, 250, rfl⟩
abbrev main_call14_v0 : Ref sig .tc := ⟨.hbm, 251, rfl⟩
abbrev main_call14_v1 : Ref sig .tc := ⟨.hbm, 252, rfl⟩
abbrev main_call14_v2 : Ref sig .tc := ⟨.hbm, 253, rfl⟩
abbrev main_call14_v3 : Ref sig .tc := ⟨.hbm, 254, rfl⟩
abbrev main_call14_v4 : Ref sig .tc := ⟨.hbm, 255, rfl⟩
abbrev main_call14_v5 : Ref sig .tc := ⟨.hbm, 256, rfl⟩
abbrev main_call14_v6 : Ref sig .tc := ⟨.hbm, 257, rfl⟩
abbrev main_call14_v7 : Ref sig .tc := ⟨.hbm, 258, rfl⟩
abbrev main_call14_c : Ref sig .tc := ⟨.hbm, 259, rfl⟩
abbrev main_call14_v8 : Ref sig .tc := ⟨.hbm, 260, rfl⟩
abbrev main_call14_v9 : Ref sig .tc := ⟨.hbm, 261, rfl⟩
abbrev main_call14_v10 : Ref sig .tc := ⟨.hbm, 262, rfl⟩
abbrev main_call14_c_0 : Ref sig .tc := ⟨.hbm, 263, rfl⟩
abbrev main_call14_v11 : Ref sig .tc := ⟨.hbm, 264, rfl⟩
abbrev main_call14_v12 : Ref sig .tc := ⟨.hbm, 265, rfl⟩
abbrev main_v81 : Ref sig .tc := ⟨.hbm, 266, rfl⟩
abbrev main_c_29 : Ref sig .tc := ⟨.hbm, 267, rfl⟩
abbrev main_call15_v0 : Ref sig .tc := ⟨.hbm, 268, rfl⟩
abbrev main_call15_c : Ref sig .tc := ⟨.hbm, 269, rfl⟩
abbrev main_call15_v1 : Ref sig .tc := ⟨.hbm, 270, rfl⟩
abbrev main_call15_c_0 : Ref sig .tc := ⟨.hbm, 271, rfl⟩
abbrev main_call15_v2 : Ref sig .tc := ⟨.hbm, 272, rfl⟩
abbrev main_call15_v3 : Ref sig .tc := ⟨.hbm, 273, rfl⟩
abbrev main_call15_v4 : Ref sig .tc := ⟨.hbm, 274, rfl⟩
abbrev main_call15_c_1 : Ref sig .tc := ⟨.hbm, 275, rfl⟩
abbrev main_call15_v5 : Ref sig .tc := ⟨.hbm, 276, rfl⟩
abbrev main_call15_v6 : Ref sig .tc := ⟨.hbm, 277, rfl⟩
abbrev main_call15_c_2 : Ref sig .tc := ⟨.hbm, 278, rfl⟩
abbrev main_call15_v7 : Ref sig .tc := ⟨.hbm, 279, rfl⟩
abbrev main_call15_v8 : Ref sig .tc := ⟨.hbm, 280, rfl⟩
abbrev main_call15_c_3 : Ref sig .tc := ⟨.hbm, 281, rfl⟩
abbrev main_call15_v9 : Ref sig .tc := ⟨.hbm, 282, rfl⟩
abbrev main_call15_v10 : Ref sig .tc := ⟨.hbm, 283, rfl⟩
abbrev main_call15_v11 : Ref sig .tc := ⟨.hbm, 284, rfl⟩
abbrev main_call15_v12 : Ref sig .tc := ⟨.hbm, 285, rfl⟩
abbrev main_call15_v13 : Ref sig .tc := ⟨.hbm, 286, rfl⟩
abbrev main_call15_v14 : Ref sig .tc := ⟨.hbm, 287, rfl⟩
abbrev main_v82 : Ref sig .tc := ⟨.hbm, 288, rfl⟩
abbrev main_c_30 : Ref sig .tc := ⟨.hbm, 289, rfl⟩
abbrev main_v83 : Ref sig .tc := ⟨.hbm, 290, rfl⟩
abbrev main_v84 : Ref sig .tc := ⟨.hbm, 291, rfl⟩
abbrev main_c_31 : Ref sig .tc := ⟨.hbm, 292, rfl⟩
abbrev main_v85 : Ref sig .tc := ⟨.hbm, 293, rfl⟩
abbrev main_v86 : Ref sig .tc := ⟨.hbm, 294, rfl⟩
abbrev main_v87 : Ref sig .tc := ⟨.hbm, 295, rfl⟩
abbrev main_c_32 : Ref sig .tc := ⟨.hbm, 296, rfl⟩
abbrev main_v88 : Ref sig .tc := ⟨.hbm, 297, rfl⟩
abbrev main_v89 : Ref sig .tc := ⟨.hbm, 298, rfl⟩
abbrev main_c_33 : Ref sig .tc := ⟨.hbm, 299, rfl⟩
abbrev main_v90 : Ref sig .tc := ⟨.hbm, 300, rfl⟩
abbrev main_v91 : Ref sig .tc := ⟨.hbm, 301, rfl⟩
abbrev main_v92 : Ref sig .tc := ⟨.hbm, 302, rfl⟩
abbrev main_v93 : Ref sig .tc := ⟨.hbm, 303, rfl⟩
abbrev main_v94 : Ref sig .tc := ⟨.hbm, 304, rfl⟩
abbrev main_v95 : Ref sig .tc := ⟨.hbm, 305, rfl⟩
abbrev main_v96 : Ref sig .tc := ⟨.hbm, 306, rfl⟩
abbrev main_v97 : Ref sig .tc := ⟨.hbm, 307, rfl⟩
abbrev main_v98 : Ref sig .tc := ⟨.hbm, 308, rfl⟩
abbrev main_v99 : Ref sig .tc := ⟨.hbm, 309, rfl⟩
abbrev main_cst_34 : Ref sig .tc := ⟨.hbm, 310, rfl⟩
abbrev main_v100 : Ref sig .tc := ⟨.hbm, 311, rfl⟩
abbrev main_cst_35 : Ref sig .tc := ⟨.hbm, 312, rfl⟩
abbrev main_v101 : Ref sig .tc := ⟨.hbm, 313, rfl⟩

abbrev nD : Nat := 1
abbrev τ : Topo := Topo.v7x

variable {F : FTy → Type} [FloatOps F]

class Facts₀ : Prop where
  reducesTo_S1024x8192_S1024_d1 : S1024x8192.ReducesTo [1] S1024
  h_S_ : 0 < S_.numel
  bcast_S1024_S1024x1_0 : S1024.BroadcastsInDim S1024x1 (![0] : Fin 1 → Fin S1024x1.rank)
  bcast_S1024_S1x1024_1 : S1024.BroadcastsInDim S1x1024 (![1] : Fin 1 → Fin S1x1024.rank)
  bcast_S1024x1_S1024x1024_0_1 : S1024x1.BroadcastsInDim S1024x1024 (![0, 1] : Fin 2 → Fin S1024x1024.rank)
  bcast_S1x1024_S1024x1024_0_1 : S1x1024.BroadcastsInDim S1024x1024 (![0, 1] : Fin 2 → Fin S1024x1024.rank)
  transposes_S1024x8192_S8192x1024_1_0 : S1024x8192.Transposes [1, 0] S8192x1024
  bcast_S_S1024x1024 : S_.BroadcastsInDim S1024x1024 (![] : Fin 0 → Fin S1024x1024.rank)
  shapeCasts_S1024x1024_S1048576 : S1024x1024.ShapeCasts S1048576
  natLt_1_32 : 1 < 32
  bcast_S_S_ : S_.BroadcastsInDim S_ (![] : Fin 0 → Fin S_.rank)
  reduceWindows_S1048576_S1048576_w1048576s1p1048575_0 : S1048576.ReduceWindows (![1048576] : Fin 1 → Nat) ![1] ![1048575] ![0] S1048576
  bcast_S_S523776 : S_.BroadcastsInDim S523776 (![] : Fin 0 → Fin S523776.rank)
  bcast_S_S1048576 : S_.BroadcastsInDim S1048576 (![] : Fin 0 → Fin S1048576.rank)
  bcast_S1048576_S1048576x1_0 : S1048576.BroadcastsInDim S1048576x1 (![0] : Fin 1 → Fin S1048576x1.rank)
  reduceWindows_S523776_S523776_w523776s1p523775_0 : S523776.ReduceWindows (![523776] : Fin 1 → Nat) ![1] ![523775] ![0] S523776
  bcast_S523776_S523776x1_0 : S523776.BroadcastsInDim S523776x1 (![0] : Fin 1 → Fin S523776x1.rank)
  concatenates_S523776x1_S523776x1_S523776x2_d1 : Shape.Concatenates [S523776x1, S523776x1] S523776x2 1
  reducesTo_S523776_S_d0 : S523776.ReducesTo [0] S_
  dot_S1024x8192_S8192x1024_S1024x1024_1_0_0_1_n_n_wf : DotDims.WF S1024x8192 S8192x1024 S1024x1024 [1] [0] [0] [1] [] []
  scatter_S523776_S1048576x1_S1048576_n_0_0_1_wf : ScatterDims.WF S523776 S1048576x1 S1048576 [] [0] [0] 1
  gather_S1024x1024_S523776x2_S523776_n_01_n_n_01_1_11_wf : GatherDims.WF S1024x1024 S523776x2 S523776 [] [0, 1] [] [0, 1] [] 1 ![1, 1]

variable [Facts₀]

def dot_S1024x8192_S8192x1024_S1024x1024_1_0_0_1_n_n : DotDims S1024x8192 S8192x1024 S1024x1024 where
  lhsContracting := [1]
  rhsContracting := [0]
  lhsNonContracting := [0]
  rhsNonContracting := [1]
  lhsBatch := []
  rhsBatch := []
  wf := dot_S1024x8192_S8192x1024_S1024x1024_1_0_0_1_n_n_wf
def scatter_S523776_S1048576x1_S1048576_n_0_0_1 : ScatterDims S523776 S1048576x1 S1048576 where
  updateWindowDims := []
  insertedWindowDims := [0]
  scatterDimsToOperandDims := [0]
  indexVectorDim := 1
  wf := scatter_S523776_S1048576x1_S1048576_n_0_0_1_wf
def gather_S1024x1024_S523776x2_S523776_n_01_n_n_01_1_11 : GatherDims S1024x1024 S523776x2 S523776 where
  offsetDims := []
  collapsedSliceDims := [0, 1]
  operandBatchingDims := []
  startIndicesBatchingDims := []
  startIndexMap := [0, 1]
  indexVectorDim := 1
  sliceSizes := ![1, 1]
  wf := gather_S1024x1024_S523776x2_S523776_n_01_n_n_01_1_11_wf

class Facts : Prop extends Facts₀ where

variable [Facts]
-- ==== Proof.GramRunsCommon.lean ====
/-
  The first kernel region walks a 2 × 16 grid: for each half m of the rows and each of the sixteen column tiles k of
  the two inputs it adds, into four output blocks that stay resident while k runs, the tile's contribution to the two
  Gram row-slabs and to the two columns of squared row norms; at k = 0 it clears the four blocks first. This module
  holds what the two control cases of that body share: the branch condition as the body spells it over the grid
  coordinates, its closed form over the 32 points, and the names of the staging memrefs the body is called with.
-/
import proofs.«169696_j47545287967528_2_alg».proof.Proof.Gen.KernelIdeal.Launch
import proofs.«169696_j47545287967528_2_alg».proof.Proof.Gen.KernelIdeal.Skeleton
import proofs.«169696_j47545287967528_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- "This is the first column tile" (k = 0), as the body computes it from the grid coordinates. -/
abbrev gramFirst (i : grid0.Coords) : Prop :=
  (Scalar.cmpi .ne (Scalar.extui (Scalar.cmpi .eq (BitVec.ofNat 32 (i 1).val) 0#32)) 0#32) = 1#1

/-- Over the 32 points (point t is row half t / 16, column tile t % 16) it holds exactly where t % 16 = 0. -/
theorem gramFirst_iff : ∀ t : Fin cfg0.N, gramFirst (grid0.coords t) ↔ t.val % 16 = 0 :=
  (by decide +kernel : ∀ t : Fin grid0.N, gramFirst (grid0.coords t) ↔ t.val % 16 = 0)

/-- One staging buffer of each output window, through which its contents are stated (the choice does not matter). -/
abbrev gramSlabP : View sig .tc .vmem S512x1024 .f32 := (Memref.whole cc0_stg4_0 : Memref sig .tc .vmem S512x1024 .f32).view
abbrev gramSlabT : View sig .tc .vmem S512x1024 .f32 := (Memref.whole cc0_stg5_0 : Memref sig .tc .vmem S512x1024 .f32).view
abbrev normColP : View sig .tc .vmem S512x1 .f32 := (Memref.whole cc0_stg6_0 : Memref sig .tc .vmem S512x1 .f32).view
abbrev normColT : View sig .tc .vmem S512x1 .f32 := (Memref.whole cc0_stg7_0 : Memref sig .tc .vmem S512x1 .f32).view

/-- The staging memref of each window at point `t`, spelled as the pipeline passes it to the body, and its wholeness. -/
abbrev gm0 (t : Fin cfg0.N) : Memref sig .tc .vmem S512x512 .f32 := win0_0.stage (cfg0.slots t 0)
abbrev gh0 (t : Fin cfg0.N) : (gm0 t).IsWhole := hstage0_0 ((cfg0.slots t 0).cast nbuf0_0)
abbrev gm1 (t : Fin cfg0.N) : Memref sig .tc .vmem S512x512 .f32 := win0_1.stage (cfg0.slots t 1)
abbrev gh1 (t : Fin cfg0.N) : (gm1 t).IsWhole := hstage0_1 ((cfg0.slots t 1).cast nbuf0_1)
abbrev gm2 (t : Fin cfg0.N) : Memref sig .tc .vmem S1024x512 .f32 := win0_2.stage (cfg0.slots t 2)
abbrev gh2 (t : Fin cfg0.N) : (gm2 t).IsWhole := hstage0_2 ((cfg0.slots t 2).cast nbuf0_2)
abbrev gm3 (t : Fin cfg0.N) : Memref sig .tc .vmem S1024x512 .f32 := win0_3.stage (cfg0.slots t 3)
abbrev gh3 (t : Fin cfg0.N) : (gm3 t).IsWhole := hstage0_3 ((cfg0.slots t 3).cast nbuf0_3)
abbrev gm4 (t : Fin cfg0.N) : Memref sig .tc .vmem S512x1024 .f32 := win0_4.stage (cfg0.slots t 4)
abbrev gh4 (t : Fin cfg0.N) : (gm4 t).IsWhole := hstage0_4 ((cfg0.slots t 4).cast nbuf0_4)
abbrev gm5 (t : Fin cfg0.N) : Memref sig .tc .vmem S512x1024 .f32 := win0_5.stage (cfg0.slots t 5)
abbrev gh5 (t : Fin cfg0.N) : (gm5 t).IsWhole := hstage0_5 ((cfg0.slots t 5).cast nbuf0_5)
abbrev gm6 (t : Fin cfg0.N) : Memref sig .tc .vmem S512x1 .f32 := win0_6.stage (cfg0.slots t 6)
abbrev gh6 (t : Fin cfg0.N) : (gm6 t).IsWhole := hstage0_6 ((cfg0.slots t 6).cast nbuf0_6)
abbrev gm7 (t : Fin cfg0.N) : Memref sig .tc .vmem S512x1 .f32 := win0_7.stage (cfg0.slots t 7)
abbrev gh7 (t : Fin cfg0.N) : (gm7 t).IsWhole := hstage0_7 ((cfg0.slots t 7).cast nbuf0_7)

end Cert.KernelIdeal.Hand

end
-- ==== Proof.GramRunReset.lean ====
/-
  The body of the first region at a point with k = 0: it clears the four output blocks, then adds the first column tile's contributions into them.
-/
import proofs.«169696_j47545287967528_2_alg».proof.Proof.GramRunsCommon

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
/-- The stores this case leaves in the four output blocks, as lists of pieces (last first), together with the fact that
    on whole staging memrefs — the four inputs at their contents, the outputs at anything — the body runs to its
    continuation with the inputs as they were and each output with its pieces written. -/
noncomputable def gramRunReset (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (hc0 : gramFirst i)
    (x0 : Vec F S512x512 .f32) (x1 : Vec F S512x512 .f32) (x2 : Vec F S1024x512 .f32) (x3 : Vec F S1024x512 .f32) :
    Σ' (L4 : List (View.Piece (Elt F) S512x1024 .f32)) (L5 : List (View.Piece (Elt F) S512x1024 .f32)) (L6 : List (View.Piece (Elt F) S512x1 .f32)),
    { L7 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f L7)) -∗ K ⟨⟩))
          ⊢ wp frame (wpE (defs₀ (F := F)) Variants.none c none) E (cc0__kernel_a_body i arg2 harg2 arg3 harg3 arg4 harg4 arg5 harg5 arg6 harg6 arg7 harg7 arg8 harg8 arg9 harg9) K } := by
  refine ⟨?_, ?_, ?_, ?_, fun E K => ?run⟩
  case run =>
    simp only [cc0__kernel_a_body_eq_skeleton]; unfold cc0__kernel_a_body_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
    obtain rfl := harg2.eq_unread hf0
    obtain rfl := harg3.eq_unread hf1
    obtain rfl := harg4.eq_unread hf2
    obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    iexists _; iexact H7

end Cert.KernelIdeal.Hand

end
-- ==== Proof.GramRunAdd.lean ====
/-
  The body of the first region at a point with k > 0: it adds the column tile's contributions into the four output blocks, which hold what the point before left.
-/
import proofs.«169696_j47545287967528_2_alg».proof.Proof.GramRunReset

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
/-- The stores this case leaves in the four output blocks, as lists of pieces (last first), together with the fact that
    on whole staging memrefs — the four inputs at their contents, the outputs at what the point before left — the body runs to its
    continuation with the inputs as they were and each output with its pieces written. -/
noncomputable def gramRunAdd (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (hc0 : ¬gramFirst i)
    (x0 : Vec F S512x512 .f32) (x1 : Vec F S512x512 .f32) (x2 : Vec F S1024x512 .f32) (x3 : Vec F S1024x512 .f32) (xo4 : Vec F S512x1024 .f32) (xo5 : Vec F S512x1024 .f32) (xo6 : Vec F S512x1 .f32) (xo7 : Vec F S512x1 .f32) :
    Σ' (L4 : List (View.Piece (Elt F) S512x1024 .f32)) (L5 : List (View.Piece (Elt F) S512x1024 .f32)) (L6 : List (View.Piece (Elt F) S512x1 .f32)),
    { L7 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4 ∗ owns (c : Thread nD τ) arg7 fullShare xo5 ∗ owns (c : Thread nD τ) arg8 fullShare xo6 ∗ owns (c : Thread nD τ) arg9 fullShare xo7
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f L7)) -∗ K ⟨⟩))
          ⊢ wp frame (wpE (defs₀ (F := F)) Variants.none c none) E (cc0__kernel_a_body i arg2 harg2 arg3 harg3 arg4 harg4 arg5 harg5 arg6 harg6 arg7 harg7 arg8 harg8 arg9 harg9) K } := by
  refine ⟨?_, ?_, ?_, ?_, fun E K => ?run⟩
  case run =>
    simp only [cc0__kernel_a_body_eq_skeleton]; unfold cc0__kernel_a_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    iexists _; iexact H7

end Cert.KernelIdeal.Hand

end
-- ==== Proof.GramRegion.lean ====
/-
  The first kernel region as a whole, at a parameter `V` — the contents of the core's buffers when the region is
  entered. A window's block at a grid point is read off its array in `V`. After the body at point t = 16·m + k the
  four output blocks (two Gram row-slabs, two columns of squared norms, all of row half m) hold: at k = 0, the clearing
  stores overwritten by the first column tile's contributions; at k > 0, what the point before left plus tile k's
  contributions — a recursion over the points, each step the case's stores read back. The blocks stay in their
  staging buffers while k runs and are written back after k = 15. Two of the four input windows read the first
  argument array and two the second, so each input window holds its array at half of the full share.
-/
import proofs.«169696_j47545287967528_2_alg».proof.Proof.GramRunAdd

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section GramRegion

variable (V : (c : Dev nD) → (b : Ref sig .tc) → Buf (Elt F) ((c : Thread nD τ).loc b))

/-- Window `w`'s block at point `t`, read off its array as the region finds it. -/
def gramBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input's current staging buffer holds its block at every point. -/
theorem gramBefore0_of {c : Dev nD} (dat : Dat τ (Elt F) Unit ℕ (UR sig nD τ) ℕ cfg0 c) (hA : dat.A 0 = V c (Pipeline.arrRef spec0 0))
    (hafter : ∀ t, dat.after 0 t = gramBlk V c 0 t) (t : Fin cfg0.N) (d) : dat.before 0 t d = gramBlk V c 0 t :=
  (dat.before_in_eq_fetched 0 rfl (fun _ => rfl) (fun _ _ _ => rfl) (fun t => by rw [hafter]; unfold Dat.blockOf gramBlk; rw [hA]; try rfl) t d).trans
    (by unfold Dat.fetched Dat.blockOf gramBlk; rw [hA]; try rfl)
theorem gramBefore1_of {c : Dev nD} (dat : Dat τ (Elt F) Unit ℕ (UR sig nD τ) ℕ cfg0 c) (hA : dat.A 1 = V c (Pipeline.arrRef spec0 1))
    (hafter : ∀ t, dat.after 1 t = gramBlk V c 1 t) (t : Fin cfg0.N) (d) : dat.before 1 t d = gramBlk V c 1 t :=
  (dat.before_in_eq_fetched 1 rfl (fun _ => rfl) (fun _ _ _ => rfl) (fun t => by rw [hafter]; unfold Dat.blockOf gramBlk; rw [hA]; try rfl) t d).trans
    (by unfold Dat.fetched Dat.blockOf gramBlk; rw [hA]; try rfl)
theorem gramBefore2_of {c : Dev nD} (dat : Dat τ (Elt F) Unit ℕ (UR sig nD τ) ℕ cfg0 c) (hA : dat.A 2 = V c (Pipeline.arrRef spec0 2))
    (hafter : ∀ t, dat.after 2 t = gramBlk V c 2 t) (t : Fin cfg0.N) (d) : dat.before 2 t d = gramBlk V c 2 t :=
  (dat.before_in_eq_fetched 2 rfl (fun _ => rfl) (fun _ _ _ => rfl) (fun t => by rw [hafter]; unfold Dat.blockOf gramBlk; rw [hA]; try rfl) t d).trans
    (by unfold Dat.fetched Dat.blockOf gramBlk; rw [hA]; try rfl)
theorem gramBefore3_of {c : Dev nD} (dat : Dat τ (Elt F) Unit ℕ (UR sig nD τ) ℕ cfg0 c) (hA : dat.A 3 = V c (Pipeline.arrRef spec0 3))
    (hafter : ∀ t, dat.after 3 t = gramBlk V c 3 t) (t : Fin cfg0.N) (d) : dat.before 3 t d = gramBlk V c 3 t :=
  (dat.before_in_eq_fetched 3 rfl (fun _ => rfl) (fun _ _ _ => rfl) (fun t => by rw [hafter]; unfold Dat.blockOf gramBlk; rw [hA]; try rfl) t d).trans
    (by unfold Dat.fetched Dat.blockOf gramBlk; rw [hA]; try rfl)

/-! ## What each case leaves in each output block: its stores cover the block, so reading them back over anything is determined -/

theorem gramCoverReset4 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (hc0 : gramFirst i)
    (x0 : Vec F S512x512 .f32) (x1 : Vec F S512x512 .f32) (x2 : Vec F S1024x512 .f32) (x3 : Vec F S1024x512 .f32) (y : S512x1024.Idx) :
    ∃ pc ∈ (gramRunReset c i arg2 harg2 arg3 harg3 arg4 harg4 arg5 harg5 arg6 harg6 arg7 harg7 arg8 harg8 arg9 harg9 hc0 x0 x1 x2 x3).1, y ∈ pc.1.set :=
  View.cover_of_tiledL (gramRunReset c i arg2 harg2 arg3 harg3 arg4 harg4 arg5 harg5 arg6 harg6 arg7 harg7 arg8 harg8 arg9 harg9 hc0 x0 x1 x2 x3).1 S512x1024.size (by sl_kernel_rfl) y
def gramOutReset4 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (hc0 : gramFirst i)
    (x0 : Vec F S512x512 .f32) (x1 : Vec F S512x512 .f32) (x2 : Vec F S1024x512 .f32) (x3 : Vec F S1024x512 .f32) : Vec F S512x1024 .f32 :=
  gramSlabP.read (Elt F) (gramSlabP.writes (Elt F) gramSlabP.junk (gramRunReset c i arg2 harg2 arg3 harg3 arg4 harg4 arg5 harg5 arg6 harg6 arg7 harg7 arg8 harg8 arg9 harg9 hc0 x0 x1 x2 x3).1)
theorem gramCoverReset5 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (hc0 : gramFirst i)
    (x0 : Vec F S512x512 .f32) (x1 : Vec F S512x512 .f32) (x2 : Vec F S1024x512 .f32) (x3 : Vec F S1024x512 .f32) (y : S512x1024.Idx) :
    ∃ pc ∈ (gramRunReset c i arg2 harg2 arg3 harg3 arg4 harg4 arg5 harg5 arg6 harg6 arg7 harg7 arg8 harg8 arg9 harg9 hc0 x0 x1 x2 x3).2.1, y ∈ pc.1.set :=
  View.cover_of_tiledL (gramRunReset c i arg2 harg2 arg3 harg3 arg4 harg4 arg5 harg5 arg6 harg6 arg7 harg7 arg8 harg8 arg9 harg9 hc0 x0 x1 x2 x3).2.1 S512x1024.size (by sl_kernel_rfl) y
def gramOutReset5 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (hc0 : gramFirst i)
    (x0 : Vec F S512x512 .f32) (x1 : Vec F S512x512 .f32) (x2 : Vec F S1024x512 .f32) (x3 : Vec F S1024x512 .f32) : Vec F S512x1024 .f32 :=
  gramSlabT.read (Elt F) (gramSlabT.writes (Elt F) gramSlabT.junk (gramRunReset c i arg2 harg2 arg3 harg3 arg4 harg4 arg5 harg5 arg6 harg6 arg7 harg7 arg8 harg8 arg9 harg9 hc0 x0 x1 x2 x3).2.1)
theorem gramCoverReset6 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (hc0 : gramFirst i)
    (x0 : Vec F S512x512 .f32) (x1 : Vec F S512x512 .f32) (x2 : Vec F S1024x512 .f32) (x3 : Vec F S1024x512 .f32) (y : S512x1.Idx) :
    ∃ pc ∈ (gramRunReset c i arg2 harg2 arg3 harg3 arg4 harg4 arg5 harg5 arg6 harg6 arg7 harg7 arg8 harg8 arg9 harg9 hc0 x0 x1 x2 x3).2.2.1, y ∈ pc.1.set :=
  View.cover_of_tiledL (gramRunReset c i arg2 harg2 arg3 harg3 arg4 harg4 arg5 harg5 arg6 harg6 arg7 harg7 arg8 harg8 arg9 harg9 hc0 x0 x1 x2 x3).2.2.1 S512x1.size (by sl_kernel_rfl) y
def gramOutReset6 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (hc0 : gramFirst i)
    (x0 : Vec F S512x512 .f32) (x1 : Vec F S512x512 .f32) (x2 : Vec F S1024x512 .f32) (x3 : Vec F S1024x512 .f32) : Vec F S512x1 .f32 :=
  normColP.read (Elt F) (normColP.writes (Elt F) normColP.junk (gramRunReset c i arg2 harg2 arg3 harg3 arg4 harg4 arg5 harg5 arg6 harg6 arg7 harg7 arg8 harg8 arg9 harg9 hc0 x0 x1 x2 x3).2.2.1)
theorem gramCoverReset7 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (hc0 : gramFirst i)
    (x0 : Vec F S512x512 .f32) (x1 : Vec F S512x512 .f32) (x2 : Vec F S1024x512 .f32) (x3 : Vec F S1024x512 .f32) (y : S512x1.Idx) :
    ∃ pc ∈ (gramRunReset c i arg2 harg2 arg3 harg3 arg4 harg4 arg5 harg5 arg6 harg6 arg7 harg7 arg8 harg8 arg9 harg9 hc0 x0 x1 x2 x3).2.2.2.1, y ∈ pc.1.set :=
  View.cover_of_tiledL (gramRunReset c i arg2 harg2 arg3 harg3 arg4 harg4 arg5 harg5 arg6 harg6 arg7 harg7 arg8 harg8 arg9 harg9 hc0 x0 x1 x2 x3).2.2.2.1 S512x1.size (by sl_kernel_rfl) y
def gramOutReset7 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (hc0 : gramFirst i)
    (x0 : Vec F S512x512 .f32) (x1 : Vec F S512x512 .f32) (x2 : Vec F S1024x512 .f32) (x3 : Vec F S1024x512 .f32) : Vec F S512x1 .f32 :=
  normColT.read (Elt F) (normColT.writes (Elt F) normColT.junk (gramRunReset c i arg2 harg2 arg3 harg3 arg4 harg4 arg5 harg5 arg6 harg6 arg7 harg7 arg8 harg8 arg9 harg9 hc0 x0 x1 x2 x3).2.2.2.1)

theorem gramCoverAdd4 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (hc0 : ¬gramFirst i)
    (x0 : Vec F S512x512 .f32) (x1 : Vec F S512x512 .f32) (x2 : Vec F S1024x512 .f32) (x3 : Vec F S1024x512 .f32) (xo4 : Vec F S512x1024 .f32) (xo5 : Vec F S512x1024 .f32) (xo6 : Vec F S512x1 .f32) (xo7 : Vec F S512x1 .f32) (y : S512x1024.Idx) :
    ∃ pc ∈ (gramRunAdd c i arg2 harg2 arg3 harg3 arg4 harg4 arg5 harg5 arg6 harg6 arg7 harg7 arg8 harg8 arg9 harg9 hc0 x0 x1 x2 x3 xo4 xo5 xo6 xo7).1, y ∈ pc.1.set :=
  View.cover_of_tiledL (gramRunAdd c i arg2 harg2 arg3 harg3 arg4 harg4 arg5 harg5 arg6 harg6 arg7 harg7 arg8 harg8 arg9 harg9 hc0 x0 x1 x2 x3 xo4 xo5 xo6 xo7).1 S512x1024.size (by sl_kernel_rfl) y
def gramOutAdd4 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (hc0 : ¬gramFirst i)
    (x0 : Vec F S512x512 .f32) (x1 : Vec F S512x512 .f32) (x2 : Vec F S1024x512 .f32) (x3 : Vec F S1024x512 .f32) (xo4 : Vec F S512x1024 .f32) (xo5 : Vec F S512x1024 .f32) (xo6 : Vec F S512x1 .f32) (xo7 : Vec F S512x1 .f32) : Vec F S512x1024 .f32 :=
  gramSlabP.read (Elt F) (gramSlabP.writes (Elt F) gramSlabP.junk (gramRunAdd c i arg2 harg2 arg3 harg3 arg4 harg4 arg5 harg5 arg6 harg6 arg7 harg7 arg8 harg8 arg9 harg9 hc0 x0 x1 x2 x3 xo4 xo5 xo6 xo7).1)
theorem gramCoverAdd5 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (hc0 : ¬gramFirst i)
    (x0 : Vec F S512x512 .f32) (x1 : Vec F S512x512 .f32) (x2 : Vec F S1024x512 .f32) (x3 : Vec F S1024x512 .f32) (xo4 : Vec F S512x1024 .f32) (xo5 : Vec F S512x1024 .f32) (xo6 : Vec F S512x1 .f32) (xo7 : Vec F S512x1 .f32) (y : S512x1024.Idx) :
    ∃ pc ∈ (gramRunAdd c i arg2 harg2 arg3 harg3 arg4 harg4 arg5 harg5 arg6 harg6 arg7 harg7 arg8 harg8 arg9 harg9 hc0 x0 x1 x2 x3 xo4 xo5 xo6 xo7).2.1, y ∈ pc.1.set :=
  View.cover_of_tiledL (gramRunAdd c i arg2 harg2 arg3 harg3 arg4 harg4 arg5 harg5 arg6 harg6 arg7 harg7 arg8 harg8 arg9 harg9 hc0 x0 x1 x2 x3 xo4 xo5 xo6 xo7).2.1 S512x1024.size (by sl_kernel_rfl) y
def gramOutAdd5 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (hc0 : ¬gramFirst i)
    (x0 : Vec F S512x512 .f32) (x1 : Vec F S512x512 .f32) (x2 : Vec F S1024x512 .f32) (x3 : Vec F S1024x512 .f32) (xo4 : Vec F S512x1024 .f32) (xo5 : Vec F S512x1024 .f32) (xo6 : Vec F S512x1 .f32) (xo7 : Vec F S512x1 .f32) : Vec F S512x1024 .f32 :=
  gramSlabT.read (Elt F) (gramSlabT.writes (Elt F) gramSlabT.junk (gramRunAdd c i arg2 harg2 arg3 harg3 arg4 harg4 arg5 harg5 arg6 harg6 arg7 harg7 arg8 harg8 arg9 harg9 hc0 x0 x1 x2 x3 xo4 xo5 xo6 xo7).2.1)
theorem gramCoverAdd6 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (hc0 : ¬gramFirst i)
    (x0 : Vec F S512x512 .f32) (x1 : Vec F S512x512 .f32) (x2 : Vec F S1024x512 .f32) (x3 : Vec F S1024x512 .f32) (xo4 : Vec F S512x1024 .f32) (xo5 : Vec F S512x1024 .f32) (xo6 : Vec F S512x1 .f32) (xo7 : Vec F S512x1 .f32) (y : S512x1.Idx) :
    ∃ pc ∈ (gramRunAdd c i arg2 harg2 arg3 harg3 arg4 harg4 arg5 harg5 arg6 harg6 arg7 harg7 arg8 harg8 arg9 harg9 hc0 x0 x1 x2 x3 xo4 xo5 xo6 xo7).2.2.1, y ∈ pc.1.set :=
  View.cover_of_tiledL (gramRunAdd c i arg2 harg2 arg3 harg3 arg4 harg4 arg5 harg5 arg6 harg6 arg7 harg7 arg8 harg8 arg9 harg9 hc0 x0 x1 x2 x3 xo4 xo5 xo6 xo7).2.2.1 S512x1.size (by sl_kernel_rfl) y
def gramOutAdd6 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (hc0 : ¬gramFirst i)
    (x0 : Vec F S512x512 .f32) (x1 : Vec F S512x512 .f32) (x2 : Vec F S1024x512 .f32) (x3 : Vec F S1024x512 .f32) (xo4 : Vec F S512x1024 .f32) (xo5 : Vec F S512x1024 .f32) (xo6 : Vec F S512x1 .f32) (xo7 : Vec F S512x1 .f32) : Vec F S512x1 .f32 :=
  normColP.read (Elt F) (normColP.writes (Elt F) normColP.junk (gramRunAdd c i arg2 harg2 arg3 harg3 arg4 harg4 arg5 harg5 arg6 harg6 arg7 harg7 arg8 harg8 arg9 harg9 hc0 x0 x1 x2 x3 xo4 xo5 xo6 xo7).2.2.1)
theorem gramCoverAdd7 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (hc0 : ¬gramFirst i)
    (x0 : Vec F S512x512 .f32) (x1 : Vec F S512x512 .f32) (x2 : Vec F S1024x512 .f32) (x3 : Vec F S1024x512 .f32) (xo4 : Vec F S512x1024 .f32) (xo5 : Vec F S512x1024 .f32) (xo6 : Vec F S512x1 .f32) (xo7 : Vec F S512x1 .f32) (y : S512x1.Idx) :
    ∃ pc ∈ (gramRunAdd c i arg2 harg2 arg3 harg3 arg4 harg4 arg5 harg5 arg6 harg6 arg7 harg7 arg8 harg8 arg9 harg9 hc0 x0 x1 x2 x3 xo4 xo5 xo6 xo7).2.2.2.1, y ∈ pc.1.set :=
  View.cover_of_tiledL (gramRunAdd c i arg2 harg2 arg3 harg3 arg4 harg4 arg5 harg5 arg6 harg6 arg7 harg7 arg8 harg8 arg9 harg9 hc0 x0 x1 x2 x3 xo4 xo5 xo6 xo7).2.2.2.1 S512x1.size (by sl_kernel_rfl) y
def gramOutAdd7 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (hc0 : ¬gramFirst i)
    (x0 : Vec F S512x512 .f32) (x1 : Vec F S512x512 .f32) (x2 : Vec F S1024x512 .f32) (x3 : Vec F S1024x512 .f32) (xo4 : Vec F S512x1024 .f32) (xo5 : Vec F S512x1024 .f32) (xo6 : Vec F S512x1 .f32) (xo7 : Vec F S512x1 .f32) : Vec F S512x1 .f32 :=
  normColT.read (Elt F) (normColT.writes (Elt F) normColT.junk (gramRunAdd c i arg2 harg2 arg3 harg3 arg4 harg4 arg5 harg5 arg6 harg6 arg7 harg7 arg8 harg8 arg9 harg9 hc0 x0 x1 x2 x3 xo4 xo5 xo6 xo7).2.2.2.1)

/-! ## The four output blocks after each point -/

/-- THE ACCUMULATION: what the four output blocks hold after the body at position `n`. -/
def gramOuts (c : Dev nD) : (n : ℕ) → n < cfg0.N → Vec F S512x1024 .f32 × Vec F S512x1024 .f32 × Vec F S512x1 .f32 × Vec F S512x1 .f32
  | 0, hn => (gramOutReset4 c (grid0.coords ⟨0, hn⟩) (gm0 ⟨0, hn⟩) (gh0 ⟨0, hn⟩) (gm1 ⟨0, hn⟩) (gh1 ⟨0, hn⟩) (gm2 ⟨0, hn⟩) (gh2 ⟨0, hn⟩) (gm3 ⟨0, hn⟩) (gh3 ⟨0, hn⟩) (gm4 ⟨0, hn⟩) (gh4 ⟨0, hn⟩) (gm5 ⟨0, hn⟩) (gh5 ⟨0, hn⟩) (gm6 ⟨0, hn⟩) (gh6 ⟨0, hn⟩) (gm7 ⟨0, hn⟩) (gh7 ⟨0, hn⟩) ((gramFirst_iff ⟨0, hn⟩).mpr (Nat.zero_mod _)) (gramBlk V c 0 ⟨0, hn⟩) (gramBlk V c 1 ⟨0, hn⟩) (gramBlk V c 2 ⟨0, hn⟩) (gramBlk V c 3 ⟨0, hn⟩),
        gramOutReset5 c (grid0.coords ⟨0, hn⟩) (gm0 ⟨0, hn⟩) (gh0 ⟨0, hn⟩) (gm1 ⟨0, hn⟩) (gh1 ⟨0, hn⟩) (gm2 ⟨0, hn⟩) (gh2 ⟨0, hn⟩) (gm3 ⟨0, hn⟩) (gh3 ⟨0, hn⟩) (gm4 ⟨0, hn⟩) (gh4 ⟨0, hn⟩) (gm5 ⟨0, hn⟩) (gh5 ⟨0, hn⟩) (gm6 ⟨0, hn⟩) (gh6 ⟨0, hn⟩) (gm7 ⟨0, hn⟩) (gh7 ⟨0, hn⟩) ((gramFirst_iff ⟨0, hn⟩).mpr (Nat.zero_mod _)) (gramBlk V c 0 ⟨0, hn⟩) (gramBlk V c 1 ⟨0, hn⟩) (gramBlk V c 2 ⟨0, hn⟩) (gramBlk V c 3 ⟨0, hn⟩),
        gramOutReset6 c (grid0.coords ⟨0, hn⟩) (gm0 ⟨0, hn⟩) (gh0 ⟨0, hn⟩) (gm1 ⟨0, hn⟩) (gh1 ⟨0, hn⟩) (gm2 ⟨0, hn⟩) (gh2 ⟨0, hn⟩) (gm3 ⟨0, hn⟩) (gh3 ⟨0, hn⟩) (gm4 ⟨0, hn⟩) (gh4 ⟨0, hn⟩) (gm5 ⟨0, hn⟩) (gh5 ⟨0, hn⟩) (gm6 ⟨0, hn⟩) (gh6 ⟨0, hn⟩) (gm7 ⟨0, hn⟩) (gh7 ⟨0, hn⟩) ((gramFirst_iff ⟨0, hn⟩).mpr (Nat.zero_mod _)) (gramBlk V c 0 ⟨0, hn⟩) (gramBlk V c 1 ⟨0, hn⟩) (gramBlk V c 2 ⟨0, hn⟩) (gramBlk V c 3 ⟨0, hn⟩),
        gramOutReset7 c (grid0.coords ⟨0, hn⟩) (gm0 ⟨0, hn⟩) (gh0 ⟨0, hn⟩) (gm1 ⟨0, hn⟩) (gh1 ⟨0, hn⟩) (gm2 ⟨0, hn⟩) (gh2 ⟨0, hn⟩) (gm3 ⟨0, hn⟩) (gh3 ⟨0, hn⟩) (gm4 ⟨0, hn⟩) (gh4 ⟨0, hn⟩) (gm5 ⟨0, hn⟩) (gh5 ⟨0, hn⟩) (gm6 ⟨0, hn⟩) (gh6 ⟨0, hn⟩) (gm7 ⟨0, hn⟩) (gh7 ⟨0, hn⟩) ((gramFirst_iff ⟨0, hn⟩).mpr (Nat.zero_mod _)) (gramBlk V c 0 ⟨0, hn⟩) (gramBlk V c 1 ⟨0, hn⟩) (gramBlk V c 2 ⟨0, hn⟩) (gramBlk V c 3 ⟨0, hn⟩))
  | n + 1, hn =>
    if h0 : (n + 1) % 16 = 0 then
      (gramOutReset4 c (grid0.coords ⟨n + 1, hn⟩) (gm0 ⟨n + 1, hn⟩) (gh0 ⟨n + 1, hn⟩) (gm1 ⟨n + 1, hn⟩) (gh1 ⟨n + 1, hn⟩) (gm2 ⟨n + 1, hn⟩) (gh2 ⟨n + 1, hn⟩) (gm3 ⟨n + 1, hn⟩) (gh3 ⟨n + 1, hn⟩) (gm4 ⟨n + 1, hn⟩) (gh4 ⟨n + 1, hn⟩) (gm5 ⟨n + 1, hn⟩) (gh5 ⟨n + 1, hn⟩) (gm6 ⟨n + 1, hn⟩) (gh6 ⟨n + 1, hn⟩) (gm7 ⟨n + 1, hn⟩) (gh7 ⟨n + 1, hn⟩) ((gramFirst_iff ⟨n + 1, hn⟩).mpr h0) (gramBlk V c 0 ⟨n + 1, hn⟩) (gramBlk V c 1 ⟨n + 1, hn⟩) (gramBlk V c 2 ⟨n + 1, hn⟩) (gramBlk V c 3 ⟨n + 1, hn⟩),
        gramOutReset5 c (grid0.coords ⟨n + 1, hn⟩) (gm0 ⟨n + 1, hn⟩) (gh0 ⟨n + 1, hn⟩) (gm1 ⟨n + 1, hn⟩) (gh1 ⟨n + 1, hn⟩) (gm2 ⟨n + 1, hn⟩) (gh2 ⟨n + 1, hn⟩) (gm3 ⟨n + 1, hn⟩) (gh3 ⟨n + 1, hn⟩) (gm4 ⟨n + 1, hn⟩) (gh4 ⟨n + 1, hn⟩) (gm5 ⟨n + 1, hn⟩) (gh5 ⟨n + 1, hn⟩) (gm6 ⟨n + 1, hn⟩) (gh6 ⟨n + 1, hn⟩) (gm7 ⟨n + 1, hn⟩) (gh7 ⟨n + 1, hn⟩) ((gramFirst_iff ⟨n + 1, hn⟩).mpr h0) (gramBlk V c 0 ⟨n + 1, hn⟩) (gramBlk V c 1 ⟨n + 1, hn⟩) (gramBlk V c 2 ⟨n + 1, hn⟩) (gramBlk V c 3 ⟨n + 1, hn⟩),
        gramOutReset6 c (grid0.coords ⟨n + 1, hn⟩) (gm0 ⟨n + 1, hn⟩) (gh0 ⟨n + 1, hn⟩) (gm1 ⟨n + 1, hn⟩) (gh1 ⟨n + 1, hn⟩) (gm2 ⟨n + 1, hn⟩) (gh2 ⟨n + 1, hn⟩) (gm3 ⟨n + 1, hn⟩) (gh3 ⟨n + 1, hn⟩) (gm4 ⟨n + 1, hn⟩) (gh4 ⟨n + 1, hn⟩) (gm5 ⟨n + 1, hn⟩) (gh5 ⟨n + 1, hn⟩) (gm6 ⟨n + 1, hn⟩) (gh6 ⟨n + 1, hn⟩) (gm7 ⟨n + 1, hn⟩) (gh7 ⟨n + 1, hn⟩) ((gramFirst_iff ⟨n + 1, hn⟩).mpr h0) (gramBlk V c 0 ⟨n + 1, hn⟩) (gramBlk V c 1 ⟨n + 1, hn⟩) (gramBlk V c 2 ⟨n + 1, hn⟩) (gramBlk V c 3 ⟨n + 1, hn⟩),
        gramOutReset7 c (grid0.coords ⟨n + 1, hn⟩) (gm0 ⟨n + 1, hn⟩) (gh0 ⟨n + 1, hn⟩) (gm1 ⟨n + 1, hn⟩) (gh1 ⟨n + 1, hn⟩) (gm2 ⟨n + 1, hn⟩) (gh2 ⟨n + 1, hn⟩) (gm3 ⟨n + 1, hn⟩) (gh3 ⟨n + 1, hn⟩) (gm4 ⟨n + 1, hn⟩) (gh4 ⟨n + 1, hn⟩) (gm5 ⟨n + 1, hn⟩) (gh5 ⟨n + 1, hn⟩) (gm6 ⟨n + 1, hn⟩) (gh6 ⟨n + 1, hn⟩) (gm7 ⟨n + 1, hn⟩) (gh7 ⟨n + 1, hn⟩) ((gramFirst_iff ⟨n + 1, hn⟩).mpr h0) (gramBlk V c 0 ⟨n + 1, hn⟩) (gramBlk V c 1 ⟨n + 1, hn⟩) (gramBlk V c 2 ⟨n + 1, hn⟩) (gramBlk V c 3 ⟨n + 1, hn⟩))
    else
      (gramOutAdd4 c (grid0.coords ⟨n + 1, hn⟩) (gm0 ⟨n + 1, hn⟩) (gh0 ⟨n + 1, hn⟩) (gm1 ⟨n + 1, hn⟩) (gh1 ⟨n + 1, hn⟩) (gm2 ⟨n + 1, hn⟩) (gh2 ⟨n + 1, hn⟩) (gm3 ⟨n + 1, hn⟩) (gh3 ⟨n + 1, hn⟩) (gm4 ⟨n + 1, hn⟩) (gh4 ⟨n + 1, hn⟩) (gm5 ⟨n + 1, hn⟩) (gh5 ⟨n + 1, hn⟩) (gm6 ⟨n + 1, hn⟩) (gh6 ⟨n + 1, hn⟩) (gm7 ⟨n + 1, hn⟩) (gh7 ⟨n + 1, hn⟩) (fun h => h0 ((gramFirst_iff ⟨n + 1, hn⟩).mp h)) (gramBlk V c 0 ⟨n + 1, hn⟩) (gramBlk V c 1 ⟨n + 1, hn⟩) (gramBlk V c 2 ⟨n + 1, hn⟩) (gramBlk V c 3 ⟨n + 1, hn⟩) (gramOuts c n (Nat.lt_of_succ_lt hn)).1 (gramOuts c n (Nat.lt_of_succ_lt hn)).2.1 (gramOuts c n (Nat.lt_of_succ_lt hn)).2.2.1 (gramOuts c n (Nat.lt_of_succ_lt hn)).2.2.2,
        gramOutAdd5 c (grid0.coords ⟨n + 1, hn⟩) (gm0 ⟨n + 1, hn⟩) (gh0 ⟨n + 1, hn⟩) (gm1 ⟨n + 1, hn⟩) (gh1 ⟨n + 1, hn⟩) (gm2 ⟨n + 1, hn⟩) (gh2 ⟨n + 1, hn⟩) (gm3 ⟨n + 1, hn⟩) (gh3 ⟨n + 1, hn⟩) (gm4 ⟨n + 1, hn⟩) (gh4 ⟨n + 1, hn⟩) (gm5 ⟨n + 1, hn⟩) (gh5 ⟨n + 1, hn⟩) (gm6 ⟨n + 1, hn⟩) (gh6 ⟨n + 1, hn⟩) (gm7 ⟨n + 1, hn⟩) (gh7 ⟨n + 1, hn⟩) (fun h => h0 ((gramFirst_iff ⟨n + 1, hn⟩).mp h)) (gramBlk V c 0 ⟨n + 1, hn⟩) (gramBlk V c 1 ⟨n + 1, hn⟩) (gramBlk V c 2 ⟨n + 1, hn⟩) (gramBlk V c 3 ⟨n + 1, hn⟩) (gramOuts c n (Nat.lt_of_succ_lt hn)).1 (gramOuts c n (Nat.lt_of_succ_lt hn)).2.1 (gramOuts c n (Nat.lt_of_succ_lt hn)).2.2.1 (gramOuts c n (Nat.lt_of_succ_lt hn)).2.2.2,
        gramOutAdd6 c (grid0.coords ⟨n + 1, hn⟩) (gm0 ⟨n + 1, hn⟩) (gh0 ⟨n + 1, hn⟩) (gm1 ⟨n + 1, hn⟩) (gh1 ⟨n + 1, hn⟩) (gm2 ⟨n + 1, hn⟩) (gh2 ⟨n + 1, hn⟩) (gm3 ⟨n + 1, hn⟩) (gh3 ⟨n + 1, hn⟩) (gm4 ⟨n + 1, hn⟩) (gh4 ⟨n + 1, hn⟩) (gm5 ⟨n + 1, hn⟩) (gh5 ⟨n + 1, hn⟩) (gm6 ⟨n + 1, hn⟩) (gh6 ⟨n + 1, hn⟩) (gm7 ⟨n + 1, hn⟩) (gh7 ⟨n + 1, hn⟩) (fun h => h0 ((gramFirst_iff ⟨n + 1, hn⟩).mp h)) (gramBlk V c 0 ⟨n + 1, hn⟩) (gramBlk V c 1 ⟨n + 1, hn⟩) (gramBlk V c 2 ⟨n + 1, hn⟩) (gramBlk V c 3 ⟨n + 1, hn⟩) (gramOuts c n (Nat.lt_of_succ_lt hn)).1 (gramOuts c n (Nat.lt_of_succ_lt hn)).2.1 (gramOuts c n (Nat.lt_of_succ_lt hn)).2.2.1 (gramOuts c n (Nat.lt_of_succ_lt hn)).2.2.2,
        gramOutAdd7 c (grid0.coords ⟨n + 1, hn⟩) (gm0 ⟨n + 1, hn⟩) (gh0 ⟨n + 1, hn⟩) (gm1 ⟨n + 1, hn⟩) (gh1 ⟨n + 1, hn⟩) (gm2 ⟨n + 1, hn⟩) (gh2 ⟨n + 1, hn⟩) (gm3 ⟨n + 1, hn⟩) (gh3 ⟨n + 1, hn⟩) (gm4 ⟨n + 1, hn⟩) (gh4 ⟨n + 1, hn⟩) (gm5 ⟨n + 1, hn⟩) (gh5 ⟨n + 1, hn⟩) (gm6 ⟨n + 1, hn⟩) (gh6 ⟨n + 1, hn⟩) (gm7 ⟨n + 1, hn⟩) (gh7 ⟨n + 1, hn⟩) (fun h => h0 ((gramFirst_iff ⟨n + 1, hn⟩).mp h)) (gramBlk V c 0 ⟨n + 1, hn⟩) (gramBlk V c 1 ⟨n + 1, hn⟩) (gramBlk V c 2 ⟨n + 1, hn⟩) (gramBlk V c 3 ⟨n + 1, hn⟩) (gramOuts c n (Nat.lt_of_succ_lt hn)).1 (gramOuts c n (Nat.lt_of_succ_lt hn)).2.1 (gramOuts c n (Nat.lt_of_succ_lt hn)).2.2.1 (gramOuts c n (Nat.lt_of_succ_lt hn)).2.2.2)

theorem gramOuts_reset (c : Dev nD) (t : Fin cfg0.N) (h0 : t.val % 16 = 0) :
    gramOuts V c t.val t.isLt = (gramOutReset4 c (grid0.coords t) (gm0 t) (gh0 t) (gm1 t) (gh1 t) (gm2 t) (gh2 t) (gm3 t) (gh3 t) (gm4 t) (gh4 t) (gm5 t) (gh5 t) (gm6 t) (gh6 t) (gm7 t) (gh7 t) ((gramFirst_iff t).mpr h0) (gramBlk V c 0 t) (gramBlk V c 1 t) (gramBlk V c 2 t) (gramBlk V c 3 t),
        gramOutReset5 c (grid0.coords t) (gm0 t) (gh0 t) (gm1 t) (gh1 t) (gm2 t) (gh2 t) (gm3 t) (gh3 t) (gm4 t) (gh4 t) (gm5 t) (gh5 t) (gm6 t) (gh6 t) (gm7 t) (gh7 t) ((gramFirst_iff t).mpr h0) (gramBlk V c 0 t) (gramBlk V c 1 t) (gramBlk V c 2 t) (gramBlk V c 3 t),
        gramOutReset6 c (grid0.coords t) (gm0 t) (gh0 t) (gm1 t) (gh1 t) (gm2 t) (gh2 t) (gm3 t) (gh3 t) (gm4 t) (gh4 t) (gm5 t) (gh5 t) (gm6 t) (gh6 t) (gm7 t) (gh7 t) ((gramFirst_iff t).mpr h0) (gramBlk V c 0 t) (gramBlk V c 1 t) (gramBlk V c 2 t) (gramBlk V c 3 t),
        gramOutReset7 c (grid0.coords t) (gm0 t) (gh0 t) (gm1 t) (gh1 t) (gm2 t) (gh2 t) (gm3 t) (gh3 t) (gm4 t) (gh4 t) (gm5 t) (gh5 t) (gm6 t) (gh6 t) (gm7 t) (gh7 t) ((gramFirst_iff t).mpr h0) (gramBlk V c 0 t) (gramBlk V c 1 t) (gramBlk V c 2 t) (gramBlk V c 3 t)) := by
  obtain ⟨n, hn⟩ := t
  cases n with
  | zero => exact rfl
  | succ n => exact (dif_pos h0).trans rfl

theorem gramOuts_add (c : Dev nD) (t : Fin cfg0.N) (h0 : ¬t.val % 16 = 0) :
    gramOuts V c t.val t.isLt = (gramOutAdd4 c (grid0.coords t) (gm0 t) (gh0 t) (gm1 t) (gh1 t) (gm2 t) (gh2 t) (gm3 t) (gh3 t) (gm4 t) (gh4 t) (gm5 t) (gh5 t) (gm6 t) (gh6 t) (gm7 t) (gh7 t) (fun h => h0 ((gramFirst_iff t).mp h)) (gramBlk V c 0 t) (gramBlk V c 1 t) (gramBlk V c 2 t) (gramBlk V c 3 t) (gramOuts V c (t.val - 1) (Nat.lt_of_le_of_lt (Nat.sub_le _ _) t.isLt)).1 (gramOuts V c (t.val - 1) (Nat.lt_of_le_of_lt (Nat.sub_le _ _) t.isLt)).2.1 (gramOuts V c (t.val - 1) (Nat.lt_of_le_of_lt (Nat.sub_le _ _) t.isLt)).2.2.1 (gramOuts V c (t.val - 1) (Nat.lt_of_le_of_lt (Nat.sub_le _ _) t.isLt)).2.2.2,
        gramOutAdd5 c (grid0.coords t) (gm0 t) (gh0 t) (gm1 t) (gh1 t) (gm2 t) (gh2 t) (gm3 t) (gh3 t) (gm4 t) (gh4 t) (gm5 t) (gh5 t) (gm6 t) (gh6 t) (gm7 t) (gh7 t) (fun h => h0 ((gramFirst_iff t).mp h)) (gramBlk V c 0 t) (gramBlk V c 1 t) (gramBlk V c 2 t) (gramBlk V c 3 t) (gramOuts V c (t.val - 1) (Nat.lt_of_le_of_lt (Nat.sub_le _ _) t.isLt)).1 (gramOuts V c (t.val - 1) (Nat.lt_of_le_of_lt (Nat.sub_le _ _) t.isLt)).2.1 (gramOuts V c (t.val - 1) (Nat.lt_of_le_of_lt (Nat.sub_le _ _) t.isLt)).2.2.1 (gramOuts V c (t.val - 1) (Nat.lt_of_le_of_lt (Nat.sub_le _ _) t.isLt)).2.2.2,
        gramOutAdd6 c (grid0.coords t) (gm0 t) (gh0 t) (gm1 t) (gh1 t) (gm2 t) (gh2 t) (gm3 t) (gh3 t) (gm4 t) (gh4 t) (gm5 t) (gh5 t) (gm6 t) (gh6 t) (gm7 t) (gh7 t) (fun h => h0 ((gramFirst_iff t).mp h)) (gramBlk V c 0 t) (gramBlk V c 1 t) (gramBlk V c 2 t) (gramBlk V c 3 t) (gramOuts V c (t.val - 1) (Nat.lt_of_le_of_lt (Nat.sub_le _ _) t.isLt)).1 (gramOuts V c (t.val - 1) (Nat.lt_of_le_of_lt (Nat.sub_le _ _) t.isLt)).2.1 (gramOuts V c (t.val - 1) (Nat.lt_of_le_of_lt (Nat.sub_le _ _) t.isLt)).2.2.1 (gramOuts V c (t.val - 1) (Nat.lt_of_le_of_lt (Nat.sub_le _ _) t.isLt)).2.2.2,
        gramOutAdd7 c (grid0.coords t) (gm0 t) (gh0 t) (gm1 t) (gh1 t) (gm2 t) (gh2 t) (gm3 t) (gh3 t) (gm4 t) (gh4 t) (gm5 t) (gh5 t) (gm6 t) (gh6 t) (gm7 t) (gh7 t) (fun h => h0 ((gramFirst_iff t).mp h)) (gramBlk V c 0 t) (gramBlk V c 1 t) (gramBlk V c 2 t) (gramBlk V c 3 t) (gramOuts V c (t.val - 1) (Nat.lt_of_le_of_lt (Nat.sub_le _ _) t.isLt)).1 (gramOuts V c (t.val - 1) (Nat.lt_of_le_of_lt (Nat.sub_le _ _) t.isLt)).2.1 (gramOuts V c (t.val - 1) (Nat.lt_of_le_of_lt (Nat.sub_le _ _) t.isLt)).2.2.1 (gramOuts V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-! ## The region's proof data -/

/-- The arrays as the region finds them; after the body at point `t` each input's buffer at its block and the outputs'
    at `gramOuts`; the invariant is the core's scoped rest and generator register, untouched; nothing owed; the two
    windows on each argument array hold it at the two halves of the full share. -/
def gramDat (c : Dev nD) : Dat τ (Elt F) Unit ℕ (UR sig nD τ) ℕ cfg0 c where
  A w := V c (Pipeline.arrRef spec0 w)
  after w t := match w with
    | ⟨0, _⟩ => gramBlk V c 0 t
    | ⟨1, _⟩ => gramBlk V c 1 t
    | ⟨2, _⟩ => gramBlk V c 2 t
    | ⟨3, _⟩ => gramBlk V c 3 t
    | ⟨4, _⟩ => (gramOuts V c t.val t.isLt).1
    | ⟨5, _⟩ => (gramOuts V c t.val t.isLt).2.1
    | ⟨6, _⟩ => (gramOuts V c t.val t.isLt).2.2.1
    | ⟨7, _⟩ => (gramOuts V c t.val t.isLt).2.2.2
  Φ _ := Pipeline.ΦA spec0 c
  q w := match w with
    | ⟨0, _⟩ => fullShare.left
    | ⟨1, _⟩ => fullShare.left
    | ⟨2, _⟩ => fullShare.right
    | ⟨3, _⟩ => fullShare.right
    | _ => fullShare
  owed _ := 0

theorem gramDat_A (c : Dev nD) (w : Fin cfg0.W) : (gramDat V c).A w = V c (Pipeline.arrRef spec0 w) := by
  dsimp only [gramDat]

theorem gramAfter0 (c : Dev nD) (t : Fin cfg0.N) : (gramDat V c).after 0 t = gramBlk V c 0 t := by dsimp only [gramDat]
theorem gramAfter1 (c : Dev nD) (t : Fin cfg0.N) : (gramDat V c).after 1 t = gramBlk V c 1 t := by dsimp only [gramDat]
theorem gramAfter2 (c : Dev nD) (t : Fin cfg0.N) : (gramDat V c).after 2 t = gramBlk V c 2 t := by dsimp only [gramDat]
theorem gramAfter3 (c : Dev nD) (t : Fin cfg0.N) : (gramDat V c).after 3 t = gramBlk V c 3 t := by dsimp only [gramDat]
theorem gramAfter4 (c : Dev nD) (t : Fin cfg0.N) : (gramDat V c).after 4 t = (gramOuts V c t.val t.isLt).1 := by dsimp only [gramDat]
theorem gramAfter5 (c : Dev nD) (t : Fin cfg0.N) : (gramDat V c).after 5 t = (gramOuts V c t.val t.isLt).2.1 := by dsimp only [gramDat]
theorem gramAfter6 (c : Dev nD) (t : Fin cfg0.N) : (gramDat V c).after 6 t = (gramOuts V c t.val t.isLt).2.2.1 := by dsimp only [gramDat]
theorem gramAfter7 (c : Dev nD) (t : Fin cfg0.N) : (gramDat V c).after 7 t = (gramOuts V c t.val t.isLt).2.2.2 := by dsimp only [gramDat]

theorem gramBefore0 (c : Dev nD) (t : Fin cfg0.N) (d) : (gramDat V c).before 0 t d = gramBlk V c 0 t :=
  gramBefore0_of V (gramDat V c) (gramDat_A V c 0) (gramAfter0 V c) t d
theorem gramBefore1 (c : Dev nD) (t : Fin cfg0.N) (d) : (gramDat V c).before 1 t d = gramBlk V c 1 t :=
  gramBefore1_of V (gramDat V c) (gramDat_A V c 1) (gramAfter1 V c) t d
theorem gramBefore2 (c : Dev nD) (t : Fin cfg0.N) (d) : (gramDat V c).before 2 t d = gramBlk V c 2 t :=
  gramBefore2_of V (gramDat V c) (gramDat_A V c 2) (gramAfter2 V c) t d
theorem gramBefore3 (c : Dev nD) (t : Fin cfg0.N) (d) : (gramDat V c).before 3 t d = gramBlk V c 3 t :=
  gramBefore3_of V (gramDat V c) (gramDat_A V c 3) (gramAfter3 V c) t d

/-! Away from the first column tile each output's staging buffer holds what the body left at the point before: the
    blocks are written back only after the last column tile of a row half. -/
theorem gramBefore4_later (c : Dev nD) (t : Fin cfg0.N) (h0 : ¬t.val % 16 = 0) (d) :
    (gramDat V c).before 4 t d = (gramOuts V c (t.val - 1) (Nat.lt_of_le_of_lt (Nat.sub_le _ _) t.isLt)).1 := by
  have hN : t.val < 32 := lt_of_lt_of_eq t.isLt (show cfg0.N = 32 from N_0)
  rw [Dat.before_out_kept _ 4 rfl t (by omega) (Bool.eq_false_iff.mpr fun h => by have := (flush0_4 _).mp h; dsimp only at this; omega)
    (fun _ => rfl) (fun _ _ => rfl)]
  dsimp only [gramDat]
theorem gramBefore5_later (c : Dev nD) (t : Fin cfg0.N) (h0 : ¬t.val % 16 = 0) (d) :
    (gramDat V c).before 5 t d = (gramOuts V c (t.val - 1) (Nat.lt_of_le_of_lt (Nat.sub_le _ _) t.isLt)).2.1 := by
  have hN : t.val < 32 := lt_of_lt_of_eq t.isLt (show cfg0.N = 32 from N_0)
  rw [Dat.before_out_kept _ 5 rfl t (by omega) (Bool.eq_false_iff.mpr fun h => by have := (flush0_5 _).mp h; dsimp only at this; omega)
    (fun _ => rfl) (fun _ _ => rfl)]
  dsimp only [gramDat]
theorem gramBefore6_later (c : Dev nD) (t : Fin cfg0.N) (h0 : ¬t.val % 16 = 0) (d) :
    (gramDat V c).before 6 t d = (gramOuts V c (t.val - 1) (Nat.lt_of_le_of_lt (Nat.sub_le _ _) t.isLt)).2.2.1 := by
  have hN : t.val < 32 := lt_of_lt_of_eq t.isLt (show cfg0.N = 32 from N_0)
  rw [Dat.before_out_kept _ 6 rfl t (by omega) (Bool.eq_false_iff.mpr fun h => by have := (flush0_6 _).mp h; dsimp only at this; omega)
    (fun _ => rfl) (fun _ _ => rfl)]
  dsimp only [gramDat]
theorem gramBefore7_later (c : Dev nD) (t : Fin cfg0.N) (h0 : ¬t.val % 16 = 0) (d) :
    (gramDat V c).before 7 t d = (gramOuts V c (t.val - 1) (Nat.lt_of_le_of_lt (Nat.sub_le _ _) t.isLt)).2.2.2 := by
  have hN : t.val < 32 := lt_of_lt_of_eq t.isLt (show cfg0.N = 32 from N_0)
  rw [Dat.before_out_kept _ 7 rfl t (by omega) (Bool.eq_false_iff.mpr fun h => by have := (flush0_7 _).mp h; dsimp only at this; omega)
    (fun _ => rfl) (fun _ _ => rfl)]
  dsimp only [gramDat]

/-! ## The body obligation, at a generic point -/

def gramPre (c : Dev nD) (t : Fin cfg0.N) : sProp 𝕄 :=
  iprop((gramDat V c).Φ t.castSucc ∗ (gramDat V c).owesAt () t.castSucc
    ∗ (∃ d, owns (c : Thread nD τ) (gm0 t) fullShare ((gramDat V c).before 0 t d))
    ∗ (∃ d, owns (c : Thread nD τ) (gm1 t) fullShare ((gramDat V c).before 1 t d))
    ∗ (∃ d, owns (c : Thread nD τ) (gm2 t) fullShare ((gramDat V c).before 2 t d))
    ∗ (∃ d, owns (c : Thread nD τ) (gm3 t) fullShare ((gramDat V c).before 3 t d))
    ∗ (∃ d, owns (c : Thread nD τ) (gm4 t) fullShare ((gramDat V c).before 4 t d))
    ∗ (∃ d, owns (c : Thread nD τ) (gm5 t) fullShare ((gramDat V c).before 5 t d))
    ∗ (∃ d, owns (c : Thread nD τ) (gm6 t) fullShare ((gramDat V c).before 6 t d))
    ∗ (∃ d, owns (c : Thread nD τ) (gm7 t) fullShare ((gramDat V c).before 7 t d)))

def gramPost (c : Dev nD) (t : Fin cfg0.N) : sProp 𝕄 :=
  iprop((gramDat V c).Φ t.succ ∗ (gramDat V c).owesAt () t.succ
    ∗ owns (c : Thread nD τ) (gm0 t) fullShare ((gramDat V c).after 0 t)
    ∗ owns (c : Thread nD τ) (gm1 t) fullShare ((gramDat V c).after 1 t)
    ∗ owns (c : Thread nD τ) (gm2 t) fullShare ((gramDat V c).after 2 t)
    ∗ owns (c : Thread nD τ) (gm3 t) fullShare ((gramDat V c).after 3 t)
    ∗ owns (c : Thread nD τ) (gm4 t) fullShare ((gramDat V c).after 4 t)
    ∗ owns (c : Thread nD τ) (gm5 t) fullShare ((gramDat V c).after 5 t)
    ∗ owns (c : Thread nD τ) (gm6 t) fullShare ((gramDat V c).after 6 t)
    ∗ owns (c : Thread nD τ) (gm7 t) fullShare ((gramDat V c).after 7 t))

set_option maxHeartbeats 1600000 in
theorem gramSoundBody (c : Dev nD) (t : Fin cfg0.N) :
    gramPre V c t ⊢ wp frame (wpE (defs₀ (F := F)) Variants.none c none) Set.univ (bodyAt0 t) (fun _ => gramPost V c t) := by
  unfold gramPre gramPost bodyAt0
  simp only [gramBefore0, gramBefore1, gramBefore2, gramBefore3]
  rw [show (gramDat V c).Φ t.succ = (gramDat V c).Φ t.castSucc from rfl,
    show (gramDat V c).owesAt () t.succ = (gramDat V c).owesAt () t.castSucc from rfl,
    gramAfter0, gramAfter1, gramAfter2, gramAfter3, gramAfter4, gramAfter5, gramAfter6, gramAfter7]
  have hN : t.val < 32 := lt_of_lt_of_eq t.isLt (show cfg0.N = 32 from N_0)
  by_cases h0 : t.val % 16 = 0
  · rw [gramOuts_reset V c t h0]
    dsimp only
    unfold gramOutReset4 gramOutReset5 gramOutReset6 gramOutReset7
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((gramRunReset c (grid0.coords t) _ _ _ _ _ _ _ _ _ _ _ _ _ _ _ _ ((gramFirst_iff t).mpr h0) (gramBlk V c 0 t) (gramBlk V c 1 t) (gramBlk V c 2 t) (gramBlk V c 3 t)).2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    iintro ⟨H0, H1, H2, H3, ⟨%e4, H4⟩, ⟨%e5, H5⟩, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (gramCoverReset4 c _ _ _ _ _ _ _ _ _ _ _ _ _ _ _ _ _ _ _ _ _ _)
    isplitl [H5]
    · unfold owns; iexists _; isplitr
      swap; · iexact H5
      ipureintro; exact View.read_writes_of_cover _ _ _ _ _ (gramCoverReset5 c _ _ _ _ _ _ _ _ _ _ _ _ _ _ _ _ _ _ _ _ _ _)
    isplitl [H6]
    · unfold owns; iexists _; isplitr
      swap; · iexact H6
      ipureintro; exact View.read_writes_of_cover _ _ _ _ _ (gramCoverReset6 c _ _ _ _ _ _ _ _ _ _ _ _ _ _ _ _ _ _ _ _ _ _)
    unfold owns; iexists _; isplitr
    swap; · iexact H7
    ipureintro; exact View.read_writes_of_cover _ _ _ _ _ (gramCoverReset7 c _ _ _ _ _ _ _ _ _ _ _ _ _ _ _ _ _ _ _ _ _ _)
  · simp only [gramBefore4_later V c t h0, gramBefore5_later V c t h0, gramBefore6_later V c t h0, gramBefore7_later V c t h0]
    rw [gramOuts_add V c t h0]
    dsimp only
    unfold gramOutAdd4 gramOutAdd5 gramOutAdd6 gramOutAdd7
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((gramRunAdd c (grid0.coords t) _ _ _ _ _ _ _ _ _ _ _ _ _ _ _ _ (fun h => h0 ((gramFirst_iff t).mp h)) (gramBlk V c 0 t) (gramBlk V c 1 t) (gramBlk V c 2 t) (gramBlk V c 3 t) _ _ _ _).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iintro ⟨H0, H1, H2, H3, ⟨%e4, H4⟩, ⟨%e5, H5⟩, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (gramCoverAdd4 c _ _ _ _ _ _ _ _ _ _ _ _ _ _ _ _ _ _ _ _ _ _ _ _ _ _)
    isplitl [H5]
    · unfold owns; iexists _; isplitr
      swap; · iexact H5
      ipureintro; exact View.read_writes_of_cover _ _ _ _ _ (gramCoverAdd5 c _ _ _ _ _ _ _ _ _ _ _ _ _ _ _ _ _ _ _ _ _ _ _ _ _ _)
    isplitl [H6]
    · unfold owns; iexists _; isplitr
      swap; · iexact H6
      ipureintro; exact View.read_writes_of_cover _ _ _ _ _ (gramCoverAdd6 c _ _ _ _ _ _ _ _ _ _ _ _ _ _ _ _ _ _ _ _ _ _ _ _ _ _)
    unfold owns; iexists _; isplitr
    swap; · iexact H7
    ipureintro; exact View.read_writes_of_cover _ _ _ _ _ (gramCoverAdd7 c _ _ _ _ _ _ _ _ _ _ _ _ _ _ _ _ _ _ _ _ _ _ _ _ _ _)

/-- The pipeline's body obligation for the region, at every point. -/
theorem gramBodyObligation (c : Dev nD) : BodyObligation (gramDat (F := F) V c) (defs₀ (F := F)) Variants.none () Set.univ := fun t => by
  rw [bigSep_W0, bigSep_W0]
  exact gramSoundBody V c t

end GramRegion

end Cert.KernelIdeal.Hand

end
-- ==== Proof.LibFrameShared.lean ====
/-
  The frame run of a one-region pipeline kernel whose INPUT windows may share an array.

  When one array of @main is handed to a kernel through several input windows, the windows' arrays are no longer
  pairwise distinct buffers, so the full share of the shared buffer has to be dealt among the windows that read it.
  The launch theorem for that layout asks the certificate how the distinct buffers behind the arrays, each whole at
  the full share, make up the proof data's arrays at entry (`hsplit`). This file states the frame run on top of it, in
  the same form as the frame run for distinct arrays: the region invariant is the core's scoped rest (the kernel's
  scratch, at some contents), every unscoped buffer that is no window's array bypasses the region and is read back at
  the end unchanged, and every window's array ends at the contents the proof data compute (`FramePost`).
  It also lists the distinct buffers behind the arrays as a chain of points-tos (`arrBufs_eq_of_list`).
-/
import Idealize.ShloMosaic.Lib.Pipeline.Frame

noncomputable section

namespace Idealize.ShloMosaic.Pipeline

open Idealize.SL
open Idealize.SL.BI (sProp bigSep bigSep_map)
open scoped Idealize.SL.BI
open Idealize.SL.BI.BIBase Idealize.SL.BI.Laws Idealize.SL.Sem Idealize.SL.ProofMode
open Idealize.SL.RA
open TcCoe
open Idealize.ShloMosaic.Rounds

variable {nD : Nat} {τ : Topo} {sig : RefSig} {Val : EltTy → Type}

section Listed

variable {Ix : Type} [DecidableEq Ix] {Name : Type} [DecidableEq Name] {U : Type} [URA U] {Lvl : Type}

/-- The distinct buffers behind the windows' arrays, listed: `arrBufs` is the chain of their points-tos, each whole
    at the full share at contents `V`. -/
theorem arrBufs_eq_of_list {gr : Nat} {W : Nat} (win : Fin W → WinSpec sig gr) (c : Dev nD)
    (V : (b : Ref sig .tc) → Buf Val ((c.tc : Thread nD τ).loc b)) (l : List (Ref sig .tc))
    (h : Finset.univ.image (arrRef win) = l.toFinset) (hl : l.Nodup) :
    (arrBufs (Ix := Ix) (Name := Name) (U := U) (Lvl := Lvl) win c V : sProp (MT nD τ sig Ix Val Name U Lvl))
      = BI.bigSepL l fun b => ((c.tc : Thread nD τ).loc b) ↦{fullShare} V b := by
  unfold arrBufs; exact BI.bigSep_eq_bigSepL_of_eq l h hl _

end Listed

section Frame

variable {Λ₀ : SL.Sem.Labels} {P : Type} [Fintype P] [DecidableEq P] [∀ e, Nonempty (Val e)]

local notation "𝕄" => MT nD τ sig Unit Val ℕ (UR sig nD τ) ℕ

/-- THE FRAME RUN of a one-region kernel with no semaphore of its own whose input windows may share arrays: from any
    memory with zero counters every weakly fair execution of @main on the TensorCores terminates, and in every final
    state each window's array holds what the proof data compute (`Dat.arrAt … N`) and every other unscoped buffer what
    it held at the region's entry (`V`). The certificate supplies the layout facts one by one, the proof data with
    the scoped rest as the invariant at the first and after the last point (`hin`, `hout`), the body obligation,
    @main up to the region (`hmain`), and how the buffers behind the arrays are dealt among the windows (`hsplit`). -/
theorem θ_run_frame_shared (cfgs : P → Cfg sig Λ₀)
    (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hin : ∀ c, (scopedRest (cfgs p).spec c : sProp 𝕄) ⊢ (dats p c).Φ 0)
    (hout : ∀ c, (dats p c).Φ (Fin.last (cfgs p).N) ⊢ (scopedRest (cfgs p).spec c : sProp 𝕄)) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj)) (hu₀ := .rfl)
    (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro H; isplitr
      · iempintro
      · iexact H)
    (hin := fun c => (show _ ⊢ (scopedRest (cfgs p).spec c : sProp 𝕄) from by iintro ⟨-, H⟩; iexact H).trans (hin c))
    (hout := fun c => (hout c).trans (by
      iintro H; isplitr
      · iempintro
      · iexact H))
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Frame

end Idealize.ShloMosaic.Pipeline

end
-- ==== Proof.GramShares.lean ====
/-
  The first region reads each of the two argument arrays through two windows. A buffer held whole at the full share can
  be held as two halves of that share, one per window, and two halves at the same contents make the full share again.
  This module sorts the region's eight window arrays out of the core's unscoped buffers on entry — six distinct buffers,
  the two argument arrays dealt in halves — and puts them back on exit, the four result arrays then at the contents the
  region's write-backs leave and everything else as it was.
-/
import proofs.«169696_j47545287967528_2_alg».proof.Proof.GramRegion
import proofs.«169696_j47545287967528_2_alg».proof.Proof.LibFrameShared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section GramShares

variable (Vp : (c : Dev nD) → (b : Ref sig .tc) → Buf (Elt F) ((c : Thread nD τ).loc b))

theorem gramShare0 (c : Dev nD) : (gramDat Vp c).share 0 = fullShare.left := rfl
theorem gramShare1 (c : Dev nD) : (gramDat Vp c).share 1 = fullShare.left := rfl
theorem gramShare2 (c : Dev nD) : (gramDat Vp c).share 2 = fullShare.right := rfl
theorem gramShare3 (c : Dev nD) : (gramDat Vp c).share 3 = fullShare.right := rfl
theorem gramShare4 (c : Dev nD) : (gramDat Vp c).share 4 = fullShare := rfl
theorem gramShare5 (c : Dev nD) : (gramDat Vp c).share 5 = fullShare := rfl
theorem gramShare6 (c : Dev nD) : (gramDat Vp c).share 6 = fullShare := rfl
theorem gramShare7 (c : Dev nD) : (gramDat Vp c).share 7 = fullShare := rfl

/-- The six distinct buffers behind the eight window arrays. -/
abbrev gramBufs : List (Ref sig .tc) := [main_arg0, main_arg1, main_v0_0, main_v0_1, main_v0_2, main_v0_3]

/-- The six buffers, each whole at the full share, as a chain. -/
theorem gramBufs_eq (c : Dev nD) (V : (b : Ref sig .tc) → Buf (Elt F) ((c : Thread nD τ).loc b)) :
    (Pipeline.arrBufs (Ix := Unit) (Name := ℕ) (U := UR sig nD τ) (Lvl := ℕ) (cfgs (0 : Fin 2)).spec c V : sProp 𝕄)
      = iprop((((c : Thread nD τ).loc main_arg0) ↦{fullShare} V main_arg0) ∗ (((c : Thread nD τ).loc main_arg1) ↦{fullShare} V main_arg1)
          ∗ (((c : Thread nD τ).loc main_v0_0) ↦{fullShare} V main_v0_0) ∗ (((c : Thread nD τ).loc main_v0_1) ↦{fullShare} V main_v0_1)
          ∗ (((c : Thread nD τ).loc main_v0_2) ↦{fullShare} V main_v0_2) ∗ (((c : Thread nD τ).loc main_v0_3) ↦{fullShare} V main_v0_3)) := by
  rw [Pipeline.arrBufs_eq_of_list (cfgs (0 : Fin 2)).spec c V gramBufs (by decide) (by decide)]
  rfl

/-- The eight window arrays at contents `A`, as a chain: the argument arrays at half shares, the results at the full share. -/
theorem gramArrays_eq (c : Dev nD) (A : (w : Fin cfg0.W) → Buf (Elt F) ((cfg0.win w).arr.view.loc (c : Thread nD τ))) :
    ((gramDat Vp c).arrays A : sProp 𝕄)
      = iprop((((c : Thread nD τ).loc main_arg0) ↦{fullShare.left} A 0) ∗ (((c : Thread nD τ).loc main_arg1) ↦{fullShare.left} A 1)
          ∗ (((c : Thread nD τ).loc main_arg0) ↦{fullShare.right} A 2) ∗ (((c : Thread nD τ).loc main_arg1) ↦{fullShare.right} A 3)
          ∗ (((c : Thread nD τ).loc main_v0_0) ↦{fullShare} A 4) ∗ (((c : Thread nD τ).loc main_v0_1) ↦{fullShare} A 5)
          ∗ (((c : Thread nD τ).loc main_v0_2) ↦{fullShare} A 6) ∗ (((c : Thread nD τ).loc main_v0_3) ↦{fullShare} A 7)) := by
  unfold Dat.arrays
  rw [bigSep_W0]
  simp only [gramShare0, gramShare1, gramShare2, gramShare3, gramShare4, gramShare5, gramShare6, gramShare7, View.set_whole]

/-- ENTRY: the unscoped buffers at `V` are the region's arrays at its entry contents (read off `V`) and the rest. -/
theorem gramEntry (c : Dev nD) (V : (b : Ref sig .tc) → Buf (Elt F) ((c : Thread nD τ).loc b))
    (hA : ∀ w, (gramDat Vp c).A w = V (Pipeline.arrRef spec0 w)) :
    (unscopedBufs c V : sProp 𝕄) ⊢ iprop((gramDat Vp c).arrays ((gramDat Vp c).arrAt · 0)
      ∗ Pipeline.unscopedRest (Ix := Unit) (Name := ℕ) (U := UR sig nD τ) (Lvl := ℕ) spec0 c V) := by
  rw [Pipeline.unscopedBufs_split₀ cfgs (0 : Fin 2) winFacts₀0.arr_unscoped c V]
  refine sep_mono ?_ .rfl
  have e : ((gramDat Vp c).arrAt · 0) = fun w => V (Pipeline.arrRef spec0 w) :=
    funext fun w => (show (gramDat Vp c).arrAt w 0 = (gramDat Vp c).A w from rfl).trans (hA w)
  rw [e, gramBufs_eq, gramArrays_eq]
  iintro ⟨H0, H1, H4, H5, H6, H7⟩
  ihave H0' := (pointsTo_share (PosShare.mem_left_op_right fullShare)).1 $$ H0
  icases H0' with ⟨H0l, H0r⟩
  ihave H1' := (pointsTo_share (PosShare.mem_left_op_right fullShare)).1 $$ H1
  icases H1' with ⟨H1l, H1r⟩
  isplitl [H0l]; · iexact H0l
  isplitl [H1l]; · iexact H1l
  isplitl [H0r]; · iexact H0r
  isplitl [H1r]; · iexact H1r
  isplitl [H4]; · iexact H4
  isplitl [H5]; · iexact H5
  isplitl [H6]; · iexact H6
  iexact H7

/-- EXIT: the region's arrays at their final contents and the rest make the unscoped buffers at `V'`, which holds the
    four result arrays at those final contents and agrees with `V` elsewhere; the input windows' arrays end as they began. -/
theorem gramExit (c : Dev nD) (V V' : (b : Ref sig .tc) → Buf (Elt F) ((c : Thread nD τ).loc b))
    (hA : ∀ w, (gramDat Vp c).A w = V (Pipeline.arrRef spec0 w))
    (h4 : V' main_v0_0 = (gramDat Vp c).arrAt 4 cfg0.N) (h5 : V' main_v0_1 = (gramDat Vp c).arrAt 5 cfg0.N)
    (h6 : V' main_v0_2 = (gramDat Vp c).arrAt 6 cfg0.N) (h7 : V' main_v0_3 = (gramDat Vp c).arrAt 7 cfg0.N)
    (hrest : ∀ b, b ∉ ([main_v0_0, main_v0_1, main_v0_2, main_v0_3] : List (Ref sig .tc)) → V' b = V b) :
    iprop((gramDat Vp c).arrays ((gramDat Vp c).arrAt · cfg0.N)
      ∗ Pipeline.unscopedRest (Ix := Unit) (Name := ℕ) (U := UR sig nD τ) (Lvl := ℕ) spec0 c V) ⊢ (unscopedBufs c V' : sProp 𝕄) := by
  rw [Pipeline.unscopedBufs_split₀ cfgs (0 : Fin 2) winFacts₀0.arr_unscoped c V']
  refine sep_mono ?_ (Entails.of_eq ?_)
  · rw [gramBufs_eq, gramArrays_eq]
    rw [(gramDat Vp c).arrAt_in 0 rfl cfg0.N, (gramDat Vp c).arrAt_in 1 rfl cfg0.N, (gramDat Vp c).arrAt_in 2 rfl cfg0.N,
      (gramDat Vp c).arrAt_in 3 rfl cfg0.N, hA 0, hA 1, hA 2, hA 3, h4, h5, h6, h7,
      hrest main_arg0 (by decide), hrest main_arg1 (by decide)]
    iintro ⟨H0l, H1l, H0r, H1r, H4, H5, H6, H7⟩
    isplitl [H0l H0r]
    · iapply (pointsTo_share (PosShare.mem_left_op_right fullShare)).2
      isplitl [H0l]; · iexact H0l
      iexact H0r
    isplitl [H1l H1r]
    · iapply (pointsTo_share (PosShare.mem_left_op_right fullShare)).2
      isplitl [H1l]; · iexact H1l
      iexact H1r
    isplitl [H4]; · iexact H4
    isplitl [H5]; · iexact H5
    isplitl [H6]; · iexact H6
    iexact H7
  · unfold Pipeline.unscopedRest
    exact bigSep_congr fun b hb => by
      rw [hrest b (fun hmem => (Finset.mem_sdiff.mp hb).2 (by
        rcases List.mem_cons.mp hmem with rfl | hmem
        · exact Finset.mem_image.mpr ⟨4, Finset.mem_univ _, rfl⟩
        rcases List.mem_cons.mp hmem with rfl | hmem
        · exact Finset.mem_image.mpr ⟨5, Finset.mem_univ _, rfl⟩
        rcases List.mem_cons.mp hmem with rfl | hmem
        · exact Finset.mem_image.mpr ⟨6, Finset.mem_univ _, rfl⟩
        rcases List.mem_cons.mp hmem with rfl | hmem
        · exact Finset.mem_image.mpr ⟨7, Finset.mem_univ _, rfl⟩
        exact (List.not_mem_nil hmem).elim))]

end GramShares

end Cert.KernelIdeal.Hand

end
-- ==== Proof.LossRunsCommon.lean ====
/-
  The second kernel region adds, at each of its eight grid points r, the masked sum of squared distance
  differences of one slab of 128 rows into a single [1,1] cell, which it clears at r = 0 and divides by the
  number of pairs at r = 7. This module holds what the three control cases of that body share: the two branch
  conditions as the body spells them over the grid coordinate, their closed forms over the grid, and the names of
  the staging memrefs the body is called with at a point.
-/
import proofs.«169696_j47545287967528_2_alg».proof.Proof.Gen.KernelIdeal.Launch
import proofs.«169696_j47545287967528_2_alg».proof.Proof.Gen.KernelIdeal.Skeleton
import proofs.«169696_j47545287967528_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- "This is the first slab" (r = 0), as the body computes it from the grid coordinate. -/
abbrev lossFirst (i : grid1.Coords) : Prop :=
  (Scalar.cmpi .ne (Scalar.extui (Scalar.cmpi .eq (BitVec.ofNat 32 (i 0).val) 0#32)) 0#32) = 1#1
/-- "This is the last slab" (r = 7), as the body computes it from the grid coordinate. -/
abbrev lossLast (i : grid1.Coords) : Prop :=
  (Scalar.cmpi .ne (Scalar.extui (Scalar.cmpi .eq (BitVec.ofNat 32 (i 0).val) 7#32)) 0#32) = 1#1

/-- Over the eight points the first condition holds exactly at point 0 … -/
theorem lossFirst_iff : ∀ t : Fin cfg1.N, lossFirst (grid1.coords t) ↔ t.val % 8 = 0 :=
  (by decide +kernel : ∀ t : Fin grid1.N, lossFirst (grid1.coords t) ↔ t.val % 8 = 0)
/-- … and the second exactly at point 7. -/
theorem lossLast_iff : ∀ t : Fin cfg1.N, lossLast (grid1.coords t) ↔ t.val % 8 = 7 :=
  (by decide +kernel : ∀ t : Fin grid1.N, lossLast (grid1.coords t) ↔ t.val % 8 = 7)

/-- One staging buffer of the [1,1] result window, through which its contents are stated (the choice does not matter). -/
abbrev lossCell : View sig .tc .vmem S1x1 .f32 := (Memref.whole cc1_stg6_0 : Memref sig .tc .vmem S1x1 .f32).view

/-- The staging memref of each window at point `t`, spelled as the pipeline passes it to the body, and its wholeness. -/
abbrev lm0 (t : Fin cfg1.N) : Memref sig .tc .vmem S128x1024 .f32 := win1_0.stage (cfg1.slots t 0)
abbrev lh0 (t : Fin cfg1.N) : (lm0 t).IsWhole := hstage1_0 ((cfg1.slots t 0).cast nbuf1_0)
abbrev lm1 (t : Fin cfg1.N) : Memref sig .tc .vmem S128x1024 .f32 := win1_1.stage (cfg1.slots t 1)
abbrev lh1 (t : Fin cfg1.N) : (lm1 t).IsWhole := hstage1_1 ((cfg1.slots t 1).cast nbuf1_1)
abbrev lm2 (t : Fin cfg1.N) : Memref sig .tc .vmem S128x1 .f32 := win1_2.stage (cfg1.slots t 2)
abbrev lh2 (t : Fin cfg1.N) : (lm2 t).IsWhole := hstage1_2 ((cfg1.slots t 2).cast nbuf1_2)
abbrev lm3 (t : Fin cfg1.N) : Memref sig .tc .vmem S128x1 .f32 := win1_3.stage (cfg1.slots t 3)
abbrev lh3 (t : Fin cfg1.N) : (lm3 t).IsWhole := hstage1_3 ((cfg1.slots t 3).cast nbuf1_3)
abbrev lm4 (t : Fin cfg1.N) : Memref sig .tc .vmem S1x1024 .f32 := win1_4.stage (cfg1.slots t 4)
abbrev lh4 (t : Fin cfg1.N) : (lm4 t).IsWhole := hstage1_4 ((cfg1.slots t 4).cast nbuf1_4)
abbrev lm5 (t : Fin cfg1.N) : Memref sig .tc .vmem S1x1024 .f32 := win1_5.stage (cfg1.slots t 5)
abbrev lh5 (t : Fin cfg1.N) : (lm5 t).IsWhole := hstage1_5 ((cfg1.slots t 5).cast nbuf1_5)
abbrev lm6 (t : Fin cfg1.N) : Memref sig .tc .vmem S1x1 .f32 := win1_6.stage (cfg1.slots t 6)
abbrev lh6 (t : Fin cfg1.N) : (lm6 t).IsWhole := hstage1_6 ((cfg1.slots t 6).cast nbuf1_6)

end Cert.KernelIdeal.Hand

end
-- ==== Proof.LossRunFirst.lean ====
/-
  The body of the second region at its first grid point (r = 0, not the last): it clears the [1,1] cell, then adds the slab's masked sum into it.
-/
import proofs.«169696_j47545287967528_2_alg».proof.Proof.LossRunsCommon

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores this case leaves in the [1,1] cell, as a list of pieces (last first), together with the fact that on
    whole staging memrefs — the six inputs at their contents, the cell at anything — the body runs to its
    continuation with the inputs as they were and the cell with those pieces written. -/
noncomputable def lossRunFirst (c : Dev nD) (i : grid1.Coords) (arg1 : Memref sig .tc .vmem S128x1024 .f32) (harg1 : arg1.IsWhole) (arg2 : Memref sig .tc .vmem S128x1024 .f32) (harg2 : arg2.IsWhole) (arg3 : Memref sig .tc .vmem S128x1 .f32) (harg3 : arg3.IsWhole) (arg4 : Memref sig .tc .vmem S128x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1 .f32) (harg7 : arg7.IsWhole) (hc0 : lossFirst i) (hc1 : ¬lossLast i)
    (x0 : Vec F S128x1024 .f32) (x1 : Vec F S128x1024 .f32) (x2 : Vec F S128x1 .f32) (x3 : Vec F S128x1 .f32) (x4 : Vec F S1x1024 .f32) (x5 : Vec F S1x1024 .f32) :
    { L : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L)) -∗ K ⟨⟩))
          ⊢ wp frame (wpE (defs₀ (F := F)) Variants.none c none) E (cc1__kernel_b_body i arg1 harg1 arg2 harg2 arg3 harg3 arg4 harg4 arg5 harg5 arg6 harg6 arg7 harg7) K } := by
  refine ⟨?_, fun E K => ?run⟩
  case run =>
    simp only [cc1__kernel_b_body_eq_skeleton]; unfold cc1__kernel_b_body_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact H6

end Cert.KernelIdeal.Hand

end
-- ==== Proof.LossRunMiddle.lean ====
/-
  The body of the second region at a middle grid point (0 < r < 7): it adds the slab's masked sum into the [1,1] cell, which holds what the point before left.
-/
import proofs.«169696_j47545287967528_2_alg».proof.Proof.LossRunFirst

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores this case leaves in the [1,1] cell, as a list of pieces (last first), together with the fact that on
    whole staging memrefs — the six inputs at their contents, the cell at what the point before left — the body runs to its
    continuation with the inputs as they were and the cell with those pieces written. -/
noncomputable def lossRunMiddle (c : Dev nD) (i : grid1.Coords) (arg1 : Memref sig .tc .vmem S128x1024 .f32) (harg1 : arg1.IsWhole) (arg2 : Memref sig .tc .vmem S128x1024 .f32) (harg2 : arg2.IsWhole) (arg3 : Memref sig .tc .vmem S128x1 .f32) (harg3 : arg3.IsWhole) (arg4 : Memref sig .tc .vmem S128x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1 .f32) (harg7 : arg7.IsWhole) (hc0 : ¬lossFirst i) (hc1 : ¬lossLast i)
    (x0 : Vec F S128x1024 .f32) (x1 : Vec F S128x1024 .f32) (x2 : Vec F S128x1 .f32) (x3 : Vec F S128x1 .f32) (x4 : Vec F S1x1024 .f32) (x5 : Vec F S1x1024 .f32) (xo : Vec F S1x1 .f32) :
    { L : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xo
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L)) -∗ K ⟨⟩))
          ⊢ wp frame (wpE (defs₀ (F := F)) Variants.none c none) E (cc1__kernel_b_body i arg1 harg1 arg2 harg2 arg3 harg3 arg4 harg4 arg5 harg5 arg6 harg6 arg7 harg7) K } := by
  refine ⟨?_, fun E K => ?run⟩
  case run =>
    simp only [cc1__kernel_b_body_eq_skeleton]; unfold cc1__kernel_b_body_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact H6

end Cert.KernelIdeal.Hand

end
-- ==== Proof.LossRunLast.lean ====
/-
  The body of the second region at its last grid point (r = 7): it adds the slab's masked sum into the [1,1] cell, which holds what the point before left, then divides the cell by the number of pairs.
-/
import proofs.«169696_j47545287967528_2_alg».proof.Proof.LossRunMiddle

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores this case leaves in the [1,1] cell, as a list of pieces (last first), together with the fact that on
    whole staging memrefs — the six inputs at their contents, the cell at what the point before left — the body runs to its
    continuation with the inputs as they were and the cell with those pieces written. -/
noncomputable def lossRunLast (c : Dev nD) (i : grid1.Coords) (arg1 : Memref sig .tc .vmem S128x1024 .f32) (harg1 : arg1.IsWhole) (arg2 : Memref sig .tc .vmem S128x1024 .f32) (harg2 : arg2.IsWhole) (arg3 : Memref sig .tc .vmem S128x1 .f32) (harg3 : arg3.IsWhole) (arg4 : Memref sig .tc .vmem S128x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1 .f32) (harg7 : arg7.IsWhole) (hc0 : ¬lossFirst i) (hc1 : lossLast i)
    (x0 : Vec F S128x1024 .f32) (x1 : Vec F S128x1024 .f32) (x2 : Vec F S128x1 .f32) (x3 : Vec F S128x1 .f32) (x4 : Vec F S1x1024 .f32) (x5 : Vec F S1x1024 .f32) (xo : Vec F S1x1 .f32) :
    { L : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xo
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L)) -∗ K ⟨⟩))
          ⊢ wp frame (wpE (defs₀ (F := F)) Variants.none c none) E (cc1__kernel_b_body i arg1 harg1 arg2 harg2 arg3 harg3 arg4 harg4 arg5 harg5 arg6 harg6 arg7 harg7) K } := by
  refine ⟨?_, fun E K => ?run⟩
  case run =>
    simp only [cc1__kernel_b_body_eq_skeleton]; unfold cc1__kernel_b_body_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact H6

end Cert.KernelIdeal.Hand

end
-- ==== Proof.LossRegion.lean ====
/-
  The second kernel region as a whole, at a parameter `V` — the contents of the core's buffers when the region is
  entered. A window's block at a grid point is read off its array in `V`. After the body at point r the [1,1] cell
  holds: at r = 0, the clearing store overwritten by the first slab's sum; at 0 < r < 7, what the point before left
  plus the slab's sum; at r = 7, that, divided by the number of pairs — a recursion over the points, each step the
  case's stores read back. The six inputs' staging buffers hold their blocks at every point, fetched there or not
  (the two [1,1024] rows are fetched once: their block index never moves). From these, the body's obligation to the
  pipeline at every point, by cases on where the point is.
-/
import proofs.«169696_j47545287967528_2_alg».proof.Proof.LossRunLast

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section LossRegion

variable (V : (c : Dev nD) → (b : Ref sig .tc) → Buf (Elt F) ((c : Thread nD τ).loc b))

/-- Window `w`'s block at point `t`, read off its array as the region finds it. -/
def lossBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input's current staging buffer holds its block at every point, for any proof data whose array is `V`'s and
    whose body leaves the block in place. -/
theorem lossBefore0_of {c : Dev nD} (dat : Dat τ (Elt F) Unit ℕ (UR sig nD τ) ℕ cfg1 c) (hA : dat.A 0 = V c (Pipeline.arrRef spec1 0))
    (hafter : ∀ t, dat.after 0 t = lossBlk V c 0 t) (t : Fin cfg1.N) (d) : dat.before 0 t d = lossBlk V c 0 t :=
  (dat.before_in_eq_fetched 0 rfl (fun _ => rfl) (fun _ _ _ => rfl) (fun t => by rw [hafter]; unfold Dat.blockOf lossBlk; rw [hA]; try rfl) t d).trans
    (by unfold Dat.fetched Dat.blockOf lossBlk; rw [hA]; try rfl)
theorem lossBefore1_of {c : Dev nD} (dat : Dat τ (Elt F) Unit ℕ (UR sig nD τ) ℕ cfg1 c) (hA : dat.A 1 = V c (Pipeline.arrRef spec1 1))
    (hafter : ∀ t, dat.after 1 t = lossBlk V c 1 t) (t : Fin cfg1.N) (d) : dat.before 1 t d = lossBlk V c 1 t :=
  (dat.before_in_eq_fetched 1 rfl (fun _ => rfl) (fun _ _ _ => rfl) (fun t => by rw [hafter]; unfold Dat.blockOf lossBlk; rw [hA]; try rfl) t d).trans
    (by unfold Dat.fetched Dat.blockOf lossBlk; rw [hA]; try rfl)
theorem lossBefore2_of {c : Dev nD} (dat : Dat τ (Elt F) Unit ℕ (UR sig nD τ) ℕ cfg1 c) (hA : dat.A 2 = V c (Pipeline.arrRef spec1 2))
    (hafter : ∀ t, dat.after 2 t = lossBlk V c 2 t) (t : Fin cfg1.N) (d) : dat.before 2 t d = lossBlk V c 2 t :=
  (dat.before_in_eq_fetched 2 rfl (fun _ => rfl) (fun _ _ _ => rfl) (fun t => by rw [hafter]; unfold Dat.blockOf lossBlk; rw [hA]; try rfl) t d).trans
    (by unfold Dat.fetched Dat.blockOf lossBlk; rw [hA]; try rfl)
theorem lossBefore3_of {c : Dev nD} (dat : Dat τ (Elt F) Unit ℕ (UR sig nD τ) ℕ cfg1 c) (hA : dat.A 3 = V c (Pipeline.arrRef spec1 3))
    (hafter : ∀ t, dat.after 3 t = lossBlk V c 3 t) (t : Fin cfg1.N) (d) : dat.before 3 t d = lossBlk V c 3 t :=
  (dat.before_in_eq_fetched 3 rfl (fun _ => rfl) (fun _ _ _ => rfl) (fun t => by rw [hafter]; unfold Dat.blockOf lossBlk; rw [hA]; try rfl) t d).trans
    (by unfold Dat.fetched Dat.blockOf lossBlk; rw [hA]; try rfl)
theorem lossBefore4_of {c : Dev nD} (dat : Dat τ (Elt F) Unit ℕ (UR sig nD τ) ℕ cfg1 c) (hA : dat.A 4 = V c (Pipeline.arrRef spec1 4))
    (hafter : ∀ t, dat.after 4 t = lossBlk V c 4 t) (t : Fin cfg1.N) (d) : dat.before 4 t d = lossBlk V c 4 t :=
  (dat.before_in_eq_fetched 4 rfl (fun _ => rfl) (fun _ _ _ => rfl) (fun t => by rw [hafter]; unfold Dat.blockOf lossBlk; rw [hA]; try rfl) t d).trans
    (by unfold Dat.fetched Dat.blockOf lossBlk; rw [hA]; try rfl)
theorem lossBefore5_of {c : Dev nD} (dat : Dat τ (Elt F) Unit ℕ (UR sig nD τ) ℕ cfg1 c) (hA : dat.A 5 = V c (Pipeline.arrRef spec1 5))
    (hafter : ∀ t, dat.after 5 t = lossBlk V c 5 t) (t : Fin cfg1.N) (d) : dat.before 5 t d = lossBlk V c 5 t :=
  (dat.before_in_eq_fetched 5 rfl (fun _ => rfl) (fun _ _ _ => rfl) (fun t => by rw [hafter]; unfold Dat.blockOf lossBlk; rw [hA]; try rfl) t d).trans
    (by unfold Dat.fetched Dat.blockOf lossBlk; rw [hA]; try rfl)

/-! ## What each case leaves in the cell: its stores cover the one entry, so reading them back over anything is determined -/

theorem lossCoverFirst (c : Dev nD) (i : grid1.Coords) (arg1 : Memref sig .tc .vmem S128x1024 .f32) (harg1 : arg1.IsWhole) (arg2 : Memref sig .tc .vmem S128x1024 .f32) (harg2 : arg2.IsWhole) (arg3 : Memref sig .tc .vmem S128x1 .f32) (harg3 : arg3.IsWhole) (arg4 : Memref sig .tc .vmem S128x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1 .f32) (harg7 : arg7.IsWhole) (hc0 : lossFirst i) (hc1 : ¬lossLast i)
    (x0 : Vec F S128x1024 .f32) (x1 : Vec F S128x1024 .f32) (x2 : Vec F S128x1 .f32) (x3 : Vec F S128x1 .f32) (x4 : Vec F S1x1024 .f32) (x5 : Vec F S1x1024 .f32) (y : S1x1.Idx) :
    ∃ pc ∈ (lossRunFirst c i arg1 harg1 arg2 harg2 arg3 harg3 arg4 harg4 arg5 harg5 arg6 harg6 arg7 harg7 hc0 hc1 x0 x1 x2 x3 x4 x5).1, y ∈ pc.1.set :=
  View.cover_of_tiledL (lossRunFirst c i arg1 harg1 arg2 harg2 arg3 harg3 arg4 harg4 arg5 harg5 arg6 harg6 arg7 harg7 hc0 hc1 x0 x1 x2 x3 x4 x5).1 S1x1.size (by sl_kernel_rfl) y
def lossOutFirst (c : Dev nD) (i : grid1.Coords) (arg1 : Memref sig .tc .vmem S128x1024 .f32) (harg1 : arg1.IsWhole) (arg2 : Memref sig .tc .vmem S128x1024 .f32) (harg2 : arg2.IsWhole) (arg3 : Memref sig .tc .vmem S128x1 .f32) (harg3 : arg3.IsWhole) (arg4 : Memref sig .tc .vmem S128x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1 .f32) (harg7 : arg7.IsWhole) (hc0 : lossFirst i) (hc1 : ¬lossLast i)
    (x0 : Vec F S128x1024 .f32) (x1 : Vec F S128x1024 .f32) (x2 : Vec F S128x1 .f32) (x3 : Vec F S128x1 .f32) (x4 : Vec F S1x1024 .f32) (x5 : Vec F S1x1024 .f32) : Vec F S1x1 .f32 :=
  lossCell.read (Elt F) (lossCell.writes (Elt F) lossCell.junk (lossRunFirst c i arg1 harg1 arg2 harg2 arg3 harg3 arg4 harg4 arg5 harg5 arg6 harg6 arg7 harg7 hc0 hc1 x0 x1 x2 x3 x4 x5).1)

theorem lossCoverMiddle (c : Dev nD) (i : grid1.Coords) (arg1 : Memref sig .tc .vmem S128x1024 .f32) (harg1 : arg1.IsWhole) (arg2 : Memref sig .tc .vmem S128x1024 .f32) (harg2 : arg2.IsWhole) (arg3 : Memref sig .tc .vmem S128x1 .f32) (harg3 : arg3.IsWhole) (arg4 : Memref sig .tc .vmem S128x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1 .f32) (harg7 : arg7.IsWhole) (hc0 : ¬lossFirst i) (hc1 : ¬lossLast i)
    (x0 : Vec F S128x1024 .f32) (x1 : Vec F S128x1024 .f32) (x2 : Vec F S128x1 .f32) (x3 : Vec F S128x1 .f32) (x4 : Vec F S1x1024 .f32) (x5 : Vec F S1x1024 .f32) (xo : Vec F S1x1 .f32) (y : S1x1.Idx) :
    ∃ pc ∈ (lossRunMiddle c i arg1 harg1 arg2 harg2 arg3 harg3 arg4 harg4 arg5 harg5 arg6 harg6 arg7 harg7 hc0 hc1 x0 x1 x2 x3 x4 x5 xo).1, y ∈ pc.1.set :=
  View.cover_of_tiledL (lossRunMiddle c i arg1 harg1 arg2 harg2 arg3 harg3 arg4 harg4 arg5 harg5 arg6 harg6 arg7 harg7 hc0 hc1 x0 x1 x2 x3 x4 x5 xo).1 S1x1.size (by sl_kernel_rfl) y
def lossOutMiddle (c : Dev nD) (i : grid1.Coords) (arg1 : Memref sig .tc .vmem S128x1024 .f32) (harg1 : arg1.IsWhole) (arg2 : Memref sig .tc .vmem S128x1024 .f32) (harg2 : arg2.IsWhole) (arg3 : Memref sig .tc .vmem S128x1 .f32) (harg3 : arg3.IsWhole) (arg4 : Memref sig .tc .vmem S128x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1 .f32) (harg7 : arg7.IsWhole) (hc0 : ¬lossFirst i) (hc1 : ¬lossLast i)
    (x0 : Vec F S128x1024 .f32) (x1 : Vec F S128x1024 .f32) (x2 : Vec F S128x1 .f32) (x3 : Vec F S128x1 .f32) (x4 : Vec F S1x1024 .f32) (x5 : Vec F S1x1024 .f32) (xo : Vec F S1x1 .f32) : Vec F S1x1 .f32 :=
  lossCell.read (Elt F) (lossCell.writes (Elt F) lossCell.junk (lossRunMiddle c i arg1 harg1 arg2 harg2 arg3 harg3 arg4 harg4 arg5 harg5 arg6 harg6 arg7 harg7 hc0 hc1 x0 x1 x2 x3 x4 x5 xo).1)

theorem lossCoverLast (c : Dev nD) (i : grid1.Coords) (arg1 : Memref sig .tc .vmem S128x1024 .f32) (harg1 : arg1.IsWhole) (arg2 : Memref sig .tc .vmem S128x1024 .f32) (harg2 : arg2.IsWhole) (arg3 : Memref sig .tc .vmem S128x1 .f32) (harg3 : arg3.IsWhole) (arg4 : Memref sig .tc .vmem S128x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1 .f32) (harg7 : arg7.IsWhole) (hc0 : ¬lossFirst i) (hc1 : lossLast i)
    (x0 : Vec F S128x1024 .f32) (x1 : Vec F S128x1024 .f32) (x2 : Vec F S128x1 .f32) (x3 : Vec F S128x1 .f32) (x4 : Vec F S1x1024 .f32) (x5 : Vec F S1x1024 .f32) (xo : Vec F S1x1 .f32) (y : S1x1.Idx) :
    ∃ pc ∈ (lossRunLast c i arg1 harg1 arg2 harg2 arg3 harg3 arg4 harg4 arg5 harg5 arg6 harg6 arg7 harg7 hc0 hc1 x0 x1 x2 x3 x4 x5 xo).1, y ∈ pc.1.set :=
  View.cover_of_tiledL (lossRunLast c i arg1 harg1 arg2 harg2 arg3 harg3 arg4 harg4 arg5 harg5 arg6 harg6 arg7 harg7 hc0 hc1 x0 x1 x2 x3 x4 x5 xo).1 S1x1.size (by sl_kernel_rfl) y
def lossOutLast (c : Dev nD) (i : grid1.Coords) (arg1 : Memref sig .tc .vmem S128x1024 .f32) (harg1 : arg1.IsWhole) (arg2 : Memref sig .tc .vmem S128x1024 .f32) (harg2 : arg2.IsWhole) (arg3 : Memref sig .tc .vmem S128x1 .f32) (harg3 : arg3.IsWhole) (arg4 : Memref sig .tc .vmem S128x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1 .f32) (harg7 : arg7.IsWhole) (hc0 : ¬lossFirst i) (hc1 : lossLast i)
    (x0 : Vec F S128x1024 .f32) (x1 : Vec F S128x1024 .f32) (x2 : Vec F S128x1 .f32) (x3 : Vec F S128x1 .f32) (x4 : Vec F S1x1024 .f32) (x5 : Vec F S1x1024 .f32) (xo : Vec F S1x1 .f32) : Vec F S1x1 .f32 :=
  lossCell.read (Elt F) (lossCell.writes (Elt F) lossCell.junk (lossRunLast c i arg1 harg1 arg2 harg2 arg3 harg3 arg4 harg4 arg5 harg5 arg6 harg6 arg7 harg7 hc0 hc1 x0 x1 x2 x3 x4 x5 xo).1)

/-! ## The cell after each point -/

/-- THE ACCUMULATION: what the cell holds after the body at position `n`. -/
def lossOuts (c : Dev nD) : (n : ℕ) → n < cfg1.N → Vec F S1x1 .f32
  | 0, hn => lossOutFirst c (grid1.coords ⟨0, hn⟩) (lm0 ⟨0, hn⟩) (lh0 ⟨0, hn⟩) (lm1 ⟨0, hn⟩) (lh1 ⟨0, hn⟩) (lm2 ⟨0, hn⟩) (lh2 ⟨0, hn⟩) (lm3 ⟨0, hn⟩) (lh3 ⟨0, hn⟩) (lm4 ⟨0, hn⟩) (lh4 ⟨0, hn⟩) (lm5 ⟨0, hn⟩) (lh5 ⟨0, hn⟩) (lm6 ⟨0, hn⟩) (lh6 ⟨0, hn⟩) ((lossFirst_iff ⟨0, hn⟩).mpr (Nat.zero_mod _)) (fun h => absurd ((Nat.zero_mod 8).symm.trans ((lossLast_iff ⟨0, hn⟩).mp h)) (by decide)) (lossBlk V c 0 ⟨0, hn⟩) (lossBlk V c 1 ⟨0, hn⟩) (lossBlk V c 2 ⟨0, hn⟩) (lossBlk V c 3 ⟨0, hn⟩) (lossBlk V c 4 ⟨0, hn⟩) (lossBlk V c 5 ⟨0, hn⟩)
  | n + 1, hn =>
    if h0 : (n + 1) % 8 = 0 then
      if h1 : (n + 1) % 8 = 7 then False.elim (by omega)
      else lossOutFirst c (grid1.coords ⟨n + 1, hn⟩) (lm0 ⟨n + 1, hn⟩) (lh0 ⟨n + 1, hn⟩) (lm1 ⟨n + 1, hn⟩) (lh1 ⟨n + 1, hn⟩) (lm2 ⟨n + 1, hn⟩) (lh2 ⟨n + 1, hn⟩) (lm3 ⟨n + 1, hn⟩) (lh3 ⟨n + 1, hn⟩) (lm4 ⟨n + 1, hn⟩) (lh4 ⟨n + 1, hn⟩) (lm5 ⟨n + 1, hn⟩) (lh5 ⟨n + 1, hn⟩) (lm6 ⟨n + 1, hn⟩) (lh6 ⟨n + 1, hn⟩) ((lossFirst_iff ⟨n + 1, hn⟩).mpr h0) (fun h => h1 ((lossLast_iff ⟨n + 1, hn⟩).mp h)) (lossBlk V c 0 ⟨n + 1, hn⟩) (lossBlk V c 1 ⟨n + 1, hn⟩) (lossBlk V c 2 ⟨n + 1, hn⟩) (lossBlk V c 3 ⟨n + 1, hn⟩) (lossBlk V c 4 ⟨n + 1, hn⟩) (lossBlk V c 5 ⟨n + 1, hn⟩)
    else
      if h1 : (n + 1) % 8 = 7 then
        lossOutLast c (grid1.coords ⟨n + 1, hn⟩) (lm0 ⟨n + 1, hn⟩) (lh0 ⟨n + 1, hn⟩) (lm1 ⟨n + 1, hn⟩) (lh1 ⟨n + 1, hn⟩) (lm2 ⟨n + 1, hn⟩) (lh2 ⟨n + 1, hn⟩) (lm3 ⟨n + 1, hn⟩) (lh3 ⟨n + 1, hn⟩) (lm4 ⟨n + 1, hn⟩) (lh4 ⟨n + 1, hn⟩) (lm5 ⟨n + 1, hn⟩) (lh5 ⟨n + 1, hn⟩) (lm6 ⟨n + 1, hn⟩) (lh6 ⟨n + 1, hn⟩) (fun h => h0 ((lossFirst_iff ⟨n + 1, hn⟩).mp h)) ((lossLast_iff ⟨n + 1, hn⟩).mpr h1) (lossBlk V c 0 ⟨n + 1, hn⟩) (lossBlk V c 1 ⟨n + 1, hn⟩) (lossBlk V c 2 ⟨n + 1, hn⟩) (lossBlk V c 3 ⟨n + 1, hn⟩) (lossBlk V c 4 ⟨n + 1, hn⟩) (lossBlk V c 5 ⟨n + 1, hn⟩) (lossOuts c n (Nat.lt_of_succ_lt hn))
      else
        lossOutMiddle c (grid1.coords ⟨n + 1, hn⟩) (lm0 ⟨n + 1, hn⟩) (lh0 ⟨n + 1, hn⟩) (lm1 ⟨n + 1, hn⟩) (lh1 ⟨n + 1, hn⟩) (lm2 ⟨n + 1, hn⟩) (lh2 ⟨n + 1, hn⟩) (lm3 ⟨n + 1, hn⟩) (lh3 ⟨n + 1, hn⟩) (lm4 ⟨n + 1, hn⟩) (lh4 ⟨n + 1, hn⟩) (lm5 ⟨n + 1, hn⟩) (lh5 ⟨n + 1, hn⟩) (lm6 ⟨n + 1, hn⟩) (lh6 ⟨n + 1, hn⟩) (fun h => h0 ((lossFirst_iff ⟨n + 1, hn⟩).mp h)) (fun h => h1 ((lossLast_iff ⟨n + 1, hn⟩).mp h)) (lossBlk V c 0 ⟨n + 1, hn⟩) (lossBlk V c 1 ⟨n + 1, hn⟩) (lossBlk V c 2 ⟨n + 1, hn⟩) (lossBlk V c 3 ⟨n + 1, hn⟩) (lossBlk V c 4 ⟨n + 1, hn⟩) (lossBlk V c 5 ⟨n + 1, hn⟩) (lossOuts c n (Nat.lt_of_succ_lt hn))

theorem lossOuts_first (c : Dev nD) (t : Fin cfg1.N) (h0 : t.val % 8 = 0) (h1 : ¬t.val % 8 = 7) :
    lossOuts V c t.val t.isLt = lossOutFirst c (grid1.coords t) (lm0 t) (lh0 t) (lm1 t) (lh1 t) (lm2 t) (lh2 t) (lm3 t) (lh3 t) (lm4 t) (lh4 t) (lm5 t) (lh5 t) (lm6 t) (lh6 t) ((lossFirst_iff t).mpr h0) (fun h => h1 ((lossLast_iff t).mp h)) (lossBlk V c 0 t) (lossBlk V c 1 t) (lossBlk V c 2 t) (lossBlk V c 3 t) (lossBlk V c 4 t) (lossBlk V c 5 t) := by
  obtain ⟨n, hn⟩ := t
  cases n with
  | zero => exact rfl
  | succ n => exact (dif_pos h0).trans ((dif_neg h1).trans rfl)

theorem lossOuts_middle (c : Dev nD) (t : Fin cfg1.N) (h0 : ¬t.val % 8 = 0) (h1 : ¬t.val % 8 = 7) :
    lossOuts V c t.val t.isLt = lossOutMiddle c (grid1.coords t) (lm0 t) (lh0 t) (lm1 t) (lh1 t) (lm2 t) (lh2 t) (lm3 t) (lh3 t) (lm4 t) (lh4 t) (lm5 t) (lh5 t) (lm6 t) (lh6 t) (fun h => h0 ((lossFirst_iff t).mp h)) (fun h => h1 ((lossLast_iff t).mp h)) (lossBlk V c 0 t) (lossBlk V c 1 t) (lossBlk V c 2 t) (lossBlk V c 3 t) (lossBlk V c 4 t) (lossBlk V c 5 t) (lossOuts V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem lossOuts_last (c : Dev nD) (t : Fin cfg1.N) (h0 : ¬t.val % 8 = 0) (h1 : t.val % 8 = 7) :
    lossOuts V c t.val t.isLt = lossOutLast c (grid1.coords t) (lm0 t) (lh0 t) (lm1 t) (lh1 t) (lm2 t) (lh2 t) (lm3 t) (lh3 t) (lm4 t) (lh4 t) (lm5 t) (lh5 t) (lm6 t) (lh6 t) (fun h => h0 ((lossFirst_iff t).mp h)) ((lossLast_iff t).mpr h1) (lossBlk V c 0 t) (lossBlk V c 1 t) (lossBlk V c 2 t) (lossBlk V c 3 t) (lossBlk V c 4 t) (lossBlk V c 5 t) (lossOuts V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The region's proof data -/

/-- The arrays as the region finds them; after the body at point `t` each input's buffer at its block and the cell at
    `lossOuts`; the invariant is the core's scoped rest and generator register, untouched; nothing owed; full shares. -/
def lossDat (c : Dev nD) : Dat τ (Elt F) Unit ℕ (UR sig nD τ) ℕ cfg1 c where
  A w := V c (Pipeline.arrRef spec1 w)
  after w t := match w with
    | ⟨0, _⟩ => lossBlk V c 0 t
    | ⟨1, _⟩ => lossBlk V c 1 t
    | ⟨2, _⟩ => lossBlk V c 2 t
    | ⟨3, _⟩ => lossBlk V c 3 t
    | ⟨4, _⟩ => lossBlk V c 4 t
    | ⟨5, _⟩ => lossBlk V c 5 t
    | ⟨6, _⟩ => lossOuts V c t.val t.isLt
  Φ _ := Pipeline.ΦA spec1 c
  q _ := fullShare
  owed _ := 0

theorem lossDat_A (c : Dev nD) (w : Fin cfg1.W) : (lossDat V c).A w = V c (Pipeline.arrRef spec1 w) := by
  dsimp only [lossDat]

theorem lossAfter0 (c : Dev nD) (t : Fin cfg1.N) : (lossDat V c).after 0 t = lossBlk V c 0 t := by dsimp only [lossDat]
theorem lossAfter1 (c : Dev nD) (t : Fin cfg1.N) : (lossDat V c).after 1 t = lossBlk V c 1 t := by dsimp only [lossDat]
theorem lossAfter2 (c : Dev nD) (t : Fin cfg1.N) : (lossDat V c).after 2 t = lossBlk V c 2 t := by dsimp only [lossDat]
theorem lossAfter3 (c : Dev nD) (t : Fin cfg1.N) : (lossDat V c).after 3 t = lossBlk V c 3 t := by dsimp only [lossDat]
theorem lossAfter4 (c : Dev nD) (t : Fin cfg1.N) : (lossDat V c).after 4 t = lossBlk V c 4 t := by dsimp only [lossDat]
theorem lossAfter5 (c : Dev nD) (t : Fin cfg1.N) : (lossDat V c).after 5 t = lossBlk V c 5 t := by dsimp only [lossDat]
theorem lossAfter6 (c : Dev nD) (t : Fin cfg1.N) : (lossDat V c).after 6 t = lossOuts V c t.val t.isLt := by dsimp only [lossDat]

theorem lossBefore0 (c : Dev nD) (t : Fin cfg1.N) (d) : (lossDat V c).before 0 t d = lossBlk V c 0 t :=
  lossBefore0_of V (lossDat V c) (lossDat_A V c 0) (lossAfter0 V c) t d
theorem lossBefore1 (c : Dev nD) (t : Fin cfg1.N) (d) : (lossDat V c).before 1 t d = lossBlk V c 1 t :=
  lossBefore1_of V (lossDat V c) (lossDat_A V c 1) (lossAfter1 V c) t d
theorem lossBefore2 (c : Dev nD) (t : Fin cfg1.N) (d) : (lossDat V c).before 2 t d = lossBlk V c 2 t :=
  lossBefore2_of V (lossDat V c) (lossDat_A V c 2) (lossAfter2 V c) t d
theorem lossBefore3 (c : Dev nD) (t : Fin cfg1.N) (d) : (lossDat V c).before 3 t d = lossBlk V c 3 t :=
  lossBefore3_of V (lossDat V c) (lossDat_A V c 3) (lossAfter3 V c) t d
theorem lossBefore4 (c : Dev nD) (t : Fin cfg1.N) (d) : (lossDat V c).before 4 t d = lossBlk V c 4 t :=
  lossBefore4_of V (lossDat V c) (lossDat_A V c 4) (lossAfter4 V c) t d
theorem lossBefore5 (c : Dev nD) (t : Fin cfg1.N) (d) : (lossDat V c).before 5 t d = lossBlk V c 5 t :=
  lossBefore5_of V (lossDat V c) (lossDat_A V c 5) (lossAfter5 V c) t d

/-- After the first point the cell's staging buffer holds what the body left at the point before: it is written back
    only after the last point. -/
theorem lossBefore6_later (c : Dev nD) (t : Fin cfg1.N) (h0 : ¬t.val % 8 = 0) (d) :
    (lossDat V c).before 6 t d = lossOuts V c (t.val - 1) (Nat.lt_of_le_of_lt (Nat.sub_le _ _) t.isLt) := by
  have hN : t.val < 8 := lt_of_lt_of_eq t.isLt (show cfg1.N = 8 from N_1)
  rw [Dat.before_out_kept _ 6 rfl t (by omega) (Bool.eq_false_iff.mpr fun h => by have := (flush1_6 _).mp h; dsimp only at this; omega)
    (fun _ => rfl) (fun _ _ => rfl)]
  dsimp only [lossDat]

/-! ## The body obligation, at a generic point -/

def lossPre (c : Dev nD) (t : Fin cfg1.N) : sProp 𝕄 :=
  iprop((lossDat V c).Φ t.castSucc ∗ (lossDat V c).owesAt () t.castSucc
    ∗ (∃ d, owns (c : Thread nD τ) (lm0 t) fullShare ((lossDat V c).before 0 t d))
    ∗ (∃ d, owns (c : Thread nD τ) (lm1 t) fullShare ((lossDat V c).before 1 t d))
    ∗ (∃ d, owns (c : Thread nD τ) (lm2 t) fullShare ((lossDat V c).before 2 t d))
    ∗ (∃ d, owns (c : Thread nD τ) (lm3 t) fullShare ((lossDat V c).before 3 t d))
    ∗ (∃ d, owns (c : Thread nD τ) (lm4 t) fullShare ((lossDat V c).before 4 t d))
    ∗ (∃ d, owns (c : Thread nD τ) (lm5 t) fullShare ((lossDat V c).before 5 t d))
    ∗ (∃ d, owns (c : Thread nD τ) (lm6 t) fullShare ((lossDat V c).before 6 t d)))

def lossPost (c : Dev nD) (t : Fin cfg1.N) : sProp 𝕄 :=
  iprop((lossDat V c).Φ t.succ ∗ (lossDat V c).owesAt () t.succ
    ∗ owns (c : Thread nD τ) (lm0 t) fullShare ((lossDat V c).after 0 t)
    ∗ owns (c : Thread nD τ) (lm1 t) fullShare ((lossDat V c).after 1 t)
    ∗ owns (c : Thread nD τ) (lm2 t) fullShare ((lossDat V c).after 2 t)
    ∗ owns (c : Thread nD τ) (lm3 t) fullShare ((lossDat V c).after 3 t)
    ∗ owns (c : Thread nD τ) (lm4 t) fullShare ((lossDat V c).after 4 t)
    ∗ owns (c : Thread nD τ) (lm5 t) fullShare ((lossDat V c).after 5 t)
    ∗ owns (c : Thread nD τ) (lm6 t) fullShare ((lossDat V c).after 6 t))

set_option maxHeartbeats 1600000 in
theorem lossSoundBody (c : Dev nD) (t : Fin cfg1.N) :
    lossPre V c t ⊢ wp frame (wpE (defs₀ (F := F)) Variants.none c none) Set.univ (bodyAt1 t) (fun _ => lossPost V c t) := by
  unfold lossPre lossPost bodyAt1
  simp only [lossBefore0, lossBefore1, lossBefore2, lossBefore3, lossBefore4, lossBefore5]
  rw [show (lossDat V c).Φ t.succ = (lossDat V c).Φ t.castSucc from rfl,
    show (lossDat V c).owesAt () t.succ = (lossDat V c).owesAt () t.castSucc from rfl,
    lossAfter0, lossAfter1, lossAfter2, lossAfter3, lossAfter4, lossAfter5, lossAfter6]
  have hN : t.val < 8 := lt_of_lt_of_eq t.isLt (show cfg1.N = 8 from N_1)
  by_cases h0 : t.val % 8 = 0
  · have h1 : ¬t.val % 8 = 7 := by omega
    rw [lossOuts_first V c t h0 h1]
    unfold lossOutFirst
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((lossRunFirst c (grid1.coords t) _ _ _ _ _ _ _ _ _ _ _ _ _ _ ((lossFirst_iff t).mpr h0) (fun h => h1 ((lossLast_iff t).mp h)) (lossBlk V c 0 t) (lossBlk V c 1 t) (lossBlk V c 2 t) (lossBlk V c 3 t) (lossBlk V c 4 t) (lossBlk V c 5 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iintro ⟨H0, H1, H2, H3, H4, H5, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (lossCoverFirst c _ _ _ _ _ _ _ _ _ _ _ _ _ _ _ _ _ _ _ _ _ _ _)
  · simp only [lossBefore6_later V c t h0]
    by_cases h1 : t.val % 8 = 7
    · rw [lossOuts_last V c t h0 h1]
      unfold lossOutLast
      iintro ⟨HΦ, Ho, ⟨%d0, H0⟩, ⟨%d1, H1⟩, ⟨%d2, H2⟩, ⟨%d3, H3⟩, ⟨%d4, H4⟩, ⟨%d5, H5⟩, ⟨%d6, H6⟩⟩
      iapply ((lossRunLast c (grid1.coords t) _ _ _ _ _ _ _ _ _ _ _ _ _ _ (fun h => h0 ((lossFirst_iff t).mp h)) ((lossLast_iff t).mpr h1) (lossBlk V c 0 t) (lossBlk V c 1 t) (lossBlk V c 2 t) (lossBlk V c 3 t) (lossBlk V c 4 t) (lossBlk V c 5 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      iintro ⟨H0, H1, H2, H3, H4, H5, ⟨%e6, H6⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (lossCoverLast c _ _ _ _ _ _ _ _ _ _ _ _ _ _ _ _ _ _ _ _ _ _ _ _)
    · rw [lossOuts_middle V c t h0 h1]
      unfold lossOutMiddle
      iintro ⟨HΦ, Ho, ⟨%d0, H0⟩, ⟨%d1, H1⟩, ⟨%d2, H2⟩, ⟨%d3, H3⟩, ⟨%d4, H4⟩, ⟨%d5, H5⟩, ⟨%d6, H6⟩⟩
      iapply ((lossRunMiddle c (grid1.coords t) _ _ _ _ _ _ _ _ _ _ _ _ _ _ (fun h => h0 ((lossFirst_iff t).mp h)) (fun h => h1 ((lossLast_iff t).mp h)) (lossBlk V c 0 t) (lossBlk V c 1 t) (lossBlk V c 2 t) (lossBlk V c 3 t) (lossBlk V c 4 t) (lossBlk V c 5 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      iintro ⟨H0, H1, H2, H3, H4, H5, ⟨%e6, H6⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (lossCoverMiddle c _ _ _ _ _ _ _ _ _ _ _ _ _ _ _ _ _ _ _ _ _ _ _ _)

/-- The pipeline's body obligation for the region, at every point. -/
theorem lossBodyObligation (c : Dev nD) : BodyObligation (lossDat (F := F) V c) (defs₀ (F := F)) Variants.none () Set.univ := fun t => by
  rw [bigSep_W1, bigSep_W1]
  exact lossSoundBody V c t

end LossRegion

end Cert.KernelIdeal.Hand

end
-- ==== Proof.KernelRun.lean ====
/-
  The kernel program as a whole: its @main is the first region, two host transposes, the second region, and a host
  reshape. Between these four segments the core's unscoped buffers are held whole at contents named one after the other:
  at launch; after the first region (its four result arrays at what the region's write-backs leave, everything else
  untouched); after the transposes; after the second region (its [1,1] result likewise); after the reshape. Each region
  is entered by sorting its windows' arrays out of the unscoped buffers — for the first region the two argument arrays
  are each dealt in halves to the two windows that read them — and left by putting them back. The run then says: every
  weakly fair execution terminates, and every unscoped buffer ends at the last of those contents.
-/
import proofs.«169696_j47545287967528_2_alg».proof.Proof.GramShares
import proofs.«169696_j47545287967528_2_alg».proof.Proof.LossRegion
import proofs.«169696_j47545287967528_2_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
abbrev X0 : (c : Dev nD) → (b : Ref sig .tc) → Buf (Elt F) ((c : Thread nD τ).loc b) := fun c b => W0 m ρ c b
/-- After the first region: its four result arrays at what its write-backs leave. -/
def W1 (c : Dev nD) : Valuation τ sig (Elt F) :=
  Function.update (Function.update (Function.update (Function.update (W0 m ρ c)
    main_v0_0 ((gramDat (X0 m ρ) c).arrAt 4 cfg0.N)) main_v0_1 ((gramDat (X0 m ρ) c).arrAt 5 cfg0.N))
    main_v0_2 ((gramDat (X0 m ρ) c).arrAt 6 cfg0.N)) main_v0_3 ((gramDat (X0 m ρ) c).arrAt 7 cfg0.N)
abbrev X1 : (c : Dev nD) → (b : Ref sig .tc) → Buf (Elt F) ((c : Thread nD τ).loc b) := fun c b => W1 m ρ c b

/-- What `W1` holds at each of the four result arrays, and that it agrees with the launch contents everywhere else. -/
theorem W1_res3 (c : Dev nD) : X1 m ρ c main_v0_3 = (gramDat (X0 m ρ) c).arrAt 7 cfg0.N := by
  show W1 m ρ c (Proc.devRef .tc main_v0_3) = _
  unfold W1; exact Function.update_self ..
theorem W1_res2 (c : Dev nD) : X1 m ρ c main_v0_2 = (gramDat (X0 m ρ) c).arrAt 6 cfg0.N := by
  show W1 m ρ c (Proc.devRef .tc main_v0_2) = _
  unfold W1
  rw [Function.update_of_ne (StableHlo.devRef_ne_of_ne (by decide) : (Proc.devRef .tc main_v0_2 : DevRef τ sig) ≠ Proc.devRef .tc main_v0_3)]
  exact Function.update_self ..
theorem W1_res1 (c : Dev nD) : X1 m ρ c main_v0_1 = (gramDat (X0 m ρ) c).arrAt 5 cfg0.N := by
  show W1 m ρ c (Proc.devRef .tc main_v0_1) = _
  unfold W1
  rw [Function.update_of_ne (StableHlo.devRef_ne_of_ne (by decide) : (Proc.devRef .tc main_v0_1 : DevRef τ sig) ≠ Proc.devRef .tc main_v0_3),
    Function.update_of_ne (StableHlo.devRef_ne_of_ne (by decide) : (Proc.devRef .tc main_v0_1 : DevRef τ sig) ≠ Proc.devRef .tc main_v0_2)]
  exact Function.update_self ..
theorem W1_res0 (c : Dev nD) : X1 m ρ c main_v0_0 = (gramDat (X0 m ρ) c).arrAt 4 cfg0.N := by
  show W1 m ρ c (Proc.devRef .tc main_v0_0) = _
  unfold W1
  rw [Function.update_of_ne (StableHlo.devRef_ne_of_ne (by decide) : (Proc.devRef .tc main_v0_0 : DevRef τ sig) ≠ Proc.devRef .tc main_v0_3),
    Function.update_of_ne (StableHlo.devRef_ne_of_ne (by decide) : (Proc.devRef .tc main_v0_0 : DevRef τ sig) ≠ Proc.devRef .tc main_v0_2),
    Function.update_of_ne (StableHlo.devRef_ne_of_ne (by decide) : (Proc.devRef .tc main_v0_0 : DevRef τ sig) ≠ Proc.devRef .tc main_v0_1)]
  exact Function.update_self ..
theorem W1_rest (c : Dev nD) (b : Ref sig .tc) (h : b ∉ ([main_v0_0, main_v0_1, main_v0_2, main_v0_3] : List (Ref sig .tc))) :
    X1 m ρ c b = X0 m ρ c b := by
  show W1 m ρ c (Proc.devRef .tc b) = W0 m ρ c (Proc.devRef .tc b)
  have n0 : b ≠ main_v0_0 := fun e => h (e ▸ by simp)
  have n1 : b ≠ main_v0_1 := fun e => h (e ▸ by simp)
  have n2 : b ≠ main_v0_2 := fun e => h (e ▸ by simp)
  have n3 : b ≠ main_v0_3 := fun e => h (e ▸ by simp)
  unfold W1
  rw [Function.update_of_ne (StableHlo.devRef_ne_of_ne n3 : (Proc.devRef .tc b : DevRef τ sig) ≠ Proc.devRef .tc main_v0_3),
    Function.update_of_ne (StableHlo.devRef_ne_of_ne n2 : (Proc.devRef .tc b : DevRef τ sig) ≠ Proc.devRef .tc main_v0_2),
    Function.update_of_ne (StableHlo.devRef_ne_of_ne n1 : (Proc.devRef .tc b : DevRef τ sig) ≠ Proc.devRef .tc main_v0_1),
    Function.update_of_ne (StableHlo.devRef_ne_of_ne n0 : (Proc.devRef .tc b : DevRef τ sig) ≠ Proc.devRef .tc main_v0_0)]

/-- After the two transposes. -/
abbrev W2 : Dev nD → Valuation τ sig (Elt F) := fun c => StableHlo.after hostOps1 (W1 m ρ c)
abbrev X2 : (c : Dev nD) → (b : Ref sig .tc) → Buf (Elt F) ((c : Thread nD τ).loc b) := fun c b => W2 m ρ c b
/-- After the second region. -/
def W3 (c : Dev nD) : Valuation τ sig (Elt F) :=
  Pipeline.withArrays spec1 c (W2 m ρ c) fun w => (lossDat (X2 m ρ) c).arrAt w cfg1.N
theorem W3_arr (c : Dev nD) (w : Fin cfg1.W) :
    W3 m ρ c (Proc.devRef .tc (Pipeline.arrRef spec1 w)) = (lossDat (X2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev X3 : (c : Dev nD) → (b : Ref sig .tc) → Buf (Elt F) ((c : Thread nD τ).loc b) := fun c b => W3 m ρ c b
theorem lossExitArr (c : Dev nD) (w : Fin cfg1.W) : (lossDat (X2 m ρ) c).arrAt w cfg1.N = X3 m ρ c (Pipeline.arrRef spec1 w) :=
  (W3_arr m ρ c w).symm
theorem lossExitRest (c : Dev nD) : ∀ b, b ∉ Finset.univ.image (Pipeline.arrRef spec1) → X3 m ρ c b = X2 m ρ c b :=
  fun b hb => W3_of_ne m ρ c b fun w e => hb (Finset.mem_image.mpr ⟨w, Finset.mem_univ _, e⟩)
/-- After the reshape. -/
abbrev W4 : Dev nD → Valuation τ sig (Elt F) := fun c => StableHlo.after hostOps2 (W3 m ρ c)

/-! ## The proof data family and the thread state -/

/-- Each region's proof data at its entry contents (a literal match on the pipeline's number). -/
def pdats : (p : Fin 2) → (c : Dev nD) → Dat τ (Elt F) Unit ℕ (UR sig nD τ) ℕ (Pipeline.pin (pcfgs (F := F)) adm p) c
  | ⟨0, _⟩ => fun c => gramDat (X0 m ρ) c
  | ⟨1, _⟩ => fun c => lossDat (X2 m ρ) c
abbrev noVariants : Variants := Variants.none
abbrev noLevels : GSem nD τ sig → Finset Unit := fun _ => ∅
abbrev levelZero : GSem nD τ sig → Unit → ℕ := fun _ _ => 0
/-- What rides beside the buffers through every segment: the generator register at some state, and nothing owed. -/
abbrev Rest (c : Dev nD) : sProp 𝕄 := iprop((∃ r, prngReg c r) ∗ ∃ W, owes (c : Thread nD τ) (0 : CellTallies nD τ sig Unit) W)
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noLevels levelZero :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tlast (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The first region: entered from the launch contents, left at `W1`. -/
def gramSeg : Pipeline.RegionSeg (pcfgs (F := F)) adm (pdats m ρ) () defs₀ noVariants noLevels levelZero 0 where
  win := winFacts₀0
  block_pos := block_pos0
  stage_whole := stage_whole0
  K := PEmpty
  osem k := k.elim
  ho := Pipeline.OwnSemFacts.none _
  hbody c := (gramBodyObligation (X0 m ρ) c).loose
  hwaits := Pipeline.hwaits_of_owed_zero _ _ _ _ noLevels levelZero 0 fun _ _ => rfl
  pre c := iprop(StableHlo.held (c : Thread nD τ) (Pipeline.ucRefs τ sig) (W0 m ρ c) ∗ Rest c)
  post c := iprop(StableHlo.held (c : Thread nD τ) (Pipeline.ucRefs τ sig) (W1 m ρ c) ∗ Rest c)
  X c := iprop(∃ r, prngReg c r)
  Y c := iprop(∃ r, prngReg c r)
  Z c := Pipeline.unscopedRest (Ix := Unit) (Name := ℕ) (U := UR sig nD τ) (Lvl := ℕ) spec0 c (X0 m ρ c)
  hentry c := by
    rw [Pipeline.ownSems0_none]
    have hsplit : (unscopedBufs c (X0 m ρ c) : sProp 𝕄) ⊢ iprop((pdats m ρ 0 c).arrays ((pdats m ρ 0 c).arrAt · 0)
        ∗ Pipeline.unscopedRest (Ix := Unit) (Name := ℕ) (U := UR sig nD τ) (Lvl := ℕ) spec0 c (X0 m ρ c)) :=
      gramEntry (X0 m ρ) c (X0 m ρ c) (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N)
        ∗ Pipeline.unscopedRest (Ix := Unit) (Name := ℕ) (U := UR sig nD τ) (Lvl := ℕ) spec0 c (X0 m ρ c)) ⊢ (unscopedBufs c (X1 m ρ c) : sProp 𝕄) :=
      gramExit (X0 m ρ) c (X0 m ρ c) (X1 m ρ c) (fun _ => rfl) (W1_res0 m ρ c) (W1_res1 m ρ c) (W1_res2 m ρ c) (W1_res3 m ρ c) (W1_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from `W2`, left at `W3`; its arrays are distinct buffers at the full share. -/
def lossSeg : Pipeline.RegionSeg (pcfgs (F := F)) adm (pdats m ρ) () defs₀ noVariants noLevels levelZero 1 where
  win := launch1.win.to₀
  block_pos := launch1.block_pos
  stage_whole := launch1.stage_whole
  K := PEmpty
  osem k := k.elim
  ho := Pipeline.OwnSemFacts.none _
  hbody c := (lossBodyObligation (X2 m ρ) c).loose
  hwaits := Pipeline.hwaits_of_owed_zero _ _ _ _ noLevels levelZero 1 fun _ _ => rfl
  pre c := iprop(StableHlo.held (c : Thread nD τ) (Pipeline.ucRefs τ sig) (W2 m ρ c) ∗ Rest c)
  post c := iprop(StableHlo.held (c : Thread nD τ) (Pipeline.ucRefs τ sig) (W3 m ρ c) ∗ Rest c)
  X c := iprop(∃ r, prngReg c r)
  Y c := iprop(∃ r, prngReg c r)
  Z c := Pipeline.unscopedRest (Ix := Unit) (Name := ℕ) (U := UR sig nD τ) (Lvl := ℕ) spec1 c (X2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (X2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (X2 m ρ c) (X3 m ρ c) ((pdats m ρ 1 c).arrAt · cfg1.N) (lossExitArr m ρ c) (lossExitRest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev mainSegs : List (Pipeline.Seg (pcfgs (F := F)) adm (pdats m ρ) () defs₀ noVariants noLevels levelZero) :=
  [ .region (gramSeg m ρ),
    .host (hostSeg hostOps1 hostOps1_sub hostOps1_fresh (W1 m ρ)),
    .region (lossSeg m ρ),
    .host (hostSeg hostOps2 hostOps2_sub hostOps2_fresh (W3 m ρ)) ]
theorem main_run (c : Dev nD) : main (F := F) c = Pipeline.Seg.run (mainSegs m ρ) := (main_chain c).trans (by chain_rfl)

set_option backward.isDefEq.respectTransparency.types false in
/-- THE RUN: from any memory with zero counters every weakly fair execution of @main terminates, nothing faulting, and
    in every final state each unscoped buffer of each core holds the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ noVariants noLevels levelZero m ρ main (mainSegs m ρ)
    (fun c Q => by rw [main_run m ρ c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rest c)) (Tₙ := Tlast m ρ)
    (hch := ⟨fun _ => .rfl, fun _ => .rfl, fun _ => .rfl, fun _ => .rfl, fun c => by
      show (iprop(StableHlo.held (c : Thread nD τ) (Pipeline.ucRefs τ sig) (W4 m ρ c) ∗ Rest c) : sProp 𝕄)
        ⊢ iprop(Tlast m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach noLevels levelZero fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.KernelIdeal.Hand

end
-- ==== Proof.KernelKeeps.lean ====
/-
  No segment of the kernel program writes an argument array: the reshape and the transposes write only their results,
  the second region's arrays are the first region's results and their transposes, and the first region only reads the
  arguments. So the last boundary's contents at an argument array are the launch contents.
-/
import proofs.«169696_j47545287967528_2_alg».proof.Proof.KernelRun

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W4_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (by decide)
    _ = W2 m ρ c (Proc.devRef .tc main_arg0) := W3_of_ne m ρ c main_arg0 (by decide)
    _ = W1 m ρ c (Proc.devRef .tc main_arg0) := StableHlo.after_of_writes_sub hostOps1 _ hostOps1_writes (by decide)
    _ = W0 m ρ c (Proc.devRef .tc main_arg0) := W1_rest m ρ c main_arg0 (by decide)
    _ = m ((c : Thread nD τ).loc main_arg0) := rfl

theorem W4_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (by decide)
    _ = W2 m ρ c (Proc.devRef .tc main_arg1) := W3_of_ne m ρ c main_arg1 (by decide)
    _ = W1 m ρ c (Proc.devRef .tc main_arg1) := StableHlo.after_of_writes_sub hostOps1 _ hostOps1_writes (by decide)
    _ = W0 m ρ c (Proc.devRef .tc main_arg1) := W1_rest m ρ c main_arg1 (by decide)
    _ = m ((c : Thread nD τ).loc main_arg1) := rfl

/-- THE FRAME: every weakly fair execution terminates, nothing faulting, and the two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W4_arg0 m ρ c), (h c _ (mem_uc main_arg1 (by decide))).trans (W4_arg1 m ρ c)⟩) (run m ρ)

end Cert.KernelIdeal.Hand

end
-- ==== Proof.BitsGramRunsCommon.lean ====
/-
  The first kernel region walks a 2 × 16 grid: for each half m of the rows and each of the sixteen column tiles k of
  the two inputs it adds, into four output blocks that stay resident while k runs, the tile's contribution to the two
  Gram row-slabs and to the two columns of squared row norms; at k = 0 it clears the four blocks first. This module
  holds what the two control cases of that body share: the branch condition as the body spells it over the grid
  coordinates, its closed form over the 32 points, and the names of the staging memrefs the body is called with.
-/
import proofs.«169696_j47545287967528_2_alg».proof.Proof.Gen.Kernel.Launch
import proofs.«169696_j47545287967528_2_alg».proof.Proof.Gen.Kernel.Skeleton
import proofs.«169696_j47545287967528_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- "This is the first column tile" (k = 0), as the body computes it from the grid coordinates. -/
abbrev gramFirst (i : grid0.Coords) : Prop :=
  (Scalar.cmpi .ne (Scalar.extui (Scalar.cmpi .eq (BitVec.ofNat 32 (i 1).val) 0#32)) 0#32) = 1#1

/-- Over the 32 points (point t is row half t / 16, column tile t % 16) it holds exactly where t % 16 = 0. -/
theorem gramFirst_iff : ∀ t : Fin cfg0.N, gramFirst (grid0.coords t) ↔ t.val % 16 = 0 :=
  (by decide +kernel : ∀ t : Fin grid0.N, gramFirst (grid0.coords t) ↔ t.val % 16 = 0)

/-- One staging buffer of each output window, through which its contents are stated (the choice does not matter). -/
abbrev gramSlabP : View sig .tc .vmem S512x1024 .f32 := (Memref.whole cc0_stg4_0 : Memref sig .tc .vmem S512x1024 .f32).view
abbrev gramSlabT : View sig .tc .vmem S512x1024 .f32 := (Memref.whole cc0_stg5_0 : Memref sig .tc .vmem S512x1024 .f32).view
abbrev normColP : View sig .tc .vmem S512x1 .f32 := (Memref.whole cc0_stg6_0 : Memref sig .tc .vmem S512x1 .f32).view
abbrev normColT : View sig .tc .vmem S512x1 .f32 := (Memref.whole cc0_stg7_0 : Memref sig .tc .vmem S512x1 .f32).view

/-- The staging memref of each window at point `t`, spelled as the pipeline passes it to the body, and its wholeness. -/
abbrev gm0 (t : Fin cfg0.N) : Memref sig .tc .vmem S512x512 .f32 := win0_0.stage (cfg0.slots t 0)
abbrev gh0 (t : Fin cfg0.N) : (gm0 t).IsWhole := hstage0_0 ((cfg0.slots t 0).cast nbuf0_0)
abbrev gm1 (t : Fin cfg0.N) : Memref sig .tc .vmem S512x512 .f32 := win0_1.stage (cfg0.slots t 1)
abbrev gh1 (t : Fin cfg0.N) : (gm1 t).IsWhole := hstage0_1 ((cfg0.slots t 1).cast nbuf0_1)
abbrev gm2 (t : Fin cfg0.N) : Memref sig .tc .vmem S1024x512 .f32 := win0_2.stage (cfg0.slots t 2)
abbrev gh2 (t : Fin cfg0.N) : (gm2 t).IsWhole := hstage0_2 ((cfg0.slots t 2).cast nbuf0_2)
abbrev gm3 (t : Fin cfg0.N) : Memref sig .tc .vmem S1024x512 .f32 := win0_3.stage (cfg0.slots t 3)
abbrev gh3 (t : Fin cfg0.N) : (gm3 t).IsWhole := hstage0_3 ((cfg0.slots t 3).cast nbuf0_3)
abbrev gm4 (t : Fin cfg0.N) : Memref sig .tc .vmem S512x1024 .f32 := win0_4.stage (cfg0.slots t 4)
abbrev gh4 (t : Fin cfg0.N) : (gm4 t).IsWhole := hstage0_4 ((cfg0.slots t 4).cast nbuf0_4)
abbrev gm5 (t : Fin cfg0.N) : Memref sig .tc .vmem S512x1024 .f32 := win0_5.stage (cfg0.slots t 5)
abbrev gh5 (t : Fin cfg0.N) : (gm5 t).IsWhole := hstage0_5 ((cfg0.slots t 5).cast nbuf0_5)
abbrev gm6 (t : Fin cfg0.N) : Memref sig .tc .vmem S512x1 .f32 := win0_6.stage (cfg0.slots t 6)
abbrev gh6 (t : Fin cfg0.N) : (gm6 t).IsWhole := hstage0_6 ((cfg0.slots t 6).cast nbuf0_6)
abbrev gm7 (t : Fin cfg0.N) : Memref sig .tc .vmem S512x1 .f32 := win0_7.stage (cfg0.slots t 7)
abbrev gh7 (t : Fin cfg0.N) : (gm7 t).IsWhole := hstage0_7 ((cfg0.slots t 7).cast nbuf0_7)

end Cert.Kernel.Hand

end
-- ==== Proof.BitsGramRunReset.lean ====
/-
  The body of the first region at a point with k = 0: it clears the four output blocks, then adds the first column tile's contributions into them.
-/
import proofs.«169696_j47545287967528_2_alg».proof.Proof.BitsGramRunsCommon

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
/-- The stores this case leaves in the four output blocks, as lists of pieces (last first), together with the fact that
    on whole staging memrefs — the four inputs at their contents, the outputs at anything — the body runs to its
    continuation with the inputs as they were and each output with its pieces written. -/
noncomputable def gramRunReset (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (hc0 : gramFirst i)
    (x0 : Vec F S512x512 .f32) (x1 : Vec F S512x512 .f32) (x2 : Vec F S1024x512 .f32) (x3 : Vec F S1024x512 .f32) :
    Σ' (L4 : List (View.Piece (Elt F) S512x1024 .f32)) (L5 : List (View.Piece (Elt F) S512x1024 .f32)) (L6 : List (View.Piece (Elt F) S512x1 .f32)),
    { L7 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f L7)) -∗ K ⟨⟩))
          ⊢ wp frame (wpE (defs₀ (F := F)) Variants.none c none) E (cc0__kernel_a_body i arg2 harg2 arg3 harg3 arg4 harg4 arg5 harg5 arg6 harg6 arg7 harg7 arg8 harg8 arg9 harg9) K } := by
  refine ⟨?_, ?_, ?_, ?_, fun E K => ?run⟩
  case run =>
    simp only [cc0__kernel_a_body_eq_skeleton]; unfold cc0__kernel_a_body_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
    obtain rfl := harg2.eq_unread hf0
    obtain rfl := harg3.eq_unread hf1
    obtain rfl := harg4.eq_unread hf2
    obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    iexists _; iexact H7

end Cert.Kernel.Hand

end
-- ==== Proof.BitsGramRunAdd.lean ====
/-
  The body of the first region at a point with k > 0: it adds the column tile's contributions into the four output blocks, which hold what the point before left.
-/
import proofs.«169696_j47545287967528_2_alg».proof.Proof.BitsGramRunReset

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
/-- The stores this case leaves in the four output blocks, as lists of pieces (last first), together with the fact that
    on whole staging memrefs — the four inputs at their contents, the outputs at what the point before left — the body runs to its
    continuation with the inputs as they were and each output with its pieces written. -/
noncomputable def gramRunAdd (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (hc0 : ¬gramFirst i)
    (x0 : Vec F S512x512 .f32) (x1 : Vec F S512x512 .f32) (x2 : Vec F S1024x512 .f32) (x3 : Vec F S1024x512 .f32) (xo4 : Vec F S512x1024 .f32) (xo5 : Vec F S512x1024 .f32) (xo6 : Vec F S512x1 .f32) (xo7 : Vec F S512x1 .f32) :
    Σ' (L4 : List (View.Piece (Elt F) S512x1024 .f32)) (L5 : List (View.Piece (Elt F) S512x1024 .f32)) (L6 : List (View.Piece (Elt F) S512x1 .f32)),
    { L7 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4 ∗ owns (c : Thread nD τ) arg7 fullShare xo5 ∗ owns (c : Thread nD τ) arg8 fullShare xo6 ∗ owns (c : Thread nD τ) arg9 fullShare xo7
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f L7)) -∗ K ⟨⟩))
          ⊢ wp frame (wpE (defs₀ (F := F)) Variants.none c none) E (cc0__kernel_a_body i arg2 harg2 arg3 harg3 arg4 harg4 arg5 harg5 arg6 harg6 arg7 harg7 arg8 harg8 arg9 harg9) K } := by
  refine ⟨?_, ?_, ?_, ?_, fun E K => ?run⟩
  case run =>
    simp only [cc0__kernel_a_body_eq_skeleton]; unfold cc0__kernel_a_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    iexists _; iexact H7

end Cert.Kernel.Hand

end
-- ==== Proof.BitsGramRegion.lean ====
/-
  The first kernel region as a whole, at a parameter `V` — the contents of the core's buffers when the region is
  entered. A window's block at a grid point is read off its array in `V`. After the body at point t = 16·m + k the
  four output blocks (two Gram row-slabs, two columns of squared norms, all of row half m) hold: at k = 0, the clearing
  stores overwritten by the first column tile's contributions; at k > 0, what the point before left plus tile k's
  contributions — a recursion over the points, each step the case's stores read back. The blocks stay in their
  staging buffers while k runs and are written back after k = 15. Two of the four input windows read the first
  argument array and two the second, so each input window holds its array at half of the full share.
-/
import proofs.«169696_j47545287967528_2_alg».proof.Proof.BitsGramRunAdd

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section GramRegion

variable (V : (c : Dev nD) → (b : Ref sig .tc) → Buf (Elt F) ((c : Thread nD τ).loc b))

/-- Window `w`'s block at point `t`, read off its array as the region finds it. -/
def gramBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input's current staging buffer holds its block at every point. -/
theorem gramBefore0_of {c : Dev nD} (dat : Dat τ (Elt F) Unit ℕ (UR sig nD τ) ℕ cfg0 c) (hA : dat.A 0 = V c (Pipeline.arrRef spec0 0))
    (hafter : ∀ t, dat.after 0 t = gramBlk V c 0 t) (t : Fin cfg0.N) (d) : dat.before 0 t d = gramBlk V c 0 t :=
  (dat.before_in_eq_fetched 0 rfl (fun _ => rfl) (fun _ _ _ => rfl) (fun t => by rw [hafter]; unfold Dat.blockOf gramBlk; rw [hA]; try rfl) t d).trans
    (by unfold Dat.fetched Dat.blockOf gramBlk; rw [hA]; try rfl)
theorem gramBefore1_of {c : Dev nD} (dat : Dat τ (Elt F) Unit ℕ (UR sig nD τ) ℕ cfg0 c) (hA : dat.A 1 = V c (Pipeline.arrRef spec0 1))
    (hafter : ∀ t, dat.after 1 t = gramBlk V c 1 t) (t : Fin cfg0.N) (d) : dat.before 1 t d = gramBlk V c 1 t :=
  (dat.before_in_eq_fetched 1 rfl (fun _ => rfl) (fun _ _ _ => rfl) (fun t => by rw [hafter]; unfold Dat.blockOf gramBlk; rw [hA]; try rfl) t d).trans
    (by unfold Dat.fetched Dat.blockOf gramBlk; rw [hA]; try rfl)
theorem gramBefore2_of {c : Dev nD} (dat : Dat τ (Elt F) Unit ℕ (UR sig nD τ) ℕ cfg0 c) (hA : dat.A 2 = V c (Pipeline.arrRef spec0 2))
    (hafter : ∀ t, dat.after 2 t = gramBlk V c 2 t) (t : Fin cfg0.N) (d) : dat.before 2 t d = gramBlk V c 2 t :=
  (dat.before_in_eq_fetched 2 rfl (fun _ => rfl) (fun _ _ _ => rfl) (fun t => by rw [hafter]; unfold Dat.blockOf gramBlk; rw [hA]; try rfl) t d).trans
    (by unfold Dat.fetched Dat.blockOf gramBlk; rw [hA]; try rfl)
theorem gramBefore3_of {c : Dev nD} (dat : Dat τ (Elt F) Unit ℕ (UR sig nD τ) ℕ cfg0 c) (hA : dat.A 3 = V c (Pipeline.arrRef spec0 3))
    (hafter : ∀ t, dat.after 3 t = gramBlk V c 3 t) (t : Fin cfg0.N) (d) : dat.before 3 t d = gramBlk V c 3 t :=
  (dat.before_in_eq_fetched 3 rfl (fun _ => rfl) (fun _ _ _ => rfl) (fun t => by rw [hafter]; unfold Dat.blockOf gramBlk; rw [hA]; try rfl) t d).trans
    (by unfold Dat.fetched Dat.blockOf gramBlk; rw [hA]; try rfl)

/-! ## What each case leaves in each output block: its stores cover the block, so reading them back over anything is determined -/

theorem gramCoverReset4 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (hc0 : gramFirst i)
    (x0 : Vec F S512x512 .f32) (x1 : Vec F S512x512 .f32) (x2 : Vec F S1024x512 .f32) (x3 : Vec F S1024x512 .f32) (y : S512x1024.Idx) :
    ∃ pc ∈ (gramRunReset c i arg2 harg2 arg3 harg3 arg4 harg4 arg5 harg5 arg6 harg6 arg7 harg7 arg8 harg8 arg9 harg9 hc0 x0 x1 x2 x3).1, y ∈ pc.1.set :=
  View.cover_of_tiledL (gramRunReset c i arg2 harg2 arg3 harg3 arg4 harg4 arg5 harg5 arg6 harg6 arg7 harg7 arg8 harg8 arg9 harg9 hc0 x0 x1 x2 x3).1 S512x1024.size (by sl_kernel_rfl) y
def gramOutReset4 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (hc0 : gramFirst i)
    (x0 : Vec F S512x512 .f32) (x1 : Vec F S512x512 .f32) (x2 : Vec F S1024x512 .f32) (x3 : Vec F S1024x512 .f32) : Vec F S512x1024 .f32 :=
  gramSlabP.read (Elt F) (gramSlabP.writes (Elt F) gramSlabP.junk (gramRunReset c i arg2 harg2 arg3 harg3 arg4 harg4 arg5 harg5 arg6 harg6 arg7 harg7 arg8 harg8 arg9 harg9 hc0 x0 x1 x2 x3).1)
theorem gramCoverReset5 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (hc0 : gramFirst i)
    (x0 : Vec F S512x512 .f32) (x1 : Vec F S512x512 .f32) (x2 : Vec F S1024x512 .f32) (x3 : Vec F S1024x512 .f32) (y : S512x1024.Idx) :
    ∃ pc ∈ (gramRunReset c i arg2 harg2 arg3 harg3 arg4 harg4 arg5 harg5 arg6 harg6 arg7 harg7 arg8 harg8 arg9 harg9 hc0 x0 x1 x2 x3).2.1, y ∈ pc.1.set :=
  View.cover_of_tiledL (gramRunReset c i arg2 harg2 arg3 harg3 arg4 harg4 arg5 harg5 arg6 harg6 arg7 harg7 arg8 harg8 arg9 harg9 hc0 x0 x1 x2 x3).2.1 S512x1024.size (by sl_kernel_rfl) y
def gramOutReset5 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (hc0 : gramFirst i)
    (x0 : Vec F S512x512 .f32) (x1 : Vec F S512x512 .f32) (x2 : Vec F S1024x512 .f32) (x3 : Vec F S1024x512 .f32) : Vec F S512x1024 .f32 :=
  gramSlabT.read (Elt F) (gramSlabT.writes (Elt F) gramSlabT.junk (gramRunReset c i arg2 harg2 arg3 harg3 arg4 harg4 arg5 harg5 arg6 harg6 arg7 harg7 arg8 harg8 arg9 harg9 hc0 x0 x1 x2 x3).2.1)
theorem gramCoverReset6 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (hc0 : gramFirst i)
    (x0 : Vec F S512x512 .f32) (x1 : Vec F S512x512 .f32) (x2 : Vec F S1024x512 .f32) (x3 : Vec F S1024x512 .f32) (y : S512x1.Idx) :
    ∃ pc ∈ (gramRunReset c i arg2 harg2 arg3 harg3 arg4 harg4 arg5 harg5 arg6 harg6 arg7 harg7 arg8 harg8 arg9 harg9 hc0 x0 x1 x2 x3).2.2.1, y ∈ pc.1.set :=
  View.cover_of_tiledL (gramRunReset c i arg2 harg2 arg3 harg3 arg4 harg4 arg5 harg5 arg6 harg6 arg7 harg7 arg8 harg8 arg9 harg9 hc0 x0 x1 x2 x3).2.2.1 S512x1.size (by sl_kernel_rfl) y
def gramOutReset6 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (hc0 : gramFirst i)
    (x0 : Vec F S512x512 .f32) (x1 : Vec F S512x512 .f32) (x2 : Vec F S1024x512 .f32) (x3 : Vec F S1024x512 .f32) : Vec F S512x1 .f32 :=
  normColP.read (Elt F) (normColP.writes (Elt F) normColP.junk (gramRunReset c i arg2 harg2 arg3 harg3 arg4 harg4 arg5 harg5 arg6 harg6 arg7 harg7 arg8 harg8 arg9 harg9 hc0 x0 x1 x2 x3).2.2.1)
theorem gramCoverReset7 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (hc0 : gramFirst i)
    (x0 : Vec F S512x512 .f32) (x1 : Vec F S512x512 .f32) (x2 : Vec F S1024x512 .f32) (x3 : Vec F S1024x512 .f32) (y : S512x1.Idx) :
    ∃ pc ∈ (gramRunReset c i arg2 harg2 arg3 harg3 arg4 harg4 arg5 harg5 arg6 harg6 arg7 harg7 arg8 harg8 arg9 harg9 hc0 x0 x1 x2 x3).2.2.2.1, y ∈ pc.1.set :=
  View.cover_of_tiledL (gramRunReset c i arg2 harg2 arg3 harg3 arg4 harg4 arg5 harg5 arg6 harg6 arg7 harg7 arg8 harg8 arg9 harg9 hc0 x0 x1 x2 x3).2.2.2.1 S512x1.size (by sl_kernel_rfl) y
def gramOutReset7 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (hc0 : gramFirst i)
    (x0 : Vec F S512x512 .f32) (x1 : Vec F S512x512 .f32) (x2 : Vec F S1024x512 .f32) (x3 : Vec F S1024x512 .f32) : Vec F S512x1 .f32 :=
  normColT.read (Elt F) (normColT.writes (Elt F) normColT.junk (gramRunReset c i arg2 harg2 arg3 harg3 arg4 harg4 arg5 harg5 arg6 harg6 arg7 harg7 arg8 harg8 arg9 harg9 hc0 x0 x1 x2 x3).2.2.2.1)

theorem gramCoverAdd4 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (hc0 : ¬gramFirst i)
    (x0 : Vec F S512x512 .f32) (x1 : Vec F S512x512 .f32) (x2 : Vec F S1024x512 .f32) (x3 : Vec F S1024x512 .f32) (xo4 : Vec F S512x1024 .f32) (xo5 : Vec F S512x1024 .f32) (xo6 : Vec F S512x1 .f32) (xo7 : Vec F S512x1 .f32) (y : S512x1024.Idx) :
    ∃ pc ∈ (gramRunAdd c i arg2 harg2 arg3 harg3 arg4 harg4 arg5 harg5 arg6 harg6 arg7 harg7 arg8 harg8 arg9 harg9 hc0 x0 x1 x2 x3 xo4 xo5 xo6 xo7).1, y ∈ pc.1.set :=
  View.cover_of_tiledL (gramRunAdd c i arg2 harg2 arg3 harg3 arg4 harg4 arg5 harg5 arg6 harg6 arg7 harg7 arg8 harg8 arg9 harg9 hc0 x0 x1 x2 x3 xo4 xo5 xo6 xo7).1 S512x1024.size (by sl_kernel_rfl) y
def gramOutAdd4 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (hc0 : ¬gramFirst i)
    (x0 : Vec F S512x512 .f32) (x1 : Vec F S512x512 .f32) (x2 : Vec F S1024x512 .f32) (x3 : Vec F S1024x512 .f32) (xo4 : Vec F S512x1024 .f32) (xo5 : Vec F S512x1024 .f32) (xo6 : Vec F S512x1 .f32) (xo7 : Vec F S512x1 .f32) : Vec F S512x1024 .f32 :=
  gramSlabP.read (Elt F) (gramSlabP.writes (Elt F) gramSlabP.junk (gramRunAdd c i arg2 harg2 arg3 harg3 arg4 harg4 arg5 harg5 arg6 harg6 arg7 harg7 arg8 harg8 arg9 harg9 hc0 x0 x1 x2 x3 xo4 xo5 xo6 xo7).1)
theorem gramCoverAdd5 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (hc0 : ¬gramFirst i)
    (x0 : Vec F S512x512 .f32) (x1 : Vec F S512x512 .f32) (x2 : Vec F S1024x512 .f32) (x3 : Vec F S1024x512 .f32) (xo4 : Vec F S512x1024 .f32) (xo5 : Vec F S512x1024 .f32) (xo6 : Vec F S512x1 .f32) (xo7 : Vec F S512x1 .f32) (y : S512x1024.Idx) :
    ∃ pc ∈ (gramRunAdd c i arg2 harg2 arg3 harg3 arg4 harg4 arg5 harg5 arg6 harg6 arg7 harg7 arg8 harg8 arg9 harg9 hc0 x0 x1 x2 x3 xo4 xo5 xo6 xo7).2.1, y ∈ pc.1.set :=
  View.cover_of_tiledL (gramRunAdd c i arg2 harg2 arg3 harg3 arg4 harg4 arg5 harg5 arg6 harg6 arg7 harg7 arg8 harg8 arg9 harg9 hc0 x0 x1 x2 x3 xo4 xo5 xo6 xo7).2.1 S512x1024.size (by sl_kernel_rfl) y
def gramOutAdd5 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (hc0 : ¬gramFirst i)
    (x0 : Vec F S512x512 .f32) (x1 : Vec F S512x512 .f32) (x2 : Vec F S1024x512 .f32) (x3 : Vec F S1024x512 .f32) (xo4 : Vec F S512x1024 .f32) (xo5 : Vec F S512x1024 .f32) (xo6 : Vec F S512x1 .f32) (xo7 : Vec F S512x1 .f32) : Vec F S512x1024 .f32 :=
  gramSlabT.read (Elt F) (gramSlabT.writes (Elt F) gramSlabT.junk (gramRunAdd c i arg2 harg2 arg3 harg3 arg4 harg4 arg5 harg5 arg6 harg6 arg7 harg7 arg8 harg8 arg9 harg9 hc0 x0 x1 x2 x3 xo4 xo5 xo6 xo7).2.1)
theorem gramCoverAdd6 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (hc0 : ¬gramFirst i)
    (x0 : Vec F S512x512 .f32) (x1 : Vec F S512x512 .f32) (x2 : Vec F S1024x512 .f32) (x3 : Vec F S1024x512 .f32) (xo4 : Vec F S512x1024 .f32) (xo5 : Vec F S512x1024 .f32) (xo6 : Vec F S512x1 .f32) (xo7 : Vec F S512x1 .f32) (y : S512x1.Idx) :
    ∃ pc ∈ (gramRunAdd c i arg2 harg2 arg3 harg3 arg4 harg4 arg5 harg5 arg6 harg6 arg7 harg7 arg8 harg8 arg9 harg9 hc0 x0 x1 x2 x3 xo4 xo5 xo6 xo7).2.2.1, y ∈ pc.1.set :=
  View.cover_of_tiledL (gramRunAdd c i arg2 harg2 arg3 harg3 arg4 harg4 arg5 harg5 arg6 harg6 arg7 harg7 arg8 harg8 arg9 harg9 hc0 x0 x1 x2 x3 xo4 xo5 xo6 xo7).2.2.1 S512x1.size (by sl_kernel_rfl) y
def gramOutAdd6 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (hc0 : ¬gramFirst i)
    (x0 : Vec F S512x512 .f32) (x1 : Vec F S512x512 .f32) (x2 : Vec F S1024x512 .f32) (x3 : Vec F S1024x512 .f32) (xo4 : Vec F S512x1024 .f32) (xo5 : Vec F S512x1024 .f32) (xo6 : Vec F S512x1 .f32) (xo7 : Vec F S512x1 .f32) : Vec F S512x1 .f32 :=
  normColP.read (Elt F) (normColP.writes (Elt F) normColP.junk (gramRunAdd c i arg2 harg2 arg3 harg3 arg4 harg4 arg5 harg5 arg6 harg6 arg7 harg7 arg8 harg8 arg9 harg9 hc0 x0 x1 x2 x3 xo4 xo5 xo6 xo7).2.2.1)
theorem gramCoverAdd7 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (hc0 : ¬gramFirst i)
    (x0 : Vec F S512x512 .f32) (x1 : Vec F S512x512 .f32) (x2 : Vec F S1024x512 .f32) (x3 : Vec F S1024x512 .f32) (xo4 : Vec F S512x1024 .f32) (xo5 : Vec F S512x1024 .f32) (xo6 : Vec F S512x1 .f32) (xo7 : Vec F S512x1 .f32) (y : S512x1.Idx) :
    ∃ pc ∈ (gramRunAdd c i arg2 harg2 arg3 harg3 arg4 harg4 arg5 harg5 arg6 harg6 arg7 harg7 arg8 harg8 arg9 harg9 hc0 x0 x1 x2 x3 xo4 xo5 xo6 xo7).2.2.2.1, y ∈ pc.1.set :=
  View.cover_of_tiledL (gramRunAdd c i arg2 harg2 arg3 harg3 arg4 harg4 arg5 harg5 arg6 harg6 arg7 harg7 arg8 harg8 arg9 harg9 hc0 x0 x1 x2 x3 xo4 xo5 xo6 xo7).2.2.2.1 S512x1.size (by sl_kernel_rfl) y
def gramOutAdd7 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (hc0 : ¬gramFirst i)
    (x0 : Vec F S512x512 .f32) (x1 : Vec F S512x512 .f32) (x2 : Vec F S1024x512 .f32) (x3 : Vec F S1024x512 .f32) (xo4 : Vec F S512x1024 .f32) (xo5 : Vec F S512x1024 .f32) (xo6 : Vec F S512x1 .f32) (xo7 : Vec F S512x1 .f32) : Vec F S512x1 .f32 :=
  normColT.read (Elt F) (normColT.writes (Elt F) normColT.junk (gramRunAdd c i arg2 harg2 arg3 harg3 arg4 harg4 arg5 harg5 arg6 harg6 arg7 harg7 arg8 harg8 arg9 harg9 hc0 x0 x1 x2 x3 xo4 xo5 xo6 xo7).2.2.2.1)

/-! ## The four output blocks after each point -/

/-- THE ACCUMULATION: what the four output blocks hold after the body at position `n`. -/
def gramOuts (c : Dev nD) : (n : ℕ) → n < cfg0.N → Vec F S512x1024 .f32 × Vec F S512x1024 .f32 × Vec F S512x1 .f32 × Vec F S512x1 .f32
  | 0, hn => (gramOutReset4 c (grid0.coords ⟨0, hn⟩) (gm0 ⟨0, hn⟩) (gh0 ⟨0, hn⟩) (gm1 ⟨0, hn⟩) (gh1 ⟨0, hn⟩) (gm2 ⟨0, hn⟩) (gh2 ⟨0, hn⟩) (gm3 ⟨0, hn⟩) (gh3 ⟨0, hn⟩) (gm4 ⟨0, hn⟩) (gh4 ⟨0, hn⟩) (gm5 ⟨0, hn⟩) (gh5 ⟨0, hn⟩) (gm6 ⟨0, hn⟩) (gh6 ⟨0, hn⟩) (gm7 ⟨0, hn⟩) (gh7 ⟨0, hn⟩) ((gramFirst_iff ⟨0, hn⟩).mpr (Nat.zero_mod _)) (gramBlk V c 0 ⟨0, hn⟩) (gramBlk V c 1 ⟨0, hn⟩) (gramBlk V c 2 ⟨0, hn⟩) (gramBlk V c 3 ⟨0, hn⟩),
        gramOutReset5 c (grid0.coords ⟨0, hn⟩) (gm0 ⟨0, hn⟩) (gh0 ⟨0, hn⟩) (gm1 ⟨0, hn⟩) (gh1 ⟨0, hn⟩) (gm2 ⟨0, hn⟩) (gh2 ⟨0, hn⟩) (gm3 ⟨0, hn⟩) (gh3 ⟨0, hn⟩) (gm4 ⟨0, hn⟩) (gh4 ⟨0, hn⟩) (gm5 ⟨0, hn⟩) (gh5 ⟨0, hn⟩) (gm6 ⟨0, hn⟩) (gh6 ⟨0, hn⟩) (gm7 ⟨0, hn⟩) (gh7 ⟨0, hn⟩) ((gramFirst_iff ⟨0, hn⟩).mpr (Nat.zero_mod _)) (gramBlk V c 0 ⟨0, hn⟩) (gramBlk V c 1 ⟨0, hn⟩) (gramBlk V c 2 ⟨0, hn⟩) (gramBlk V c 3 ⟨0, hn⟩),
        gramOutReset6 c (grid0.coords ⟨0, hn⟩) (gm0 ⟨0, hn⟩) (gh0 ⟨0, hn⟩) (gm1 ⟨0, hn⟩) (gh1 ⟨0, hn⟩) (gm2 ⟨0, hn⟩) (gh2 ⟨0, hn⟩) (gm3 ⟨0, hn⟩) (gh3 ⟨0, hn⟩) (gm4 ⟨0, hn⟩) (gh4 ⟨0, hn⟩) (gm5 ⟨0, hn⟩) (gh5 ⟨0, hn⟩) (gm6 ⟨0, hn⟩) (gh6 ⟨0, hn⟩) (gm7 ⟨0, hn⟩) (gh7 ⟨0, hn⟩) ((gramFirst_iff ⟨0, hn⟩).mpr (Nat.zero_mod _)) (gramBlk V c 0 ⟨0, hn⟩) (gramBlk V c 1 ⟨0, hn⟩) (gramBlk V c 2 ⟨0, hn⟩) (gramBlk V c 3 ⟨0, hn⟩),
        gramOutReset7 c (grid0.coords ⟨0, hn⟩) (gm0 ⟨0, hn⟩) (gh0 ⟨0, hn⟩) (gm1 ⟨0, hn⟩) (gh1 ⟨0, hn⟩) (gm2 ⟨0, hn⟩) (gh2 ⟨0, hn⟩) (gm3 ⟨0, hn⟩) (gh3 ⟨0, hn⟩) (gm4 ⟨0, hn⟩) (gh4 ⟨0, hn⟩) (gm5 ⟨0, hn⟩) (gh5 ⟨0, hn⟩) (gm6 ⟨0, hn⟩) (gh6 ⟨0, hn⟩) (gm7 ⟨0, hn⟩) (gh7 ⟨0, hn⟩) ((gramFirst_iff ⟨0, hn⟩).mpr (Nat.zero_mod _)) (gramBlk V c 0 ⟨0, hn⟩) (gramBlk V c 1 ⟨0, hn⟩) (gramBlk V c 2 ⟨0, hn⟩) (gramBlk V c 3 ⟨0, hn⟩))
  | n + 1, hn =>
    if h0 : (n + 1) % 16 = 0 then
      (gramOutReset4 c (grid0.coords ⟨n + 1, hn⟩) (gm0 ⟨n + 1, hn⟩) (gh0 ⟨n + 1, hn⟩) (gm1 ⟨n + 1, hn⟩) (gh1 ⟨n + 1, hn⟩) (gm2 ⟨n + 1, hn⟩) (gh2 ⟨n + 1, hn⟩) (gm3 ⟨n + 1, hn⟩) (gh3 ⟨n + 1, hn⟩) (gm4 ⟨n + 1, hn⟩) (gh4 ⟨n + 1, hn⟩) (gm5 ⟨n + 1, hn⟩) (gh5 ⟨n + 1, hn⟩) (gm6 ⟨n + 1, hn⟩) (gh6 ⟨n + 1, hn⟩) (gm7 ⟨n + 1, hn⟩) (gh7 ⟨n + 1, hn⟩) ((gramFirst_iff ⟨n + 1, hn⟩).mpr h0) (gramBlk V c 0 ⟨n + 1, hn⟩) (gramBlk V c 1 ⟨n + 1, hn⟩) (gramBlk V c 2 ⟨n + 1, hn⟩) (gramBlk V c 3 ⟨n + 1, hn⟩),
        gramOutReset5 c (grid0.coords ⟨n + 1, hn⟩) (gm0 ⟨n + 1, hn⟩) (gh0 ⟨n + 1, hn⟩) (gm1 ⟨n + 1, hn⟩) (gh1 ⟨n + 1, hn⟩) (gm2 ⟨n + 1, hn⟩) (gh2 ⟨n + 1, hn⟩) (gm3 ⟨n + 1, hn⟩) (gh3 ⟨n + 1, hn⟩) (gm4 ⟨n + 1, hn⟩) (gh4 ⟨n + 1, hn⟩) (gm5 ⟨n + 1, hn⟩) (gh5 ⟨n + 1, hn⟩) (gm6 ⟨n + 1, hn⟩) (gh6 ⟨n + 1, hn⟩) (gm7 ⟨n + 1, hn⟩) (gh7 ⟨n + 1, hn⟩) ((gramFirst_iff ⟨n + 1, hn⟩).mpr h0) (gramBlk V c 0 ⟨n + 1, hn⟩) (gramBlk V c 1 ⟨n + 1, hn⟩) (gramBlk V c 2 ⟨n + 1, hn⟩) (gramBlk V c 3 ⟨n + 1, hn⟩),
        gramOutReset6 c (grid0.coords ⟨n + 1, hn⟩) (gm0 ⟨n + 1, hn⟩) (gh0 ⟨n + 1, hn⟩) (gm1 ⟨n + 1, hn⟩) (gh1 ⟨n + 1, hn⟩) (gm2 ⟨n + 1, hn⟩) (gh2 ⟨n + 1, hn⟩) (gm3 ⟨n + 1, hn⟩) (gh3 ⟨n + 1, hn⟩) (gm4 ⟨n + 1, hn⟩) (gh4 ⟨n + 1, hn⟩) (gm5 ⟨n + 1, hn⟩) (gh5 ⟨n + 1, hn⟩) (gm6 ⟨n + 1, hn⟩) (gh6 ⟨n + 1, hn⟩) (gm7 ⟨n + 1, hn⟩) (gh7 ⟨n + 1, hn⟩) ((gramFirst_iff ⟨n + 1, hn⟩).mpr h0) (gramBlk V c 0 ⟨n + 1, hn⟩) (gramBlk V c 1 ⟨n + 1, hn⟩) (gramBlk V c 2 ⟨n + 1, hn⟩) (gramBlk V c 3 ⟨n + 1, hn⟩),
        gramOutReset7 c (grid0.coords ⟨n + 1, hn⟩) (gm0 ⟨n + 1, hn⟩) (gh0 ⟨n + 1, hn⟩) (gm1 ⟨n + 1, hn⟩) (gh1 ⟨n + 1, hn⟩) (gm2 ⟨n + 1, hn⟩) (gh2 ⟨n + 1, hn⟩) (gm3 ⟨n + 1, hn⟩) (gh3 ⟨n + 1, hn⟩) (gm4 ⟨n + 1, hn⟩) (gh4 ⟨n + 1, hn⟩) (gm5 ⟨n + 1, hn⟩) (gh5 ⟨n + 1, hn⟩) (gm6 ⟨n + 1, hn⟩) (gh6 ⟨n + 1, hn⟩) (gm7 ⟨n + 1, hn⟩) (gh7 ⟨n + 1, hn⟩) ((gramFirst_iff ⟨n + 1, hn⟩).mpr h0) (gramBlk V c 0 ⟨n + 1, hn⟩) (gramBlk V c 1 ⟨n + 1, hn⟩) (gramBlk V c 2 ⟨n + 1, hn⟩) (gramBlk V c 3 ⟨n + 1, hn⟩))
    else
      (gramOutAdd4 c (grid0.coords ⟨n + 1, hn⟩) (gm0 ⟨n + 1, hn⟩) (gh0 ⟨n + 1, hn⟩) (gm1 ⟨n + 1, hn⟩) (gh1 ⟨n + 1, hn⟩) (gm2 ⟨n + 1, hn⟩) (gh2 ⟨n + 1, hn⟩) (gm3 ⟨n + 1, hn⟩) (gh3 ⟨n + 1, hn⟩) (gm4 ⟨n + 1, hn⟩) (gh4 ⟨n + 1, hn⟩) (gm5 ⟨n + 1, hn⟩) (gh5 ⟨n + 1, hn⟩) (gm6 ⟨n + 1, hn⟩) (gh6 ⟨n + 1, hn⟩) (gm7 ⟨n + 1, hn⟩) (gh7 ⟨n + 1, hn⟩) (fun h => h0 ((gramFirst_iff ⟨n + 1, hn⟩).mp h)) (gramBlk V c 0 ⟨n + 1, hn⟩) (gramBlk V c 1 ⟨n + 1, hn⟩) (gramBlk V c 2 ⟨n + 1, hn⟩) (gramBlk V c 3 ⟨n + 1, hn⟩) (gramOuts c n (Nat.lt_of_succ_lt hn)).1 (gramOuts c n (Nat.lt_of_succ_lt hn)).2.1 (gramOuts c n (Nat.lt_of_succ_lt hn)).2.2.1 (gramOuts c n (Nat.lt_of_succ_lt hn)).2.2.2,
        gramOutAdd5 c (grid0.coords ⟨n + 1, hn⟩) (gm0 ⟨n + 1, hn⟩) (gh0 ⟨n + 1, hn⟩) (gm1 ⟨n + 1, hn⟩) (gh1 ⟨n + 1, hn⟩) (gm2 ⟨n + 1, hn⟩) (gh2 ⟨n + 1, hn⟩) (gm3 ⟨n + 1, hn⟩) (gh3 ⟨n + 1, hn⟩) (gm4 ⟨n + 1, hn⟩) (gh4 ⟨n + 1, hn⟩) (gm5 ⟨n + 1, hn⟩) (gh5 ⟨n + 1, hn⟩) (gm6 ⟨n + 1, hn⟩) (gh6 ⟨n + 1, hn⟩) (gm7 ⟨n + 1, hn⟩) (gh7 ⟨n + 1, hn⟩) (fun h => h0 ((gramFirst_iff ⟨n + 1, hn⟩).mp h)) (gramBlk V c 0 ⟨n + 1, hn⟩) (gramBlk V c 1 ⟨n + 1, hn⟩) (gramBlk V c 2 ⟨n + 1, hn⟩) (gramBlk V c 3 ⟨n + 1, hn⟩) (gramOuts c n (Nat.lt_of_succ_lt hn)).1 (gramOuts c n (Nat.lt_of_succ_lt hn)).2.1 (gramOuts c n (Nat.lt_of_succ_lt hn)).2.2.1 (gramOuts c n (Nat.lt_of_succ_lt hn)).2.2.2,
        gramOutAdd6 c (grid0.coords ⟨n + 1, hn⟩) (gm0 ⟨n + 1, hn⟩) (gh0 ⟨n + 1, hn⟩) (gm1 ⟨n + 1, hn⟩) (gh1 ⟨n + 1, hn⟩) (gm2 ⟨n + 1, hn⟩) (gh2 ⟨n + 1, hn⟩) (gm3 ⟨n + 1, hn⟩) (gh3 ⟨n + 1, hn⟩) (gm4 ⟨n + 1, hn⟩) (gh4 ⟨n + 1, hn⟩) (gm5 ⟨n + 1, hn⟩) (gh5 ⟨n + 1, hn⟩) (gm6 ⟨n + 1, hn⟩) (gh6 ⟨n + 1, hn⟩) (gm7 ⟨n + 1, hn⟩) (gh7 ⟨n + 1, hn⟩) (fun h => h0 ((gramFirst_iff ⟨n + 1, hn⟩).mp h)) (gramBlk V c 0 ⟨n + 1, hn⟩) (gramBlk V c 1 ⟨n + 1, hn⟩) (gramBlk V c 2 ⟨n + 1, hn⟩) (gramBlk V c 3 ⟨n + 1, hn⟩) (gramOuts c n (Nat.lt_of_succ_lt hn)).1 (gramOuts c n (Nat.lt_of_succ_lt hn)).2.1 (gramOuts c n (Nat.lt_of_succ_lt hn)).2.2.1 (gramOuts c n (Nat.lt_of_succ_lt hn)).2.2.2,
        gramOutAdd7 c (grid0.coords ⟨n + 1, hn⟩) (gm0 ⟨n + 1, hn⟩) (gh0 ⟨n + 1, hn⟩) (gm1 ⟨n + 1, hn⟩) (gh1 ⟨n + 1, hn⟩) (gm2 ⟨n + 1, hn⟩) (gh2 ⟨n + 1, hn⟩) (gm3 ⟨n + 1, hn⟩) (gh3 ⟨n + 1, hn⟩) (gm4 ⟨n + 1, hn⟩) (gh4 ⟨n + 1, hn⟩) (gm5 ⟨n + 1, hn⟩) (gh5 ⟨n + 1, hn⟩) (gm6 ⟨n + 1, hn⟩) (gh6 ⟨n + 1, hn⟩) (gm7 ⟨n + 1, hn⟩) (gh7 ⟨n + 1, hn⟩) (fun h => h0 ((gramFirst_iff ⟨n + 1, hn⟩).mp h)) (gramBlk V c 0 ⟨n + 1, hn⟩) (gramBlk V c 1 ⟨n + 1, hn⟩) (gramBlk V c 2 ⟨n + 1, hn⟩) (gramBlk V c 3 ⟨n + 1, hn⟩) (gramOuts c n (Nat.lt_of_succ_lt hn)).1 (gramOuts c n (Nat.lt_of_succ_lt hn)).2.1 (gramOuts c n (Nat.lt_of_succ_lt hn)).2.2.1 (gramOuts c n (Nat.lt_of_succ_lt hn)).2.2.2)

theorem gramOuts_reset (c : Dev nD) (t : Fin cfg0.N) (h0 : t.val % 16 = 0) :
    gramOuts V c t.val t.isLt = (gramOutReset4 c (grid0.coords t) (gm0 t) (gh0 t) (gm1 t) (gh1 t) (gm2 t) (gh2 t) (gm3 t) (gh3 t) (gm4 t) (gh4 t) (gm5 t) (gh5 t) (gm6 t) (gh6 t) (gm7 t) (gh7 t) ((gramFirst_iff t).mpr h0) (gramBlk V c 0 t) (gramBlk V c 1 t) (gramBlk V c 2 t) (gramBlk V c 3 t),
        gramOutReset5 c (grid0.coords t) (gm0 t) (gh0 t) (gm1 t) (gh1 t) (gm2 t) (gh2 t) (gm3 t) (gh3 t) (gm4 t) (gh4 t) (gm5 t) (gh5 t) (gm6 t) (gh6 t) (gm7 t) (gh7 t) ((gramFirst_iff t).mpr h0) (gramBlk V c 0 t) (gramBlk V c 1 t) (gramBlk V c 2 t) (gramBlk V c 3 t),
        gramOutReset6 c (grid0.coords t) (gm0 t) (gh0 t) (gm1 t) (gh1 t) (gm2 t) (gh2 t) (gm3 t) (gh3 t) (gm4 t) (gh4 t) (gm5 t) (gh5 t) (gm6 t) (gh6 t) (gm7 t) (gh7 t) ((gramFirst_iff t).mpr h0) (gramBlk V c 0 t) (gramBlk V c 1 t) (gramBlk V c 2 t) (gramBlk V c 3 t),
        gramOutReset7 c (grid0.coords t) (gm0 t) (gh0 t) (gm1 t) (gh1 t) (gm2 t) (gh2 t) (gm3 t) (gh3 t) (gm4 t) (gh4 t) (gm5 t) (gh5 t) (gm6 t) (gh6 t) (gm7 t) (gh7 t) ((gramFirst_iff t).mpr h0) (gramBlk V c 0 t) (gramBlk V c 1 t) (gramBlk V c 2 t) (gramBlk V c 3 t)) := by
  obtain ⟨n, hn⟩ := t
  cases n with
  | zero => exact rfl
  | succ n => exact (dif_pos h0).trans rfl

theorem gramOuts_add (c : Dev nD) (t : Fin cfg0.N) (h0 : ¬t.val % 16 = 0) :
    gramOuts V c t.val t.isLt = (gramOutAdd4 c (grid0.coords t) (gm0 t) (gh0 t) (gm1 t) (gh1 t) (gm2 t) (gh2 t) (gm3 t) (gh3 t) (gm4 t) (gh4 t) (gm5 t) (gh5 t) (gm6 t) (gh6 t) (gm7 t) (gh7 t) (fun h => h0 ((gramFirst_iff t).mp h)) (gramBlk V c 0 t) (gramBlk V c 1 t) (gramBlk V c 2 t) (gramBlk V c 3 t) (gramOuts V c (t.val - 1) (Nat.lt_of_le_of_lt (Nat.sub_le _ _) t.isLt)).1 (gramOuts V c (t.val - 1) (Nat.lt_of_le_of_lt (Nat.sub_le _ _) t.isLt)).2.1 (gramOuts V c (t.val - 1) (Nat.lt_of_le_of_lt (Nat.sub_le _ _) t.isLt)).2.2.1 (gramOuts V c (t.val - 1) (Nat.lt_of_le_of_lt (Nat.sub_le _ _) t.isLt)).2.2.2,
        gramOutAdd5 c (grid0.coords t) (gm0 t) (gh0 t) (gm1 t) (gh1 t) (gm2 t) (gh2 t) (gm3 t) (gh3 t) (gm4 t) (gh4 t) (gm5 t) (gh5 t) (gm6 t) (gh6 t) (gm7 t) (gh7 t) (fun h => h0 ((gramFirst_iff t).mp h)) (gramBlk V c 0 t) (gramBlk V c 1 t) (gramBlk V c 2 t) (gramBlk V c 3 t) (gramOuts V c (t.val - 1) (Nat.lt_of_le_of_lt (Nat.sub_le _ _) t.isLt)).1 (gramOuts V c (t.val - 1) (Nat.lt_of_le_of_lt (Nat.sub_le _ _) t.isLt)).2.1 (gramOuts V c (t.val - 1) (Nat.lt_of_le_of_lt (Nat.sub_le _ _) t.isLt)).2.2.1 (gramOuts V c (t.val - 1) (Nat.lt_of_le_of_lt (Nat.sub_le _ _) t.isLt)).2.2.2,
        gramOutAdd6 c (grid0.coords t) (gm0 t) (gh0 t) (gm1 t) (gh1 t) (gm2 t) (gh2 t) (gm3 t) (gh3 t) (gm4 t) (gh4 t) (gm5 t) (gh5 t) (gm6 t) (gh6 t) (gm7 t) (gh7 t) (fun h => h0 ((gramFirst_iff t).mp h)) (gramBlk V c 0 t) (gramBlk V c 1 t) (gramBlk V c 2 t) (gramBlk V c 3 t) (gramOuts V c (t.val - 1) (Nat.lt_of_le_of_lt (Nat.sub_le _ _) t.isLt)).1 (gramOuts V c (t.val - 1) (Nat.lt_of_le_of_lt (Nat.sub_le _ _) t.isLt)).2.1 (gramOuts V c (t.val - 1) (Nat.lt_of_le_of_lt (Nat.sub_le _ _) t.isLt)).2.2.1 (gramOuts V c (t.val - 1) (Nat.lt_of_le_of_lt (Nat.sub_le _ _) t.isLt)).2.2.2,
        gramOutAdd7 c (grid0.coords t) (gm0 t) (gh0 t) (gm1 t) (gh1 t) (gm2 t) (gh2 t) (gm3 t) (gh3 t) (gm4 t) (gh4 t) (gm5 t) (gh5 t) (gm6 t) (gh6 t) (gm7 t) (gh7 t) (fun h => h0 ((gramFirst_iff t).mp h)) (gramBlk V c 0 t) (gramBlk V c 1 t) (gramBlk V c 2 t) (gramBlk V c 3 t) (gramOuts V c (t.val - 1) (Nat.lt_of_le_of_lt (Nat.sub_le _ _) t.isLt)).1 (gramOuts V c (t.val - 1) (Nat.lt_of_le_of_lt (Nat.sub_le _ _) t.isLt)).2.1 (gramOuts V c (t.val - 1) (Nat.lt_of_le_of_lt (Nat.sub_le _ _) t.isLt)).2.2.1 (gramOuts V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-! ## The region's proof data -/

/-- The arrays as the region finds them; after the body at point `t` each input's buffer at its block and the outputs'
    at `gramOuts`; the invariant is the core's scoped rest and generator register, untouched; nothing owed; the two
    windows on each argument array hold it at the two halves of the full share. -/
def gramDat (c : Dev nD) : Dat τ (Elt F) Unit ℕ (UR sig nD τ) ℕ cfg0 c where
  A w := V c (Pipeline.arrRef spec0 w)
  after w t := match w with
    | ⟨0, _⟩ => gramBlk V c 0 t
    | ⟨1, _⟩ => gramBlk V c 1 t
    | ⟨2, _⟩ => gramBlk V c 2 t
    | ⟨3, _⟩ => gramBlk V c 3 t
    | ⟨4, _⟩ => (gramOuts V c t.val t.isLt).1
    | ⟨5, _⟩ => (gramOuts V c t.val t.isLt).2.1
    | ⟨6, _⟩ => (gramOuts V c t.val t.isLt).2.2.1
    | ⟨7, _⟩ => (gramOuts V c t.val t.isLt).2.2.2
  Φ _ := Pipeline.ΦA spec0 c
  q w := match w with
    | ⟨0, _⟩ => fullShare.left
    | ⟨1, _⟩ => fullShare.left
    | ⟨2, _⟩ => fullShare.right
    | ⟨3, _⟩ => fullShare.right
    | _ => fullShare
  owed _ := 0

theorem gramDat_A (c : Dev nD) (w : Fin cfg0.W) : (gramDat V c).A w = V c (Pipeline.arrRef spec0 w) := by
  dsimp only [gramDat]

theorem gramAfter0 (c : Dev nD) (t : Fin cfg0.N) : (gramDat V c).after 0 t = gramBlk V c 0 t := by dsimp only [gramDat]
theorem gramAfter1 (c : Dev nD) (t : Fin cfg0.N) : (gramDat V c).after 1 t = gramBlk V c 1 t := by dsimp only [gramDat]
theorem gramAfter2 (c : Dev nD) (t : Fin cfg0.N) : (gramDat V c).after 2 t = gramBlk V c 2 t := by dsimp only [gramDat]
theorem gramAfter3 (c : Dev nD) (t : Fin cfg0.N) : (gramDat V c).after 3 t = gramBlk V c 3 t := by dsimp only [gramDat]
theorem gramAfter4 (c : Dev nD) (t : Fin cfg0.N) : (gramDat V c).after 4 t = (gramOuts V c t.val t.isLt).1 := by dsimp only [gramDat]
theorem gramAfter5 (c : Dev nD) (t : Fin cfg0.N) : (gramDat V c).after 5 t = (gramOuts V c t.val t.isLt).2.1 := by dsimp only [gramDat]
theorem gramAfter6 (c : Dev nD) (t : Fin cfg0.N) : (gramDat V c).after 6 t = (gramOuts V c t.val t.isLt).2.2.1 := by dsimp only [gramDat]
theorem gramAfter7 (c : Dev nD) (t : Fin cfg0.N) : (gramDat V c).after 7 t = (gramOuts V c t.val t.isLt).2.2.2 := by dsimp only [gramDat]

theorem gramBefore0 (c : Dev nD) (t : Fin cfg0.N) (d) : (gramDat V c).before 0 t d = gramBlk V c 0 t :=
  gramBefore0_of V (gramDat V c) (gramDat_A V c 0) (gramAfter0 V c) t d
theorem gramBefore1 (c : Dev nD) (t : Fin cfg0.N) (d) : (gramDat V c).before 1 t d = gramBlk V c 1 t :=
  gramBefore1_of V (gramDat V c) (gramDat_A V c 1) (gramAfter1 V c) t d
theorem gramBefore2 (c : Dev nD) (t : Fin cfg0.N) (d) : (gramDat V c).before 2 t d = gramBlk V c 2 t :=
  gramBefore2_of V (gramDat V c) (gramDat_A V c 2) (gramAfter2 V c) t d
theorem gramBefore3 (c : Dev nD) (t : Fin cfg0.N) (d) : (gramDat V c).before 3 t d = gramBlk V c 3 t :=
  gramBefore3_of V (gramDat V c) (gramDat_A V c 3) (gramAfter3 V c) t d

/-! Away from the first column tile each output's staging buffer holds what the body left at the point before: the
    blocks are written back only after the last column tile of a row half. -/
theorem gramBefore4_later (c : Dev nD) (t : Fin cfg0.N) (h0 : ¬t.val % 16 = 0) (d) :
    (gramDat V c).before 4 t d = (gramOuts V c (t.val - 1) (Nat.lt_of_le_of_lt (Nat.sub_le _ _) t.isLt)).1 := by
  have hN : t.val < 32 := lt_of_lt_of_eq t.isLt (show cfg0.N = 32 from N_0)
  rw [Dat.before_out_kept _ 4 rfl t (by omega) (Bool.eq_false_iff.mpr fun h => by have := (flush0_4 _).mp h; dsimp only at this; omega)
    (fun _ => rfl) (fun _ _ => rfl)]
  dsimp only [gramDat]
theorem gramBefore5_later (c : Dev nD) (t : Fin cfg0.N) (h0 : ¬t.val % 16 = 0) (d) :
    (gramDat V c).before 5 t d = (gramOuts V c (t.val - 1) (Nat.lt_of_le_of_lt (Nat.sub_le _ _) t.isLt)).2.1 := by
  have hN : t.val < 32 := lt_of_lt_of_eq t.isLt (show cfg0.N = 32 from N_0)
  rw [Dat.before_out_kept _ 5 rfl t (by omega) (Bool.eq_false_iff.mpr fun h => by have := (flush0_5 _).mp h; dsimp only at this; omega)
    (fun _ => rfl) (fun _ _ => rfl)]
  dsimp only [gramDat]
theorem gramBefore6_later (c : Dev nD) (t : Fin cfg0.N) (h0 : ¬t.val % 16 = 0) (d) :
    (gramDat V c).before 6 t d = (gramOuts V c (t.val - 1) (Nat.lt_of_le_of_lt (Nat.sub_le _ _) t.isLt)).2.2.1 := by
  have hN : t.val < 32 := lt_of_lt_of_eq t.isLt (show cfg0.N = 32 from N_0)
  rw [Dat.before_out_kept _ 6 rfl t (by omega) (Bool.eq_false_iff.mpr fun h => by have := (flush0_6 _).mp h; dsimp only at this; omega)
    (fun _ => rfl) (fun _ _ => rfl)]
  dsimp only [gramDat]
theorem gramBefore7_later (c : Dev nD) (t : Fin cfg0.N) (h0 : ¬t.val % 16 = 0) (d) :
    (gramDat V c).before 7 t d = (gramOuts V c (t.val - 1) (Nat.lt_of_le_of_lt (Nat.sub_le _ _) t.isLt)).2.2.2 := by
  have hN : t.val < 32 := lt_of_lt_of_eq t.isLt (show cfg0.N = 32 from N_0)
  rw [Dat.before_out_kept _ 7 rfl t (by omega) (Bool.eq_false_iff.mpr fun h => by have := (flush0_7 _).mp h; dsimp only at this; omega)
    (fun _ => rfl) (fun _ _ => rfl)]
  dsimp only [gramDat]

/-! ## The body obligation, at a generic point -/

def gramPre (c : Dev nD) (t : Fin cfg0.N) : sProp 𝕄 :=
  iprop((gramDat V c).Φ t.castSucc ∗ (gramDat V c).owesAt () t.castSucc
    ∗ (∃ d, owns (c : Thread nD τ) (gm0 t) fullShare ((gramDat V c).before 0 t d))
    ∗ (∃ d, owns (c : Thread nD τ) (gm1 t) fullShare ((gramDat V c).before 1 t d))
    ∗ (∃ d, owns (c : Thread nD τ) (gm2 t) fullShare ((gramDat V c).before 2 t d))
    ∗ (∃ d, owns (c : Thread nD τ) (gm3 t) fullShare ((gramDat V c).before 3 t d))
    ∗ (∃ d, owns (c : Thread nD τ) (gm4 t) fullShare ((gramDat V c).before 4 t d))
    ∗ (∃ d, owns (c : Thread nD τ) (gm5 t) fullShare ((gramDat V c).before 5 t d))
    ∗ (∃ d, owns (c : Thread nD τ) (gm6 t) fullShare ((gramDat V c).before 6 t d))
    ∗ (∃ d, owns (c : Thread nD τ) (gm7 t) fullShare ((gramDat V c).before 7 t d)))

def gramPost (c : Dev nD) (t : Fin cfg0.N) : sProp 𝕄 :=
  iprop((gramDat V c).Φ t.succ ∗ (gramDat V c).owesAt () t.succ
    ∗ owns (c : Thread nD τ) (gm0 t) fullShare ((gramDat V c).after 0 t)
    ∗ owns (c : Thread nD τ) (gm1 t) fullShare ((gramDat V c).after 1 t)
    ∗ owns (c : Thread nD τ) (gm2 t) fullShare ((gramDat V c).after 2 t)
    ∗ owns (c : Thread nD τ) (gm3 t) fullShare ((gramDat V c).after 3 t)
    ∗ owns (c : Thread nD τ) (gm4 t) fullShare ((gramDat V c).after 4 t)
    ∗ owns (c : Thread nD τ) (gm5 t) fullShare ((gramDat V c).after 5 t)
    ∗ owns (c : Thread nD τ) (gm6 t) fullShare ((gramDat V c).after 6 t)
    ∗ owns (c : Thread nD τ) (gm7 t) fullShare ((gramDat V c).after 7 t))

set_option maxHeartbeats 1600000 in
theorem gramSoundBody (c : Dev nD) (t : Fin cfg0.N) :
    gramPre V c t ⊢ wp frame (wpE (defs₀ (F := F)) Variants.none c none) Set.univ (bodyAt0 t) (fun _ => gramPost V c t) := by
  unfold gramPre gramPost bodyAt0
  simp only [gramBefore0, gramBefore1, gramBefore2, gramBefore3]
  rw [show (gramDat V c).Φ t.succ = (gramDat V c).Φ t.castSucc from rfl,
    show (gramDat V c).owesAt () t.succ = (gramDat V c).owesAt () t.castSucc from rfl,
    gramAfter0, gramAfter1, gramAfter2, gramAfter3, gramAfter4, gramAfter5, gramAfter6, gramAfter7]
  have hN : t.val < 32 := lt_of_lt_of_eq t.isLt (show cfg0.N = 32 from N_0)
  by_cases h0 : t.val % 16 = 0
  · rw [gramOuts_reset V c t h0]
    dsimp only
    unfold gramOutReset4 gramOutReset5 gramOutReset6 gramOutReset7
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((gramRunReset c (grid0.coords t) _ _ _ _ _ _ _ _ _ _ _ _ _ _ _ _ ((gramFirst_iff t).mpr h0) (gramBlk V c 0 t) (gramBlk V c 1 t) (gramBlk V c 2 t) (gramBlk V c 3 t)).2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    iintro ⟨H0, H1, H2, H3, ⟨%e4, H4⟩, ⟨%e5, H5⟩, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (gramCoverReset4 c _ _ _ _ _ _ _ _ _ _ _ _ _ _ _ _ _ _ _ _ _ _)
    isplitl [H5]
    · unfold owns; iexists _; isplitr
      swap; · iexact H5
      ipureintro; exact View.read_writes_of_cover _ _ _ _ _ (gramCoverReset5 c _ _ _ _ _ _ _ _ _ _ _ _ _ _ _ _ _ _ _ _ _ _)
    isplitl [H6]
    · unfold owns; iexists _; isplitr
      swap; · iexact H6
      ipureintro; exact View.read_writes_of_cover _ _ _ _ _ (gramCoverReset6 c _ _ _ _ _ _ _ _ _ _ _ _ _ _ _ _ _ _ _ _ _ _)
    unfold owns; iexists _; isplitr
    swap; · iexact H7
    ipureintro; exact View.read_writes_of_cover _ _ _ _ _ (gramCoverReset7 c _ _ _ _ _ _ _ _ _ _ _ _ _ _ _ _ _ _ _ _ _ _)
  · simp only [gramBefore4_later V c t h0, gramBefore5_later V c t h0, gramBefore6_later V c t h0, gramBefore7_later V c t h0]
    rw [gramOuts_add V c t h0]
    dsimp only
    unfold gramOutAdd4 gramOutAdd5 gramOutAdd6 gramOutAdd7
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((gramRunAdd c (grid0.coords t) _ _ _ _ _ _ _ _ _ _ _ _ _ _ _ _ (fun h => h0 ((gramFirst_iff t).mp h)) (gramBlk V c 0 t) (gramBlk V c 1 t) (gramBlk V c 2 t) (gramBlk V c 3 t) _ _ _ _).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iintro ⟨H0, H1, H2, H3, ⟨%e4, H4⟩, ⟨%e5, H5⟩, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (gramCoverAdd4 c _ _ _ _ _ _ _ _ _ _ _ _ _ _ _ _ _ _ _ _ _ _ _ _ _ _)
    isplitl [H5]
    · unfold owns; iexists _; isplitr
      swap; · iexact H5
      ipureintro; exact View.read_writes_of_cover _ _ _ _ _ (gramCoverAdd5 c _ _ _ _ _ _ _ _ _ _ _ _ _ _ _ _ _ _ _ _ _ _ _ _ _ _)
    isplitl [H6]
    · unfold owns; iexists _; isplitr
      swap; · iexact H6
      ipureintro; exact View.read_writes_of_cover _ _ _ _ _ (gramCoverAdd6 c _ _ _ _ _ _ _ _ _ _ _ _ _ _ _ _ _ _ _ _ _ _ _ _ _ _)
    unfold owns; iexists _; isplitr
    swap; · iexact H7
    ipureintro; exact View.read_writes_of_cover _ _ _ _ _ (gramCoverAdd7 c _ _ _ _ _ _ _ _ _ _ _ _ _ _ _ _ _ _ _ _ _ _ _ _ _ _)

/-- The pipeline's body obligation for the region, at every point. -/
theorem gramBodyObligation (c : Dev nD) : BodyObligation (gramDat (F := F) V c) (defs₀ (F := F)) Variants.none () Set.univ := fun t => by
  rw [bigSep_W0, bigSep_W0]
  exact gramSoundBody V c t

end GramRegion

end Cert.Kernel.Hand

end
-- ==== Proof.BitsGramShares.lean ====
/-
  The first region reads each of the two argument arrays through two windows. A buffer held whole at the full share can
  be held as two halves of that share, one per window, and two halves at the same contents make the full share again.
  This module sorts the region's eight window arrays out of the core's unscoped buffers on entry — six distinct buffers,
  the two argument arrays dealt in halves — and puts them back on exit, the four result arrays then at the contents the
  region's write-backs leave and everything else as it was.
-/
import proofs.«169696_j47545287967528_2_alg».proof.Proof.BitsGramRegion
import proofs.«169696_j47545287967528_2_alg».proof.Proof.LibFrameShared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section GramShares

variable (Vp : (c : Dev nD) → (b : Ref sig .tc) → Buf (Elt F) ((c : Thread nD τ).loc b))

theorem gramShare0 (c : Dev nD) : (gramDat Vp c).share 0 = fullShare.left := rfl
theorem gramShare1 (c : Dev nD) : (gramDat Vp c).share 1 = fullShare.left := rfl
theorem gramShare2 (c : Dev nD) : (gramDat Vp c).share 2 = fullShare.right := rfl
theorem gramShare3 (c : Dev nD) : (gramDat Vp c).share 3 = fullShare.right := rfl
theorem gramShare4 (c : Dev nD) : (gramDat Vp c).share 4 = fullShare := rfl
theorem gramShare5 (c : Dev nD) : (gramDat Vp c).share 5 = fullShare := rfl
theorem gramShare6 (c : Dev nD) : (gramDat Vp c).share 6 = fullShare := rfl
theorem gramShare7 (c : Dev nD) : (gramDat Vp c).share 7 = fullShare := rfl

/-- The six distinct buffers behind the eight window arrays. -/
abbrev gramBufs : List (Ref sig .tc) := [main_arg0, main_arg1, main_v0_0, main_v0_1, main_v0_2, main_v0_3]

/-- The six buffers, each whole at the full share, as a chain. -/
theorem gramBufs_eq (c : Dev nD) (V : (b : Ref sig .tc) → Buf (Elt F) ((c : Thread nD τ).loc b)) :
    (Pipeline.arrBufs (Ix := Unit) (Name := ℕ) (U := UR sig nD τ) (Lvl := ℕ) (cfgs (0 : Fin 2)).spec c V : sProp 𝕄)
      = iprop((((c : Thread nD τ).loc main_arg0) ↦{fullShare} V main_arg0) ∗ (((c : Thread nD τ).loc main_arg1) ↦{fullShare} V main_arg1)
          ∗ (((c : Thread nD τ).loc main_v0_0) ↦{fullShare} V main_v0_0) ∗ (((c : Thread nD τ).loc main_v0_1) ↦{fullShare} V main_v0_1)
          ∗ (((c : Thread nD τ).loc main_v0_2) ↦{fullShare} V main_v0_2) ∗ (((c : Thread nD τ).loc main_v0_3) ↦{fullShare} V main_v0_3)) := by
  rw [Pipeline.arrBufs_eq_of_list (cfgs (0 : Fin 2)).spec c V gramBufs (by decide) (by decide)]
  rfl

/-- The eight window arrays at contents `A`, as a chain: the argument arrays at half shares, the results at the full share. -/
theorem gramArrays_eq (c : Dev nD) (A : (w : Fin cfg0.W) → Buf (Elt F) ((cfg0.win w).arr.view.loc (c : Thread nD τ))) :
    ((gramDat Vp c).arrays A : sProp 𝕄)
      = iprop((((c : Thread nD τ).loc main_arg0) ↦{fullShare.left} A 0) ∗ (((c : Thread nD τ).loc main_arg1) ↦{fullShare.left} A 1)
          ∗ (((c : Thread nD τ).loc main_arg0) ↦{fullShare.right} A 2) ∗ (((c : Thread nD τ).loc main_arg1) ↦{fullShare.right} A 3)
          ∗ (((c : Thread nD τ).loc main_v0_0) ↦{fullShare} A 4) ∗ (((c : Thread nD τ).loc main_v0_1) ↦{fullShare} A 5)
          ∗ (((c : Thread nD τ).loc main_v0_2) ↦{fullShare} A 6) ∗ (((c : Thread nD τ).loc main_v0_3) ↦{fullShare} A 7)) := by
  unfold Dat.arrays
  rw [bigSep_W0]
  simp only [gramShare0, gramShare1, gramShare2, gramShare3, gramShare4, gramShare5, gramShare6, gramShare7, View.set_whole]

/-- ENTRY: the unscoped buffers at `V` are the region's arrays at its entry contents (read off `V`) and the rest. -/
theorem gramEntry (c : Dev nD) (V : (b : Ref sig .tc) → Buf (Elt F) ((c : Thread nD τ).loc b))
    (hA : ∀ w, (gramDat Vp c).A w = V (Pipeline.arrRef spec0 w)) :
    (unscopedBufs c V : sProp 𝕄) ⊢ iprop((gramDat Vp c).arrays ((gramDat Vp c).arrAt · 0)
      ∗ Pipeline.unscopedRest (Ix := Unit) (Name := ℕ) (U := UR sig nD τ) (Lvl := ℕ) spec0 c V) := by
  rw [Pipeline.unscopedBufs_split₀ cfgs (0 : Fin 2) winFacts₀0.arr_unscoped c V]
  refine sep_mono ?_ .rfl
  have e : ((gramDat Vp c).arrAt · 0) = fun w => V (Pipeline.arrRef spec0 w) :=
    funext fun w => (show (gramDat Vp c).arrAt w 0 = (gramDat Vp c).A w from rfl).trans (hA w)
  rw [e, gramBufs_eq, gramArrays_eq]
  iintro ⟨H0, H1, H4, H5, H6, H7⟩
  ihave H0' := (pointsTo_share (PosShare.mem_left_op_right fullShare)).1 $$ H0
  icases H0' with ⟨H0l, H0r⟩
  ihave H1' := (pointsTo_share (PosShare.mem_left_op_right fullShare)).1 $$ H1
  icases H1' with ⟨H1l, H1r⟩
  isplitl [H0l]; · iexact H0l
  isplitl [H1l]; · iexact H1l
  isplitl [H0r]; · iexact H0r
  isplitl [H1r]; · iexact H1r
  isplitl [H4]; · iexact H4
  isplitl [H5]; · iexact H5
  isplitl [H6]; · iexact H6
  iexact H7

/-- EXIT: the region's arrays at their final contents and the rest make the unscoped buffers at `V'`, which holds the
    four result arrays at those final contents and agrees with `V` elsewhere; the input windows' arrays end as they began. -/
theorem gramExit (c : Dev nD) (V V' : (b : Ref sig .tc) → Buf (Elt F) ((c : Thread nD τ).loc b))
    (hA : ∀ w, (gramDat Vp c).A w = V (Pipeline.arrRef spec0 w))
    (h4 : V' main_v0_0 = (gramDat Vp c).arrAt 4 cfg0.N) (h5 : V' main_v0_1 = (gramDat Vp c).arrAt 5 cfg0.N)
    (h6 : V' main_v0_2 = (gramDat Vp c).arrAt 6 cfg0.N) (h7 : V' main_v0_3 = (gramDat Vp c).arrAt 7 cfg0.N)
    (hrest : ∀ b, b ∉ ([main_v0_0, main_v0_1, main_v0_2, main_v0_3] : List (Ref sig .tc)) → V' b = V b) :
    iprop((gramDat Vp c).arrays ((gramDat Vp c).arrAt · cfg0.N)
      ∗ Pipeline.unscopedRest (Ix := Unit) (Name := ℕ) (U := UR sig nD τ) (Lvl := ℕ) spec0 c V) ⊢ (unscopedBufs c V' : sProp 𝕄) := by
  rw [Pipeline.unscopedBufs_split₀ cfgs (0 : Fin 2) winFacts₀0.arr_unscoped c V']
  refine sep_mono ?_ (Entails.of_eq ?_)
  · rw [gramBufs_eq, gramArrays_eq]
    rw [(gramDat Vp c).arrAt_in 0 rfl cfg0.N, (gramDat Vp c).arrAt_in 1 rfl cfg0.N, (gramDat Vp c).arrAt_in 2 rfl cfg0.N,
      (gramDat Vp c).arrAt_in 3 rfl cfg0.N, hA 0, hA 1, hA 2, hA 3, h4, h5, h6, h7,
      hrest main_arg0 (by decide), hrest main_arg1 (by decide)]
    iintro ⟨H0l, H1l, H0r, H1r, H4, H5, H6, H7⟩
    isplitl [H0l H0r]
    · iapply (pointsTo_share (PosShare.mem_left_op_right fullShare)).2
      isplitl [H0l]; · iexact H0l
      iexact H0r
    isplitl [H1l H1r]
    · iapply (pointsTo_share (PosShare.mem_left_op_right fullShare)).2
      isplitl [H1l]; · iexact H1l
      iexact H1r
    isplitl [H4]; · iexact H4
    isplitl [H5]; · iexact H5
    isplitl [H6]; · iexact H6
    iexact H7
  · unfold Pipeline.unscopedRest
    exact bigSep_congr fun b hb => by
      rw [hrest b (fun hmem => (Finset.mem_sdiff.mp hb).2 (by
        rcases List.mem_cons.mp hmem with rfl | hmem
        · exact Finset.mem_image.mpr ⟨4, Finset.mem_univ _, rfl⟩
        rcases List.mem_cons.mp hmem with rfl | hmem
        · exact Finset.mem_image.mpr ⟨5, Finset.mem_univ _, rfl⟩
        rcases List.mem_cons.mp hmem with rfl | hmem
        · exact Finset.mem_image.mpr ⟨6, Finset.mem_univ _, rfl⟩
        rcases List.mem_cons.mp hmem with rfl | hmem
        · exact Finset.mem_image.mpr ⟨7, Finset.mem_univ _, rfl⟩
        exact (List.not_mem_nil hmem).elim))]

end GramShares

end Cert.Kernel.Hand

end
-- ==== Proof.BitsLossRunsCommon.lean ====
/-
  The second kernel region adds, at each of its eight grid points r, the masked sum of squared distance
  differences of one slab of 128 rows into a single [1,1] cell, which it clears at r = 0 and divides by the
  number of pairs at r = 7. This module holds what the three control cases of that body share: the two branch
  conditions as the body spells them over the grid coordinate, their closed forms over the grid, and the names of
  the staging memrefs the body is called with at a point.
-/
import proofs.«169696_j47545287967528_2_alg».proof.Proof.Gen.Kernel.Launch
import proofs.«169696_j47545287967528_2_alg».proof.Proof.Gen.Kernel.Skeleton
import proofs.«169696_j47545287967528_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- "This is the first slab" (r = 0), as the body computes it from the grid coordinate. -/
abbrev lossFirst (i : grid1.Coords) : Prop :=
  (Scalar.cmpi .ne (Scalar.extui (Scalar.cmpi .eq (BitVec.ofNat 32 (i 0).val) 0#32)) 0#32) = 1#1
/-- "This is the last slab" (r = 7), as the body computes it from the grid coordinate. -/
abbrev lossLast (i : grid1.Coords) : Prop :=
  (Scalar.cmpi .ne (Scalar.extui (Scalar.cmpi .eq (BitVec.ofNat 32 (i 0).val) 7#32)) 0#32) = 1#1

/-- Over the eight points the first condition holds exactly at point 0 … -/
theorem lossFirst_iff : ∀ t : Fin cfg1.N, lossFirst (grid1.coords t) ↔ t.val % 8 = 0 :=
  (by decide +kernel : ∀ t : Fin grid1.N, lossFirst (grid1.coords t) ↔ t.val % 8 = 0)
/-- … and the second exactly at point 7. -/
theorem lossLast_iff : ∀ t : Fin cfg1.N, lossLast (grid1.coords t) ↔ t.val % 8 = 7 :=
  (by decide +kernel : ∀ t : Fin grid1.N, lossLast (grid1.coords t) ↔ t.val % 8 = 7)

/-- One staging buffer of the [1,1] result window, through which its contents are stated (the choice does not matter). -/
abbrev lossCell : View sig .tc .vmem S1x1 .f32 := (Memref.whole cc1_stg6_0 : Memref sig .tc .vmem S1x1 .f32).view

/-- The staging memref of each window at point `t`, spelled as the pipeline passes it to the body, and its wholeness. -/
abbrev lm0 (t : Fin cfg1.N) : Memref sig .tc .vmem S128x1024 .f32 := win1_0.stage (cfg1.slots t 0)
abbrev lh0 (t : Fin cfg1.N) : (lm0 t).IsWhole := hstage1_0 ((cfg1.slots t 0).cast nbuf1_0)
abbrev lm1 (t : Fin cfg1.N) : Memref sig .tc .vmem S128x1024 .f32 := win1_1.stage (cfg1.slots t 1)
abbrev lh1 (t : Fin cfg1.N) : (lm1 t).IsWhole := hstage1_1 ((cfg1.slots t 1).cast nbuf1_1)
abbrev lm2 (t : Fin cfg1.N) : Memref sig .tc .vmem S128x1 .f32 := win1_2.stage (cfg1.slots t 2)
abbrev lh2 (t : Fin cfg1.N) : (lm2 t).IsWhole := hstage1_2 ((cfg1.slots t 2).cast nbuf1_2)
abbrev lm3 (t : Fin cfg1.N) : Memref sig .tc .vmem S128x1 .f32 := win1_3.stage (cfg1.slots t 3)
abbrev lh3 (t : Fin cfg1.N) : (lm3 t).IsWhole := hstage1_3 ((cfg1.slots t 3).cast nbuf1_3)
abbrev lm4 (t : Fin cfg1.N) : Memref sig .tc .vmem S1x1024 .f32 := win1_4.stage (cfg1.slots t 4)
abbrev lh4 (t : Fin cfg1.N) : (lm4 t).IsWhole := hstage1_4 ((cfg1.slots t 4).cast nbuf1_4)
abbrev lm5 (t : Fin cfg1.N) : Memref sig .tc .vmem S1x1024 .f32 := win1_5.stage (cfg1.slots t 5)
abbrev lh5 (t : Fin cfg1.N) : (lm5 t).IsWhole := hstage1_5 ((cfg1.slots t 5).cast nbuf1_5)
abbrev lm6 (t : Fin cfg1.N) : Memref sig .tc .vmem S1x1 .f32 := win1_6.stage (cfg1.slots t 6)
abbrev lh6 (t : Fin cfg1.N) : (lm6 t).IsWhole := hstage1_6 ((cfg1.slots t 6).cast nbuf1_6)

end Cert.Kernel.Hand

end
-- ==== Proof.BitsLossRunFirst.lean ====
/-
  The body of the second region at its first grid point (r = 0, not the last): it clears the [1,1] cell, then adds the slab's masked sum into it.
-/
import proofs.«169696_j47545287967528_2_alg».proof.Proof.BitsLossRunsCommon

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores this case leaves in the [1,1] cell, as a list of pieces (last first), together with the fact that on
    whole staging memrefs — the six inputs at their contents, the cell at anything — the body runs to its
    continuation with the inputs as they were and the cell with those pieces written. -/
noncomputable def lossRunFirst (c : Dev nD) (i : grid1.Coords) (arg1 : Memref sig .tc .vmem S128x1024 .f32) (harg1 : arg1.IsWhole) (arg2 : Memref sig .tc .vmem S128x1024 .f32) (harg2 : arg2.IsWhole) (arg3 : Memref sig .tc .vmem S128x1 .f32) (harg3 : arg3.IsWhole) (arg4 : Memref sig .tc .vmem S128x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1 .f32) (harg7 : arg7.IsWhole) (hc0 : lossFirst i) (hc1 : ¬lossLast i)
    (x0 : Vec F S128x1024 .f32) (x1 : Vec F S128x1024 .f32) (x2 : Vec F S128x1 .f32) (x3 : Vec F S128x1 .f32) (x4 : Vec F S1x1024 .f32) (x5 : Vec F S1x1024 .f32) :
    { L : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L)) -∗ K ⟨⟩))
          ⊢ wp frame (wpE (defs₀ (F := F)) Variants.none c none) E (cc1__kernel_b_body i arg1 harg1 arg2 harg2 arg3 harg3 arg4 harg4 arg5 harg5 arg6 harg6 arg7 harg7) K } := by
  refine ⟨?_, fun E K => ?run⟩
  case run =>
    simp only [cc1__kernel_b_body_eq_skeleton]; unfold cc1__kernel_b_body_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact H6

end Cert.Kernel.Hand

end
-- ==== Proof.BitsLossRunMiddle.lean ====
/-
  The body of the second region at a middle grid point (0 < r < 7): it adds the slab's masked sum into the [1,1] cell, which holds what the point before left.
-/
import proofs.«169696_j47545287967528_2_alg».proof.Proof.BitsLossRunFirst

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores this case leaves in the [1,1] cell, as a list of pieces (last first), together with the fact that on
    whole staging memrefs — the six inputs at their contents, the cell at what the point before left — the body runs to its
    continuation with the inputs as they were and the cell with those pieces written. -/
noncomputable def lossRunMiddle (c : Dev nD) (i : grid1.Coords) (arg1 : Memref sig .tc .vmem S128x1024 .f32) (harg1 : arg1.IsWhole) (arg2 : Memref sig .tc .vmem S128x1024 .f32) (harg2 : arg2.IsWhole) (arg3 : Memref sig .tc .vmem S128x1 .f32) (harg3 : arg3.IsWhole) (arg4 : Memref sig .tc .vmem S128x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1 .f32) (harg7 : arg7.IsWhole) (hc0 : ¬lossFirst i) (hc1 : ¬lossLast i)
    (x0 : Vec F S128x1024 .f32) (x1 : Vec F S128x1024 .f32) (x2 : Vec F S128x1 .f32) (x3 : Vec F S128x1 .f32) (x4 : Vec F S1x1024 .f32) (x5 : Vec F S1x1024 .f32) (xo : Vec F S1x1 .f32) :
    { L : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xo
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L)) -∗ K ⟨⟩))
          ⊢ wp frame (wpE (defs₀ (F := F)) Variants.none c none) E (cc1__kernel_b_body i arg1 harg1 arg2 harg2 arg3 harg3 arg4 harg4 arg5 harg5 arg6 harg6 arg7 harg7) K } := by
  refine ⟨?_, fun E K => ?run⟩
  case run =>
    simp only [cc1__kernel_b_body_eq_skeleton]; unfold cc1__kernel_b_body_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact H6

end Cert.Kernel.Hand

end
-- ==== Proof.BitsLossRunLast.lean ====
/-
  The body of the second region at its last grid point (r = 7): it adds the slab's masked sum into the [1,1] cell, which holds what the point before left, then divides the cell by the number of pairs.
-/
import proofs.«169696_j47545287967528_2_alg».proof.Proof.BitsLossRunMiddle

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores this case leaves in the [1,1] cell, as a list of pieces (last first), together with the fact that on
    whole staging memrefs — the six inputs at their contents, the cell at what the point before left — the body runs to its
    continuation with the inputs as they were and the cell with those pieces written. -/
noncomputable def lossRunLast (c : Dev nD) (i : grid1.Coords) (arg1 : Memref sig .tc .vmem S128x1024 .f32) (harg1 : arg1.IsWhole) (arg2 : Memref sig .tc .vmem S128x1024 .f32) (harg2 : arg2.IsWhole) (arg3 : Memref sig .tc .vmem S128x1 .f32) (harg3 : arg3.IsWhole) (arg4 : Memref sig .tc .vmem S128x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1 .f32) (harg7 : arg7.IsWhole) (hc0 : ¬lossFirst i) (hc1 : lossLast i)
    (x0 : Vec F S128x1024 .f32) (x1 : Vec F S128x1024 .f32) (x2 : Vec F S128x1 .f32) (x3 : Vec F S128x1 .f32) (x4 : Vec F S1x1024 .f32) (x5 : Vec F S1x1024 .f32) (xo : Vec F S1x1 .f32) :
    { L : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xo
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L)) -∗ K ⟨⟩))
          ⊢ wp frame (wpE (defs₀ (F := F)) Variants.none c none) E (cc1__kernel_b_body i arg1 harg1 arg2 harg2 arg3 harg3 arg4 harg4 arg5 harg5 arg6 harg6 arg7 harg7) K } := by
  refine ⟨?_, fun E K => ?run⟩
  case run =>
    simp only [cc1__kernel_b_body_eq_skeleton]; unfold cc1__kernel_b_body_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact H6

end Cert.Kernel.Hand

end
-- ==== Proof.BitsLossRegion.lean ====
/-
  The second kernel region as a whole, at a parameter `V` — the contents of the core's buffers when the region is
  entered. A window's block at a grid point is read off its array in `V`. After the body at point r the [1,1] cell
  holds: at r = 0, the clearing store overwritten by the first slab's sum; at 0 < r < 7, what the point before left
  plus the slab's sum; at r = 7, that, divided by the number of pairs — a recursion over the points, each step the
  case's stores read back. The six inputs' staging buffers hold their blocks at every point, fetched there or not
  (the two [1,1024] rows are fetched once: their block index never moves). From these, the body's obligation to the
  pipeline at every point, by cases on where the point is.
-/
import proofs.«169696_j47545287967528_2_alg».proof.Proof.BitsLossRunLast

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section LossRegion

variable (V : (c : Dev nD) → (b : Ref sig .tc) → Buf (Elt F) ((c : Thread nD τ).loc b))

/-- Window `w`'s block at point `t`, read off its array as the region finds it. -/
def lossBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input's current staging buffer holds its block at every point, for any proof data whose array is `V`'s and
    whose body leaves the block in place. -/
theorem lossBefore0_of {c : Dev nD} (dat : Dat τ (Elt F) Unit ℕ (UR sig nD τ) ℕ cfg1 c) (hA : dat.A 0 = V c (Pipeline.arrRef spec1 0))
    (hafter : ∀ t, dat.after 0 t = lossBlk V c 0 t) (t : Fin cfg1.N) (d) : dat.before 0 t d = lossBlk V c 0 t :=
  (dat.before_in_eq_fetched 0 rfl (fun _ => rfl) (fun _ _ _ => rfl) (fun t => by rw [hafter]; unfold Dat.blockOf lossBlk; rw [hA]; try rfl) t d).trans
    (by unfold Dat.fetched Dat.blockOf lossBlk; rw [hA]; try rfl)
theorem lossBefore1_of {c : Dev nD} (dat : Dat τ (Elt F) Unit ℕ (UR sig nD τ) ℕ cfg1 c) (hA : dat.A 1 = V c (Pipeline.arrRef spec1 1))
    (hafter : ∀ t, dat.after 1 t = lossBlk V c 1 t) (t : Fin cfg1.N) (d) : dat.before 1 t d = lossBlk V c 1 t :=
  (dat.before_in_eq_fetched 1 rfl (fun _ => rfl) (fun _ _ _ => rfl) (fun t => by rw [hafter]; unfold Dat.blockOf lossBlk; rw [hA]; try rfl) t d).trans
    (by unfold Dat.fetched Dat.blockOf lossBlk; rw [hA]; try rfl)
theorem lossBefore2_of {c : Dev nD} (dat : Dat τ (Elt F) Unit ℕ (UR sig nD τ) ℕ cfg1 c) (hA : dat.A 2 = V c (Pipeline.arrRef spec1 2))
    (hafter : ∀ t, dat.after 2 t = lossBlk V c 2 t) (t : Fin cfg1.N) (d) : dat.before 2 t d = lossBlk V c 2 t :=
  (dat.before_in_eq_fetched 2 rfl (fun _ => rfl) (fun _ _ _ => rfl) (fun t => by rw [hafter]; unfold Dat.blockOf lossBlk; rw [hA]; try rfl) t d).trans
    (by unfold Dat.fetched Dat.blockOf lossBlk; rw [hA]; try rfl)
theorem lossBefore3_of {c : Dev nD} (dat : Dat τ (Elt F) Unit ℕ (UR sig nD τ) ℕ cfg1 c) (hA : dat.A 3 = V c (Pipeline.arrRef spec1 3))
    (hafter : ∀ t, dat.after 3 t = lossBlk V c 3 t) (t : Fin cfg1.N) (d) : dat.before 3 t d = lossBlk V c 3 t :=
  (dat.before_in_eq_fetched 3 rfl (fun _ => rfl) (fun _ _ _ => rfl) (fun t => by rw [hafter]; unfold Dat.blockOf lossBlk; rw [hA]; try rfl) t d).trans
    (by unfold Dat.fetched Dat.blockOf lossBlk; rw [hA]; try rfl)
theorem lossBefore4_of {c : Dev nD} (dat : Dat τ (Elt F) Unit ℕ (UR sig nD τ) ℕ cfg1 c) (hA : dat.A 4 = V c (Pipeline.arrRef spec1 4))
    (hafter : ∀ t, dat.after 4 t = lossBlk V c 4 t) (t : Fin cfg1.N) (d) : dat.before 4 t d = lossBlk V c 4 t :=
  (dat.before_in_eq_fetched 4 rfl (fun _ => rfl) (fun _ _ _ => rfl) (fun t => by rw [hafter]; unfold Dat.blockOf lossBlk; rw [hA]; try rfl) t d).trans
    (by unfold Dat.fetched Dat.blockOf lossBlk; rw [hA]; try rfl)
theorem lossBefore5_of {c : Dev nD} (dat : Dat τ (Elt F) Unit ℕ (UR sig nD τ) ℕ cfg1 c) (hA : dat.A 5 = V c (Pipeline.arrRef spec1 5))
    (hafter : ∀ t, dat.after 5 t = lossBlk V c 5 t) (t : Fin cfg1.N) (d) : dat.before 5 t d = lossBlk V c 5 t :=
  (dat.before_in_eq_fetched 5 rfl (fun _ => rfl) (fun _ _ _ => rfl) (fun t => by rw [hafter]; unfold Dat.blockOf lossBlk; rw [hA]; try rfl) t d).trans
    (by unfold Dat.fetched Dat.blockOf lossBlk; rw [hA]; try rfl)

/-! ## What each case leaves in the cell: its stores cover the one entry, so reading them back over anything is determined -/

theorem lossCoverFirst (c : Dev nD) (i : grid1.Coords) (arg1 : Memref sig .tc .vmem S128x1024 .f32) (harg1 : arg1.IsWhole) (arg2 : Memref sig .tc .vmem S128x1024 .f32) (harg2 : arg2.IsWhole) (arg3 : Memref sig .tc .vmem S128x1 .f32) (harg3 : arg3.IsWhole) (arg4 : Memref sig .tc .vmem S128x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1 .f32) (harg7 : arg7.IsWhole) (hc0 : lossFirst i) (hc1 : ¬lossLast i)
    (x0 : Vec F S128x1024 .f32) (x1 : Vec F S128x1024 .f32) (x2 : Vec F S128x1 .f32) (x3 : Vec F S128x1 .f32) (x4 : Vec F S1x1024 .f32) (x5 : Vec F S1x1024 .f32) (y : S1x1.Idx) :
    ∃ pc ∈ (lossRunFirst c i arg1 harg1 arg2 harg2 arg3 harg3 arg4 harg4 arg5 harg5 arg6 harg6 arg7 harg7 hc0 hc1 x0 x1 x2 x3 x4 x5).1, y ∈ pc.1.set :=
  View.cover_of_tiledL (lossRunFirst c i arg1 harg1 arg2 harg2 arg3 harg3 arg4 harg4 arg5 harg5 arg6 harg6 arg7 harg7 hc0 hc1 x0 x1 x2 x3 x4 x5).1 S1x1.size (by sl_kernel_rfl) y
def lossOutFirst (c : Dev nD) (i : grid1.Coords) (arg1 : Memref sig .tc .vmem S128x1024 .f32) (harg1 : arg1.IsWhole) (arg2 : Memref sig .tc .vmem S128x1024 .f32) (harg2 : arg2.IsWhole) (arg3 : Memref sig .tc .vmem S128x1 .f32) (harg3 : arg3.IsWhole) (arg4 : Memref sig .tc .vmem S128x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1 .f32) (harg7 : arg7.IsWhole) (hc0 : lossFirst i) (hc1 : ¬lossLast i)
    (x0 : Vec F S128x1024 .f32) (x1 : Vec F S128x1024 .f32) (x2 : Vec F S128x1 .f32) (x3 : Vec F S128x1 .f32) (x4 : Vec F S1x1024 .f32) (x5 : Vec F S1x1024 .f32) : Vec F S1x1 .f32 :=
  lossCell.read (Elt F) (lossCell.writes (Elt F) lossCell.junk (lossRunFirst c i arg1 harg1 arg2 harg2 arg3 harg3 arg4 harg4 arg5 harg5 arg6 harg6 arg7 harg7 hc0 hc1 x0 x1 x2 x3 x4 x5).1)

theorem lossCoverMiddle (c : Dev nD) (i : grid1.Coords) (arg1 : Memref sig .tc .vmem S128x1024 .f32) (harg1 : arg1.IsWhole) (arg2 : Memref sig .tc .vmem S128x1024 .f32) (harg2 : arg2.IsWhole) (arg3 : Memref sig .tc .vmem S128x1 .f32) (harg3 : arg3.IsWhole) (arg4 : Memref sig .tc .vmem S128x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1 .f32) (harg7 : arg7.IsWhole) (hc0 : ¬lossFirst i) (hc1 : ¬lossLast i)
    (x0 : Vec F S128x1024 .f32) (x1 : Vec F S128x1024 .f32) (x2 : Vec F S128x1 .f32) (x3 : Vec F S128x1 .f32) (x4 : Vec F S1x1024 .f32) (x5 : Vec F S1x1024 .f32) (xo : Vec F S1x1 .f32) (y : S1x1.Idx) :
    ∃ pc ∈ (lossRunMiddle c i arg1 harg1 arg2 harg2 arg3 harg3 arg4 harg4 arg5 harg5 arg6 harg6 arg7 harg7 hc0 hc1 x0 x1 x2 x3 x4 x5 xo).1, y ∈ pc.1.set :=
  View.cover_of_tiledL (lossRunMiddle c i arg1 harg1 arg2 harg2 arg3 harg3 arg4 harg4 arg5 harg5 arg6 harg6 arg7 harg7 hc0 hc1 x0 x1 x2 x3 x4 x5 xo).1 S1x1.size (by sl_kernel_rfl) y
def lossOutMiddle (c : Dev nD) (i : grid1.Coords) (arg1 : Memref sig .tc .vmem S128x1024 .f32) (harg1 : arg1.IsWhole) (arg2 : Memref sig .tc .vmem S128x1024 .f32) (harg2 : arg2.IsWhole) (arg3 : Memref sig .tc .vmem S128x1 .f32) (harg3 : arg3.IsWhole) (arg4 : Memref sig .tc .vmem S128x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1 .f32) (harg7 : arg7.IsWhole) (hc0 : ¬lossFirst i) (hc1 : ¬lossLast i)
    (x0 : Vec F S128x1024 .f32) (x1 : Vec F S128x1024 .f32) (x2 : Vec F S128x1 .f32) (x3 : Vec F S128x1 .f32) (x4 : Vec F S1x1024 .f32) (x5 : Vec F S1x1024 .f32) (xo : Vec F S1x1 .f32) : Vec F S1x1 .f32 :=
  lossCell.read (Elt F) (lossCell.writes (Elt F) lossCell.junk (lossRunMiddle c i arg1 harg1 arg2 harg2 arg3 harg3 arg4 harg4 arg5 harg5 arg6 harg6 arg7 harg7 hc0 hc1 x0 x1 x2 x3 x4 x5 xo).1)

theorem lossCoverLast (c : Dev nD) (i : grid1.Coords) (arg1 : Memref sig .tc .vmem S128x1024 .f32) (harg1 : arg1.IsWhole) (arg2 : Memref sig .tc .vmem S128x1024 .f32) (harg2 : arg2.IsWhole) (arg3 : Memref sig .tc .vmem S128x1 .f32) (harg3 : arg3.IsWhole) (arg4 : Memref sig .tc .vmem S128x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1 .f32) (harg7 : arg7.IsWhole) (hc0 : ¬lossFirst i) (hc1 : lossLast i)
    (x0 : Vec F S128x1024 .f32) (x1 : Vec F S128x1024 .f32) (x2 : Vec F S128x1 .f32) (x3 : Vec F S128x1 .f32) (x4 : Vec F S1x1024 .f32) (x5 : Vec F S1x1024 .f32) (xo : Vec F S1x1 .f32) (y : S1x1.Idx) :
    ∃ pc ∈ (lossRunLast c i arg1 harg1 arg2 harg2 arg3 harg3 arg4 harg4 arg5 harg5 arg6 harg6 arg7 harg7 hc0 hc1 x0 x1 x2 x3 x4 x5 xo).1, y ∈ pc.1.set :=
  View.cover_of_tiledL (lossRunLast c i arg1 harg1 arg2 harg2 arg3 harg3 arg4 harg4 arg5 harg5 arg6 harg6 arg7 harg7 hc0 hc1 x0 x1 x2 x3 x4 x5 xo).1 S1x1.size (by sl_kernel_rfl) y
def lossOutLast (c : Dev nD) (i : grid1.Coords) (arg1 : Memref sig .tc .vmem S128x1024 .f32) (harg1 : arg1.IsWhole) (arg2 : Memref sig .tc .vmem S128x1024 .f32) (harg2 : arg2.IsWhole) (arg3 : Memref sig .tc .vmem S128x1 .f32) (harg3 : arg3.IsWhole) (arg4 : Memref sig .tc .vmem S128x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1 .f32) (harg7 : arg7.IsWhole) (hc0 : ¬lossFirst i) (hc1 : lossLast i)
    (x0 : Vec F S128x1024 .f32) (x1 : Vec F S128x1024 .f32) (x2 : Vec F S128x1 .f32) (x3 : Vec F S128x1 .f32) (x4 : Vec F S1x1024 .f32) (x5 : Vec F S1x1024 .f32) (xo : Vec F S1x1 .f32) : Vec F S1x1 .f32 :=
  lossCell.read (Elt F) (lossCell.writes (Elt F) lossCell.junk (lossRunLast c i arg1 harg1 arg2 harg2 arg3 harg3 arg4 harg4 arg5 harg5 arg6 harg6 arg7 harg7 hc0 hc1 x0 x1 x2 x3 x4 x5 xo).1)

/-! ## The cell after each point -/

/-- THE ACCUMULATION: what the cell holds after the body at position `n`. -/
def lossOuts (c : Dev nD) : (n : ℕ) → n < cfg1.N → Vec F S1x1 .f32
  | 0, hn => lossOutFirst c (grid1.coords ⟨0, hn⟩) (lm0 ⟨0, hn⟩) (lh0 ⟨0, hn⟩) (lm1 ⟨0, hn⟩) (lh1 ⟨0, hn⟩) (lm2 ⟨0, hn⟩) (lh2 ⟨0, hn⟩) (lm3 ⟨0, hn⟩) (lh3 ⟨0, hn⟩) (lm4 ⟨0, hn⟩) (lh4 ⟨0, hn⟩) (lm5 ⟨0, hn⟩) (lh5 ⟨0, hn⟩) (lm6 ⟨0, hn⟩) (lh6 ⟨0, hn⟩) ((lossFirst_iff ⟨0, hn⟩).mpr (Nat.zero_mod _)) (fun h => absurd ((Nat.zero_mod 8).symm.trans ((lossLast_iff ⟨0, hn⟩).mp h)) (by decide)) (lossBlk V c 0 ⟨0, hn⟩) (lossBlk V c 1 ⟨0, hn⟩) (lossBlk V c 2 ⟨0, hn⟩) (lossBlk V c 3 ⟨0, hn⟩) (lossBlk V c 4 ⟨0, hn⟩) (lossBlk V c 5 ⟨0, hn⟩)
  | n + 1, hn =>
    if h0 : (n + 1) % 8 = 0 then
      if h1 : (n + 1) % 8 = 7 then False.elim (by omega)
      else lossOutFirst c (grid1.coords ⟨n + 1, hn⟩) (lm0 ⟨n + 1, hn⟩) (lh0 ⟨n + 1, hn⟩) (lm1 ⟨n + 1, hn⟩) (lh1 ⟨n + 1, hn⟩) (lm2 ⟨n + 1, hn⟩) (lh2 ⟨n + 1, hn⟩) (lm3 ⟨n + 1, hn⟩) (lh3 ⟨n + 1, hn⟩) (lm4 ⟨n + 1, hn⟩) (lh4 ⟨n + 1, hn⟩) (lm5 ⟨n + 1, hn⟩) (lh5 ⟨n + 1, hn⟩) (lm6 ⟨n + 1, hn⟩) (lh6 ⟨n + 1, hn⟩) ((lossFirst_iff ⟨n + 1, hn⟩).mpr h0) (fun h => h1 ((lossLast_iff ⟨n + 1, hn⟩).mp h)) (lossBlk V c 0 ⟨n + 1, hn⟩) (lossBlk V c 1 ⟨n + 1, hn⟩) (lossBlk V c 2 ⟨n + 1, hn⟩) (lossBlk V c 3 ⟨n + 1, hn⟩) (lossBlk V c 4 ⟨n + 1, hn⟩) (lossBlk V c 5 ⟨n + 1, hn⟩)
    else
      if h1 : (n + 1) % 8 = 7 then
        lossOutLast c (grid1.coords ⟨n + 1, hn⟩) (lm0 ⟨n + 1, hn⟩) (lh0 ⟨n + 1, hn⟩) (lm1 ⟨n + 1, hn⟩) (lh1 ⟨n + 1, hn⟩) (lm2 ⟨n + 1, hn⟩) (lh2 ⟨n + 1, hn⟩) (lm3 ⟨n + 1, hn⟩) (lh3 ⟨n + 1, hn⟩) (lm4 ⟨n + 1, hn⟩) (lh4 ⟨n + 1, hn⟩) (lm5 ⟨n + 1, hn⟩) (lh5 ⟨n + 1, hn⟩) (lm6 ⟨n + 1, hn⟩) (lh6 ⟨n + 1, hn⟩) (fun h => h0 ((lossFirst_iff ⟨n + 1, hn⟩).mp h)) ((lossLast_iff ⟨n + 1, hn⟩).mpr h1) (lossBlk V c 0 ⟨n + 1, hn⟩) (lossBlk V c 1 ⟨n + 1, hn⟩) (lossBlk V c 2 ⟨n + 1, hn⟩) (lossBlk V c 3 ⟨n + 1, hn⟩) (lossBlk V c 4 ⟨n + 1, hn⟩) (lossBlk V c 5 ⟨n + 1, hn⟩) (lossOuts c n (Nat.lt_of_succ_lt hn))
      else
        lossOutMiddle c (grid1.coords ⟨n + 1, hn⟩) (lm0 ⟨n + 1, hn⟩) (lh0 ⟨n + 1, hn⟩) (lm1 ⟨n + 1, hn⟩) (lh1 ⟨n + 1, hn⟩) (lm2 ⟨n + 1, hn⟩) (lh2 ⟨n + 1, hn⟩) (lm3 ⟨n + 1, hn⟩) (lh3 ⟨n + 1, hn⟩) (lm4 ⟨n + 1, hn⟩) (lh4 ⟨n + 1, hn⟩) (lm5 ⟨n + 1, hn⟩) (lh5 ⟨n + 1, hn⟩) (lm6 ⟨n + 1, hn⟩) (lh6 ⟨n + 1, hn⟩) (fun h => h0 ((lossFirst_iff ⟨n + 1, hn⟩).mp h)) (fun h => h1 ((lossLast_iff ⟨n + 1, hn⟩).mp h)) (lossBlk V c 0 ⟨n + 1, hn⟩) (lossBlk V c 1 ⟨n + 1, hn⟩) (lossBlk V c 2 ⟨n + 1, hn⟩) (lossBlk V c 3 ⟨n + 1, hn⟩) (lossBlk V c 4 ⟨n + 1, hn⟩) (lossBlk V c 5 ⟨n + 1, hn⟩) (lossOuts c n (Nat.lt_of_succ_lt hn))

theorem lossOuts_first (c : Dev nD) (t : Fin cfg1.N) (h0 : t.val % 8 = 0) (h1 : ¬t.val % 8 = 7) :
    lossOuts V c t.val t.isLt = lossOutFirst c (grid1.coords t) (lm0 t) (lh0 t) (lm1 t) (lh1 t) (lm2 t) (lh2 t) (lm3 t) (lh3 t) (lm4 t) (lh4 t) (lm5 t) (lh5 t) (lm6 t) (lh6 t) ((lossFirst_iff t).mpr h0) (fun h => h1 ((lossLast_iff t).mp h)) (lossBlk V c 0 t) (lossBlk V c 1 t) (lossBlk V c 2 t) (lossBlk V c 3 t) (lossBlk V c 4 t) (lossBlk V c 5 t) := by
  obtain ⟨n, hn⟩ := t
  cases n with
  | zero => exact rfl
  | succ n => exact (dif_pos h0).trans ((dif_neg h1).trans rfl)

theorem lossOuts_middle (c : Dev nD) (t : Fin cfg1.N) (h0 : ¬t.val % 8 = 0) (h1 : ¬t.val % 8 = 7) :
    lossOuts V c t.val t.isLt = lossOutMiddle c (grid1.coords t) (lm0 t) (lh0 t) (lm1 t) (lh1 t) (lm2 t) (lh2 t) (lm3 t) (lh3 t) (lm4 t) (lh4 t) (lm5 t) (lh5 t) (lm6 t) (lh6 t) (fun h => h0 ((lossFirst_iff t).mp h)) (fun h => h1 ((lossLast_iff t).mp h)) (lossBlk V c 0 t) (lossBlk V c 1 t) (lossBlk V c 2 t) (lossBlk V c 3 t) (lossBlk V c 4 t) (lossBlk V c 5 t) (lossOuts V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem lossOuts_last (c : Dev nD) (t : Fin cfg1.N) (h0 : ¬t.val % 8 = 0) (h1 : t.val % 8 = 7) :
    lossOuts V c t.val t.isLt = lossOutLast c (grid1.coords t) (lm0 t) (lh0 t) (lm1 t) (lh1 t) (lm2 t) (lh2 t) (lm3 t) (lh3 t) (lm4 t) (lh4 t) (lm5 t) (lh5 t) (lm6 t) (lh6 t) (fun h => h0 ((lossFirst_iff t).mp h)) ((lossLast_iff t).mpr h1) (lossBlk V c 0 t) (lossBlk V c 1 t) (lossBlk V c 2 t) (lossBlk V c 3 t) (lossBlk V c 4 t) (lossBlk V c 5 t) (lossOuts V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The region's proof data -/

/-- The arrays as the region finds them; after the body at point `t` each input's buffer at its block and the cell at
    `lossOuts`; the invariant is the core's scoped rest and generator register, untouched; nothing owed; full shares. -/
def lossDat (c : Dev nD) : Dat τ (Elt F) Unit ℕ (UR sig nD τ) ℕ cfg1 c where
  A w := V c (Pipeline.arrRef spec1 w)
  after w t := match w with
    | ⟨0, _⟩ => lossBlk V c 0 t
    | ⟨1, _⟩ => lossBlk V c 1 t
    | ⟨2, _⟩ => lossBlk V c 2 t
    | ⟨3, _⟩ => lossBlk V c 3 t
    | ⟨4, _⟩ => lossBlk V c 4 t
    | ⟨5, _⟩ => lossBlk V c 5 t
    | ⟨6, _⟩ => lossOuts V c t.val t.isLt
  Φ _ := Pipeline.ΦA spec1 c
  q _ := fullShare
  owed _ := 0

theorem lossDat_A (c : Dev nD) (w : Fin cfg1.W) : (lossDat V c).A w = V c (Pipeline.arrRef spec1 w) := by
  dsimp only [lossDat]

theorem lossAfter0 (c : Dev nD) (t : Fin cfg1.N) : (lossDat V c).after 0 t = lossBlk V c 0 t := by dsimp only [lossDat]
theorem lossAfter1 (c : Dev nD) (t : Fin cfg1.N) : (lossDat V c).after 1 t = lossBlk V c 1 t := by dsimp only [lossDat]
theorem lossAfter2 (c : Dev nD) (t : Fin cfg1.N) : (lossDat V c).after 2 t = lossBlk V c 2 t := by dsimp only [lossDat]
theorem lossAfter3 (c : Dev nD) (t : Fin cfg1.N) : (lossDat V c).after 3 t = lossBlk V c 3 t := by dsimp only [lossDat]
theorem lossAfter4 (c : Dev nD) (t : Fin cfg1.N) : (lossDat V c).after 4 t = lossBlk V c 4 t := by dsimp only [lossDat]
theorem lossAfter5 (c : Dev nD) (t : Fin cfg1.N) : (lossDat V c).after 5 t = lossBlk V c 5 t := by dsimp only [lossDat]
theorem lossAfter6 (c : Dev nD) (t : Fin cfg1.N) : (lossDat V c).after 6 t = lossOuts V c t.val t.isLt := by dsimp only [lossDat]

theorem lossBefore0 (c : Dev nD) (t : Fin cfg1.N) (d) : (lossDat V c).before 0 t d = lossBlk V c 0 t :=
  lossBefore0_of V (lossDat V c) (lossDat_A V c 0) (lossAfter0 V c) t d
theorem lossBefore1 (c : Dev nD) (t : Fin cfg1.N) (d) : (lossDat V c).before 1 t d = lossBlk V c 1 t :=
  lossBefore1_of V (lossDat V c) (lossDat_A V c 1) (lossAfter1 V c) t d
theorem lossBefore2 (c : Dev nD) (t : Fin cfg1.N) (d) : (lossDat V c).before 2 t d = lossBlk V c 2 t :=
  lossBefore2_of V (lossDat V c) (lossDat_A V c 2) (lossAfter2 V c) t d
theorem lossBefore3 (c : Dev nD) (t : Fin cfg1.N) (d) : (lossDat V c).before 3 t d = lossBlk V c 3 t :=
  lossBefore3_of V (lossDat V c) (lossDat_A V c 3) (lossAfter3 V c) t d
theorem lossBefore4 (c : Dev nD) (t : Fin cfg1.N) (d) : (lossDat V c).before 4 t d = lossBlk V c 4 t :=
  lossBefore4_of V (lossDat V c) (lossDat_A V c 4) (lossAfter4 V c) t d
theorem lossBefore5 (c : Dev nD) (t : Fin cfg1.N) (d) : (lossDat V c).before 5 t d = lossBlk V c 5 t :=
  lossBefore5_of V (lossDat V c) (lossDat_A V c 5) (lossAfter5 V c) t d

/-- After the first point the cell's staging buffer holds what the body left at the point before: it is written back
    only after the last point. -/
theorem lossBefore6_later (c : Dev nD) (t : Fin cfg1.N) (h0 : ¬t.val % 8 = 0) (d) :
    (lossDat V c).before 6 t d = lossOuts V c (t.val - 1) (Nat.lt_of_le_of_lt (Nat.sub_le _ _) t.isLt) := by
  have hN : t.val < 8 := lt_of_lt_of_eq t.isLt (show cfg1.N = 8 from N_1)
  rw [Dat.before_out_kept _ 6 rfl t (by omega) (Bool.eq_false_iff.mpr fun h => by have := (flush1_6 _).mp h; dsimp only at this; omega)
    (fun _ => rfl) (fun _ _ => rfl)]
  dsimp only [lossDat]

/-! ## The body obligation, at a generic point -/

def lossPre (c : Dev nD) (t : Fin cfg1.N) : sProp 𝕄 :=
  iprop((lossDat V c).Φ t.castSucc ∗ (lossDat V c).owesAt () t.castSucc
    ∗ (∃ d, owns (c : Thread nD τ) (lm0 t) fullShare ((lossDat V c).before 0 t d))
    ∗ (∃ d, owns (c : Thread nD τ) (lm1 t) fullShare ((lossDat V c).before 1 t d))
    ∗ (∃ d, owns (c : Thread nD τ) (lm2 t) fullShare ((lossDat V c).before 2 t d))
    ∗ (∃ d, owns (c : Thread nD τ) (lm3 t) fullShare ((lossDat V c).before 3 t d))
    ∗ (∃ d, owns (c : Thread nD τ) (lm4 t) fullShare ((lossDat V c).before 4 t d))
    ∗ (∃ d, owns (c : Thread nD τ) (lm5 t) fullShare ((lossDat V c).before 5 t d))
    ∗ (∃ d, owns (c : Thread nD τ) (lm6 t) fullShare ((lossDat V c).before 6 t d)))

def lossPost (c : Dev nD) (t : Fin cfg1.N) : sProp 𝕄 :=
  iprop((lossDat V c).Φ t.succ ∗ (lossDat V c).owesAt () t.succ
    ∗ owns (c : Thread nD τ) (lm0 t) fullShare ((lossDat V c).after 0 t)
    ∗ owns (c : Thread nD τ) (lm1 t) fullShare ((lossDat V c).after 1 t)
    ∗ owns (c : Thread nD τ) (lm2 t) fullShare ((lossDat V c).after 2 t)
    ∗ owns (c : Thread nD τ) (lm3 t) fullShare ((lossDat V c).after 3 t)
    ∗ owns (c : Thread nD τ) (lm4 t) fullShare ((lossDat V c).after 4 t)
    ∗ owns (c : Thread nD τ) (lm5 t) fullShare ((lossDat V c).after 5 t)
    ∗ owns (c : Thread nD τ) (lm6 t) fullShare ((lossDat V c).after 6 t))

set_option maxHeartbeats 1600000 in
theorem lossSoundBody (c : Dev nD) (t : Fin cfg1.N) :
    lossPre V c t ⊢ wp frame (wpE (defs₀ (F := F)) Variants.none c none) Set.univ (bodyAt1 t) (fun _ => lossPost V c t) := by
  unfold lossPre lossPost bodyAt1
  simp only [lossBefore0, lossBefore1, lossBefore2, lossBefore3, lossBefore4, lossBefore5]
  rw [show (lossDat V c).Φ t.succ = (lossDat V c).Φ t.castSucc from rfl,
    show (lossDat V c).owesAt () t.succ = (lossDat V c).owesAt () t.castSucc from rfl,
    lossAfter0, lossAfter1, lossAfter2, lossAfter3, lossAfter4, lossAfter5, lossAfter6]
  have hN : t.val < 8 := lt_of_lt_of_eq t.isLt (show cfg1.N = 8 from N_1)
  by_cases h0 : t.val % 8 = 0
  · have h1 : ¬t.val % 8 = 7 := by omega
    rw [lossOuts_first V c t h0 h1]
    unfold lossOutFirst
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((lossRunFirst c (grid1.coords t) _ _ _ _ _ _ _ _ _ _ _ _ _ _ ((lossFirst_iff t).mpr h0) (fun h => h1 ((lossLast_iff t).mp h)) (lossBlk V c 0 t) (lossBlk V c 1 t) (lossBlk V c 2 t) (lossBlk V c 3 t) (lossBlk V c 4 t) (lossBlk V c 5 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iintro ⟨H0, H1, H2, H3, H4, H5, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (lossCoverFirst c _ _ _ _ _ _ _ _ _ _ _ _ _ _ _ _ _ _ _ _ _ _ _)
  · simp only [lossBefore6_later V c t h0]
    by_cases h1 : t.val % 8 = 7
    · rw [lossOuts_last V c t h0 h1]
      unfold lossOutLast
      iintro ⟨HΦ, Ho, ⟨%d0, H0⟩, ⟨%d1, H1⟩, ⟨%d2, H2⟩, ⟨%d3, H3⟩, ⟨%d4, H4⟩, ⟨%d5, H5⟩, ⟨%d6, H6⟩⟩
      iapply ((lossRunLast c (grid1.coords t) _ _ _ _ _ _ _ _ _ _ _ _ _ _ (fun h => h0 ((lossFirst_iff t).mp h)) ((lossLast_iff t).mpr h1) (lossBlk V c 0 t) (lossBlk V c 1 t) (lossBlk V c 2 t) (lossBlk V c 3 t) (lossBlk V c 4 t) (lossBlk V c 5 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      iintro ⟨H0, H1, H2, H3, H4, H5, ⟨%e6, H6⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (lossCoverLast c _ _ _ _ _ _ _ _ _ _ _ _ _ _ _ _ _ _ _ _ _ _ _ _)
    · rw [lossOuts_middle V c t h0 h1]
      unfold lossOutMiddle
      iintro ⟨HΦ, Ho, ⟨%d0, H0⟩, ⟨%d1, H1⟩, ⟨%d2, H2⟩, ⟨%d3, H3⟩, ⟨%d4, H4⟩, ⟨%d5, H5⟩, ⟨%d6, H6⟩⟩
      iapply ((lossRunMiddle c (grid1.coords t) _ _ _ _ _ _ _ _ _ _ _ _ _ _ (fun h => h0 ((lossFirst_iff t).mp h)) (fun h => h1 ((lossLast_iff t).mp h)) (lossBlk V c 0 t) (lossBlk V c 1 t) (lossBlk V c 2 t) (lossBlk V c 3 t) (lossBlk V c 4 t) (lossBlk V c 5 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      iintro ⟨H0, H1, H2, H3, H4, H5, ⟨%e6, H6⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (lossCoverMiddle c _ _ _ _ _ _ _ _ _ _ _ _ _ _ _ _ _ _ _ _ _ _ _ _)

/-- The pipeline's body obligation for the region, at every point. -/
theorem lossBodyObligation (c : Dev nD) : BodyObligation (lossDat (F := F) V c) (defs₀ (F := F)) Variants.none () Set.univ := fun t => by
  rw [bigSep_W1, bigSep_W1]
  exact lossSoundBody V c t

end LossRegion

end Cert.Kernel.Hand

end
-- ==== Proof.BitsKernelRun.lean ====
/-
  The kernel program as a whole: its @main is the first region, two host transposes, the second region, and a host
  reshape. Between these four segments the core's unscoped buffers are held whole at contents named one after the other:
  at launch; after the first region (its four result arrays at what the region's write-backs leave, everything else
  untouched); after the transposes; after the second region (its [1,1] result likewise); after the reshape. Each region
  is entered by sorting its windows' arrays out of the unscoped buffers — for the first region the two argument arrays
  are each dealt in halves to the two windows that read them — and left by putting them back. The run then says: every
  weakly fair execution terminates, and every unscoped buffer ends at the last of those contents.
-/
import proofs.«169696_j47545287967528_2_alg».proof.Proof.BitsGramShares
import proofs.«169696_j47545287967528_2_alg».proof.Proof.BitsLossRegion
import proofs.«169696_j47545287967528_2_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
abbrev X0 : (c : Dev nD) → (b : Ref sig .tc) → Buf (Elt F) ((c : Thread nD τ).loc b) := fun c b => W0 m ρ c b
/-- After the first region: its four result arrays at what its write-backs leave. -/
def W1 (c : Dev nD) : Valuation τ sig (Elt F) :=
  Function.update (Function.update (Function.update (Function.update (W0 m ρ c)
    main_v0_0 ((gramDat (X0 m ρ) c).arrAt 4 cfg0.N)) main_v0_1 ((gramDat (X0 m ρ) c).arrAt 5 cfg0.N))
    main_v0_2 ((gramDat (X0 m ρ) c).arrAt 6 cfg0.N)) main_v0_3 ((gramDat (X0 m ρ) c).arrAt 7 cfg0.N)
abbrev X1 : (c : Dev nD) → (b : Ref sig .tc) → Buf (Elt F) ((c : Thread nD τ).loc b) := fun c b => W1 m ρ c b

/-- What `W1` holds at each of the four result arrays, and that it agrees with the launch contents everywhere else. -/
theorem W1_res3 (c : Dev nD) : X1 m ρ c main_v0_3 = (gramDat (X0 m ρ) c).arrAt 7 cfg0.N := by
  show W1 m ρ c (Proc.devRef .tc main_v0_3) = _
  unfold W1; exact Function.update_self ..
theorem W1_res2 (c : Dev nD) : X1 m ρ c main_v0_2 = (gramDat (X0 m ρ) c).arrAt 6 cfg0.N := by
  show W1 m ρ c (Proc.devRef .tc main_v0_2) = _
  unfold W1
  rw [Function.update_of_ne (StableHlo.devRef_ne_of_ne (by decide) : (Proc.devRef .tc main_v0_2 : DevRef τ sig) ≠ Proc.devRef .tc main_v0_3)]
  exact Function.update_self ..
theorem W1_res1 (c : Dev nD) : X1 m ρ c main_v0_1 = (gramDat (X0 m ρ) c).arrAt 5 cfg0.N := by
  show W1 m ρ c (Proc.devRef .tc main_v0_1) = _
  unfold W1
  rw [Function.update_of_ne (StableHlo.devRef_ne_of_ne (by decide) : (Proc.devRef .tc main_v0_1 : DevRef τ sig) ≠ Proc.devRef .tc main_v0_3),
    Function.update_of_ne (StableHlo.devRef_ne_of_ne (by decide) : (Proc.devRef .tc main_v0_1 : DevRef τ sig) ≠ Proc.devRef .tc main_v0_2)]
  exact Function.update_self ..
theorem W1_res0 (c : Dev nD) : X1 m ρ c main_v0_0 = (gramDat (X0 m ρ) c).arrAt 4 cfg0.N := by
  show W1 m ρ c (Proc.devRef .tc main_v0_0) = _
  unfold W1
  rw [Function.update_of_ne (StableHlo.devRef_ne_of_ne (by decide) : (Proc.devRef .tc main_v0_0 : DevRef τ sig) ≠ Proc.devRef .tc main_v0_3),
    Function.update_of_ne (StableHlo.devRef_ne_of_ne (by decide) : (Proc.devRef .tc main_v0_0 : DevRef τ sig) ≠ Proc.devRef .tc main_v0_2),
    Function.update_of_ne (StableHlo.devRef_ne_of_ne (by decide) : (Proc.devRef .tc main_v0_0 : DevRef τ sig) ≠ Proc.devRef .tc main_v0_1)]
  exact Function.update_self ..
theorem W1_rest (c : Dev nD) (b : Ref sig .tc) (h : b ∉ ([main_v0_0, main_v0_1, main_v0_2, main_v0_3] : List (Ref sig .tc))) :
    X1 m ρ c b = X0 m ρ c b := by
  show W1 m ρ c (Proc.devRef .tc b) = W0 m ρ c (Proc.devRef .tc b)
  have n0 : b ≠ main_v0_0 := fun e => h (e ▸ by simp)
  have n1 : b ≠ main_v0_1 := fun e => h (e ▸ by simp)
  have n2 : b ≠ main_v0_2 := fun e => h (e ▸ by simp)
  have n3 : b ≠ main_v0_3 := fun e => h (e ▸ by simp)
  unfold W1
  rw [Function.update_of_ne (StableHlo.devRef_ne_of_ne n3 : (Proc.devRef .tc b : DevRef τ sig) ≠ Proc.devRef .tc main_v0_3),
    Function.update_of_ne (StableHlo.devRef_ne_of_ne n2 : (Proc.devRef .tc b : DevRef τ sig) ≠ Proc.devRef .tc main_v0_2),
    Function.update_of_ne (StableHlo.devRef_ne_of_ne n1 : (Proc.devRef .tc b : DevRef τ sig) ≠ Proc.devRef .tc main_v0_1),
    Function.update_of_ne (StableHlo.devRef_ne_of_ne n0 : (Proc.devRef .tc b : DevRef τ sig) ≠ Proc.devRef .tc main_v0_0)]

/-- After the two transposes. -/
abbrev W2 : Dev nD → Valuation τ sig (Elt F) := fun c => StableHlo.after hostOps1 (W1 m ρ c)
abbrev X2 : (c : Dev nD) → (b : Ref sig .tc) → Buf (Elt F) ((c : Thread nD τ).loc b) := fun c b => W2 m ρ c b
/-- After the second region. -/
def W3 (c : Dev nD) : Valuation τ sig (Elt F) :=
  Pipeline.withArrays spec1 c (W2 m ρ c) fun w => (lossDat (X2 m ρ) c).arrAt w cfg1.N
theorem W3_arr (c : Dev nD) (w : Fin cfg1.W) :
    W3 m ρ c (Proc.devRef .tc (Pipeline.arrRef spec1 w)) = (lossDat (X2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev X3 : (c : Dev nD) → (b : Ref sig .tc) → Buf (Elt F) ((c : Thread nD τ).loc b) := fun c b => W3 m ρ c b
theorem lossExitArr (c : Dev nD) (w : Fin cfg1.W) : (lossDat (X2 m ρ) c).arrAt w cfg1.N = X3 m ρ c (Pipeline.arrRef spec1 w) :=
  (W3_arr m ρ c w).symm
theorem lossExitRest (c : Dev nD) : ∀ b, b ∉ Finset.univ.image (Pipeline.arrRef spec1) → X3 m ρ c b = X2 m ρ c b :=
  fun b hb => W3_of_ne m ρ c b fun w e => hb (Finset.mem_image.mpr ⟨w, Finset.mem_univ _, e⟩)
/-- After the reshape. -/
abbrev W4 : Dev nD → Valuation τ sig (Elt F) := fun c => StableHlo.after hostOps2 (W3 m ρ c)

/-! ## The proof data family and the thread state -/

/-- Each region's proof data at its entry contents (a literal match on the pipeline's number). -/
def pdats : (p : Fin 2) → (c : Dev nD) → Dat τ (Elt F) Unit ℕ (UR sig nD τ) ℕ (Pipeline.pin (pcfgs (F := F)) adm p) c
  | ⟨0, _⟩ => fun c => gramDat (X0 m ρ) c
  | ⟨1, _⟩ => fun c => lossDat (X2 m ρ) c
abbrev noVariants : Variants := Variants.none
abbrev noLevels : GSem nD τ sig → Finset Unit := fun _ => ∅
abbrev levelZero : GSem nD τ sig → Unit → ℕ := fun _ _ => 0
/-- What rides beside the buffers through every segment: the generator register at some state, and nothing owed. -/
abbrev Rest (c : Dev nD) : sProp 𝕄 := iprop((∃ r, prngReg c r) ∗ ∃ W, owes (c : Thread nD τ) (0 : CellTallies nD τ sig Unit) W)
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noLevels levelZero :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tlast (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The first region: entered from the launch contents, left at `W1`. -/
def gramSeg : Pipeline.RegionSeg (pcfgs (F := F)) adm (pdats m ρ) () defs₀ noVariants noLevels levelZero 0 where
  win := winFacts₀0
  block_pos := block_pos0
  stage_whole := stage_whole0
  K := PEmpty
  osem k := k.elim
  ho := Pipeline.OwnSemFacts.none _
  hbody c := (gramBodyObligation (X0 m ρ) c).loose
  hwaits := Pipeline.hwaits_of_owed_zero _ _ _ _ noLevels levelZero 0 fun _ _ => rfl
  pre c := iprop(StableHlo.held (c : Thread nD τ) (Pipeline.ucRefs τ sig) (W0 m ρ c) ∗ Rest c)
  post c := iprop(StableHlo.held (c : Thread nD τ) (Pipeline.ucRefs τ sig) (W1 m ρ c) ∗ Rest c)
  X c := iprop(∃ r, prngReg c r)
  Y c := iprop(∃ r, prngReg c r)
  Z c := Pipeline.unscopedRest (Ix := Unit) (Name := ℕ) (U := UR sig nD τ) (Lvl := ℕ) spec0 c (X0 m ρ c)
  hentry c := by
    rw [Pipeline.ownSems0_none]
    have hsplit : (unscopedBufs c (X0 m ρ c) : sProp 𝕄) ⊢ iprop((pdats m ρ 0 c).arrays ((pdats m ρ 0 c).arrAt · 0)
        ∗ Pipeline.unscopedRest (Ix := Unit) (Name := ℕ) (U := UR sig nD τ) (Lvl := ℕ) spec0 c (X0 m ρ c)) :=
      gramEntry (X0 m ρ) c (X0 m ρ c) (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N)
        ∗ Pipeline.unscopedRest (Ix := Unit) (Name := ℕ) (U := UR sig nD τ) (Lvl := ℕ) spec0 c (X0 m ρ c)) ⊢ (unscopedBufs c (X1 m ρ c) : sProp 𝕄) :=
      gramExit (X0 m ρ) c (X0 m ρ c) (X1 m ρ c) (fun _ => rfl) (W1_res0 m ρ c) (W1_res1 m ρ c) (W1_res2 m ρ c) (W1_res3 m ρ c) (W1_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from `W2`, left at `W3`; its arrays are distinct buffers at the full share. -/
def lossSeg : Pipeline.RegionSeg (pcfgs (F := F)) adm (pdats m ρ) () defs₀ noVariants noLevels levelZero 1 where
  win := launch1.win.to₀
  block_pos := launch1.block_pos
  stage_whole := launch1.stage_whole
  K := PEmpty
  osem k := k.elim
  ho := Pipeline.OwnSemFacts.none _
  hbody c := (lossBodyObligation (X2 m ρ) c).loose
  hwaits := Pipeline.hwaits_of_owed_zero _ _ _ _ noLevels levelZero 1 fun _ _ => rfl
  pre c := iprop(StableHlo.held (c : Thread nD τ) (Pipeline.ucRefs τ sig) (W2 m ρ c) ∗ Rest c)
  post c := iprop(StableHlo.held (c : Thread nD τ) (Pipeline.ucRefs τ sig) (W3 m ρ c) ∗ Rest c)
  X c := iprop(∃ r, prngReg c r)
  Y c := iprop(∃ r, prngReg c r)
  Z c := Pipeline.unscopedRest (Ix := Unit) (Name := ℕ) (U := UR sig nD τ) (Lvl := ℕ) spec1 c (X2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (X2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (X2 m ρ c) (X3 m ρ c) ((pdats m ρ 1 c).arrAt · cfg1.N) (lossExitArr m ρ c) (lossExitRest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev mainSegs : List (Pipeline.Seg (pcfgs (F := F)) adm (pdats m ρ) () defs₀ noVariants noLevels levelZero) :=
  [ .region (gramSeg m ρ),
    .host (hostSeg hostOps1 hostOps1_sub hostOps1_fresh (W1 m ρ)),
    .region (lossSeg m ρ),
    .host (hostSeg hostOps2 hostOps2_sub hostOps2_fresh (W3 m ρ)) ]
theorem main_run (c : Dev nD) : main (F := F) c = Pipeline.Seg.run (mainSegs m ρ) := (main_chain c).trans (by chain_rfl)

set_option backward.isDefEq.respectTransparency.types false in
/-- THE RUN: from any memory with zero counters every weakly fair execution of @main terminates, nothing faulting, and
    in every final state each unscoped buffer of each core holds the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ noVariants noLevels levelZero m ρ main (mainSegs m ρ)
    (fun c Q => by rw [main_run m ρ c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rest c)) (Tₙ := Tlast m ρ)
    (hch := ⟨fun _ => .rfl, fun _ => .rfl, fun _ => .rfl, fun _ => .rfl, fun c => by
      show (iprop(StableHlo.held (c : Thread nD τ) (Pipeline.ucRefs τ sig) (W4 m ρ c) ∗ Rest c) : sProp 𝕄)
        ⊢ iprop(Tlast m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach noLevels levelZero fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.Kernel.Hand

end
-- ==== Proof.BitsKernelKeeps.lean ====
/-
  No segment of the kernel program writes an argument array: the reshape and the transposes write only their results,
  the second region's arrays are the first region's results and their transposes, and the first region only reads the
  arguments. So the last boundary's contents at an argument array are the launch contents.
-/
import proofs.«169696_j47545287967528_2_alg».proof.Proof.BitsKernelRun

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W4_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (by decide)
    _ = W2 m ρ c (Proc.devRef .tc main_arg0) := W3_of_ne m ρ c main_arg0 (by decide)
    _ = W1 m ρ c (Proc.devRef .tc main_arg0) := StableHlo.after_of_writes_sub hostOps1 _ hostOps1_writes (by decide)
    _ = W0 m ρ c (Proc.devRef .tc main_arg0) := W1_rest m ρ c main_arg0 (by decide)
    _ = m ((c : Thread nD τ).loc main_arg0) := rfl

theorem W4_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (by decide)
    _ = W2 m ρ c (Proc.devRef .tc main_arg1) := W3_of_ne m ρ c main_arg1 (by decide)
    _ = W1 m ρ c (Proc.devRef .tc main_arg1) := StableHlo.after_of_writes_sub hostOps1 _ hostOps1_writes (by decide)
    _ = W0 m ρ c (Proc.devRef .tc main_arg1) := W1_rest m ρ c main_arg1 (by decide)
    _ = m ((c : Thread nD τ).loc main_arg1) := rfl

/-- THE FRAME: every weakly fair execution terminates, nothing faulting, and the two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W4_arg0 m ρ c), (h c _ (mem_uc main_arg1 (by decide))).trans (W4_arg1 m ρ c)⟩) (run m ρ)

end Cert.Kernel.Hand

end
-- ==== Proof.KernelLossPayOuts.lean ====
/-
  What the second region's body leaves in the accumulator cell, case by case, as the body's own arithmetic.

  The region's proof data state the cell after a grid point as the stores the run made, read back. The last store of
  each case covers the one-entry cell, so the read-back is that store's value; a load of the cell made after an
  earlier covering store reads that store's value; and a load of a whole input buffer reads the buffer. With these
  the three cases read: at the first point, the slab's masked sum added to the zero just stored; at a middle point,
  added to what the point before left; at the last point, that sum divided by the number of pairs.
-/
import proofs.«169696_j47545287967528_2_alg».proof.Proof.LossRegion
import Idealize.ShloMosaic.Lib.Pipeline.Value

set_option maxRecDepth 16384

noncomputable section

namespace Cert.KernelIdeal.HandOuts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Hand

variable {F : FTy → Type} [FloatOps F]

/-- The zero offset of a whole rank-2 block. -/
theorem zero_off : (![0, 0] : Fin 2 → Nat) = fun _ => 0 := funext fun a => by fin_cases a <;> rfl

/-- The first point: the slab's masked sum added to the zero just stored. -/
theorem lossOutFirst_eq (c : Dev nD) (i : grid1.Coords) (arg1 : Memref sig .tc .vmem S128x1024 .f32) (harg1 : arg1.IsWhole) (arg2 : Memref sig .tc .vmem S128x1024 .f32) (harg2 : arg2.IsWhole) (arg3 : Memref sig .tc .vmem S128x1 .f32) (harg3 : arg3.IsWhole) (arg4 : Memref sig .tc .vmem S128x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1 .f32) (harg7 : arg7.IsWhole) (hc0 : lossFirst i) (hc1 : ¬lossLast i)
    (x0 : Vec F S128x1024 .f32) (x1 : Vec F S128x1024 .f32) (x2 : Vec F S128x1 .f32) (x3 : Vec F S128x1 .f32) (x4 : Vec F S1x1024 .f32) (x5 : Vec F S1x1024 .f32) :
    lossOutFirst c i arg1 harg1 arg2 harg2 arg3 harg3 arg4 harg4 arg5 harg5 arg6 harg6 arg7 harg7 hc0 hc1 x0 x1 x2 x3 x4 x5
      = k1_pay1 (k1_pay4 x0 x1 x2 x3 x4 x5) (k1_pay5 i) (k1_pay3 (F := F)) := by
  unfold lossOutFirst
  rw [View.read_writes_eq_canon _ _ _ (lossCoverFirst c i arg1 harg1 arg2 harg2 arg3 harg3 arg4 harg4 arg5 harg5 arg6 harg6 arg7 harg7 hc0 hc1 x0 x1 x2 x3 x4 x5)]
  unfold lossRunFirst
  dsimp only
  sl_unfold_words
  rw [View.canon_cons_unit_zero (S := S1x1) zero_off, View.readCov_unit_zero (S := S1x1) _ zero_off]
  simp only [View.readAt_eq_ld, harg1.read_unread, harg2.read_unread, harg3.read_unread, harg4.read_unread, harg5.read_unread, harg6.read_unread,
    View.ld_unit_zero (S := S128x1024) zero_off, View.ld_unit_zero (S := S128x1) zero_off, View.ld_unit_zero (S := S1x1024) zero_off]

/-- A middle point: the slab's masked sum added to what the point before left. -/
theorem lossOutMiddle_eq (c : Dev nD) (i : grid1.Coords) (arg1 : Memref sig .tc .vmem S128x1024 .f32) (harg1 : arg1.IsWhole) (arg2 : Memref sig .tc .vmem S128x1024 .f32) (harg2 : arg2.IsWhole) (arg3 : Memref sig .tc .vmem S128x1 .f32) (harg3 : arg3.IsWhole) (arg4 : Memref sig .tc .vmem S128x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1 .f32) (harg7 : arg7.IsWhole) (hc0 : ¬lossFirst i) (hc1 : ¬lossLast i)
    (x0 : Vec F S128x1024 .f32) (x1 : Vec F S128x1024 .f32) (x2 : Vec F S128x1 .f32) (x3 : Vec F S128x1 .f32) (x4 : Vec F S1x1024 .f32) (x5 : Vec F S1x1024 .f32) (xo : Vec F S1x1 .f32) :
    lossOutMiddle c i arg1 harg1 arg2 harg2 arg3 harg3 arg4 harg4 arg5 harg5 arg6 harg6 arg7 harg7 hc0 hc1 x0 x1 x2 x3 x4 x5 xo
      = k1_pay1 (k1_pay4 x0 x1 x2 x3 x4 x5) (k1_pay5 i) xo := by
  unfold lossOutMiddle
  rw [View.read_writes_eq_canon _ _ _ (lossCoverMiddle c i arg1 harg1 arg2 harg2 arg3 harg3 arg4 harg4 arg5 harg5 arg6 harg6 arg7 harg7 hc0 hc1 x0 x1 x2 x3 x4 x5 xo)]
  unfold lossRunMiddle
  dsimp only
  sl_unfold_words
  rw [View.canon_unit_zero (S := S1x1) zero_off]
  simp only [View.readAt_eq_ld, harg1.read_unread, harg2.read_unread, harg3.read_unread, harg4.read_unread, harg5.read_unread, harg6.read_unread, harg7.read_unread,
    View.ld_unit_zero (S := S128x1024) zero_off, View.ld_unit_zero (S := S128x1) zero_off, View.ld_unit_zero (S := S1x1024) zero_off, View.ld_unit_zero (S := S1x1) zero_off]

/-- The last point: that sum, divided by the number of pairs. -/
theorem lossOutLast_eq (c : Dev nD) (i : grid1.Coords) (arg1 : Memref sig .tc .vmem S128x1024 .f32) (harg1 : arg1.IsWhole) (arg2 : Memref sig .tc .vmem S128x1024 .f32) (harg2 : arg2.IsWhole) (arg3 : Memref sig .tc .vmem S128x1 .f32) (harg3 : arg3.IsWhole) (arg4 : Memref sig .tc .vmem S128x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1 .f32) (harg7 : arg7.IsWhole) (hc0 : ¬lossFirst i) (hc1 : lossLast i)
    (x0 : Vec F S128x1024 .f32) (x1 : Vec F S128x1024 .f32) (x2 : Vec F S128x1 .f32) (x3 : Vec F S128x1 .f32) (x4 : Vec F S1x1024 .f32) (x5 : Vec F S1x1024 .f32) (xo : Vec F S1x1 .f32) :
    lossOutLast c i arg1 harg1 arg2 harg2 arg3 harg3 arg4 harg4 arg5 harg5 arg6 harg6 arg7 harg7 hc0 hc1 x0 x1 x2 x3 x4 x5 xo
      = k1_pay2 (k1_pay1 (k1_pay4 x0 x1 x2 x3 x4 x5) (k1_pay5 i) xo) := by
  unfold lossOutLast
  rw [View.read_writes_eq_canon _ _ _ (lossCoverLast c i arg1 harg1 arg2 harg2 arg3 harg3 arg4 harg4 arg5 harg5 arg6 harg6 arg7 harg7 hc0 hc1 x0 x1 x2 x3 x4 x5 xo)]
  unfold lossRunLast
  dsimp only
  sl_unfold_words
  rw [View.canon_cons_unit_zero (S := S1x1) zero_off, View.readCov_unit_zero (S := S1x1) _ zero_off]
  simp only [View.readAt_eq_ld, harg1.read_unread, harg2.read_unread, harg3.read_unread, harg4.read_unread, harg5.read_unread, harg6.read_unread, harg7.read_unread,
    View.ld_unit_zero (S := S128x1024) zero_off, View.ld_unit_zero (S := S128x1) zero_off, View.ld_unit_zero (S := S1x1024) zero_off, View.ld_unit_zero (S := S1x1) zero_off]

end Cert.KernelIdeal.HandOuts

end
-- ==== Proof.Spec.lean ====
/-
  The pairwise-distance loss as ONE function of the two input arrays, index by index.

  For an array x of 1024 rows and 8192 columns of extended reals:
    sq x i      the squared norm of row i, the sum over d of x[i,d]·x[i,d];
    gram x i j  the inner product of rows i and j, the sum over d of x[i,d]·x[j,d];
    d2 x i j    the squared distance of rows i and j by the polarisation formula,
                (sq i + sq j) − 2·gram i j, cut off below at zero;
    dist x i j  its square root.
  For two such arrays x and y, term x y i j is the square of dist x i j − dist y i j,
  total x y is the sum of the terms over the pairs i < j (written as a double sum of an
  if-then-else, so that no enumeration of the pairs enters the definition), and loss x y is
  the total divided by the number of pairs, 523776, kept as the float word both programs divide by.

  The two float literals of the formula (2 and 0) are kept as their words: the same word on both
  sides of an equation is never evaluated.
-/
import Idealize.ShloMosaic.PureOps.Ideal
import Idealize.ShloMosaic.Lib.ValueIdx

noncomputable section

open scoped BigOperators

namespace Cert.PairLoss

open Idealize.ShloMosaic Idealize.ShloMosaic.ValueIdx

/-- An input array: 1024 rows of 8192 extended reals. -/
abbrev Arr : Type := (⟨2, ![1024, 8192]⟩ : Shape).Idx → EReal

/-- The literal 2.0 of the polarisation formula, as its float word. -/
abbrev two : EReal := Ideal.ofBits .f32 0x40000000#32
/-- The literal 0.0 the squared distance is cut off at, as its float word. -/
abbrev zero : EReal := Ideal.ofBits .f32 0x00000000#32
/-- The number of pairs, 523776 = 1024·1023/2, as the float word the total is divided by. -/
abbrev npairs : EReal := Ideal.ofBits .f32 0x48FFC000#32

/-- The squared norm of row `i`. -/
def sq (x : Arr) (i : Fin 1024) : EReal := ∑ d : Fin 8192, x (ix2 i d) * x (ix2 i d)

/-- The inner product of rows `i` and `j`. -/
def gram (x : Arr) (i j : Fin 1024) : EReal := ∑ d : Fin 8192, x (ix2 i d) * x (ix2 j d)

/-- The squared distance of rows `i` and `j`, cut off below at zero. -/
def d2 (x : Arr) (i j : Fin 1024) : EReal := max ((sq x i + sq x j) - two * gram x i j) zero

/-- The distance of rows `i` and `j`. -/
def dist (x : Arr) (i j : Fin 1024) : EReal := Ideal.sqrt (d2 x i j)

/-- One pair's contribution: the squared difference of the two arrays' distances. -/
def term (x y : Arr) (i j : Fin 1024) : EReal := (dist x i j - dist y i j) * (dist x i j - dist y i j)

/-- The sum of the contributions over the pairs `i < j`. -/
def total (x y : Arr) : EReal := ∑ i : Fin 1024, ∑ j : Fin 1024, if i < j then term x y i j else 0

/-- The loss: the total divided by the number of pairs. -/
def loss (x y : Arr) : EReal := Ideal.div (total x y) npairs

end Cert.PairLoss

end
-- ==== Proof.LibSlabLayout.lean ====
/-
  Reusable lemmas: an [a, b] array of rows and an [a, b, c] array of slabs read at an entry.

  A kernel that treats each of a blocks separately reduces along the middle axis of an [a, b, c] array (a sum over the b
  rows of every slab, leaving [a, c]) and along the rows of an [a, b] array (a sum or a running maximum over b, leaving
  [a]), and lays an [a, b] array along a new trailing axis ([a, b] → [a, b, 1] → [a, b, c]).  Each lemma reads one such
  operation at an entry written by its coordinates; the sums are over the extended reals.  Generic in the extents.
-/
import Idealize.ShloMosaic.Lib.Pipeline.Value
import Idealize.ShloMosaic.Lib.ValueIdx
import Idealize.ShloMosaic.PureOps.Ideal.Laws

noncomputable section

namespace Cert.SlabLayout

open Idealize.ShloMosaic Idealize.ShloMosaic.ValueIdx

variable {α : Type} {a b c : ℕ}

/-- An [a, b] array viewed [a, b, 1] reads, at (i, k, u), the operand at (i, k). -/
theorem shapeCast_ab_ab1_apply (x : (⟨2, ![a, b]⟩ : Shape).Idx → α)
    (h : (⟨2, ![a, b]⟩ : Shape).ShapeCasts ⟨3, ![a, b, 1]⟩) (i : Fin a) (k : Fin b) (u : Fin 1) :
    shapeCast ⟨3, ![a, b, 1]⟩ x h (ix3 i k u) = x (ix2 i k) :=
  shapeCast_apply x h _ _ (by
    have hu : u.val = 0 := by omega
    rw [Shape.rowMajor_val_three, Shape.rowMajor_val_two]
    show i.val * b + k.val = (i.val * b + k.val) * 1 + u.val
    rw [hu, Nat.mul_one, Nat.add_zero])

/-- An [a, b, 1] array broadcast to [a, b, c] reads, at (i, k, j), the operand at (i, k, 0). -/
theorem broadcastTo_ab1_abc_apply (x : (⟨3, ![a, b, 1]⟩ : Shape).Idx → α)
    (h : (⟨3, ![a, b, 1]⟩ : Shape).Broadcasts ⟨3, ![a, b, c]⟩) (i : Fin a) (k : Fin b) (j : Fin c) :
    broadcastTo ⟨3, ![a, b, c]⟩ x h (ix3 i k j) = x (ix3 i k (0 : Fin 1)) := by
  refine broadcastTo_apply x h (ix3 i k j) (ix3 i k (0 : Fin 1)) fun ax => ?_
  match ax with
  | ⟨0, _⟩ =>
    show i.val = if a = 1 then 0 else i.val
    split
    · have := i.isLt; omega
    · rfl
  | ⟨1, _⟩ =>
    show k.val = if b = 1 then 0 else k.val
    split
    · have := k.isLt; omega
    · rfl
  | ⟨2, _⟩ => rfl

/-- The source index of a reduction over the middle axis: the pair (i, j) with the row k inserted is (i, k, j). -/
theorem lift_mid (h : (⟨3, ![a, b, c]⟩ : Shape).Reduces [(1 : Fin 3)] ⟨2, ![a, c]⟩) (i : Fin a) (j : Fin c) (k : Fin b) :
    h.lift (ix2 i j) k = ix3 i k j := by
  funext d
  apply Fin.ext
  show h.liftVal (ix2 i j) k.val d = (ix3 i k j d).val
  unfold Shape.Reduces.liftVal
  match d with
  | ⟨0, _⟩ => rfl
  | ⟨1, _⟩ => rfl
  | ⟨2, _⟩ => rfl

/-- Over the extended reals a sum over the middle axis of an [a, b, c] array, from the zero accumulator, is at (i, j)
    the sum over the rows k of the entries (i, k, j). -/
theorem midSum_apply {φ : FTy} (src : FVec Ideal ⟨3, ![a, b, c]⟩ φ) (acc : BitVec φ.bits)
    (h : (⟨3, ![a, b, c]⟩ : Shape).Reduces [(1 : Fin 3)] ⟨2, ![a, c]⟩) (hφ : FKind.Formats φ)
    (hacc : acc = FKind.add.neutral φ hφ) (i : Fin a) (j : Fin c) :
    multiReduction .add [(1 : Fin 3)] ⟨2, ![a, c]⟩ src acc h hφ hacc (ix2 i j) = ∑ k : Fin b, src (ix3 i k j) := by
  refine (Ideal.multiReduction_add_single src acc h hφ hacc (ix2 i j)).trans ?_
  show ∑ k : Fin b, src (h.lift (ix2 i j) k) = _
  exact Finset.sum_congr rfl fun k _ => congrArg src (lift_mid h i j k)

/-- The source index of a reduction over the rows of an [a, b] array: i with the column k inserted is (i, k). -/
theorem lift_row (h : (⟨2, ![a, b]⟩ : Shape).Reduces [(1 : Fin 2)] ⟨1, ![a]⟩) (i : Fin a) (k : Fin b) :
    h.lift (ix1 i) k = ix2 i k := by
  funext d
  apply Fin.ext
  show h.liftVal (ix1 i) k.val d = (ix2 i k d).val
  unfold Shape.Reduces.liftVal
  match d with
  | ⟨0, _⟩ => rfl
  | ⟨1, _⟩ => rfl

/-- Over the extended reals a sum along the rows of an [a, b] array, from the zero accumulator, is at i the sum over k
    of the entries (i, k). -/
theorem rowSum_apply {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (i : Fin a) :
    multiReduction .add [(1 : Fin 2)] ⟨1, ![a]⟩ src acc h hφ hacc (ix1 i) = ∑ k : Fin b, src (ix2 i k) := by
  refine (Ideal.multiReduction_add_single src acc h hφ hacc (ix1 i)).trans ?_
  show ∑ k : Fin b, src (h.lift (ix1 i) k) = _
  exact Finset.sum_congr rfl fun k _ => congrArg src (lift_row h i k)

/-- Over the extended reals a running maximum along the rows of an [a, b] array is at i the fold of max, from the
    accumulator's value, over the entries (i, k). -/
theorem rowMax_apply {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.maximumf.neutral φ hφ) (i : Fin a) :
    multiReduction .maximumf [(1 : Fin 2)] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  have e : (src ∘ h.lift (ix1 i)) = fun k => src (ix2 i k) := funext fun k => congrArg src (lift_row h i k)
  show (Finset.univ : Finset (Fin b)).fold max (Ideal.ofBits φ acc) (src ∘ h.lift (ix1 i)) = _
  rw [e]
  rfl

end Cert.SlabLayout

end
-- ==== Proof.LibKeepdimsColumn.lean ====
/-
  A reusable lemma pair: a column kept as a trailing unit axis, read at an entry.

  A reduction over the last axis of an [a, b] array with the axis kept leaves a column: the [a] result is cast to
  [a, 1] and then broadcast back to [a, b'] to meet the array it came from. Read at an entry,

      cast [a] → [a, 1]        at (i, u) is the operand at i,
      broadcast [a, 1] → [a, b] at (p, c) is the operand at (p, 0):

  every entry of row p sees the row's one value. Generic in the extents and in the element type.
-/
import Idealize.ShloMosaic.Lib.Pipeline.Value
import Idealize.ShloMosaic.Lib.ValueIdx

noncomputable section

namespace Cert.KeepdimsColumn

open Idealize.ShloMosaic Idealize.ShloMosaic.ValueIdx

/-- An [a] array cast to [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.KeepdimsColumn

end
-- ==== Proof.LibColumnReduce.lean ====
/-
  Reusable lemmas: reductions down the columns of an [a, b] array, read at an entry.

  A vector.multi_reduction over axis 0 of an [a, b] array leaves a [b] array whose entry q gathers column q:
      <add>       from the zero accumulator:  Σ_p src[p, q],
      <maximumf>  from the accumulator's value:  the fold of max over p of src[p, q].
  Both are read over the extended reals; generic in the extents and the float format.
-/
import Idealize.ShloMosaic.Lib.Pipeline.Value
import Idealize.ShloMosaic.Lib.ValueIdx
import Idealize.ShloMosaic.PureOps.Ideal.Laws

noncomputable section

namespace Cert.ColumnReduce

open Idealize.ShloMosaic Idealize.ShloMosaic.ValueIdx

variable {a b : ℕ}

/-- The source index of a reduction over the columns: the column q with the row p inserted is (p, q). -/
theorem lift_col (h : (⟨2, ![a, b]⟩ : Shape).Reduces [(0 : Fin 2)] ⟨1, ![b]⟩) (q : Fin b) (p : Fin a) :
    h.lift (ix1 q) p = ix2 p q := by
  funext d
  apply Fin.ext
  show h.liftVal (ix1 q) p.val d = (ix2 p q d).val
  unfold Shape.Reduces.liftVal
  match d with
  | ⟨0, _⟩ => rfl
  | ⟨1, _⟩ => rfl

/-- A sum down the columns of an [a, b] array, from the zero accumulator, is at q the sum over p of the entries (p, q). -/
theorem colSum_apply {φ : FTy} (src : FVec Ideal ⟨2, ![a, b]⟩ φ) (acc : BitVec φ.bits)
    (h : (⟨2, ![a, b]⟩ : Shape).Reduces [(0 : Fin 2)] ⟨1, ![b]⟩) (hφ : FKind.Formats φ)
    (hacc : acc = FKind.add.neutral φ hφ) (q : Fin b) :
    multiReduction .add [(0 : Fin 2)] ⟨1, ![b]⟩ src acc h hφ hacc (ix1 q) = ∑ p : Fin a, src (ix2 p q) := by
  refine (Ideal.multiReduction_add_single src acc h hφ hacc (ix1 q)).trans ?_
  show ∑ p : Fin a, src (h.lift (ix1 q) p) = _
  exact Finset.sum_congr rfl fun p _ => congrArg src (lift_col h q p)

/-- A running maximum down the columns of an [a, b] array is at q the fold of max, from the accumulator's value, over
    the entries (p, q). -/
theorem colMax_apply {φ : FTy} (src : FVec Ideal ⟨2, ![a, b]⟩ φ) (acc : BitVec φ.bits)
    (h : (⟨2, ![a, b]⟩ : Shape).Reduces [(0 : Fin 2)] ⟨1, ![b]⟩) (hφ : FKind.Formats φ)
    (hacc : acc = FKind.maximumf.neutral φ hφ) (q : Fin b) :
    multiReduction .maximumf [(0 : Fin 2)] ⟨1, ![b]⟩ src acc h hφ hacc (ix1 q)
      = (Finset.univ : Finset (Fin a)).fold max (Ideal.ofBits φ acc) (fun p => src (ix2 p q)) := by
  refine (Ideal.multiReduction_maximumf_single src acc h hφ hacc (ix1 q)).trans ?_
  have e : (src ∘ h.lift (ix1 q)) = fun p => src (ix2 p q) := funext fun p => congrArg src (lift_col h q p)
  show (Finset.univ : Finset (Fin a)).fold max (Ideal.ofBits φ acc) (src ∘ h.lift (ix1 q)) = _
  rw [e]
  rfl

end Cert.ColumnReduce

end
-- ==== Proof.LibMaskWords.lean ====
/-
  Reusable lemmas: the two spellings of a strictly-lower-triangle mask (jnp.tril(·, −1) on the host, row > column in a
  kernel), on 32-bit words, as an if-then-else on natural numbers.

  One program compares the row number with the column number, signed "greater than"; the other adds the word −1 to
  the row number and compares signed "greater or equal". For row and column numbers below 2³¹ both say: the column
  is strictly below the row. A select on that bit is an if-then-else on the inequality of natural numbers.
-/
import Idealize.ShloMosaic.Lib.ValueIdx

namespace Cert.MaskWords

open Idealize.ShloMosaic

/-- A natural number below 2³¹, as a 32-bit word read signed, is itself. -/
theorem toInt_ofNat_small (n : ℕ) (h : n < 2147483648) : (BitVec.ofNat 32 n).toInt = (n : ℤ) := by
  have h1 : (BitVec.ofNat 32 n).toNat = n := by
    rw [BitVec.toNat_ofNat]; exact Nat.mod_eq_of_lt (by omega)
  rw [BitVec.toInt_eq_toNat_cond, h1]
  have : 2 * n < 2 ^ 32 := by norm_num; omega
  rw [if_pos this]

/-- Adding the word −1 to a natural number below 2³¹ gives, read signed, its predecessor as an integer. -/
theorem toInt_ofNat_add_neg_one (n : ℕ) (h : n < 2147483648) :
    (BitVec.ofNat 32 n + 4294967295#32).toInt = (n : ℤ) - 1 := by
  rw [BitVec.toInt_add, toInt_ofNat_small n h]
  have h2 : (4294967295#32 : BitVec 32).toInt = -1 := by decide
  rw [h2]
  have h3 : ((2 : ℕ) ^ 32 : ℤ) = 4294967296 := by norm_num
  rw [Int.bmod_def]
  push_cast
  omega

/-- A select on the bit of a decidable proposition is the if-then-else on it. -/
theorem select_ofBool {α : Type} (b : Bool) (x y : α) : Scalar.select (BitVec.ofBool b) x y = if b = true then x else y := by
  cases b
  · exact ValueIdx.select_zero x y
  · exact ValueIdx.select_one x y

/-- Signed "row greater than column" on small numbers. -/
theorem select_sgt {α : Type} (p s : ℕ) (hp : p < 2147483648) (hs : s < 2147483648) (x y : α) :
    Scalar.select (IntOp.cmpi .sgt (BitVec.ofNat 32 p) (BitVec.ofNat 32 s)) x y = if s < p then x else y := by
  have e : IntOp.cmpi .sgt (BitVec.ofNat 32 p) (BitVec.ofNat 32 s) = BitVec.ofBool (decide (s < p)) := by
    show BitVec.ofBool ((BitVec.ofNat 32 s).slt (BitVec.ofNat 32 p)) = _
    refine congrArg BitVec.ofBool ?_
    rw [BitVec.slt_eq_decide, toInt_ofNat_small s hs, toInt_ofNat_small p hp]
    exact decide_eq_decide.mpr Nat.cast_lt
  rw [e, select_ofBool]
  simp only [decide_eq_true_eq]

/-- Signed "row plus the word −1, greater or equal column" on small numbers. -/
theorem select_sge_pred {α : Type} (t s : ℕ) (ht : t < 2147483648) (hs : s < 2147483648) (x y : α) :
    Scalar.select (IntOp.cmpi .sge (BitVec.ofNat 32 t + 4294967295#32) (BitVec.ofNat 32 s)) x y
      = if s < t then x else y := by
  have e : IntOp.cmpi .sge (BitVec.ofNat 32 t + 4294967295#32) (BitVec.ofNat 32 s) = BitVec.ofBool (decide (s < t)) := by
    show BitVec.ofBool ((BitVec.ofNat 32 s).sle (BitVec.ofNat 32 t + 4294967295#32)) = _
    refine congrArg BitVec.ofBool ?_
    rw [BitVec.sle_eq_decide, toInt_ofNat_small s hs, toInt_ofNat_add_neg_one t ht]
    exact decide_eq_decide.mpr (by omega)
  rw [e, select_ofBool]
  simp only [decide_eq_true_eq]

end Cert.MaskWords
-- ==== Proof.KernelLossPay.lean ====
/-
  The arithmetic of the second kernel's body, entry by entry, over the extended reals.

  One grid step r loads a band of 128 rows of each inner-product array, the band's 128 squared norms of each
  input as a column, all 1024 squared norms of each input as a row, and the one-entry accumulator. At entry
  (p, q) of the band it forms, for each input, the squared distance of row 128·r + p and row q by the
  polarisation formula, cut off below at zero, takes square roots, and squares their difference. That entry
  counts only where the row number 128·r + p is below the column number q: the body multiplies it by a mask
  that is 1 there and 0 elsewhere, built by comparing 32-bit words, signed; for numbers below 2³¹ the signed
  comparison of the words is the comparison of the numbers. The masked band is summed, first along each row
  and then down the column of row sums, and added to the accumulator; the first step starts it from zero, and
  the last step divides it by the number of pairs.
-/
import proofs.«169696_j47545287967528_2_alg».proof.Proof.Gen.KernelIdeal.Skeleton
import Idealize.ShloMosaic.Lib.ValueLayout
import Idealize.ShloMosaic.PureOps.Ideal.Laws
import proofs.«169696_j47545287967528_2_alg».proof.Proof.Spec
import proofs.«169696_j47545287967528_2_alg».proof.Proof.LibSlabLayout
import proofs.«169696_j47545287967528_2_alg».proof.Proof.LibKeepdimsColumn
import proofs.«169696_j47545287967528_2_alg».proof.Proof.LibColumnReduce
import proofs.«169696_j47545287967528_2_alg».proof.Proof.LibMaskWords

noncomputable section

open scoped BigOperators

namespace Cert.PairLoss.LossPay

open Idealize.ShloMosaic Idealize.ShloMosaic.ValueIdx Cert.KernelIdeal Cert.KernelIdeal.Gen

/-- The zero stored into the accumulator on the first step. -/
theorem pay3_apply (u v : Fin 1) : k1_pay3 (F := Ideal) (ix2 u v) = 0 :=
  Ideal.ofBits_zero_f32

/-- The last step's division of the accumulator by the number of pairs. -/
theorem pay2_apply (v55 : Vec Ideal S1x1 .f32) (u v : Fin 1) :
    k1_pay2 (F := Ideal) v55 (ix2 u v) = Ideal.div (v55 (ix2 u v)) npairs := by
  unfold k1_pay2
  refine (divf_apply _ _ _).trans ?_
  rw [shapeCast_self]
  rfl

/-- One pair's contribution from the six numbers the body reads for it: the two inner products, and each
    input's two squared norms. -/
def termOf (gp gt cp ct rp rt : EReal) : EReal :=
  (Ideal.sqrt (max ((cp + rp) - two * gp) zero) - Ideal.sqrt (max ((ct + rt) - two * gt) zero))
    * (Ideal.sqrt (max ((cp + rp) - two * gp) zero) - Ideal.sqrt (max ((ct + rt) - two * gt) zero))

/-- When the six numbers are the specification's, the contribution is the specification's term. -/
theorem termOf_spec (x y : Arr) (i j : Fin 1024) :
    termOf (gram x i j) (gram y i j) (sq x i) (sq y i) (sq x j) (sq y j) = term x y i j := rfl

/-- The squared difference of the two distances at entry (p, q) of the band. -/
theorem pay4_apply (v3 v5 : Vec Ideal S128x1024 .f32) (v7 v9 : Vec Ideal S128x1 .f32) (v11 v13 : Vec Ideal S1x1024 .f32)
    (p : Fin 128) (q : Fin 1024) :
    k1_pay4 (F := Ideal) v3 v5 v7 v9 v11 v13 (ix2 p q)
      = termOf (v3 (ix2 p q)) (v5 (ix2 p q)) (v7 (ix2 p (0 : Fin 1))) (v9 (ix2 p (0 : Fin 1)))
          (v11 (ix2 (0 : Fin 1) q)) (v13 (ix2 (0 : Fin 1) q)) := by
  unfold k1_pay4
  simp only [shapeCast_self]
  have e7 := Cert.KeepdimsColumn.broadcastTo_a1_ab_apply v7 broadcasts_S128x1_S128x1024 p q
  have e9 := Cert.KeepdimsColumn.broadcastTo_a1_ab_apply v9 broadcasts_S128x1_S128x1024 p q
  have e11 := broadcastTo_1b_ab_apply v11 broadcasts_S1x1024_S128x1024 p q
  have e13 := broadcastTo_1b_ab_apply v13 broadcasts_S1x1024_S128x1024 p q
  unfold termOf
  rw [← e7, ← e9, ← e11, ← e13]
  rfl

/-- The row-number word of entry (p, q) of the band at step r: the step's word times 128 plus p. -/
theorem pay5_apply (i : grid1.Coords) (p : Fin 128) (q : Fin 1024) :
    k1_pay5 i (ix2 p q) = BitVec.ofNat 32 (i 0).val * 128#32 + BitVec.ofNat 32 p.val := by
  unfold k1_pay5
  dsimp only
  show IntOp.addi _ (iota .tc S128x1024 32 [0] iota_S128x1024_d0_w32 (ix2 p q)) = _
  rw [iota_single_apply]
  rfl

/-- For a step number below 8 and a row below 128 that word is the word of the number 128·r + p. -/
theorem row_word (r p : ℕ) (hr : r < 8) (hp : p < 128) :
    BitVec.ofNat 32 r * 128#32 + BitVec.ofNat 32 p = BitVec.ofNat 32 (128 * r + p) := by
  apply BitVec.eq_of_toNat_eq
  simp only [BitVec.toNat_add, BitVec.toNat_mul, BitVec.toNat_ofNat]
  omega

/-- The mask entry as a number: signed "row word below column word", widened and converted, is 1 where the row
    number is below the column number and 0 elsewhere, for numbers below 2³¹. -/
theorem mask_word (n c : ℕ) (hn : n < 2147483648) (hc : c < 2147483648) :
    FloatOps.sitofp (F := Ideal) .f32 ((IntOp.cmpi .slt (BitVec.ofNat 32 n) (BitVec.ofNat 32 c)).setWidth 32)
      = if n < c then (1 : EReal) else 0 := by
  have e : IntOp.cmpi .slt (BitVec.ofNat 32 n) (BitVec.ofNat 32 c) = BitVec.ofBool (decide (n < c)) := by
    show BitVec.ofBool ((BitVec.ofNat 32 n).slt (BitVec.ofNat 32 c)) = _
    refine congrArg BitVec.ofBool ?_
    rw [BitVec.slt_eq_decide, Cert.MaskWords.toInt_ofNat_small n hn, Cert.MaskWords.toInt_ofNat_small c hc]
    exact decide_eq_decide.mpr Nat.cast_lt
  rw [e]
  show (((((BitVec.ofBool (decide (n < c))).setWidth 32).toInt : ℤ) : ℝ) : EReal) = _
  by_cases h : n < c
  · have t : ((BitVec.ofBool true).setWidth 32).toInt = 1 := by decide
    rw [if_pos h, decide_eq_true h, t]
    norm_num
  · have t : ((BitVec.ofBool false).setWidth 32).toInt = 0 := by decide
    rw [if_neg h, decide_eq_false h, t]
    norm_num

/-- The accumulate: the old accumulator plus the sum over the band of each entry times its mask, the mask
    entry still as the body's words. -/
theorem pay1_words (v34 : FVec Ideal S128x1024 .f32) (v38 : IVec S128x1024 32) (v48 : Vec Ideal S1x1 .f32) (u v : Fin 1) :
    k1_pay1 (F := Ideal) v34 v38 v48 (ix2 u v)
      = v48 (ix2 u v) + ∑ p : Fin 128, ∑ q : Fin 1024, v34 (ix2 p q)
          * FloatOps.sitofp (F := Ideal) .f32 ((IntOp.cmpi .slt (v38 (ix2 p q)) (BitVec.ofNat 32 q.val)).setWidth 32) := by
  unfold k1_pay1
  dsimp only
  refine (addf_apply _ _ _).trans ?_
  rw [shapeCast_self]
  refine congrArg (v48 (ix2 u v) + ·) ?_
  refine (Cert.KeepdimsColumn.shapeCast_a_a1_apply _ _ u v).trans ?_
  refine (Cert.ColumnReduce.colSum_apply _ _ _ _ _ u).trans ?_
  refine Finset.sum_congr rfl fun p _ => ?_
  refine (Cert.KeepdimsColumn.shapeCast_a_a1_apply _ _ p u).trans ?_
  refine (Cert.SlabLayout.rowSum_apply _ _ _ _ _ p).trans ?_
  refine Finset.sum_congr rfl fun q _ => ?_
  refine (mulf_apply _ _ _).trans ?_
  refine congrArg (v34 (ix2 p q) * ·) ?_
  show FloatOps.sitofp (F := Ideal) .f32 ((IntOp.cmpi .slt (v38 (ix2 p q))
    (iota .tc S128x1024 32 [1] iota_S128x1024_d1_w32 (ix2 p q))).setWidth 32) = _
  rw [iota_single_apply]

/-- The accumulate at step r, with the row-number words known: the old accumulator plus the band's entries
    (p, q) with 128·r + p below q. -/
theorem pay1_apply (v34 : FVec Ideal S128x1024 .f32) (v38 : IVec S128x1024 32) (v48 : Vec Ideal S1x1 .f32) (r : ℕ)
    (hr : r < 8) (hrow : ∀ (p : Fin 128) (q : Fin 1024), v38 (ix2 p q) = BitVec.ofNat 32 (128 * r + p.val))
    (u v : Fin 1) :
    k1_pay1 (F := Ideal) v34 v38 v48 (ix2 u v)
      = v48 (ix2 u v) + ∑ p : Fin 128, ∑ q : Fin 1024, v34 (ix2 p q)
          * (if 128 * r + p.val < q.val then (1 : EReal) else 0) := by
  rw [pay1_words]
  refine congrArg (v48 (ix2 u v) + ·) ?_
  refine Finset.sum_congr rfl fun p _ => Finset.sum_congr rfl fun q _ => ?_
  rw [hrow p q, mask_word _ _ (by have := p.isLt; omega) (by have := q.isLt; omega)]

/-- The row-number words the body computes at step r are those. -/
theorem pay5_row (i : grid1.Coords) (p : Fin 128) (q : Fin 1024) :
    k1_pay5 i (ix2 p q) = BitVec.ofNat 32 (128 * (i 0).val + p.val) := by
  rw [pay5_apply]
  exact row_word _ _ (i 0).isLt p.isLt

end Cert.PairLoss.LossPay

end
-- ==== Proof.LibRunningSum.lean ====
/-
  A reusable lemma: an accumulator reset at the first step and added to at every later step holds the sum of the
  steps' contributions.

  upTo g n is what the accumulator holds after step n: (0 + g 0) after the first step, and the previous contents
  plus g (n + 1) after each later one.  It is the sum of g over the steps 0 … n, and after the last of N steps the
  sum of g over all of them.  Stated in any commutative additive monoid (the extended reals are one).
-/
import Mathlib.Algebra.BigOperators.Fin

namespace Cert.RunningSum

variable {M : Type} [AddCommMonoid M] {N : ℕ}

/-- The accumulator's contents after step n. -/
def upTo (g : Fin N → M) : (n : ℕ) → n < N → M
  | 0, h => 0 + g ⟨0, h⟩
  | n + 1, h => upTo g n (Nat.lt_of_succ_lt h) + g ⟨n + 1, h⟩

/-- It is the sum of the contributions of the steps 0 … n. -/
theorem upTo_eq_sum (g : Fin N → M) : ∀ (n : ℕ) (h : n < N),
    upTo g n h = ∑ t : Fin (n + 1), g ⟨t.val, Nat.lt_of_lt_of_le t.isLt h⟩
  | 0, h => by
    rw [upTo, zero_add, Fin.sum_univ_one]
    rfl
  | n + 1, h => by
    rw [upTo, upTo_eq_sum g n, Fin.sum_univ_castSucc (n := n + 1)]
    rfl

/-- After the last step it is the sum of all the contributions. -/
theorem upTo_last (g : Fin N → M) (n : ℕ) (h : n < N) (hN : N = n + 1) : upTo g n h = ∑ t : Fin N, g t := by
  subst hN
  rw [upTo_eq_sum]

end Cert.RunningSum
-- ==== Proof.LibBlockedSum.lean ====
/-
  A reusable lemma: a sum over the rows of an array taken block by block is the sum over all the rows.

  When n = a·b rows are cut into a consecutive blocks of b rows, row r of block t being row b·t + r, summing a
  function of the row first inside each block and then over the blocks is summing it over all n rows.  Stated in any
  commutative additive monoid, with the block count allowed to be a number N only known to equal a.
-/
import Mathlib.Algebra.BigOperators.Fin
import Mathlib.Logic.Equiv.Fin.Basic

namespace Cert.BlockedSum

variable {M : Type} [AddCommMonoid M]

theorem sum_blocks {N a b n : ℕ} (hN : N = a) (hn : a * b = n) (F : Fin n → M) (row : Fin N → Fin b → Fin n)
    (hrow : ∀ t r, (row t r).val = b * t.val + r.val) :
    ∑ t : Fin N, ∑ r : Fin b, F (row t r) = ∑ k : Fin n, F k := by
  subst hN
  subst hn
  rw [← Fintype.sum_prod_type']
  refine Fintype.sum_equiv finProdFinEquiv _ _ fun x => congrArg F (Fin.ext ?_)
  rw [hrow, finProdFinEquiv_apply_val]
  omega

end Cert.BlockedSum
-- ==== Proof.PairSums.lean ====
/-
  The re-groupings of finite sums between the tiled computation and the specification, as equalities of
  extended reals.  Only the laws of a commutative additive monoid are used, and for the mask that
  t·1 = t and t·0 = 0 hold for every extended real: nothing here needs a finite value.

  • A sum over the 8192 columns taken in 16 consecutive chunks of 512 (column 512·k + d of chunk k) is the
    sum over all the columns; so the chunked squared norms and inner products are sq and gram.
  • An accumulator set to zero before the first chunk and added to at every chunk holds their sum
    (the running-sum lemma, restated for 16 chunks).
  • A sum over the 1024 rows taken in 8 consecutive bands of 128 (row 128·r + p of band r), each entry
    multiplied by the 0/1 mask "row number below column number", is the sum over the pairs i < j.
-/
import proofs.«169696_j47545287967528_2_alg».proof.Proof.Spec
import proofs.«169696_j47545287967528_2_alg».proof.Proof.LibRunningSum
import proofs.«169696_j47545287967528_2_alg».proof.Proof.LibBlockedSum

noncomputable section

open scoped BigOperators

namespace Cert.PairLoss

open Idealize.ShloMosaic Idealize.ShloMosaic.ValueIdx

/-- Column `512·k + d`: column `d` of chunk `k`. -/
def col (k : Fin 16) (d : Fin 512) : Fin 8192 := ⟨512 * k.val + d.val, by have := k.isLt; have := d.isLt; omega⟩

/-- Row `128·r + p`: row `p` of band `r`. -/
def bandRow (r : Fin 8) (p : Fin 128) : Fin 1024 := ⟨128 * r.val + p.val, by have := r.isLt; have := p.isLt; omega⟩

/-- Row `512·m + p`: row `p` of half `m`. -/
def halfRow (m : Fin 2) (p : Fin 512) : Fin 1024 := ⟨512 * m.val + p.val, by have := m.isLt; have := p.isLt; omega⟩

@[simp] theorem col_val (k : Fin 16) (d : Fin 512) : (col k d).val = 512 * k.val + d.val := rfl
@[simp] theorem bandRow_val (r : Fin 8) (p : Fin 128) : (bandRow r p).val = 128 * r.val + p.val := rfl
@[simp] theorem halfRow_val (m : Fin 2) (p : Fin 512) : (halfRow m p).val = 512 * m.val + p.val := rfl

/-- A sum over the columns taken chunk by chunk is the sum over all the columns. -/
theorem sum_chunks {M : Type} [AddCommMonoid M] (f : Fin 8192 → M) :
    ∑ k : Fin 16, ∑ d : Fin 512, f (col k d) = ∑ d : Fin 8192, f d :=
  Cert.BlockedSum.sum_blocks (N := 16) (a := 16) (b := 512) (n := 8192) rfl (by norm_num) f col fun _ _ => rfl

/-- A sum over the rows taken band by band is the sum over all the rows. -/
theorem sum_bands {M : Type} [AddCommMonoid M] (f : Fin 1024 → M) :
    ∑ r : Fin 8, ∑ p : Fin 128, f (bandRow r p) = ∑ i : Fin 1024, f i :=
  Cert.BlockedSum.sum_blocks (N := 8) (a := 8) (b := 128) (n := 1024) rfl (by norm_num) f bandRow fun _ _ => rfl

/-- The squared norm of a row, chunk by chunk. -/
theorem sq_chunks (x : Arr) (i : Fin 1024) :
    ∑ k : Fin 16, ∑ d : Fin 512, x (ix2 i (col k d)) * x (ix2 i (col k d)) = sq x i :=
  sum_chunks fun d => x (ix2 i d) * x (ix2 i d)

/-- The inner product of two rows, chunk by chunk. -/
theorem gram_chunks (x : Arr) (i j : Fin 1024) :
    ∑ k : Fin 16, ∑ d : Fin 512, x (ix2 i (col k d)) * x (ix2 j (col k d)) = gram x i j :=
  sum_chunks fun d => x (ix2 i d) * x (ix2 j d)

/-- An accumulator that is zero before the first of 16 steps and has `g k` added at step `k` holds after the
    last step the sum of the `g k`. -/
theorem acc_chunks {M : Type} [AddCommMonoid M] (g : Fin 16 → M) :
    Cert.RunningSum.upTo g 15 (by norm_num) = ∑ k : Fin 16, g k :=
  Cert.RunningSum.upTo_last g 15 (by norm_num) rfl

/-- The same for 8 steps. -/
theorem acc_bands {M : Type} [AddCommMonoid M] (g : Fin 8 → M) :
    Cert.RunningSum.upTo g 7 (by norm_num) = ∑ r : Fin 8, g r :=
  Cert.RunningSum.upTo_last g 7 (by norm_num) rfl

/-- An entry times the 0/1 mask is the entry where the mask holds and zero elsewhere. -/
theorem mul_mask (t : EReal) (c : Prop) [Decidable c] : t * (if c then (1 : EReal) else 0) = if c then t else 0 := by
  split_ifs
  · exact mul_one t
  · exact mul_zero t

/-- The masked sum over bands of rows and all columns is the sum over the pairs `i < j`. -/
theorem masked_bands (g : Fin 1024 → Fin 1024 → EReal) :
    ∑ r : Fin 8, ∑ p : Fin 128, ∑ q : Fin 1024,
        g (bandRow r p) q * (if 128 * r.val + p.val < q.val then (1 : EReal) else 0)
      = ∑ i : Fin 1024, ∑ j : Fin 1024, if i < j then g i j else 0 := by
  rw [← sum_bands fun i => ∑ j : Fin 1024, if i < j then g i j else 0]
  refine Finset.sum_congr rfl fun r _ => Finset.sum_congr rfl fun p _ => Finset.sum_congr rfl fun q _ => ?_
  rw [mul_mask]
  rfl

/-- So the masked, banded sum of the pairs' terms is the specification's total. -/
theorem total_bands (x y : Arr) :
    ∑ r : Fin 8, ∑ p : Fin 128, ∑ q : Fin 1024,
        term x y (bandRow r p) q * (if 128 * r.val + p.val < q.val then (1 : EReal) else 0)
      = total x y :=
  masked_bands (term x y)

/-- The squared norm of a row as the accumulator's contents after the last chunk. -/
theorem sq_acc (x : Arr) (i : Fin 1024) :
    Cert.RunningSum.upTo (fun k : Fin 16 => ∑ d : Fin 512, x (ix2 i (col k d)) * x (ix2 i (col k d))) 15 (by norm_num)
      = sq x i :=
  (acc_chunks _).trans (sq_chunks x i)

/-- The inner product of two rows as the accumulator's contents after the last chunk. -/
theorem gram_acc (x : Arr) (i j : Fin 1024) :
    Cert.RunningSum.upTo (fun k : Fin 16 => ∑ d : Fin 512, x (ix2 i (col k d)) * x (ix2 j (col k d))) 15 (by norm_num)
      = gram x i j :=
  (acc_chunks _).trans (gram_chunks x i j)

/-- The total as the accumulator's contents after the last band. -/
theorem total_acc (x y : Arr) :
    Cert.RunningSum.upTo (fun r : Fin 8 => ∑ p : Fin 128, ∑ q : Fin 1024,
        term x y (bandRow r p) q * (if 128 * r.val + p.val < q.val then (1 : EReal) else 0)) 7 (by norm_num)
      = total x y :=
  (acc_bands _).trans (total_bands x y)

end Cert.PairLoss

end
-- ==== Proof.KernelLossPaySteps.lean ====
/-
  One grid step of the second kernel as a step of a running sum, and the final value.

  At step r the body reads band r of each inner-product array (rows 128·r + p), the band's squared norms as a
  column, and all the squared norms as a row. When those arrays hold the specification's inner products and
  squared norms, the body's entry (p, q) is the specification's term of the pair (128·r + p, q), and what the
  step adds to the accumulator is the band's part of the total: the terms of the band's pairs with row number
  below column number. The first step starts from the zero just stored; after the eighth band the running sum
  is the total, and the last step's division makes it the loss.
-/
import proofs.«169696_j47545287967528_2_alg».proof.Proof.KernelLossPay
import proofs.«169696_j47545287967528_2_alg».proof.Proof.PairSums

noncomputable section

open scoped BigOperators

namespace Cert.PairLoss.LossSteps

open Idealize.ShloMosaic Idealize.ShloMosaic.ValueIdx Cert.KernelIdeal Cert.KernelIdeal.Gen Cert.PairLoss.LossPay

/-- Band r's part of the total. -/
def lossPart (x y : Arr) (r : Fin 8) : EReal :=
  ∑ p : Fin 128, ∑ q : Fin 1024, term x y (bandRow r p) q * (if 128 * r.val + p.val < q.val then (1 : EReal) else 0)

/-- The six blocks the body reads at step r hold the specification's inner products and squared norms. -/
structure IsBand (x y : Arr) (r : Fin 8) (v3 v5 : Vec Ideal S128x1024 .f32) (v7 v9 : Vec Ideal S128x1 .f32)
    (v11 v13 : Vec Ideal S1x1024 .f32) : Prop where
  gramP : ∀ (p : Fin 128) (q : Fin 1024), v3 (ix2 p q) = gram x (bandRow r p) q
  gramT : ∀ (p : Fin 128) (q : Fin 1024), v5 (ix2 p q) = gram y (bandRow r p) q
  colP : ∀ p : Fin 128, v7 (ix2 p (0 : Fin 1)) = sq x (bandRow r p)
  colT : ∀ p : Fin 128, v9 (ix2 p (0 : Fin 1)) = sq y (bandRow r p)
  rowP : ∀ q : Fin 1024, v11 (ix2 (0 : Fin 1) q) = sq x q
  rowT : ∀ q : Fin 1024, v13 (ix2 (0 : Fin 1) q) = sq y q

variable {x y : Arr} {r : Fin 8} {v3 v5 : Vec Ideal S128x1024 .f32} {v7 v9 : Vec Ideal S128x1 .f32}
  {v11 v13 : Vec Ideal S1x1024 .f32}

/-- The body's entry (p, q) at step r is the term of the pair (128·r + p, q). -/
theorem band_term (hb : IsBand x y r v3 v5 v7 v9 v11 v13) (p : Fin 128) (q : Fin 1024) :
    k1_pay4 (F := Ideal) v3 v5 v7 v9 v11 v13 (ix2 p q) = term x y (bandRow r p) q := by
  rw [pay4_apply, hb.gramP, hb.gramT, hb.colP, hb.colT, hb.rowP, hb.rowT]
  exact termOf_spec x y (bandRow r p) q

/-- A step of the accumulator. -/
theorem loss_step (hb : IsBand x y r v3 v5 v7 v9 v11 v13) (i : grid1.Coords) (hi : (i 0).val = r.val)
    (old : Vec Ideal S1x1 .f32) (u v : Fin 1) :
    k1_pay1 (F := Ideal) (k1_pay4 (F := Ideal) v3 v5 v7 v9 v11 v13) (k1_pay5 i) old (ix2 u v)
      = old (ix2 u v) + lossPart x y r := by
  rw [pay1_apply _ _ _ r.val r.isLt (fun p q => by rw [pay5_row, hi])]
  refine congrArg (old (ix2 u v) + ·) (Finset.sum_congr rfl fun p _ => Finset.sum_congr rfl fun q _ => ?_)
  rw [band_term hb]

/-- Its first step, from the zero just stored. -/
theorem loss_first (hb : IsBand x y r v3 v5 v7 v9 v11 v13) (i : grid1.Coords) (hi : (i 0).val = r.val) (u v : Fin 1) :
    k1_pay1 (F := Ideal) (k1_pay4 (F := Ideal) v3 v5 v7 v9 v11 v13) (k1_pay5 i) (k1_pay3 (F := Ideal)) (ix2 u v)
      = 0 + lossPart x y r := by
  rw [loss_step hb i hi, pay3_apply]

/-- After the eighth band the running sum of the bands' parts is the total. -/
theorem total_final (x y : Arr) : Cert.RunningSum.upTo (lossPart x y) 7 (by norm_num) = total x y :=
  total_acc x y

/-- The last step's division of the total is the loss. -/
theorem loss_final (x y : Arr) (acc : Vec Ideal S1x1 .f32) (u v : Fin 1) (h : acc (ix2 u v) = total x y) :
    k1_pay2 (F := Ideal) acc (ix2 u v) = loss x y := by
  rw [pay2_apply, h]
  rfl

end Cert.PairLoss.LossSteps

end
-- ==== Proof.KernelLossPayRun.lean ====
/-
  The second region's accumulator cell after every grid point, as a running sum of the specification's parts.

  Suppose that at every point r the six blocks the body reads hold the specification's inner products and squared
  norms of band r. Then the cell holds, after point r < 7, the running sum of the bands' parts of the total up to
  band r — by induction on r: the first point adds band 0's part to the zero just stored, a later point adds its
  band's part to what the point before left — and after the last point the total of all eight bands divided by
  the number of pairs, which is the loss.
-/
import proofs.«169696_j47545287967528_2_alg».proof.Proof.KernelLossPayOuts
import proofs.«169696_j47545287967528_2_alg».proof.Proof.KernelLossPaySteps

set_option maxRecDepth 16384

noncomputable section

namespace Cert.KernelIdeal.HandLossRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Hand

open Cert.KernelIdeal.HandOuts Cert.PairLoss Cert.PairLoss.LossSteps Idealize.ShloMosaic.ValueIdx

/-- The region has eight grid points. -/
theorem lt8 (t : Fin cfg1.N) : t.val < 8 := lt_of_lt_of_eq t.isLt N_1

/-- The grid coordinate of point t is t. -/
theorem coord_val : ∀ t : Fin cfg1.N, ((grid1.coords t) 0).val = t.val :=
  (by decide +kernel : ∀ t : Fin grid1.N, ((grid1.coords t) 0).val = t.val)

section
variable (V : (c : Dev nD) → (b : Ref sig .tc) → Buf (Elt Ideal) ((c : Thread nD τ).loc b)) (c : Dev nD) (x y : Arr)

/-- The blocks the body reads at every point hold the specification's quantities of that point's band. -/
def BandsHold : Prop :=
  ∀ t : Fin cfg1.N, IsBand x y ⟨t.val, lt8 t⟩ (lossBlk V c 0 t) (lossBlk V c 1 t) (lossBlk V c 2 t) (lossBlk V c 3 t)
    (lossBlk V c 4 t) (lossBlk V c 5 t)

/-- Before the last point the cell holds the running sum of the bands' parts. -/
theorem lossOuts_upTo (hb : BandsHold V c x y) : ∀ (n : ℕ) (hn : n < cfg1.N) (h7 : n < 7) (u v : Fin 1),
    lossOuts V c n hn (ix2 u v) = Cert.RunningSum.upTo (lossPart x y) n (Nat.lt_trans h7 (by norm_num))
  | 0, hn, h7, u, v => by
    rw [lossOuts_first V c ⟨0, hn⟩ (Nat.zero_mod _) (by show ¬(0 : ℕ) % 8 = 7; decide), lossOutFirst_eq]
    exact loss_first (hb ⟨0, hn⟩) _ (coord_val ⟨0, hn⟩) u v
  | n + 1, hn, h7, u, v => by
    rw [lossOuts_middle V c ⟨n + 1, hn⟩ (by show ¬(n + 1) % 8 = 0; omega) (by show ¬(n + 1) % 8 = 7; omega), lossOutMiddle_eq]
    refine (loss_step (hb ⟨n + 1, hn⟩) _ (coord_val ⟨n + 1, hn⟩) _ u v).trans ?_
    exact congrArg (· + lossPart x y ⟨n + 1, _⟩) (lossOuts_upTo hb n (Nat.lt_of_succ_lt hn) (Nat.lt_of_succ_lt h7) u v)

/-- After the last point the cell holds the loss. -/
theorem lossOuts_last_eq (hb : BandsHold V c x y) (hn : 7 < cfg1.N) (u v : Fin 1) :
    lossOuts V c 7 hn (ix2 u v) = loss x y := by
  rw [lossOuts_last V c ⟨7, hn⟩ (by show ¬(7 : ℕ) % 8 = 0; decide) rfl, lossOutLast_eq]
  refine loss_final x y _ u v ?_
  refine (loss_step (hb ⟨7, hn⟩) _ (coord_val ⟨7, hn⟩) _ u v).trans ?_
  refine (congrArg (· + lossPart x y ⟨7, _⟩) (lossOuts_upTo V c x y hb 6 (Nat.lt_of_succ_lt hn) (by norm_num) u v)).trans ?_
  exact total_final x y

end

end Cert.KernelIdeal.HandLossRun

end
-- ==== Proof.KernelLossValue.lean ====
/-
  From the arrays the second region finds to the loss.

  The second region reads, at grid point r, band r of the two inner-product arrays (rows 128·r + p), band r of the
  two squared-norm columns, and the two squared-norm rows whole. When those six arrays hold the specification's
  inner products and squared norms of the inputs, the blocks the body reads hold them for the band, so the cell
  after the last point is the loss; the cell is written back once, after the last point, and it is the whole
  one-entry output array.
-/
import proofs.«169696_j47545287967528_2_alg».proof.Proof.KernelLossPayRun
import proofs.«169696_j47545287967528_2_alg».proof.Proof.KernelRun

set_option maxRecDepth 16384

noncomputable section

namespace Cert.KernelIdeal.HandValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Hand

open Cert.PairLoss Cert.PairLoss.LossSteps Cert.KernelIdeal.HandLossRun Idealize.ShloMosaic.ValueIdx

/-- The printed index maps of the six input windows, decided over the eight points: the banded windows sit at block
    row r and block column 0, the two rows at block (0, 0). -/
theorem band_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

section Abstract
variable (V2 : (c : Dev nD) → (b : Ref sig .tc) → Buf (Elt Ideal) ((c : Thread nD τ).loc b)) (c : Dev nD) (x y : Arr)

/-- When the six arrays the region finds hold the specification's quantities, so do the blocks the body reads. -/
theorem bandsHold_of
    (hG0 : ∀ i j : Fin 1024, V2 c main_v0_0 (ix2 i j) = gram x i j)
    (hG1 : ∀ i j : Fin 1024, V2 c main_v0_1 (ix2 i j) = gram y i j)
    (hS0 : ∀ (i : Fin 1024) (u : Fin 1), V2 c main_v0_2 (ix2 i u) = sq x i)
    (hS1 : ∀ (i : Fin 1024) (u : Fin 1), V2 c main_v0_3 (ix2 i u) = sq y i)
    (hR0 : ∀ (u : Fin 1) (j : Fin 1024), V2 c main_v1 (ix2 u j) = sq x j)
    (hR1 : ∀ (u : Fin 1) (j : Fin 1024), V2 c main_v2 (ix2 u j) = sq y j) :
    BandsHold V2 c x y := by
  intro t
  obtain ⟨a0, b0, a1, b1, a2, b2, a3, b3, a4, b4, a5, b5⟩ := band_index t
  refine ⟨fun p q => ?_, fun p q => ?_, fun p => ?_, fun p => ?_, fun q => ?_, fun q => ?_⟩
  · show V2 c main_v0_0 (((cfg1.win 0).blk t).view.emb (ix2 p q)) = _
    have e : ((cfg1.win 0).blk t).view.emb (ix2 p q) = ix2 (bandRow ⟨t.val, lt8 t⟩ p) q := by
      funext a; apply Fin.ext
      match a with
      | ⟨0, _⟩ => show win1_0.index t (0 : Fin 2) * 128 + 1 * p.val = 128 * t.val + p.val; omega
      | ⟨1, _⟩ => show win1_0.index t (1 : Fin 2) * 1024 + 1 * q.val = q.val; omega
    rw [e]; exact hG0 _ _
  · show V2 c main_v0_1 (((cfg1.win 1).blk t).view.emb (ix2 p q)) = _
    have e : ((cfg1.win 1).blk t).view.emb (ix2 p q) = ix2 (bandRow ⟨t.val, lt8 t⟩ p) q := by
      funext a; apply Fin.ext
      match a with
      | ⟨0, _⟩ => show win1_1.index t (0 : Fin 2) * 128 + 1 * p.val = 128 * t.val + p.val; omega
      | ⟨1, _⟩ => show win1_1.index t (1 : Fin 2) * 1024 + 1 * q.val = q.val; omega
    rw [e]; exact hG1 _ _
  · show V2 c main_v0_2 (((cfg1.win 2).blk t).view.emb (ix2 p (0 : Fin 1))) = _
    have e : ((cfg1.win 2).blk t).view.emb (ix2 p (0 : Fin 1)) = ix2 (bandRow ⟨t.val, lt8 t⟩ p) (0 : Fin 1) := by
      funext a; apply Fin.ext
      match a with
      | ⟨0, _⟩ => show win1_2.index t (0 : Fin 2) * 128 + 1 * p.val = 128 * t.val + p.val; omega
      | ⟨1, _⟩ => show win1_2.index t (1 : Fin 2) * 1 + 1 * 0 = 0; omega
    rw [e]; exact hS0 _ _
  · show V2 c main_v0_3 (((cfg1.win 3).blk t).view.emb (ix2 p (0 : Fin 1))) = _
    have e : ((cfg1.win 3).blk t).view.emb (ix2 p (0 : Fin 1)) = ix2 (bandRow ⟨t.val, lt8 t⟩ p) (0 : Fin 1) := by
      funext a; apply Fin.ext
      match a with
      | ⟨0, _⟩ => show win1_3.index t (0 : Fin 2) * 128 + 1 * p.val = 128 * t.val + p.val; omega
      | ⟨1, _⟩ => show win1_3.index t (1 : Fin 2) * 1 + 1 * 0 = 0; omega
    rw [e]; exact hS1 _ _
  · show V2 c main_v1 (((cfg1.win 4).blk t).view.emb (ix2 (0 : Fin 1) q)) = _
    have e : ((cfg1.win 4).blk t).view.emb (ix2 (0 : Fin 1) q) = ix2 (0 : Fin 1) q := by
      funext a; apply Fin.ext
      match a with
      | ⟨0, _⟩ => show win1_4.index t (0 : Fin 2) * 1 + 1 * 0 = 0; omega
      | ⟨1, _⟩ => show win1_4.index t (1 : Fin 2) * 1024 + 1 * q.val = q.val; omega
    rw [e]; exact hR0 _ _
  · show V2 c main_v2 (((cfg1.win 5).blk t).view.emb (ix2 (0 : Fin 1) q)) = _
    have e : ((cfg1.win 5).blk t).view.emb (ix2 (0 : Fin 1) q) = ix2 (0 : Fin 1) q := by
      funext a; apply Fin.ext
      match a with
      | ⟨0, _⟩ => show win1_5.index t (0 : Fin 2) * 1 + 1 * 0 = 0; omega
      | ⟨1, _⟩ => show win1_5.index t (1 : Fin 2) * 1024 + 1 * q.val = q.val; omega
    rw [e]; exact hR1 _ _

end Abstract

section Concrete
variable (m : (ℓ : Loc nD τ sig) → Buf (Elt Ideal) ℓ) (ρ : Dev nD → PrngReg) (c : Dev nD) (x y : Arr)

/-- The output window's index map, decided over the eight points: always block (0, 0). -/
theorem cell_index : ∀ t : Fin cfg1.N, win1_6.index t (0 : Fin 2) = 0 ∧ win1_6.index t (1 : Fin 2) = 0 :=
  (by decide +kernel : ∀ t : Fin grid1.N, _)

/-- The one-entry output array after the region: the loss. -/
theorem cell_final_of (hb : BandsHold (X2 m ρ) c x y) :
    (lossDat (X2 m ρ) c).arrAt 6 cfg1.N = fun _ => loss x y := by
  refine (lossDat (X2 m ρ) c).arrAt_eq_of_cover 6 (fun _ => loss x y) (fun t hf => ?_) (fun i => ?_)
  · have h7 : t.val % 8 = 7 := (flush1_6 t).mp hf
    have ht : t.val = 7 := by have := lt8 t; omega
    show (cfg1.win 6).cut (grid1.coords t) ((lossDat (X2 m ρ) c).after 6 t) = _
    rw [lossAfter6]
    funext j
    obtain ⟨u, v, rfl⟩ : ∃ (u v : Fin 1), j = ix2 u v := ⟨j 0, j 1, eq_ix2 j⟩
    show lossOuts (X2 m ρ) c t.val t.isLt (ix2 u v) = loss x y
    obtain ⟨n, hn⟩ := t
    obtain rfl : n = 7 := ht
    exact lossOuts_last_eq (X2 m ρ) c x y hb hn u v
  · have h7 : 7 < cfg1.N := lt_of_lt_of_eq (by norm_num : 7 < 8) N_1.symm
    refine ⟨⟨7, h7⟩, (flush1_6 _).mpr rfl, ?_⟩
    obtain ⟨e0, e1⟩ := cell_index ⟨7, h7⟩
    have i0 : (i 0).val < 1 := (i 0).isLt
    have i1 : (i 1).val < 1 := (i 1).isLt
    show i ∈ ((View.whole main_v3).slice (win1_6.rect ⟨7, h7⟩)).set
    rw [View.set_slice_whole, Rect.mem_set_unit]
    intro a
    match a with
    | ⟨0, _⟩ =>
      show win1_6.index ⟨7, h7⟩ (0 : Fin 2) * 1 ≤ (i 0).val ∧ (i 0).val < win1_6.index ⟨7, h7⟩ (0 : Fin 2) * 1 + 1
      omega
    | ⟨1, _⟩ =>
      show win1_6.index ⟨7, h7⟩ (1 : Fin 2) * 1 ≤ (i 1).val ∧ (i 1).val < win1_6.index ⟨7, h7⟩ (1 : Fin 2) * 1 + 1
      omega

/-- The program's result, after the reshape of the one-entry array to a scalar: the loss. -/
theorem result_of (hb : BandsHold (X2 m ρ) c x y) :
    W4 (F := Ideal) m ρ c (Proc.devRef .tc main_v4) = fun _ => loss x y := by
  show StableHlo.after hostOps2 (W3 m ρ c) (Proc.devRef .tc main_v4) = _
  after_results
  have e : W3 m ρ c (Proc.devRef .tc main_v3) = fun _ => loss x y :=
    (W3_arr m ρ c 6).trans (cell_final_of m ρ c x y hb)
  rw [e]
  rfl

/-- The blocks hold the specification's quantities, from what the first region's four arrays end holding and what
    the two transposes leave: the four arrays pass through the transposes untouched, and each row is its column. -/
theorem bandsHold_from
    (g0 : ∀ i j : Fin 1024, (gramDat (X0 m ρ) c).arrAt 4 cfg0.N (ix2 i j) = gram x i j)
    (g1 : ∀ i j : Fin 1024, (gramDat (X0 m ρ) c).arrAt 5 cfg0.N (ix2 i j) = gram y i j)
    (s0 : ∀ (i : Fin 1024) (u : Fin 1), (gramDat (X0 m ρ) c).arrAt 6 cfg0.N (ix2 i u) = sq x i)
    (s1 : ∀ (i : Fin 1024) (u : Fin 1), (gramDat (X0 m ρ) c).arrAt 7 cfg0.N (ix2 i u) = sq y i)
    (r0 : X2 m ρ c main_v0_0 = (gramDat (X0 m ρ) c).arrAt 4 cfg0.N)
    (r1 : X2 m ρ c main_v0_1 = (gramDat (X0 m ρ) c).arrAt 5 cfg0.N)
    (r2 : X2 m ρ c main_v0_2 = (gramDat (X0 m ρ) c).arrAt 6 cfg0.N)
    (r3 : X2 m ρ c main_v0_3 = (gramDat (X0 m ρ) c).arrAt 7 cfg0.N)
    (rowP : ∀ (j : Fin 1024) (u : Fin 1), X2 m ρ c main_v1 (ix2 u j) = (gramDat (X0 m ρ) c).arrAt 6 cfg0.N (ix2 j u))
    (rowT : ∀ (j : Fin 1024) (u : Fin 1), X2 m ρ c main_v2 (ix2 u j) = (gramDat (X0 m ρ) c).arrAt 7 cfg0.N (ix2 j u)) :
    BandsHold (X2 m ρ) c x y :=
  bandsHold_of (X2 m ρ) c x y
    (fun i j => (congrFun r0 _).trans (g0 i j)) (fun i j => (congrFun r1 _).trans (g1 i j))
    (fun i u => (congrFun r2 _).trans (s0 i u)) (fun i u => (congrFun r3 _).trans (s1 i u))
    (fun u j => (rowP j u).trans (s0 j u)) (fun u j => (rowT j u).trans (s1 j u))

end Concrete

end Cert.KernelIdeal.HandValue

end
-- ==== Proof.KernelGramPayOuts.lean ====
/-
  What the first region's body leaves in its four output blocks, case by case, as the body's own arithmetic.

  The region's proof data state each output block after a grid point as the stores the run made, read back. The
  last store into each block covers it, so the read-back is that store's value; a load of a block made after an
  earlier covering store reads that store's value; and a load of a whole input buffer reads the buffer. On the
  first chunk of a half each block is the chunk's contribution added to the zeros just stored; on a later chunk it
  is the contribution added to what the chunk before left.
-/
import proofs.«169696_j47545287967528_2_alg».proof.Proof.GramRegion
import Idealize.ShloMosaic.Lib.Pipeline.Value

set_option maxRecDepth 16384

noncomputable section

namespace Cert.KernelIdeal.HandGramOuts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Hand

variable {F : FTy → Type} [FloatOps F]

/-- The zero offset of a whole rank-2 block. -/
theorem zero_off : (![0, 0] : Fin 2 → Nat) = fun _ => 0 := funext fun a => by fin_cases a <;> rfl

/-- First chunk, first input's inner-product block: the chunk's products added to the zeros just stored. -/
theorem gramOutReset4_eq (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (hc0 : gramFirst i)
    (x0 : Vec F S512x512 .f32) (x1 : Vec F S512x512 .f32) (x2 : Vec F S1024x512 .f32) (x3 : Vec F S1024x512 .f32) :
    gramOutReset4 c i arg2 harg2 arg3 harg3 arg4 harg4 arg5 harg5 arg6 harg6 arg7 harg7 arg8 harg8 arg9 harg9 hc0 x0 x1 x2 x3 = k0_pay10 x0 x2 (k0_pay2 (F := F)) := by
  unfold gramOutReset4
  rw [View.read_writes_eq_canon _ _ _ (gramCoverReset4 c i arg2 harg2 arg3 harg3 arg4 harg4 arg5 harg5 arg6 harg6 arg7 harg7 arg8 harg8 arg9 harg9 hc0 x0 x1 x2 x3)]
  unfold gramRunReset
  dsimp only
  sl_unfold_words
  rw [View.canon_cons_unit_zero (S := S512x1024) zero_off, View.readCov_unit_zero (S := S512x1024) _ zero_off]
  simp only [View.readAt_eq_ld, harg2.read_unread, harg3.read_unread, harg4.read_unread, harg5.read_unread, harg6.read_unread, harg7.read_unread, harg8.read_unread, harg9.read_unread,
    View.ld_unit_zero (S := S512x512) zero_off, View.ld_unit_zero (S := S1024x512) zero_off, View.ld_unit_zero (S := S512x1024) zero_off, View.ld_unit_zero (S := S512x1) zero_off]

/-- First chunk, second input's inner-product block. -/
theorem gramOutReset5_eq (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (hc0 : gramFirst i)
    (x0 : Vec F S512x512 .f32) (x1 : Vec F S512x512 .f32) (x2 : Vec F S1024x512 .f32) (x3 : Vec F S1024x512 .f32) :
    gramOutReset5 c i arg2 harg2 arg3 harg3 arg4 harg4 arg5 harg5 arg6 harg6 arg7 harg7 arg8 harg8 arg9 harg9 hc0 x0 x1 x2 x3 = k0_pay1 (k0_pay8 x1) (k0_pay9 x3) (k0_pay3 (F := F)) := by
  unfold gramOutReset5
  rw [View.read_writes_eq_canon _ _ _ (gramCoverReset5 c i arg2 harg2 arg3 harg3 arg4 harg4 arg5 harg5 arg6 harg6 arg7 harg7 arg8 harg8 arg9 harg9 hc0 x0 x1 x2 x3)]
  unfold gramRunReset
  dsimp only
  sl_unfold_words
  rw [View.canon_cons_unit_zero (S := S512x1024) zero_off, View.readCov_unit_zero (S := S512x1024) _ zero_off]
  simp only [View.readAt_eq_ld, harg2.read_unread, harg3.read_unread, harg4.read_unread, harg5.read_unread, harg6.read_unread, harg7.read_unread, harg8.read_unread, harg9.read_unread,
    View.ld_unit_zero (S := S512x512) zero_off, View.ld_unit_zero (S := S1024x512) zero_off, View.ld_unit_zero (S := S512x1024) zero_off, View.ld_unit_zero (S := S512x1) zero_off]

/-- First chunk, first input's squared-norm column. -/
theorem gramOutReset6_eq (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (hc0 : gramFirst i)
    (x0 : Vec F S512x512 .f32) (x1 : Vec F S512x512 .f32) (x2 : Vec F S1024x512 .f32) (x3 : Vec F S1024x512 .f32) :
    gramOutReset6 c i arg2 harg2 arg3 harg3 arg4 harg4 arg5 harg5 arg6 harg6 arg7 harg7 arg8 harg8 arg9 harg9 hc0 x0 x1 x2 x3 = k0_pay6 x0 (k0_pay4 (F := F)) := by
  unfold gramOutReset6
  rw [View.read_writes_eq_canon _ _ _ (gramCoverReset6 c i arg2 harg2 arg3 harg3 arg4 harg4 arg5 harg5 arg6 harg6 arg7 harg7 arg8 harg8 arg9 harg9 hc0 x0 x1 x2 x3)]
  unfold gramRunReset
  dsimp only
  sl_unfold_words
  rw [View.canon_cons_unit_zero (S := S512x1) zero_off, View.readCov_unit_zero (S := S512x1) _ zero_off]
  simp only [View.readAt_eq_ld, harg2.read_unread, harg3.read_unread, harg4.read_unread, harg5.read_unread, harg6.read_unread, harg7.read_unread, harg8.read_unread, harg9.read_unread,
    View.ld_unit_zero (S := S512x512) zero_off, View.ld_unit_zero (S := S1024x512) zero_off, View.ld_unit_zero (S := S512x1024) zero_off, View.ld_unit_zero (S := S512x1) zero_off]

/-- First chunk, second input's squared-norm column. -/
theorem gramOutReset7_eq (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (hc0 : gramFirst i)
    (x0 : Vec F S512x512 .f32) (x1 : Vec F S512x512 .f32) (x2 : Vec F S1024x512 .f32) (x3 : Vec F S1024x512 .f32) :
    gramOutReset7 c i arg2 harg2 arg3 harg3 arg4 harg4 arg5 harg5 arg6 harg6 arg7 harg7 arg8 harg8 arg9 harg9 hc0 x0 x1 x2 x3 = k0_pay7 x1 (k0_pay5 (F := F)) := by
  unfold gramOutReset7
  rw [View.read_writes_eq_canon _ _ _ (gramCoverReset7 c i arg2 harg2 arg3 harg3 arg4 harg4 arg5 harg5 arg6 harg6 arg7 harg7 arg8 harg8 arg9 harg9 hc0 x0 x1 x2 x3)]
  unfold gramRunReset
  dsimp only
  sl_unfold_words
  rw [View.canon_cons_unit_zero (S := S512x1) zero_off, View.readCov_unit_zero (S := S512x1) _ zero_off]
  simp only [View.readAt_eq_ld, harg2.read_unread, harg3.read_unread, harg4.read_unread, harg5.read_unread, harg6.read_unread, harg7.read_unread, harg8.read_unread, harg9.read_unread,
    View.ld_unit_zero (S := S512x512) zero_off, View.ld_unit_zero (S := S1024x512) zero_off, View.ld_unit_zero (S := S512x1024) zero_off, View.ld_unit_zero (S := S512x1) zero_off]

/-- Later chunk, first input's inner-product block: the chunk's products added to what the chunk before left. -/
theorem gramOutAdd4_eq (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (hc0 : ¬gramFirst i)
    (x0 : Vec F S512x512 .f32) (x1 : Vec F S512x512 .f32) (x2 : Vec F S1024x512 .f32) (x3 : Vec F S1024x512 .f32) (xo4 : Vec F S512x1024 .f32) (xo5 : Vec F S512x1024 .f32) (xo6 : Vec F S512x1 .f32) (xo7 : Vec F S512x1 .f32) :
    gramOutAdd4 c i arg2 harg2 arg3 harg3 arg4 harg4 arg5 harg5 arg6 harg6 arg7 harg7 arg8 harg8 arg9 harg9 hc0 x0 x1 x2 x3 xo4 xo5 xo6 xo7 = k0_pay10 x0 x2 xo4 := by
  unfold gramOutAdd4
  rw [View.read_writes_eq_canon _ _ _ (gramCoverAdd4 c i arg2 harg2 arg3 harg3 arg4 harg4 arg5 harg5 arg6 harg6 arg7 harg7 arg8 harg8 arg9 harg9 hc0 x0 x1 x2 x3 xo4 xo5 xo6 xo7)]
  unfold gramRunAdd
  dsimp only
  sl_unfold_words
  rw [View.canon_unit_zero (S := S512x1024) zero_off]
  simp only [View.readAt_eq_ld, harg2.read_unread, harg3.read_unread, harg4.read_unread, harg5.read_unread, harg6.read_unread, harg7.read_unread, harg8.read_unread, harg9.read_unread,
    View.ld_unit_zero (S := S512x512) zero_off, View.ld_unit_zero (S := S1024x512) zero_off, View.ld_unit_zero (S := S512x1024) zero_off, View.ld_unit_zero (S := S512x1) zero_off]

/-- Later chunk, second input's inner-product block. -/
theorem gramOutAdd5_eq (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (hc0 : ¬gramFirst i)
    (x0 : Vec F S512x512 .f32) (x1 : Vec F S512x512 .f32) (x2 : Vec F S1024x512 .f32) (x3 : Vec F S1024x512 .f32) (xo4 : Vec F S512x1024 .f32) (xo5 : Vec F S512x1024 .f32) (xo6 : Vec F S512x1 .f32) (xo7 : Vec F S512x1 .f32) :
    gramOutAdd5 c i arg2 harg2 arg3 harg3 arg4 harg4 arg5 harg5 arg6 harg6 arg7 harg7 arg8 harg8 arg9 harg9 hc0 x0 x1 x2 x3 xo4 xo5 xo6 xo7 = k0_pay1 (k0_pay8 x1) (k0_pay9 x3) xo5 := by
  unfold gramOutAdd5
  rw [View.read_writes_eq_canon _ _ _ (gramCoverAdd5 c i arg2 harg2 arg3 harg3 arg4 harg4 arg5 harg5 arg6 harg6 arg7 harg7 arg8 harg8 arg9 harg9 hc0 x0 x1 x2 x3 xo4 xo5 xo6 xo7)]
  unfold gramRunAdd
  dsimp only
  sl_unfold_words
  rw [View.canon_unit_zero (S := S512x1024) zero_off]
  simp only [View.readAt_eq_ld, harg2.read_unread, harg3.read_unread, harg4.read_unread, harg5.read_unread, harg6.read_unread, harg7.read_unread, harg8.read_unread, harg9.read_unread,
    View.ld_unit_zero (S := S512x512) zero_off, View.ld_unit_zero (S := S1024x512) zero_off, View.ld_unit_zero (S := S512x1024) zero_off, View.ld_unit_zero (S := S512x1) zero_off]

/-- Later chunk, first input's squared-norm column. -/
theorem gramOutAdd6_eq (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (hc0 : ¬gramFirst i)
    (x0 : Vec F S512x512 .f32) (x1 : Vec F S512x512 .f32) (x2 : Vec F S1024x512 .f32) (x3 : Vec F S1024x512 .f32) (xo4 : Vec F S512x1024 .f32) (xo5 : Vec F S512x1024 .f32) (xo6 : Vec F S512x1 .f32) (xo7 : Vec F S512x1 .f32) :
    gramOutAdd6 c i arg2 harg2 arg3 harg3 arg4 harg4 arg5 harg5 arg6 harg6 arg7 harg7 arg8 harg8 arg9 harg9 hc0 x0 x1 x2 x3 xo4 xo5 xo6 xo7 = k0_pay6 x0 xo6 := by
  unfold gramOutAdd6
  rw [View.read_writes_eq_canon _ _ _ (gramCoverAdd6 c i arg2 harg2 arg3 harg3 arg4 harg4 arg5 harg5 arg6 harg6 arg7 harg7 arg8 harg8 arg9 harg9 hc0 x0 x1 x2 x3 xo4 xo5 xo6 xo7)]
  unfold gramRunAdd
  dsimp only
  sl_unfold_words
  rw [View.canon_unit_zero (S := S512x1) zero_off]
  simp only [View.readAt_eq_ld, harg2.read_unread, harg3.read_unread, harg4.read_unread, harg5.read_unread, harg6.read_unread, harg7.read_unread, harg8.read_unread, harg9.read_unread,
    View.ld_unit_zero (S := S512x512) zero_off, View.ld_unit_zero (S := S1024x512) zero_off, View.ld_unit_zero (S := S512x1024) zero_off, View.ld_unit_zero (S := S512x1) zero_off]

/-- Later chunk, second input's squared-norm column. -/
theorem gramOutAdd7_eq (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (hc0 : ¬gramFirst i)
    (x0 : Vec F S512x512 .f32) (x1 : Vec F S512x512 .f32) (x2 : Vec F S1024x512 .f32) (x3 : Vec F S1024x512 .f32) (xo4 : Vec F S512x1024 .f32) (xo5 : Vec F S512x1024 .f32) (xo6 : Vec F S512x1 .f32) (xo7 : Vec F S512x1 .f32) :
    gramOutAdd7 c i arg2 harg2 arg3 harg3 arg4 harg4 arg5 harg5 arg6 harg6 arg7 harg7 arg8 harg8 arg9 harg9 hc0 x0 x1 x2 x3 xo4 xo5 xo6 xo7 = k0_pay7 x1 xo7 := by
  unfold gramOutAdd7
  rw [View.read_writes_eq_canon _ _ _ (gramCoverAdd7 c i arg2 harg2 arg3 harg3 arg4 harg4 arg5 harg5 arg6 harg6 arg7 harg7 arg8 harg8 arg9 harg9 hc0 x0 x1 x2 x3 xo4 xo5 xo6 xo7)]
  unfold gramRunAdd
  dsimp only
  sl_unfold_words
  rw [View.canon_unit_zero (S := S512x1) zero_off]
  simp only [View.readAt_eq_ld, harg2.read_unread, harg3.read_unread, harg4.read_unread, harg5.read_unread, harg6.read_unread, harg7.read_unread, harg8.read_unread, harg9.read_unread,
    View.ld_unit_zero (S := S512x512) zero_off, View.ld_unit_zero (S := S1024x512) zero_off, View.ld_unit_zero (S := S512x1024) zero_off, View.ld_unit_zero (S := S512x1) zero_off]

end Cert.KernelIdeal.HandGramOuts

end
-- ==== Proof.LibMatmulNN.lean ====
/-
  A reusable lemma: a matrix product on the matrix unit, read at an entry.

  A `tpu.matmul` of an [M, K] operand by a [K, N] operand — contracting axis 1 of the left with axis 0 of the right, no
  batch axes — accumulated into the zero splat, read over the extended reals at the output entry (p, q), is the inner
  product of row p of the left operand with column q of the right one:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx

noncomputable section

namespace Cert.MatmulNN

open Idealize.ShloMosaic Idealize.ShloMosaic.ValueIdx

variable {M K N : Nat} {φ₁ φ₂ : FTy}

/-- The left operand's index at output (p, q) and contraction position k is (p, k). -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index at output (p, q) and contraction position k is (k, q). -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A matrix product into zeros, at entry (p, q): the inner product of row p with column q. -/
theorem matmul_zero_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  rw [lhsIdx_plain, rhsIdx_plain]

end Cert.MatmulNN

end
-- ==== Proof.KernelGramPay.lean ====
/-
  The arithmetic of the first kernel's body, entry by entry, over the extended reals.

  One grid step loads a [512, 512] block of each input (rows of one half, one chunk of columns), a
  [1024, 512] block of each input (all rows, the same chunk of columns) and the four output blocks, and
  stores back:
    • on the first chunk, zeros into the four outputs;
    • into a squared-norm column, its old entry at row p plus the sum over the chunk's columns of the
      square of the block's entry;
    • into an inner-product block, its old entry at (p, q) plus the sum over the chunk's columns k of
      (left block at (p, k))·(right block at (q, k)): the narrowing to bf16 is the identity on extended
      reals, and the matrix product is taken with the right block transposed.
-/
import proofs.«169696_j47545287967528_2_alg».proof.Proof.Gen.KernelIdeal.Skeleton
import Idealize.ShloMosaic.Lib.ValueLayout
import Idealize.ShloMosaic.PureOps.Ideal.Laws
import proofs.«169696_j47545287967528_2_alg».proof.Proof.LibMatmulNN
import proofs.«169696_j47545287967528_2_alg».proof.Proof.LibSlabLayout
import proofs.«169696_j47545287967528_2_alg».proof.Proof.LibKeepdimsColumn

noncomputable section

open scoped BigOperators

namespace Cert.PairLoss.GramPay

open Idealize.ShloMosaic Idealize.ShloMosaic.ValueIdx Cert.KernelIdeal Cert.KernelIdeal.Gen

/-- The zero splat stored into the first input's inner-product block on the first chunk. -/
theorem pay2_apply (p : Fin 512) (q : Fin 1024) : k0_pay2 (F := Ideal) (ix2 p q) = 0 :=
  Ideal.ofBits_zero_f32

/-- The zero splat stored into the second input's inner-product block on the first chunk. -/
theorem pay3_apply (p : Fin 512) (q : Fin 1024) : k0_pay3 (F := Ideal) (ix2 p q) = 0 :=
  Ideal.ofBits_zero_f32

/-- The zero splat stored into the first input's squared-norm column on the first chunk. -/
theorem pay4_apply (p : Fin 512) (u : Fin 1) : k0_pay4 (F := Ideal) (ix2 p u) = 0 :=
  Ideal.ofBits_zero_f32

/-- The zero splat stored into the second input's squared-norm column on the first chunk. -/
theorem pay5_apply (p : Fin 512) (u : Fin 1) : k0_pay5 (F := Ideal) (ix2 p u) = 0 :=
  Ideal.ofBits_zero_f32

/-- The squared-norm column of the first input after a chunk: the old entry plus the chunk's sum of squares. -/
theorem pay6_apply (v3 : Vec Ideal S512x512 .f32) (v7 : Vec Ideal S512x1 .f32) (p : Fin 512) (u : Fin 1) :
    k0_pay6 (F := Ideal) v3 v7 (ix2 p u) = v7 (ix2 p u) + ∑ k : Fin 512, v3 (ix2 p k) * v3 (ix2 p k) := by
  unfold k0_pay6
  dsimp only
  refine (addf_apply _ _ _).trans ?_
  rw [shapeCast_self]
  refine congrArg (v7 (ix2 p u) + ·) ?_
  refine (Cert.KeepdimsColumn.shapeCast_a_a1_apply _ _ p u).trans ?_
  exact Cert.SlabLayout.rowSum_apply _ _ _ _ _ p

/-- The squared-norm column of the second input after a chunk. -/
theorem pay7_apply (v4 : Vec Ideal S512x512 .f32) (v14 : Vec Ideal S512x1 .f32) (p : Fin 512) (u : Fin 1) :
    k0_pay7 (F := Ideal) v4 v14 (ix2 p u) = v14 (ix2 p u) + ∑ k : Fin 512, v4 (ix2 p k) * v4 (ix2 p k) := by
  unfold k0_pay7
  dsimp only
  refine (addf_apply _ _ _).trans ?_
  rw [shapeCast_self]
  refine congrArg (v14 (ix2 p u) + ·) ?_
  refine (Cert.KeepdimsColumn.shapeCast_a_a1_apply _ _ p u).trans ?_
  exact Cert.SlabLayout.rowSum_apply _ _ _ _ _ p

/-- The narrowed left block of the second input is the block itself. -/
theorem pay8_apply (v4 : Vec Ideal S512x512 .f32) (p k : Fin 512) : k0_pay8 (F := Ideal) v4 (ix2 p k) = v4 (ix2 p k) := rfl

/-- The narrowed right block of the second input is the block itself. -/
theorem pay9_apply (v6 : Vec Ideal S1024x512 .f32) (q : Fin 1024) (k : Fin 512) :
    k0_pay9 (F := Ideal) v6 (ix2 q k) = v6 (ix2 q k) := rfl

/-- The printed dimension record of the matrix product is the plain [512, 512] by [512, 1024] one. -/
theorem dot_eq_plain : dot_S512x512_S512x1024_S512x1024_1_0_0_1_n_n = DotDims.plain 512 512 1024 := rfl

/-- The inner-product block of the first input after a chunk: the old entry plus the chunk's inner product of
    row p of the left block with row q of the right block. -/
theorem pay10_apply (v3 : Vec Ideal S512x512 .f32) (v5 : Vec Ideal S1024x512 .f32) (v25 : Vec Ideal S512x1024 .f32)
    (p : Fin 512) (q : Fin 1024) :
    k0_pay10 (F := Ideal) v3 v5 v25 (ix2 p q) = v25 (ix2 p q) + ∑ k : Fin 512, v3 (ix2 p k) * v5 (ix2 q k) := by
  unfold k0_pay10
  dsimp only
  refine (addf_apply _ _ _).trans ?_
  rw [shapeCast_self]
  refine congrArg (v25 (ix2 p q) + ·) ?_
  refine (Cert.MatmulNN.matmul_zero_apply _ dot_eq_plain none _ _ p q).trans ?_
  refine Finset.sum_congr rfl fun k _ => ?_
  refine congrArg (v3 (ix2 p k) * ·) ?_
  exact transpose_ix2_apply _ _ k q

/-- The inner-product block of the second input after a chunk, from the narrowed blocks. -/
theorem pay1_apply (v22 : FVec Ideal S512x512 .bf16) (v24 : FVec Ideal S1024x512 .bf16) (v31 : Vec Ideal S512x1024 .f32)
    (p : Fin 512) (q : Fin 1024) :
    k0_pay1 (F := Ideal) v22 v24 v31 (ix2 p q) = v31 (ix2 p q) + ∑ k : Fin 512, v22 (ix2 p k) * v24 (ix2 q k) := by
  unfold k0_pay1
  dsimp only
  refine (addf_apply _ _ _).trans ?_
  rw [shapeCast_self]
  refine congrArg (v31 (ix2 p q) + ·) ?_
  refine (Cert.MatmulNN.matmul_zero_apply _ dot_eq_plain none _ _ p q).trans ?_
  refine Finset.sum_congr rfl fun k _ => ?_
  refine congrArg (v22 (ix2 p k) * ·) ?_
  exact transpose_ix2_apply _ _ k q

end Cert.PairLoss.GramPay

end
-- ==== Proof.KernelGramPaySteps.lean ====
/-
  One grid step of the first kernel as a step of a running sum, and the running sums' final values.

  At grid point (m, k) the body reads, of an input x, the left block — rows 512·m + p, columns 512·k + d — and
  the right block — all rows q, the same columns. What it adds to entry (p, q) of an inner-product block is the
  chunk's part of the inner product of rows 512·m + p and q, and what it adds to entry p of a squared-norm column
  is the chunk's part of that row's squared norm. On the first chunk the old contents are the zeros just stored,
  so the block holds 0 + (part 0); on a later chunk it holds (old) + (part k). After the sixteenth chunk the
  running sums are the inner product and the squared norm of the whole rows.
-/
import proofs.«169696_j47545287967528_2_alg».proof.Proof.KernelGramPay
import proofs.«169696_j47545287967528_2_alg».proof.Proof.PairSums

noncomputable section

open scoped BigOperators

namespace Cert.PairLoss.GramSteps

open Idealize.ShloMosaic Idealize.ShloMosaic.ValueIdx Cert.KernelIdeal Cert.KernelIdeal.Gen Cert.PairLoss.GramPay

/-- `v` is the left block of `x` at grid point (m, k): rows of half m, columns of chunk k. -/
def IsLeft (x : Arr) (m : Fin 2) (k : Fin 16) (v : Vec Ideal S512x512 .f32) : Prop :=
  ∀ p d : Fin 512, v (ix2 p d) = x (ix2 (halfRow m p) (col k d))

/-- `v` is the right block of `x` at chunk k: all rows, columns of chunk k. -/
def IsRight (x : Arr) (k : Fin 16) (v : Vec Ideal S1024x512 .f32) : Prop :=
  ∀ (q : Fin 1024) (d : Fin 512), v (ix2 q d) = x (ix2 q (col k d))

/-- Chunk k's part of the inner product of rows i and j. -/
def gramPart (x : Arr) (i j : Fin 1024) (k : Fin 16) : EReal := ∑ d : Fin 512, x (ix2 i (col k d)) * x (ix2 j (col k d))

/-- Chunk k's part of the squared norm of row i. -/
def sqPart (x : Arr) (i : Fin 1024) (k : Fin 16) : EReal := ∑ d : Fin 512, x (ix2 i (col k d)) * x (ix2 i (col k d))

variable {x : Arr} {m : Fin 2} {k : Fin 16}

/-- A step of the first input's inner-product block. -/
theorem gram_p_step {v3 : Vec Ideal S512x512 .f32} {v5 : Vec Ideal S1024x512 .f32} (hl : IsLeft x m k v3) (hr : IsRight x k v5)
    (old : Vec Ideal S512x1024 .f32) (p : Fin 512) (q : Fin 1024) :
    k0_pay10 (F := Ideal) v3 v5 old (ix2 p q) = old (ix2 p q) + gramPart x (halfRow m p) q k := by
  rw [pay10_apply]
  refine congrArg (old (ix2 p q) + ·) (Finset.sum_congr rfl fun d _ => ?_)
  rw [hl p d, hr q d]

/-- Its first step, from the zeros just stored. -/
theorem gram_p_first {v3 : Vec Ideal S512x512 .f32} {v5 : Vec Ideal S1024x512 .f32} (hl : IsLeft x m k v3) (hr : IsRight x k v5)
    (p : Fin 512) (q : Fin 1024) :
    k0_pay10 (F := Ideal) v3 v5 (k0_pay2 (F := Ideal)) (ix2 p q) = 0 + gramPart x (halfRow m p) q k := by
  rw [gram_p_step hl hr, pay2_apply]

/-- A step of the second input's inner-product block (from the narrowed blocks, which are the blocks). -/
theorem gram_t_step {v4 : Vec Ideal S512x512 .f32} {v6 : Vec Ideal S1024x512 .f32} (hl : IsLeft x m k v4) (hr : IsRight x k v6)
    (old : Vec Ideal S512x1024 .f32) (p : Fin 512) (q : Fin 1024) :
    k0_pay1 (F := Ideal) (k0_pay8 (F := Ideal) v4) (k0_pay9 (F := Ideal) v6) old (ix2 p q)
      = old (ix2 p q) + gramPart x (halfRow m p) q k := by
  rw [pay1_apply]
  refine congrArg (old (ix2 p q) + ·) (Finset.sum_congr rfl fun d _ => ?_)
  rw [pay8_apply, pay9_apply, hl p d, hr q d]

/-- Its first step. -/
theorem gram_t_first {v4 : Vec Ideal S512x512 .f32} {v6 : Vec Ideal S1024x512 .f32} (hl : IsLeft x m k v4) (hr : IsRight x k v6)
    (p : Fin 512) (q : Fin 1024) :
    k0_pay1 (F := Ideal) (k0_pay8 (F := Ideal) v4) (k0_pay9 (F := Ideal) v6) (k0_pay3 (F := Ideal)) (ix2 p q)
      = 0 + gramPart x (halfRow m p) q k := by
  rw [gram_t_step hl hr, pay3_apply]

/-- A step of the first input's squared-norm column. -/
theorem sq_p_step {v3 : Vec Ideal S512x512 .f32} (hl : IsLeft x m k v3) (old : Vec Ideal S512x1 .f32) (p : Fin 512) (u : Fin 1) :
    k0_pay6 (F := Ideal) v3 old (ix2 p u) = old (ix2 p u) + sqPart x (halfRow m p) k := by
  rw [pay6_apply]
  refine congrArg (old (ix2 p u) + ·) (Finset.sum_congr rfl fun d _ => ?_)
  rw [hl p d]

/-- Its first step. -/
theorem sq_p_first {v3 : Vec Ideal S512x512 .f32} (hl : IsLeft x m k v3) (p : Fin 512) (u : Fin 1) :
    k0_pay6 (F := Ideal) v3 (k0_pay4 (F := Ideal)) (ix2 p u) = 0 + sqPart x (halfRow m p) k := by
  rw [sq_p_step hl, pay4_apply]

/-- A step of the second input's squared-norm column. -/
theorem sq_t_step {v4 : Vec Ideal S512x512 .f32} (hl : IsLeft x m k v4) (old : Vec Ideal S512x1 .f32) (p : Fin 512) (u : Fin 1) :
    k0_pay7 (F := Ideal) v4 old (ix2 p u) = old (ix2 p u) + sqPart x (halfRow m p) k := by
  rw [pay7_apply]
  refine congrArg (old (ix2 p u) + ·) (Finset.sum_congr rfl fun d _ => ?_)
  rw [hl p d]

/-- Its first step. -/
theorem sq_t_first {v4 : Vec Ideal S512x512 .f32} (hl : IsLeft x m k v4) (p : Fin 512) (u : Fin 1) :
    k0_pay7 (F := Ideal) v4 (k0_pay5 (F := Ideal)) (ix2 p u) = 0 + sqPart x (halfRow m p) k := by
  rw [sq_t_step hl, pay5_apply]

/-- A quantity that is `0 + g 0` after the first of N steps and `(previous) + g n` after each later one is the
    running sum of `g`. -/
theorem eq_upTo {M : Type} [AddCommMonoid M] {N : ℕ} (g : Fin N → M) (blk : (n : ℕ) → n < N → M)
    (h0 : ∀ h, blk 0 h = 0 + g ⟨0, h⟩)
    (hs : ∀ n (h : n + 1 < N), blk (n + 1) h = blk n (Nat.lt_of_succ_lt h) + g ⟨n + 1, h⟩) :
    ∀ n (h : n < N), blk n h = Cert.RunningSum.upTo g n h
  | 0, h => h0 h
  | n + 1, h => by rw [hs n h, eq_upTo g blk h0 hs n]; rfl

/-- After the sixteenth chunk the running sum of the inner-product parts is the inner product. -/
theorem gram_final (x : Arr) (i j : Fin 1024) : Cert.RunningSum.upTo (gramPart x i j) 15 (by norm_num) = gram x i j :=
  gram_acc x i j

/-- After the sixteenth chunk the running sum of the squared-norm parts is the squared norm. -/
theorem sq_final (x : Arr) (i : Fin 1024) : Cert.RunningSum.upTo (sqPart x i) 15 (by norm_num) = sq x i :=
  sq_acc x i

end Cert.PairLoss.GramSteps

end
-- ==== Proof.KernelGramPayRun.lean ====
/-
  The first region's four output blocks after every grid point, as running sums of the specification's parts.

  Grid point t works on half m = t / 16 of the rows and on chunk k = t % 16 of the columns. Suppose that at every
  point the four input blocks the body reads are the inputs' blocks there. Then after point t each output block
  holds the running sum, over the chunks 0 … k of that half, of the chunks' parts: of the inner product of rows
  512·m + p and q in the inner-product blocks, of the squared norm of row 512·m + p in the squared-norm columns —
  by induction on t: on the first chunk of a half the part is added to the zeros just stored, on a later chunk to
  what the chunk before left. After the last chunk of a half the blocks hold the inner products and the squared
  norms themselves.
-/
import proofs.«169696_j47545287967528_2_alg».proof.Proof.KernelGramPayOuts
import proofs.«169696_j47545287967528_2_alg».proof.Proof.KernelGramPaySteps

set_option maxRecDepth 16384

noncomputable section

namespace Cert.KernelIdeal.HandGramRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Hand

open Cert.KernelIdeal.HandGramOuts Cert.PairLoss Cert.PairLoss.GramSteps Idealize.ShloMosaic.ValueIdx Cert.RunningSum

/-- The region has thirty-two grid points. -/
theorem lt32 (t : Fin cfg0.N) : t.val < 32 := lt_of_lt_of_eq t.isLt N_0

/-- The half of the rows point n works on. -/
def halfOf (n : ℕ) (h : n < 32) : Fin 2 := ⟨n / 16, by omega⟩
/-- The chunk of the columns point n works on. -/
def chunkOf (n : ℕ) : Fin 16 := ⟨n % 16, Nat.mod_lt _ (by norm_num)⟩

/-- A running sum depends on the step number only through its value. -/
theorem upTo_congr {M : Type} [AddCommMonoid M] {N : ℕ} (g : Fin N → M) {a b : ℕ} (hab : a = b) (ha : a < N) (hb : b < N) :
    upTo g a ha = upTo g b hb := by
  subst hab; rfl

/-- At step zero it is zero plus the first contribution. -/
theorem upTo_at_zero {M : Type} [AddCommMonoid M] {N : ℕ} (g : Fin N → M) (a : ℕ) (ha0 : a = 0) (ha : a < N) :
    upTo g a ha = 0 + g ⟨a, ha⟩ := by
  subst ha0; rfl

/-- At a later step it is the sum so far plus that step's contribution. -/
theorem upTo_at_succ {M : Type} [AddCommMonoid M] {N : ℕ} (g : Fin N → M) (a b : ℕ) (hab : a = b + 1) (ha : a < N) (hb : b < N) :
    upTo g a ha = upTo g b hb + g ⟨a, ha⟩ := by
  subst hab; rfl

section
variable (V : (c : Dev nD) → (b : Ref sig .tc) → Buf (Elt Ideal) ((c : Thread nD τ).loc b)) (c : Dev nD) (x y : Arr)

/-- The four input blocks the body reads at every point are the inputs' blocks there. -/
def BlocksHold : Prop :=
  ∀ t : Fin cfg0.N,
    IsLeft x (halfOf t.val (lt32 t)) (chunkOf t.val) (gramBlk V c 0 t) ∧ IsLeft y (halfOf t.val (lt32 t)) (chunkOf t.val) (gramBlk V c 1 t)
      ∧ IsRight x (chunkOf t.val) (gramBlk V c 2 t) ∧ IsRight y (chunkOf t.val) (gramBlk V c 3 t)

/-- What the four blocks hold after point n. -/
def HoldsAt (n : ℕ) (hn : n < cfg0.N) : Prop :=
  (∀ (p : Fin 512) (q : Fin 1024), (gramOuts V c n hn).1 (ix2 p q)
      = upTo (gramPart x (halfRow (halfOf n (lt32 ⟨n, hn⟩)) p) q) (n % 16) (Nat.mod_lt _ (by norm_num)))
  ∧ (∀ (p : Fin 512) (q : Fin 1024), (gramOuts V c n hn).2.1 (ix2 p q)
      = upTo (gramPart y (halfRow (halfOf n (lt32 ⟨n, hn⟩)) p) q) (n % 16) (Nat.mod_lt _ (by norm_num)))
  ∧ (∀ (p : Fin 512) (u : Fin 1), (gramOuts V c n hn).2.2.1 (ix2 p u)
      = upTo (sqPart x (halfRow (halfOf n (lt32 ⟨n, hn⟩)) p)) (n % 16) (Nat.mod_lt _ (by norm_num)))
  ∧ (∀ (p : Fin 512) (u : Fin 1), (gramOuts V c n hn).2.2.2 (ix2 p u)
      = upTo (sqPart y (halfRow (halfOf n (lt32 ⟨n, hn⟩)) p)) (n % 16) (Nat.mod_lt _ (by norm_num)))

/-- The first chunk of a half. -/
theorem holds_reset (hb : BlocksHold V c x y) (n : ℕ) (hn : n < cfg0.N) (h0 : n % 16 = 0) : HoldsAt V c x y n hn := by
  obtain ⟨hl, hlt, hr, hrt⟩ := hb ⟨n, hn⟩
  refine ⟨fun p q => ?_, fun p q => ?_, fun p u => ?_, fun p u => ?_⟩
  · rw [upTo_at_zero _ _ h0, gramOuts_reset V c ⟨n, hn⟩ h0, gramOutReset4_eq]
    exact gram_p_first hl hr p q
  · rw [upTo_at_zero _ _ h0, gramOuts_reset V c ⟨n, hn⟩ h0, gramOutReset5_eq]
    exact gram_t_first hlt hrt p q
  · rw [upTo_at_zero _ _ h0, gramOuts_reset V c ⟨n, hn⟩ h0, gramOutReset6_eq]
    exact sq_p_first hl p u
  · rw [upTo_at_zero _ _ h0, gramOuts_reset V c ⟨n, hn⟩ h0, gramOutReset7_eq]
    exact sq_t_first hlt p u

/-- A later chunk of a half, from the chunk before. -/
theorem holds_add (hb : BlocksHold V c x y) (n : ℕ) (hn : n + 1 < cfg0.N) (h0 : ¬(n + 1) % 16 = 0)
    (ih : HoldsAt V c x y n (Nat.lt_of_succ_lt hn)) : HoldsAt V c x y (n + 1) hn := by
  obtain ⟨hl, hlt, hr, hrt⟩ := hb ⟨n + 1, hn⟩
  obtain ⟨i1, i2, i3, i4⟩ := ih
  have h32 : n + 1 < 32 := lt32 ⟨n + 1, hn⟩
  have hm : halfOf n (lt32 ⟨n, Nat.lt_of_succ_lt hn⟩) = halfOf (n + 1) h32 := Fin.ext (by
    show n / 16 = (n + 1) / 16
    omega)
  have hk : (n + 1) % 16 = n % 16 + 1 := by omega
  rw [hm] at i1 i2 i3 i4
  refine ⟨fun p q => ?_, fun p q => ?_, fun p u => ?_, fun p u => ?_⟩
  · rw [upTo_at_succ _ _ _ hk _ (Nat.mod_lt _ (by norm_num)), ← i1 p q, gramOuts_add V c ⟨n + 1, hn⟩ h0, gramOutAdd4_eq]
    exact gram_p_step hl hr _ p q
  · rw [upTo_at_succ _ _ _ hk _ (Nat.mod_lt _ (by norm_num)), ← i2 p q, gramOuts_add V c ⟨n + 1, hn⟩ h0, gramOutAdd5_eq]
    exact gram_t_step hlt hrt _ p q
  · rw [upTo_at_succ _ _ _ hk _ (Nat.mod_lt _ (by norm_num)), ← i3 p u, gramOuts_add V c ⟨n + 1, hn⟩ h0, gramOutAdd6_eq]
    exact sq_p_step hl _ p u
  · rw [upTo_at_succ _ _ _ hk _ (Nat.mod_lt _ (by norm_num)), ← i4 p u, gramOuts_add V c ⟨n + 1, hn⟩ h0, gramOutAdd7_eq]
    exact sq_t_step hlt _ p u

/-- After every point the four blocks hold the running sums. -/
theorem holds_all (hb : BlocksHold V c x y) : ∀ (n : ℕ) (hn : n < cfg0.N), HoldsAt V c x y n hn
  | 0, hn => holds_reset V c x y hb 0 hn (Nat.zero_mod _)
  | n + 1, hn => by
    by_cases h0 : (n + 1) % 16 = 0
    · exact holds_reset V c x y hb (n + 1) hn h0
    · exact holds_add V c x y hb n hn h0 (holds_all hb n (Nat.lt_of_succ_lt hn))

/-- After the last chunk of a half the first input's inner-product block holds the inner products. -/
theorem gram_p_done (hb : BlocksHold V c x y) (t : Fin cfg0.N) (h15 : t.val % 16 = 15) (p : Fin 512) (q : Fin 1024) :
    (gramOuts V c t.val t.isLt).1 (ix2 p q) = gram x (halfRow (halfOf t.val (lt32 t)) p) q :=
  ((holds_all V c x y hb t.val t.isLt).1 p q).trans ((upTo_congr _ h15 _ (by norm_num)).trans (gram_final x _ q))

/-- … the second input's inner-product block likewise. -/
theorem gram_t_done (hb : BlocksHold V c x y) (t : Fin cfg0.N) (h15 : t.val % 16 = 15) (p : Fin 512) (q : Fin 1024) :
    (gramOuts V c t.val t.isLt).2.1 (ix2 p q) = gram y (halfRow (halfOf t.val (lt32 t)) p) q :=
  ((holds_all V c x y hb t.val t.isLt).2.1 p q).trans ((upTo_congr _ h15 _ (by norm_num)).trans (gram_final y _ q))

/-- … the first input's squared-norm column holds the squared norms. -/
theorem sq_p_done (hb : BlocksHold V c x y) (t : Fin cfg0.N) (h15 : t.val % 16 = 15) (p : Fin 512) (u : Fin 1) :
    (gramOuts V c t.val t.isLt).2.2.1 (ix2 p u) = sq x (halfRow (halfOf t.val (lt32 t)) p) :=
  ((holds_all V c x y hb t.val t.isLt).2.2.1 p u).trans ((upTo_congr _ h15 _ (by norm_num)).trans (sq_final x _))

/-- … and the second input's squared-norm column likewise. -/
theorem sq_t_done (hb : BlocksHold V c x y) (t : Fin cfg0.N) (h15 : t.val % 16 = 15) (p : Fin 512) (u : Fin 1) :
    (gramOuts V c t.val t.isLt).2.2.2 (ix2 p u) = sq y (halfRow (halfOf t.val (lt32 t)) p) :=
  ((holds_all V c x y hb t.val t.isLt).2.2.2 p u).trans ((upTo_congr _ h15 _ (by norm_num)).trans (sq_final y _))

end

end Cert.KernelIdeal.HandGramRun

end
-- ==== Proof.KernelGramArrays.lean ====
import proofs.«169696_j47545287967528_2_alg».proof.Proof.KernelRun
import proofs.«169696_j47545287967528_2_alg».proof.Proof.KernelGramPayRun
import Idealize.ShloMosaic.Lib.Pipeline.Value

/-!
# The first region's four result arrays

Grid point `t` of the first region works on the rows of half `t / 16` and on the columns of chunk
`t % 16`.  Each input window's block at `t` is the rectangle of its array that the window's index
map names: a block's coordinate is the block index times the block size plus the coordinate inside
the block.  So the four blocks the body reads are the inputs' blocks of that half and that chunk.

The four result blocks are written back after the last chunk of each half, when they hold the inner
products and the squared norms of the rows of that half; the two halves' blocks tile each result
array, so the arrays end holding all the inner products and all the squared norms.
-/

set_option maxRecDepth 16384

noncomputable section

namespace Cert.KernelIdeal.HandValue

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen Cert.KernelIdeal.Hand Cert.KernelIdeal.HandGramRun
open Cert.PairLoss Cert.PairLoss.GramSteps Idealize.ShloMosaic.ValueIdx

variable (m : (ℓ : Loc nD τ sig) → Buf (Elt Ideal) ℓ) (ρ : Dev nD → PrngReg) (c : Dev nD)

/-- The two inputs as the region finds them. -/
abbrev xin : Cert.PairLoss.Arr := X0 (F := Ideal) m ρ c main_arg0
abbrev yin : Cert.PairLoss.Arr := X0 (F := Ideal) m ρ c main_arg1

/-- The printed index maps, decided over the grid: the two left windows move with the half and the chunk, the two
    right windows with the chunk only, the four result windows with the half only. -/
theorem idx_facts : ∀ t : Fin cfg0.N,
    win0_0.index t (0 : Fin 2) = t.val / 16 ∧ win0_0.index t (1 : Fin 2) = t.val % 16
    ∧ win0_1.index t (0 : Fin 2) = t.val / 16 ∧ win0_1.index t (1 : Fin 2) = t.val % 16
    ∧ win0_2.index t (0 : Fin 2) = 0 ∧ win0_2.index t (1 : Fin 2) = t.val % 16
    ∧ win0_3.index t (0 : Fin 2) = 0 ∧ win0_3.index t (1 : Fin 2) = t.val % 16
    ∧ win0_4.index t (0 : Fin 2) = t.val / 16 ∧ win0_4.index t (1 : Fin 2) = 0
    ∧ win0_5.index t (0 : Fin 2) = t.val / 16 ∧ win0_5.index t (1 : Fin 2) = 0
    ∧ win0_6.index t (0 : Fin 2) = t.val / 16 ∧ win0_6.index t (1 : Fin 2) = 0
    ∧ win0_7.index t (0 : Fin 2) = t.val / 16 ∧ win0_7.index t (1 : Fin 2) = 0 :=
  (by decide +kernel : ∀ t : Fin grid0.N, _)

/-- The last point of a half. -/
def lastOf (h : ℕ) (hh : h < 2) : Fin cfg0.N := ⟨16 * h + 15, by have h32 : cfg0.N = 32 := N_0; omega⟩

/-- THE FOUR INPUT BLOCKS at every point are the inputs' blocks of that point's half and chunk. -/
theorem blocksHold : BlocksHold (X0 (F := Ideal) m ρ) c (xin m ρ c) (yin m ρ c) := by
  intro t
  obtain ⟨e00, e01, e10, e11, e20, e21, e30, e31, -⟩ := idx_facts t
  refine ⟨fun p d => ?_, fun p d => ?_, fun q d => ?_, fun q d => ?_⟩
  · unfold gramBlk
    rw [View.read_apply]
    show X0 (F := Ideal) m ρ c main_arg0 _ = X0 (F := Ideal) m ρ c main_arg0 _
    refine congrArg (X0 (F := Ideal) m ρ c main_arg0) (funext fun a => Fin.ext ?_)
    match a with
    | ⟨0, _⟩ =>
      show win0_0.index t (0 : Fin 2) * 512 + 1 * p.val = 512 * (t.val / 16) + p.val
      omega
    | ⟨1, _⟩ =>
      show win0_0.index t (1 : Fin 2) * 512 + 1 * d.val = 512 * (t.val % 16) + d.val
      omega
  · unfold gramBlk
    rw [View.read_apply]
    show X0 (F := Ideal) m ρ c main_arg1 _ = X0 (F := Ideal) m ρ c main_arg1 _
    refine congrArg (X0 (F := Ideal) m ρ c main_arg1) (funext fun a => Fin.ext ?_)
    match a with
    | ⟨0, _⟩ =>
      show win0_1.index t (0 : Fin 2) * 512 + 1 * p.val = 512 * (t.val / 16) + p.val
      omega
    | ⟨1, _⟩ =>
      show win0_1.index t (1 : Fin 2) * 512 + 1 * d.val = 512 * (t.val % 16) + d.val
      omega
  · unfold gramBlk
    rw [View.read_apply]
    show X0 (F := Ideal) m ρ c main_arg0 _ = X0 (F := Ideal) m ρ c main_arg0 _
    refine congrArg (X0 (F := Ideal) m ρ c main_arg0) (funext fun a => Fin.ext ?_)
    match a with
    | ⟨0, _⟩ =>
      show win0_2.index t (0 : Fin 2) * 1024 + 1 * q.val = q.val
      omega
    | ⟨1, _⟩ =>
      show win0_2.index t (1 : Fin 2) * 512 + 1 * d.val = 512 * (t.val % 16) + d.val
      omega
  · unfold gramBlk
    rw [View.read_apply]
    show X0 (F := Ideal) m ρ c main_arg1 _ = X0 (F := Ideal) m ρ c main_arg1 _
    refine congrArg (X0 (F := Ideal) m ρ c main_arg1) (funext fun a => Fin.ext ?_)
    match a with
    | ⟨0, _⟩ =>
      show win0_3.index t (0 : Fin 2) * 1024 + 1 * q.val = q.val
      omega
    | ⟨1, _⟩ =>
      show win0_3.index t (1 : Fin 2) * 512 + 1 * d.val = 512 * (t.val % 16) + d.val
      omega

/-! ## Window 4 -/

/-- What window 4's array ends holding. -/
def G4 : S1024x1024.Idx → EReal := fun i => Cert.PairLoss.gram (xin m ρ c) ⟨(i 0).val, idx2_lt0 i⟩ ⟨(i 1).val, idx2_lt1 i⟩

/-- What a flushing point writes back through window 4 is its block of that array. -/
theorem flushed4_eq (t : Fin cfg0.N) (hf : (cfg0.win 4).flush t = true) :
    (gramDat (X0 (F := Ideal) m ρ) c).flushed 4 t = ((cfg0.win 4).blk t).view.read (Elt Ideal) (G4 m ρ c) := by
  have h15 : t.val % 16 = 15 := (flush0_4 t).mp hf
  obtain ⟨-, -, -, -, -, -, -, -, e40, e41, e50, e51, e60, e61, e70, e71⟩ := idx_facts t
  show (cfg0.win 4).cut (grid0.coords t) ((gramDat (X0 (F := Ideal) m ρ) c).after 4 t) = _
  rw [gramAfter4]
  funext j
  obtain ⟨p, q, rfl⟩ : ∃ (p : Fin 512) (q : Fin 1024), j = ix2 p q := ⟨j 0, j 1, eq_ix2 j⟩
  rw [View.read_apply]
  show (gramOuts (X0 (F := Ideal) m ρ) c t.val t.isLt).1 (ix2 p q) = G4 m ρ c (((cfg0.win 4).blk t).view.emb (ix2 p q))
  rw [gram_p_done (X0 (F := Ideal) m ρ) c (xin m ρ c) (yin m ρ c) (blocksHold m ρ c) t h15 p q]
  unfold G4
  refine congrArg₂ (Cert.PairLoss.gram (xin m ρ c)) (Fin.ext ?_) (Fin.ext ?_)
  · show 512 * (t.val / 16) + p.val = win0_4.index t (0 : Fin 2) * 512 + 1 * p.val
    omega
  · show q.val = win0_4.index t (1 : Fin 2) * 1024 + 1 * q.val
    omega

/-- An index of the array is in point `t`'s block iff each coordinate is in the block's range on its axis. -/
theorem mem_blk4 (t : Fin cfg0.N) (i : S1024x1024.Idx) :
    i ∈ ((cfg0.win 4).blk t).view.set ↔ ∀ a : Fin 2, win0_4.index t a * S512x1024.size a ≤ (i a).val
      ∧ (i a).val < win0_4.index t a * S512x1024.size a + S512x1024.size a := by
  show i ∈ ((View.whole main_v0_0).slice (win0_4.rect t)).set ↔ _
  rw [View.set_slice_whole, Rect.mem_set_unit]
  exact Iff.rfl

/-- Every row lies in the block written back after the last column tile of its half. -/
theorem cover4 (i : S1024x1024.Idx) :
    ∃ t : Fin cfg0.N, (cfg0.win 4).flush t = true ∧ i ∈ ((cfg0.win 4).blk t).view.set := by
  have hi0 : (i 0).val < 1024 := (i 0).isLt
  have hi1 : (i 1).val < 1024 := (i 1).isLt
  refine ⟨lastOf ((i 0).val / 512) (by omega), (flush0_4 _).mpr (by show (16 * ((i 0).val / 512) + 15) % 16 = 15; omega), ?_⟩
  obtain ⟨-, -, -, -, -, -, -, -, e40, e41, e50, e51, e60, e61, e70, e71⟩ := idx_facts (lastOf ((i 0).val / 512) (by omega))
  have hv : (lastOf ((i 0).val / 512) (by omega)).val = 16 * ((i 0).val / 512) + 15 := rfl
  rw [mem_blk4]
  intro a
  match a with
  | ⟨0, _⟩ =>
    show win0_4.index _ (0 : Fin 2) * 512 ≤ (i 0).val ∧ (i 0).val < win0_4.index _ (0 : Fin 2) * 512 + 512
    omega
  | ⟨1, _⟩ =>
    show win0_4.index _ (1 : Fin 2) * 1024 ≤ (i 1).val ∧ (i 1).val < win0_4.index _ (1 : Fin 2) * 1024 + 1024
    omega

/-- The array after the region. -/
theorem final4 : (gramDat (X0 (F := Ideal) m ρ) c).arrAt 4 cfg0.N = G4 m ρ c :=
  (gramDat (X0 (F := Ideal) m ρ) c).arrAt_eq_of_cover 4 (G4 m ρ c) (flushed4_eq m ρ c) cover4

/-! ## Window 5 -/

/-- What window 5's array ends holding. -/
def G5 : S1024x1024.Idx → EReal := fun i => Cert.PairLoss.gram (yin m ρ c) ⟨(i 0).val, idx2_lt0 i⟩ ⟨(i 1).val, idx2_lt1 i⟩

/-- What a flushing point writes back through window 5 is its block of that array. -/
theorem flushed5_eq (t : Fin cfg0.N) (hf : (cfg0.win 5).flush t = true) :
    (gramDat (X0 (F := Ideal) m ρ) c).flushed 5 t = ((cfg0.win 5).blk t).view.read (Elt Ideal) (G5 m ρ c) := by
  have h15 : t.val % 16 = 15 := (flush0_5 t).mp hf
  obtain ⟨-, -, -, -, -, -, -, -, e40, e41, e50, e51, e60, e61, e70, e71⟩ := idx_facts t
  show (cfg0.win 5).cut (grid0.coords t) ((gramDat (X0 (F := Ideal) m ρ) c).after 5 t) = _
  rw [gramAfter5]
  funext j
  obtain ⟨p, q, rfl⟩ : ∃ (p : Fin 512) (q : Fin 1024), j = ix2 p q := ⟨j 0, j 1, eq_ix2 j⟩
  rw [View.read_apply]
  show (gramOuts (X0 (F := Ideal) m ρ) c t.val t.isLt).2.1 (ix2 p q) = G5 m ρ c (((cfg0.win 5).blk t).view.emb (ix2 p q))
  rw [gram_t_done (X0 (F := Ideal) m ρ) c (xin m ρ c) (yin m ρ c) (blocksHold m ρ c) t h15 p q]
  unfold G5
  refine congrArg₂ (Cert.PairLoss.gram (yin m ρ c)) (Fin.ext ?_) (Fin.ext ?_)
  · show 512 * (t.val / 16) + p.val = win0_5.index t (0 : Fin 2) * 512 + 1 * p.val
    omega
  · show q.val = win0_5.index t (1 : Fin 2) * 1024 + 1 * q.val
    omega

/-- An index of the array is in point `t`'s block iff each coordinate is in the block's range on its axis. -/
theorem mem_blk5 (t : Fin cfg0.N) (i : S1024x1024.Idx) :
    i ∈ ((cfg0.win 5).blk t).view.set ↔ ∀ a : Fin 2, win0_5.index t a * S512x1024.size a ≤ (i a).val
      ∧ (i a).val < win0_5.index t a * S512x1024.size a + S512x1024.size a := by
  show i ∈ ((View.whole main_v0_1).slice (win0_5.rect t)).set ↔ _
  rw [View.set_slice_whole, Rect.mem_set_unit]
  exact Iff.rfl

/-- Every row lies in the block written back after the last column tile of its half. -/
theorem cover5 (i : S1024x1024.Idx) :
    ∃ t : Fin cfg0.N, (cfg0.win 5).flush t = true ∧ i ∈ ((cfg0.win 5).blk t).view.set := by
  have hi0 : (i 0).val < 1024 := (i 0).isLt
  have hi1 : (i 1).val < 1024 := (i 1).isLt
  refine ⟨lastOf ((i 0).val / 512) (by omega), (flush0_5 _).mpr (by show (16 * ((i 0).val / 512) + 15) % 16 = 15; omega), ?_⟩
  obtain ⟨-, -, -, -, -, -, -, -, e40, e41, e50, e51, e60, e61, e70, e71⟩ := idx_facts (lastOf ((i 0).val / 512) (by omega))
  have hv : (lastOf ((i 0).val / 512) (by omega)).val = 16 * ((i 0).val / 512) + 15 := rfl
  rw [mem_blk5]
  intro a
  match a with
  | ⟨0, _⟩ =>
    show win0_5.index _ (0 : Fin 2) * 512 ≤ (i 0).val ∧ (i 0).val < win0_5.index _ (0 : Fin 2) * 512 + 512
    omega
  | ⟨1, _⟩ =>
    show win0_5.index _ (1 : Fin 2) * 1024 ≤ (i 1).val ∧ (i 1).val < win0_5.index _ (1 : Fin 2) * 1024 + 1024
    omega

/-- The array after the region. -/
theorem final5 : (gramDat (X0 (F := Ideal) m ρ) c).arrAt 5 cfg0.N = G5 m ρ c :=
  (gramDat (X0 (F := Ideal) m ρ) c).arrAt_eq_of_cover 5 (G5 m ρ c) (flushed5_eq m ρ c) cover5

/-! ## Window 6 -/

/-- What window 6's array ends holding. -/
def G6 : S1024x1.Idx → EReal := fun i => Cert.PairLoss.sq (xin m ρ c) ⟨(i 0).val, idx2_lt0 i⟩

/-- What a flushing point writes back through window 6 is its block of that array. -/
theorem flushed6_eq (t : Fin cfg0.N) (hf : (cfg0.win 6).flush t = true) :
    (gramDat (X0 (F := Ideal) m ρ) c).flushed 6 t = ((cfg0.win 6).blk t).view.read (Elt Ideal) (G6 m ρ c) := by
  have h15 : t.val % 16 = 15 := (flush0_6 t).mp hf
  obtain ⟨-, -, -, -, -, -, -, -, e40, e41, e50, e51, e60, e61, e70, e71⟩ := idx_facts t
  show (cfg0.win 6).cut (grid0.coords t) ((gramDat (X0 (F := Ideal) m ρ) c).after 6 t) = _
  rw [gramAfter6]
  funext j
  obtain ⟨p, q, rfl⟩ : ∃ (p : Fin 512) (q : Fin 1), j = ix2 p q := ⟨j 0, j 1, eq_ix2 j⟩
  rw [View.read_apply]
  show (gramOuts (X0 (F := Ideal) m ρ) c t.val t.isLt).2.2.1 (ix2 p q) = G6 m ρ c (((cfg0.win 6).blk t).view.emb (ix2 p q))
  rw [sq_p_done (X0 (F := Ideal) m ρ) c (xin m ρ c) (yin m ρ c) (blocksHold m ρ c) t h15 p q]
  unfold G6
  refine congrArg (Cert.PairLoss.sq (xin m ρ c)) (Fin.ext ?_)
  show 512 * (t.val / 16) + p.val = win0_6.index t (0 : Fin 2) * 512 + 1 * p.val
  omega

/-- An index of the array is in point `t`'s block iff each coordinate is in the block's range on its axis. -/
theorem mem_blk6 (t : Fin cfg0.N) (i : S1024x1.Idx) :
    i ∈ ((cfg0.win 6).blk t).view.set ↔ ∀ a : Fin 2, win0_6.index t a * S512x1.size a ≤ (i a).val
      ∧ (i a).val < win0_6.index t a * S512x1.size a + S512x1.size a := by
  show i ∈ ((View.whole main_v0_2).slice (win0_6.rect t)).set ↔ _
  rw [View.set_slice_whole, Rect.mem_set_unit]
  exact Iff.rfl

/-- Every row lies in the block written back after the last column tile of its half. -/
theorem cover6 (i : S1024x1.Idx) :
    ∃ t : Fin cfg0.N, (cfg0.win 6).flush t = true ∧ i ∈ ((cfg0.win 6).blk t).view.set := by
  have hi0 : (i 0).val < 1024 := (i 0).isLt
  have hi1 : (i 1).val < 1 := (i 1).isLt
  refine ⟨lastOf ((i 0).val / 512) (by omega), (flush0_6 _).mpr (by show (16 * ((i 0).val / 512) + 15) % 16 = 15; omega), ?_⟩
  obtain ⟨-, -, -, -, -, -, -, -, e40, e41, e50, e51, e60, e61, e70, e71⟩ := idx_facts (lastOf ((i 0).val / 512) (by omega))
  have hv : (lastOf ((i 0).val / 512) (by omega)).val = 16 * ((i 0).val / 512) + 15 := rfl
  rw [mem_blk6]
  intro a
  match a with
  | ⟨0, _⟩ =>
    show win0_6.index _ (0 : Fin 2) * 512 ≤ (i 0).val ∧ (i 0).val < win0_6.index _ (0 : Fin 2) * 512 + 512
    omega
  | ⟨1, _⟩ =>
    show win0_6.index _ (1 : Fin 2) * 1 ≤ (i 1).val ∧ (i 1).val < win0_6.index _ (1 : Fin 2) * 1 + 1
    omega

/-- The array after the region. -/
theorem final6 : (gramDat (X0 (F := Ideal) m ρ) c).arrAt 6 cfg0.N = G6 m ρ c :=
  (gramDat (X0 (F := Ideal) m ρ) c).arrAt_eq_of_cover 6 (G6 m ρ c) (flushed6_eq m ρ c) cover6

/-! ## Window 7 -/

/-- What window 7's array ends holding. -/
def G7 : S1024x1.Idx → EReal := fun i => Cert.PairLoss.sq (yin m ρ c) ⟨(i 0).val, idx2_lt0 i⟩

/-- What a flushing point writes back through window 7 is its block of that array. -/
theorem flushed7_eq (t : Fin cfg0.N) (hf : (cfg0.win 7).flush t = true) :
    (gramDat (X0 (F := Ideal) m ρ) c).flushed 7 t = ((cfg0.win 7).blk t).view.read (Elt Ideal) (G7 m ρ c) := by
  have h15 : t.val % 16 = 15 := (flush0_7 t).mp hf
  obtain ⟨-, -, -, -, -, -, -, -, e40, e41, e50, e51, e60, e61, e70, e71⟩ := idx_facts t
  show (cfg0.win 7).cut (grid0.coords t) ((gramDat (X0 (F := Ideal) m ρ) c).after 7 t) = _
  rw [gramAfter7]
  funext j
  obtain ⟨p, q, rfl⟩ : ∃ (p : Fin 512) (q : Fin 1), j = ix2 p q := ⟨j 0, j 1, eq_ix2 j⟩
  rw [View.read_apply]
  show (gramOuts (X0 (F := Ideal) m ρ) c t.val t.isLt).2.2.2 (ix2 p q) = G7 m ρ c (((cfg0.win 7).blk t).view.emb (ix2 p q))
  rw [sq_t_done (X0 (F := Ideal) m ρ) c (xin m ρ c) (yin m ρ c) (blocksHold m ρ c) t h15 p q]
  unfold G7
  refine congrArg (Cert.PairLoss.sq (yin m ρ c)) (Fin.ext ?_)
  show 512 * (t.val / 16) + p.val = win0_7.index t (0 : Fin 2) * 512 + 1 * p.val
  omega

/-- An index of the array is in point `t`'s block iff each coordinate is in the block's range on its axis. -/
theorem mem_blk7 (t : Fin cfg0.N) (i : S1024x1.Idx) :
    i ∈ ((cfg0.win 7).blk t).view.set ↔ ∀ a : Fin 2, win0_7.index t a * S512x1.size a ≤ (i a).val
      ∧ (i a).val < win0_7.index t a * S512x1.size a + S512x1.size a := by
  show i ∈ ((View.whole main_v0_3).slice (win0_7.rect t)).set ↔ _
  rw [View.set_slice_whole, Rect.mem_set_unit]
  exact Iff.rfl

/-- Every row lies in the block written back after the last column tile of its half. -/
theorem cover7 (i : S1024x1.Idx) :
    ∃ t : Fin cfg0.N, (cfg0.win 7).flush t = true ∧ i ∈ ((cfg0.win 7).blk t).view.set := by
  have hi0 : (i 0).val < 1024 := (i 0).isLt
  have hi1 : (i 1).val < 1 := (i 1).isLt
  refine ⟨lastOf ((i 0).val / 512) (by omega), (flush0_7 _).mpr (by show (16 * ((i 0).val / 512) + 15) % 16 = 15; omega), ?_⟩
  obtain ⟨-, -, -, -, -, -, -, -, e40, e41, e50, e51, e60, e61, e70, e71⟩ := idx_facts (lastOf ((i 0).val / 512) (by omega))
  have hv : (lastOf ((i 0).val / 512) (by omega)).val = 16 * ((i 0).val / 512) + 15 := rfl
  rw [mem_blk7]
  intro a
  match a with
  | ⟨0, _⟩ =>
    show win0_7.index _ (0 : Fin 2) * 512 ≤ (i 0).val ∧ (i 0).val < win0_7.index _ (0 : Fin 2) * 512 + 512
    omega
  | ⟨1, _⟩ =>
    show win0_7.index _ (1 : Fin 2) * 1 ≤ (i 1).val ∧ (i 1).val < win0_7.index _ (1 : Fin 2) * 1 + 1
    omega

/-- The array after the region. -/
theorem final7 : (gramDat (X0 (F := Ideal) m ρ) c).arrAt 7 cfg0.N = G7 m ρ c :=
  (gramDat (X0 (F := Ideal) m ρ) c).arrAt_eq_of_cover 7 (G7 m ρ c) (flushed7_eq m ρ c) cover7

/-! ## The four arrays, entry by entry -/

/-- The first input's inner products. -/
theorem gramP_final (i j : Fin 1024) :
    (gramDat (X0 (F := Ideal) m ρ) c).arrAt 4 cfg0.N (ix2 i j) = Cert.PairLoss.gram (xin m ρ c) i j := by
  rw [final4]; rfl

/-- The second input's inner products. -/
theorem gramT_final (i j : Fin 1024) :
    (gramDat (X0 (F := Ideal) m ρ) c).arrAt 5 cfg0.N (ix2 i j) = Cert.PairLoss.gram (yin m ρ c) i j := by
  rw [final5]; rfl

/-- The first input's squared norms. -/
theorem sqP_final (i : Fin 1024) (u : Fin 1) :
    (gramDat (X0 (F := Ideal) m ρ) c).arrAt 6 cfg0.N (ix2 i u) = Cert.PairLoss.sq (xin m ρ c) i := by
  rw [final6]; rfl

/-- The second input's squared norms. -/
theorem sqT_final (i : Fin 1024) (u : Fin 1) :
    (gramDat (X0 (F := Ideal) m ρ) c).arrAt 7 cfg0.N (ix2 i u) = Cert.PairLoss.sq (yin m ρ c) i := by
  rw [final7]; rfl

end Cert.KernelIdeal.HandValue

end
-- ==== Proof.KernelHostGlue.lean ====
import proofs.«169696_j47545287967528_2_alg».proof.Proof.KernelRun
import Idealize.ShloMosaic.Lib.Pipeline.Value
import Idealize.ShloMosaic.Lib.StableHlo.Run
import Idealize.ShloMosaic.Lib.Tactic
import Idealize.ShloMosaic.Lib.ValueIdx

/-!
# Between the two regions

Between its two regions the program transposes the two columns of squared norms into rows.  The two
transposes write two new arrays and nothing else, so the first region's four result arrays are still
what the region left; and a transposed column read at `(0, j)` is the column at `(j, 0)`.
-/

set_option maxRecDepth 16384

noncomputable section

namespace Cert.KernelIdeal.HandValue

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen Cert.KernelIdeal.Hand
open Idealize.ShloMosaic.ValueIdx

variable {F : FTy → Type} [FloatOps F]
variable (m : (ℓ : Loc nD τ sig) → Buf (Elt F) ℓ) (ρ : Dev nD → PrngReg) (c : Dev nD)

/-- The first input's inner products are untouched by the transposes. -/
theorem X2_res0 : X2 m ρ c main_v0_0 = (gramDat (X0 m ρ) c).arrAt 4 cfg0.N := by
  show StableHlo.after hostOps1 (W1 m ρ c) (Proc.devRef .tc main_v0_0) = _
  rw [StableHlo.after_of_writes_sub hostOps1 _ hostOps1_writes (by decide : main_v0_0 ∉ hostOps1_W)]
  exact W1_res0 m ρ c

/-- The second input's inner products likewise. -/
theorem X2_res1 : X2 m ρ c main_v0_1 = (gramDat (X0 m ρ) c).arrAt 5 cfg0.N := by
  show StableHlo.after hostOps1 (W1 m ρ c) (Proc.devRef .tc main_v0_1) = _
  rw [StableHlo.after_of_writes_sub hostOps1 _ hostOps1_writes (by decide : main_v0_1 ∉ hostOps1_W)]
  exact W1_res1 m ρ c

/-- The first input's column of squared norms likewise. -/
theorem X2_res2 : X2 m ρ c main_v0_2 = (gramDat (X0 m ρ) c).arrAt 6 cfg0.N := by
  show StableHlo.after hostOps1 (W1 m ρ c) (Proc.devRef .tc main_v0_2) = _
  rw [StableHlo.after_of_writes_sub hostOps1 _ hostOps1_writes (by decide : main_v0_2 ∉ hostOps1_W)]
  exact W1_res2 m ρ c

/-- The second input's column of squared norms likewise. -/
theorem X2_res3 : X2 m ρ c main_v0_3 = (gramDat (X0 m ρ) c).arrAt 7 cfg0.N := by
  show StableHlo.after hostOps1 (W1 m ρ c) (Proc.devRef .tc main_v0_3) = _
  rw [StableHlo.after_of_writes_sub hostOps1 _ hostOps1_writes (by decide : main_v0_3 ∉ hostOps1_W)]
  exact W1_res3 m ρ c

/-- The first transposed row is the transpose of the first column as the region left it. -/
theorem X2_v1_eq : (X2 m ρ c main_v1 : S1x1024.Idx → Elt F .f32)
    = transpose S1x1024 [1, 0] ((gramDat (X0 m ρ) c).arrAt 6 cfg0.N : S1024x1.Idx → Elt F .f32)
        transposes_S1024x1_S1x1024_1_0 := by
  rw [← W1_res2 m ρ c]
  show StableHlo.after hostOps1 (W1 m ρ c) (Proc.devRef .tc main_v1) = _
  after_results

/-- The second transposed row is the transpose of the second column as the region left it. -/
theorem X2_v2_eq : (X2 m ρ c main_v2 : S1x1024.Idx → Elt F .f32)
    = transpose S1x1024 [1, 0] ((gramDat (X0 m ρ) c).arrAt 7 cfg0.N : S1024x1.Idx → Elt F .f32)
        transposes_S1024x1_S1x1024_1_0 := by
  rw [← W1_res3 m ρ c]
  show StableHlo.after hostOps1 (W1 m ρ c) (Proc.devRef .tc main_v2) = _
  after_results

/-- The first input's row of squared norms at `(0, j)` is its column at `(j, 0)`. -/
theorem X2_rowP (j : Fin 1024) (u : Fin 1) :
    X2 m ρ c main_v1 (ix2 u j) = (gramDat (X0 m ρ) c).arrAt 6 cfg0.N (ix2 j u) := by
  have e := congrFun (X2_v1_eq m ρ c) (ix2 u j)
  refine e.trans ?_
  exact transpose_apply [1, 0] _ transposes_S1024x1_S1x1024_1_0 (ix2 u j) (ix2 j u)
    (fun b => match b with
      | ⟨0, _⟩ => rfl
      | ⟨1, _⟩ => rfl)

/-- The second input's row of squared norms at `(0, j)` is its column at `(j, 0)`. -/
theorem X2_rowT (j : Fin 1024) (u : Fin 1) :
    X2 m ρ c main_v2 (ix2 u j) = (gramDat (X0 m ρ) c).arrAt 7 cfg0.N (ix2 j u) := by
  have e := congrFun (X2_v2_eq m ρ c) (ix2 u j)
  refine e.trans ?_
  exact transpose_apply [1, 0] _ transposes_S1024x1_S1x1024_1_0 (ix2 u j) (ix2 j u)
    (fun b => match b with
      | ⟨0, _⟩ => rfl
      | ⟨1, _⟩ => rfl)

end Cert.KernelIdeal.HandValue

end
-- ==== Proof.KernelLossResult.lean ====
/-
  The kernel's result is the specification's loss of the two inputs.

  The first region leaves the inputs' inner products and squared norms in its four output arrays; the two
  transposes leave those arrays in place and turn each squared-norm column into a row; so the blocks the second
  region reads hold the specification's quantities, its one-entry output is the loss, and so is the scalar the
  final reshape makes of it.
-/
import proofs.«169696_j47545287967528_2_alg».proof.Proof.KernelLossValue
import proofs.«169696_j47545287967528_2_alg».proof.Proof.KernelGramArrays
import proofs.«169696_j47545287967528_2_alg».proof.Proof.KernelHostGlue

set_option maxRecDepth 16384

noncomputable section

namespace Cert.KernelIdeal.HandValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Hand

open Cert.PairLoss Cert.KernelIdeal.HandLossRun Idealize.ShloMosaic.ValueIdx

variable (m : (ℓ : Loc nD τ sig) → Buf (Elt Ideal) ℓ) (ρ : Dev nD → PrngReg) (c : Dev nD)

/-- The blocks the second region reads hold the inputs' inner products and squared norms. -/
theorem bandsHold : BandsHold (X2 (F := Ideal) m ρ) c (xin m ρ c) (yin m ρ c) :=
  bandsHold_from m ρ c (xin m ρ c) (yin m ρ c)
    (gramP_final m ρ c) (gramT_final m ρ c) (sqP_final m ρ c) (sqT_final m ρ c)
    (X2_res0 m ρ c) (X2_res1 m ρ c) (X2_res2 m ρ c) (X2_res3 m ρ c) (X2_rowP m ρ c) (X2_rowT m ρ c)

/-- The second region's one-entry output array ends holding the loss of the inputs. -/
theorem cell_final :
    (lossDat (X2 (F := Ideal) m ρ) c).arrAt 6 cfg1.N
      = fun _ => loss (xin m ρ c) (yin m ρ c) :=
  cell_final_of m ρ c _ _ (bandsHold m ρ c)

/-- The program's scalar result is the loss of the inputs. -/
theorem result :
    W4 (F := Ideal) m ρ c (Proc.devRef .tc main_v4)
      = fun _ => loss (xin m ρ c) (yin m ρ c) :=
  result_of m ρ c _ _ (bandsHold m ρ c)

end Cert.KernelIdeal.HandValue

end
-- ==== Proof.RefRunOps.lean ====
/-
  The reference program as a line of host operations. The printed @main is three consecutive windows of statements;
  a statement is one operation, or the call of an outlined function, whose meaning is its body's operations run on the
  caller's operands over the call's own buffers. Here every call is replaced by those operations, in place, so that a
  window is one straight line: window 0 and window 1 are 146 operations each (per input: the squared row norms, the Gram
  matrix, the clamped squared distances, then the run-time enumeration of the strictly-upper-triangular pairs — mask,
  running count, bincount, running count again, row and column of each pair by floor division and remainder), window 2
  the last 20 (second gather, roots, squared difference, its sum and the division by the number of pairs). Each window
  is cut into pieces where one stage of the computation ends and the next begins — every call's operations are a piece of
  their own (with the scalar constant passed to it, when there is one), and so is each stretch of @main's own operations
  between two calls; a window's list is its pieces appended, the program's the windows appended. Beside each piece is the
  list of the buffers its operations write.
-/
import proofs.«169696_j47545287967528_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Operations 0–18 of window 0 (of its 146). -/
abbrev ops0a : List (HloOp τ sig (Elt F)) :=
  [ StableHlo.binary main_arg0 main_arg0 main_v0 (mulf : (⟨S1024x8192, .f32⟩ : BufTy).Contents (Elt F) → (⟨S1024x8192, .f32⟩ : BufTy).Contents (Elt F) → (⟨S1024x8192, .f32⟩ : BufTy).Contents (Elt F)),
    StableHlo.nullary main_cst (constant S_ .f32 0x00000000#32),
    StableHlo.binary main_v0 main_cst main_v1 ((fun x v => Host.reduceAdd x v reducesTo_S1024x8192_S1024_d1 h_S_) : (⟨S1024x8192, .f32⟩ : BufTy).Contents (Elt F) → (⟨S_, .f32⟩ : BufTy).Contents (Elt F) → (⟨S1024, .f32⟩ : BufTy).Contents (Elt F)),
    StableHlo.unary main_v1 main_v2 (broadcastInDim S1024x1 ![0] bcast_S1024_S1024x1_0 : (⟨S1024, .f32⟩ : BufTy).Contents (Elt F) → (⟨S1024x1, .f32⟩ : BufTy).Contents (Elt F)),
    StableHlo.unary main_v1 main_v3 (broadcastInDim S1x1024 ![1] bcast_S1024_S1x1024_1 : (⟨S1024, .f32⟩ : BufTy).Contents (Elt F) → (⟨S1x1024, .f32⟩ : BufTy).Contents (Elt F)),
    StableHlo.unary main_v2 main_v4 (broadcastInDim S1024x1024 ![0, 1] bcast_S1024x1_S1024x1024_0_1 : (⟨S1024x1, .f32⟩ : BufTy).Contents (Elt F) → (⟨S1024x1024, .f32⟩ : BufTy).Contents (Elt F)),
    StableHlo.unary main_v3 main_v5 (broadcastInDim S1024x1024 ![0, 1] bcast_S1x1024_S1024x1024_0_1 : (⟨S1x1024, .f32⟩ : BufTy).Contents (Elt F) → (⟨S1024x1024, .f32⟩ : BufTy).Contents (Elt F)),
    StableHlo.binary main_v4 main_v5 main_v6 (addf : (⟨S1024x1024, .f32⟩ : BufTy).Contents (Elt F) → (⟨S1024x1024, .f32⟩ : BufTy).Contents (Elt F) → (⟨S1024x1024, .f32⟩ : BufTy).Contents (Elt F)),
    StableHlo.unary main_arg0 main_v7 ((transpose S8192x1024 [1, 0] · transposes_S1024x8192_S8192x1024_1_0) : (⟨S1024x8192, .f32⟩ : BufTy).Contents (Elt F) → (⟨S8192x1024, .f32⟩ : BufTy).Contents (Elt F)),
    StableHlo.binary main_arg0 main_v7 main_v8 ((fun l r => Host.dotGeneral dot_S1024x8192_S8192x1024_S1024x1024_1_0_0_1_n_n none l r) : (⟨S1024x8192, .f32⟩ : BufTy).Contents (Elt F) → (⟨S8192x1024, .f32⟩ : BufTy).Contents (Elt F) → (⟨S1024x1024, .f32⟩ : BufTy).Contents (Elt F)),
    StableHlo.nullary main_cst_0 (constant S_ .f32 0x40000000#32),
    StableHlo.unary main_cst_0 main_v9 (broadcastInDim S1024x1024 ![] bcast_S_S1024x1024 : (⟨S_, .f32⟩ : BufTy).Contents (Elt F) → (⟨S1024x1024, .f32⟩ : BufTy).Contents (Elt F)),
    StableHlo.binary main_v9 main_v8 main_v10 (mulf : (⟨S1024x1024, .f32⟩ : BufTy).Contents (Elt F) → (⟨S1024x1024, .f32⟩ : BufTy).Contents (Elt F) → (⟨S1024x1024, .f32⟩ : BufTy).Contents (Elt F)),
    StableHlo.binary main_v6 main_v10 main_v11 (subf : (⟨S1024x1024, .f32⟩ : BufTy).Contents (Elt F) → (⟨S1024x1024, .f32⟩ : BufTy).Contents (Elt F) → (⟨S1024x1024, .f32⟩ : BufTy).Contents (Elt F)),
    StableHlo.nullary main_cst_1 (constant S_ .f32 0x00000000#32),
    StableHlo.unary main_cst_1 main_v12 (broadcastInDim S1024x1024 ![] bcast_S_S1024x1024 : (⟨S_, .f32⟩ : BufTy).Contents (Elt F) → (⟨S1024x1024, .f32⟩ : BufTy).Contents (Elt F)),
    StableHlo.binary main_v11 main_v12 main_v13 (maximumf : (⟨S1024x1024, .f32⟩ : BufTy).Contents (Elt F) → (⟨S1024x1024, .f32⟩ : BufTy).Contents (Elt F) → (⟨S1024x1024, .f32⟩ : BufTy).Contents (Elt F)),
    StableHlo.nullary main_cst_2 (constant S_ .f32 0x3F800000#32),
    StableHlo.unary main_cst_2 main_v14 (broadcastInDim S1024x1024 ![] bcast_S_S1024x1024 : (⟨S_, .f32⟩ : BufTy).Contents (Elt F) → (⟨S1024x1024, .f32⟩ : BufTy).Contents (Elt F)) ]
/-- The buffers those operations write, in order. -/
abbrev ops0a_W : List (Ref sig .tc) :=
  [main_v0, main_cst, main_v1, main_v2, main_v3, main_v4, main_v5, main_v6, main_v7, main_v8, main_cst_0, main_v9, main_v10, main_v11, main_cst_1, main_v12, main_v13, main_cst_2, main_v14]

/-- Operations 19–27 of window 0 (of its 146). -/
abbrev ops0b : List (HloOp τ sig (Elt F)) :=
  [ StableHlo.TRef.nullary main_call0.v0 (iotaInDim S1024x1024 32 0),
    StableHlo.TRef.nullary main_call0.c (constantI S_ 32 0#32),
    StableHlo.TRef.unary main_call0.c main_call0.v1 (broadcastInDim S1024x1024 ![] bcast_S_S1024x1024),
    StableHlo.TRef.binary main_call0.v0 main_call0.v1 main_call0.v2 addi,
    StableHlo.TRef.nullary main_call0.v3 (iotaInDim S1024x1024 32 1),
    StableHlo.TRef.binary main_call0.v2 main_call0.v3 main_call0.v4 (cmpi .sge),
    StableHlo.TRef.nullary main_call0.cst (constant S_ .f32 0x00000000#32),
    StableHlo.TRef.unary main_call0.cst main_call0.v5 (broadcastInDim S1024x1024 ![] bcast_S_S1024x1024),
    StableHlo.TRef.ternary main_call0.v4 main_call0.v5 (.of main_v14 : StableHlo.TRef sig ⟨S1024x1024, .f32⟩) main_call0.v6 select ]
/-- The buffers those operations write, in order. -/
abbrev ops0b_W : List (Ref sig .tc) :=
  [main_call0.v0.ref, main_call0.c.ref, main_call0.v1.ref, main_call0.v2.ref, main_call0.v3.ref, main_call0.v4.ref, main_call0.cst.ref, main_call0.v5.ref, main_call0.v6.ref]

/-- Operations 28–30 of window 0 (of its 146). -/
abbrev ops0c : List (HloOp τ sig (Elt F)) :=
  [ StableHlo.nullary main_cst_3 (constant S_ .f32 0x00000000#32),
    StableHlo.unary main_cst_3 main_v16 (broadcastInDim S1024x1024 ![] bcast_S_S1024x1024 : (⟨S_, .f32⟩ : BufTy).Contents (Elt F) → (⟨S1024x1024, .f32⟩ : BufTy).Contents (Elt F)),
    StableHlo.binary main_v15 main_v16 main_v17 (cmpf .une : (⟨S1024x1024, .f32⟩ : BufTy).Contents (Elt F) → (⟨S1024x1024, .f32⟩ : BufTy).Contents (Elt F) → (⟨S1024x1024, .i1⟩ : BufTy).Contents (Elt F)) ]
/-- The buffers those operations write, in order. -/
abbrev ops0c_W : List (Ref sig .tc) :=
  [main_cst_3, main_v16, main_v17]

/-- Operations 31–35 of window 0 (of its 146). -/
abbrev ops0d : List (HloOp τ sig (Elt F)) :=
  [ StableHlo.TRef.reshape (.of main_v17 : StableHlo.TRef sig ⟨S1024x1024, .i1⟩) main_call1.v0 rfl shapeCasts_S1024x1024_S1048576,
    StableHlo.TRef.unary main_call1.v0 main_call1.v1 (extui 32 · natLt_1_32),
    StableHlo.TRef.nullary main_call1.call0.c (constantI S_ 32 0#32),
    StableHlo.TRef.unary main_call1.call0.c main_call1.call0.v0 (broadcastInDim S_ ![] bcast_S_S_),
    StableHlo.TRef.binary main_call1.v1 main_call1.call0.v0 main_call1.call0.v1 (fun x v => Host.reduceWindow IntOp.addi ![1048576] ![1] ![1048575] ![0] x v reduceWindows_S1048576_S1048576_w1048576s1p1048575_0 h_S_) ]
/-- The buffers those operations write, in order. -/
abbrev ops0d_W : List (Ref sig .tc) :=
  [main_call1.v0.ref, main_call1.v1.ref, main_call1.call0.c.ref, main_call1.call0.v0.ref, main_call1.call0.v1.ref]

/-- Operations 36–38 of window 0 (of its 146). -/
abbrev ops0e : List (HloOp τ sig (Elt F)) :=
  [ StableHlo.nullary main_c (constantI S_ 32 0#32),
    StableHlo.unary main_c main_v19 (broadcastInDim S523776 ![] bcast_S_S523776 : (⟨S_, .i32⟩ : BufTy).Contents (Elt F) → (⟨S523776, .i32⟩ : BufTy).Contents (Elt F)),
    StableHlo.nullary main_c_4 (constantI S_ 32 0#32) ]
/-- The buffers those operations write, in order. -/
abbrev ops0e_W : List (Ref sig .tc) :=
  [main_c, main_v19, main_c_4]

/-- Operations 39–41 of window 0 (of its 146). -/
abbrev ops0f : List (HloOp τ sig (Elt F)) :=
  [ StableHlo.TRef.unary (.of main_c_4 : StableHlo.TRef sig ⟨S_, .i32⟩) main_call2.v0 id,
    StableHlo.TRef.unary main_call2.v0 main_call2.v1 (broadcastInDim S1048576 ![] bcast_S_S1048576),
    StableHlo.TRef.binary main_call2.v1 (.of main_v18 : StableHlo.TRef sig ⟨S1048576, .i32⟩) main_call2.v2 maxsi ]
/-- The buffers those operations write, in order. -/
abbrev ops0f_W : List (Ref sig .tc) :=
  [main_call2.v0.ref, main_call2.v1.ref, main_call2.v2.ref]

/-- Operations 42–52 of window 0 (of its 146). -/
abbrev ops0g : List (HloOp τ sig (Elt F)) :=
  [ StableHlo.nullary main_c_5 (constantI S_ 32 0#32),
    StableHlo.unary main_c_5 main_v21 (broadcastInDim S1048576 ![] bcast_S_S1048576 : (⟨S_, .i32⟩ : BufTy).Contents (Elt F) → (⟨S1048576, .i32⟩ : BufTy).Contents (Elt F)),
    StableHlo.binary main_v20 main_v21 main_v22 (cmpi .slt : (⟨S1048576, .i32⟩ : BufTy).Contents (Elt F) → (⟨S1048576, .i32⟩ : BufTy).Contents (Elt F) → (⟨S1048576, .i1⟩ : BufTy).Contents (Elt F)),
    StableHlo.nullary main_c_6 (constantI S_ 32 523776#32),
    StableHlo.unary main_c_6 main_v23 (broadcastInDim S1048576 ![] bcast_S_S1048576 : (⟨S_, .i32⟩ : BufTy).Contents (Elt F) → (⟨S1048576, .i32⟩ : BufTy).Contents (Elt F)),
    StableHlo.binary main_v20 main_v23 main_v24 (addi : (⟨S1048576, .i32⟩ : BufTy).Contents (Elt F) → (⟨S1048576, .i32⟩ : BufTy).Contents (Elt F) → (⟨S1048576, .i32⟩ : BufTy).Contents (Elt F)),
    StableHlo.ternary main_v22 main_v24 main_v20 main_v25 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.unary main_v25 main_v26 (broadcastInDim S1048576x1 ![0] bcast_S1048576_S1048576x1_0 : (⟨S1048576, .i32⟩ : BufTy).Contents (Elt F) → (⟨S1048576x1, .i32⟩ : BufTy).Contents (Elt F)),
    StableHlo.nullary main_c_7 (constantI S_ 32 1#32),
    StableHlo.unary main_c_7 main_v27 (broadcastInDim S1048576 ![] bcast_S_S1048576 : (⟨S_, .i32⟩ : BufTy).Contents (Elt F) → (⟨S1048576, .i32⟩ : BufTy).Contents (Elt F)),
    StableHlo.ternary main_v19 main_v26 main_v27 main_v28 ((fun x i u => Host.scatter scatter_S523776_S1048576x1_S1048576_n_0_0_1 IntOp.addi x i u) : (⟨S523776, .i32⟩ : BufTy).Contents (Elt F) → (⟨S1048576x1, .i32⟩ : BufTy).Contents (Elt F) → (⟨S1048576, .i32⟩ : BufTy).Contents (Elt F) → (⟨S523776, .i32⟩ : BufTy).Contents (Elt F)) ]
/-- The buffers those operations write, in order. -/
abbrev ops0g_W : List (Ref sig .tc) :=
  [main_c_5, main_v21, main_v22, main_c_6, main_v23, main_v24, main_v25, main_v26, main_c_7, main_v27, main_v28]

/-- Operations 53–55 of window 0 (of its 146). -/
abbrev ops0h : List (HloOp τ sig (Elt F)) :=
  [ StableHlo.TRef.nullary main_call3.call0.c (constantI S_ 32 0#32),
    StableHlo.TRef.unary main_call3.call0.c main_call3.call0.v0 (broadcastInDim S_ ![] bcast_S_S_),
    StableHlo.TRef.binary (.of main_v28 : StableHlo.TRef sig ⟨S523776, .i32⟩) main_call3.call0.v0 main_call3.call0.v1 (fun x v => Host.reduceWindow IntOp.addi ![523776] ![1] ![523775] ![0] x v reduceWindows_S523776_S523776_w523776s1p523775_0 h_S_) ]
/-- The buffers those operations write, in order. -/
abbrev ops0h_W : List (Ref sig .tc) :=
  [main_call3.call0.c.ref, main_call3.call0.v0.ref, main_call3.call0.v1.ref]

/-- Operations 56–72 of window 0 (of its 146). -/
abbrev ops0i : List (HloOp τ sig (Elt F)) :=
  [ StableHlo.nullary main_c_8 (constantI S_ 32 1024#32),
    StableHlo.TRef.unary (.of main_c_8 : StableHlo.TRef sig ⟨S_, .i32⟩) main_call4.v0 (broadcastInDim S523776 ![] bcast_S_S523776),
    StableHlo.TRef.binary (.of main_v29 : StableHlo.TRef sig ⟨S523776, .i32⟩) main_call4.v0 main_call4.v1 Host.divsi,
    StableHlo.TRef.unary (.of main_v29 : StableHlo.TRef sig ⟨S523776, .i32⟩) main_call4.v2 signi,
    StableHlo.TRef.unary (.of main_c_8 : StableHlo.TRef sig ⟨S_, .i32⟩) main_call4.v3 signi,
    StableHlo.TRef.unary main_call4.v3 main_call4.v4 (broadcastInDim S523776 ![] bcast_S_S523776),
    StableHlo.TRef.binary main_call4.v2 main_call4.v4 main_call4.v5 (cmpi .ne),
    StableHlo.TRef.unary (.of main_c_8 : StableHlo.TRef sig ⟨S_, .i32⟩) main_call4.v6 (broadcastInDim S523776 ![] bcast_S_S523776),
    StableHlo.TRef.binary (.of main_v29 : StableHlo.TRef sig ⟨S523776, .i32⟩) main_call4.v6 main_call4.v7 Host.remsi,
    StableHlo.TRef.nullary main_call4.c (constantI S_ 32 0#32),
    StableHlo.TRef.unary main_call4.c main_call4.v8 (broadcastInDim S523776 ![] bcast_S_S523776),
    StableHlo.TRef.binary main_call4.v7 main_call4.v8 main_call4.v9 (cmpi .ne),
    StableHlo.TRef.binary main_call4.v5 main_call4.v9 main_call4.v10 andi,
    StableHlo.TRef.nullary main_call4.c_0 (constantI S_ 32 1#32),
    StableHlo.TRef.unary main_call4.c_0 main_call4.v11 (broadcastInDim S523776 ![] bcast_S_S523776),
    StableHlo.TRef.binary main_call4.v1 main_call4.v11 main_call4.v12 subi,
    StableHlo.TRef.ternary main_call4.v10 main_call4.v12 main_call4.v1 main_call4.call0.v0 select ]
/-- The buffers those operations write, in order. -/
abbrev ops0i_W : List (Ref sig .tc) :=
  [main_c_8, main_call4.v0.ref, main_call4.v1.ref, main_call4.v2.ref, main_call4.v3.ref, main_call4.v4.ref, main_call4.v5.ref, main_call4.v6.ref, main_call4.v7.ref, main_call4.c.ref, main_call4.v8.ref, main_call4.v9.ref, main_call4.v10.ref, main_call4.c_0.ref, main_call4.v11.ref, main_call4.v12.ref, main_call4.call0.v0.ref]

/-- Operations 73–94 of window 0 (of its 146). -/
abbrev ops0j : List (HloOp τ sig (Elt F)) :=
  [ StableHlo.nullary main_c_9 (constantI S_ 32 1024#32),
    StableHlo.TRef.unary (.of main_c_9 : StableHlo.TRef sig ⟨S_, .i32⟩) main_call5.v0 id,
    StableHlo.TRef.nullary main_call5.c (constantI S_ 32 0#32),
    StableHlo.TRef.binary main_call5.v0 main_call5.c main_call5.v1 (cmpi .eq),
    StableHlo.TRef.nullary main_call5.c_0 (constantI S_ 32 1#32),
    StableHlo.TRef.ternary main_call5.v1 main_call5.c_0 main_call5.v0 main_call5.call0.v0 select,
    StableHlo.TRef.unary main_call5.call0.v0 main_call5.v3 (broadcastInDim S523776 ![] bcast_S_S523776),
    StableHlo.TRef.binary (.of main_v30 : StableHlo.TRef sig ⟨S523776, .i32⟩) main_call5.v3 main_call5.v4 Host.remsi,
    StableHlo.TRef.nullary main_call5.c_1 (constantI S_ 32 0#32),
    StableHlo.TRef.unary main_call5.c_1 main_call5.v5 (broadcastInDim S523776 ![] bcast_S_S523776),
    StableHlo.TRef.binary main_call5.v4 main_call5.v5 main_call5.v6 (cmpi .ne),
    StableHlo.TRef.nullary main_call5.c_2 (constantI S_ 32 0#32),
    StableHlo.TRef.unary main_call5.c_2 main_call5.v7 (broadcastInDim S523776 ![] bcast_S_S523776),
    StableHlo.TRef.binary main_call5.v4 main_call5.v7 main_call5.v8 (cmpi .slt),
    StableHlo.TRef.nullary main_call5.c_3 (constantI S_ 32 0#32),
    StableHlo.TRef.binary main_call5.call0.v0 main_call5.c_3 main_call5.v9 (cmpi .slt),
    StableHlo.TRef.unary main_call5.v9 main_call5.v10 (broadcastInDim S523776 ![] bcast_S_S523776),
    StableHlo.TRef.binary main_call5.v8 main_call5.v10 main_call5.v11 (cmpi .ne),
    StableHlo.TRef.binary main_call5.v11 main_call5.v6 main_call5.v12 andi,
    StableHlo.TRef.unary main_call5.call0.v0 main_call5.v13 (broadcastInDim S523776 ![] bcast_S_S523776),
    StableHlo.TRef.binary main_call5.v4 main_call5.v13 main_call5.v14 addi,
    StableHlo.TRef.ternary main_call5.v12 main_call5.v14 main_call5.v4 main_call5.v15 select ]
/-- The buffers those operations write, in order. -/
abbrev ops0j_W : List (Ref sig .tc) :=
  [main_c_9, main_call5.v0.ref, main_call5.c.ref, main_call5.v1.ref, main_call5.c_0.ref, main_call5.call0.v0.ref, main_call5.v3.ref, main_call5.v4.ref, main_call5.c_1.ref, main_call5.v5.ref, main_call5.v6.ref, main_call5.c_2.ref, main_call5.v7.ref, main_call5.v8.ref, main_call5.c_3.ref, main_call5.v9.ref, main_call5.v10.ref, main_call5.v11.ref, main_call5.v12.ref, main_call5.v13.ref, main_call5.v14.ref, main_call5.v15.ref]

/-- Operations 95–111 of window 0 (of its 146). -/
abbrev ops0k : List (HloOp τ sig (Elt F)) :=
  [ StableHlo.nullary main_c_10 (constantI S_ 32 1#32),
    StableHlo.TRef.unary (.of main_c_10 : StableHlo.TRef sig ⟨S_, .i32⟩) main_call6.v0 (broadcastInDim S523776 ![] bcast_S_S523776),
    StableHlo.TRef.binary (.of main_v29 : StableHlo.TRef sig ⟨S523776, .i32⟩) main_call6.v0 main_call6.v1 Host.divsi,
    StableHlo.TRef.unary (.of main_v29 : StableHlo.TRef sig ⟨S523776, .i32⟩) main_call6.v2 signi,
    StableHlo.TRef.unary (.of main_c_10 : StableHlo.TRef sig ⟨S_, .i32⟩) main_call6.v3 signi,
    StableHlo.TRef.unary main_call6.v3 main_call6.v4 (broadcastInDim S523776 ![] bcast_S_S523776),
    StableHlo.TRef.binary main_call6.v2 main_call6.v4 main_call6.v5 (cmpi .ne),
    StableHlo.TRef.unary (.of main_c_10 : StableHlo.TRef sig ⟨S_, .i32⟩) main_call6.v6 (broadcastInDim S523776 ![] bcast_S_S523776),
    StableHlo.TRef.binary (.of main_v29 : StableHlo.TRef sig ⟨S523776, .i32⟩) main_call6.v6 main_call6.v7 Host.remsi,
    StableHlo.TRef.nullary main_call6.c (constantI S_ 32 0#32),
    StableHlo.TRef.unary main_call6.c main_call6.v8 (broadcastInDim S523776 ![] bcast_S_S523776),
    StableHlo.TRef.binary main_call6.v7 main_call6.v8 main_call6.v9 (cmpi .ne),
    StableHlo.TRef.binary main_call6.v5 main_call6.v9 main_call6.v10 andi,
    StableHlo.TRef.nullary main_call6.c_0 (constantI S_ 32 1#32),
    StableHlo.TRef.unary main_call6.c_0 main_call6.v11 (broadcastInDim S523776 ![] bcast_S_S523776),
    StableHlo.TRef.binary main_call6.v1 main_call6.v11 main_call6.v12 subi,
    StableHlo.TRef.ternary main_call6.v10 main_call6.v12 main_call6.v1 main_call6.call0.v0 select ]
/-- The buffers those operations write, in order. -/
abbrev ops0k_W : List (Ref sig .tc) :=
  [main_c_10, main_call6.v0.ref, main_call6.v1.ref, main_call6.v2.ref, main_call6.v3.ref, main_call6.v4.ref, main_call6.v5.ref, main_call6.v6.ref, main_call6.v7.ref, main_call6.c.ref, main_call6.v8.ref, main_call6.v9.ref, main_call6.v10.ref, main_call6.c_0.ref, main_call6.v11.ref, main_call6.v12.ref, main_call6.call0.v0.ref]

/-- Operations 112–133 of window 0 (of its 146). -/
abbrev ops0l : List (HloOp τ sig (Elt F)) :=
  [ StableHlo.nullary main_c_11 (constantI S_ 32 1024#32),
    StableHlo.TRef.unary (.of main_c_11 : StableHlo.TRef sig ⟨S_, .i32⟩) main_call7.v0 id,
    StableHlo.TRef.nullary main_call7.c (constantI S_ 32 0#32),
    StableHlo.TRef.binary main_call7.v0 main_call7.c main_call7.v1 (cmpi .eq),
    StableHlo.TRef.nullary main_call7.c_0 (constantI S_ 32 1#32),
    StableHlo.TRef.ternary main_call7.v1 main_call7.c_0 main_call7.v0 main_call7.call0.v0 select,
    StableHlo.TRef.unary main_call7.call0.v0 main_call7.v3 (broadcastInDim S523776 ![] bcast_S_S523776),
    StableHlo.TRef.binary (.of main_v32 : StableHlo.TRef sig ⟨S523776, .i32⟩) main_call7.v3 main_call7.v4 Host.remsi,
    StableHlo.TRef.nullary main_call7.c_1 (constantI S_ 32 0#32),
    StableHlo.TRef.unary main_call7.c_1 main_call7.v5 (broadcastInDim S523776 ![] bcast_S_S523776),
    StableHlo.TRef.binary main_call7.v4 main_call7.v5 main_call7.v6 (cmpi .ne),
    StableHlo.TRef.nullary main_call7.c_2 (constantI S_ 32 0#32),
    StableHlo.TRef.unary main_call7.c_2 main_call7.v7 (broadcastInDim S523776 ![] bcast_S_S523776),
    StableHlo.TRef.binary main_call7.v4 main_call7.v7 main_call7.v8 (cmpi .slt),
    StableHlo.TRef.nullary main_call7.c_3 (constantI S_ 32 0#32),
    StableHlo.TRef.binary main_call7.call0.v0 main_call7.c_3 main_call7.v9 (cmpi .slt),
    StableHlo.TRef.unary main_call7.v9 main_call7.v10 (broadcastInDim S523776 ![] bcast_S_S523776),
    StableHlo.TRef.binary main_call7.v8 main_call7.v10 main_call7.v11 (cmpi .ne),
    StableHlo.TRef.binary main_call7.v11 main_call7.v6 main_call7.v12 andi,
    StableHlo.TRef.unary main_call7.call0.v0 main_call7.v13 (broadcastInDim S523776 ![] bcast_S_S523776),
    StableHlo.TRef.binary main_call7.v4 main_call7.v13 main_call7.v14 addi,
    StableHlo.TRef.ternary main_call7.v12 main_call7.v14 main_call7.v4 main_call7.v15 select ]
/-- The buffers those operations write, in order. -/
abbrev ops0l_W : List (Ref sig .tc) :=
  [main_c_11, main_call7.v0.ref, main_call7.c.ref, main_call7.v1.ref, main_call7.c_0.ref, main_call7.call0.v0.ref, main_call7.v3.ref, main_call7.v4.ref, main_call7.c_1.ref, main_call7.v5.ref, main_call7.v6.ref, main_call7.c_2.ref, main_call7.v7.ref, main_call7.v8.ref, main_call7.c_3.ref, main_call7.v9.ref, main_call7.v10.ref, main_call7.v11.ref, main_call7.v12.ref, main_call7.v13.ref, main_call7.v14.ref, main_call7.v15.ref]

/-- Operations 134–145 of window 0 (of its 146). -/
abbrev ops0m : List (HloOp τ sig (Elt F)) :=
  [ StableHlo.nullary main_c_12 (constantI S_ 32 0#32),
    StableHlo.unary main_c_12 main_v34 (broadcastInDim S523776 ![] bcast_S_S523776 : (⟨S_, .i32⟩ : BufTy).Contents (Elt F) → (⟨S523776, .i32⟩ : BufTy).Contents (Elt F)),
    StableHlo.binary main_v31 main_v34 main_v35 (cmpi .slt : (⟨S523776, .i32⟩ : BufTy).Contents (Elt F) → (⟨S523776, .i32⟩ : BufTy).Contents (Elt F) → (⟨S523776, .i1⟩ : BufTy).Contents (Elt F)),
    StableHlo.nullary main_c_13 (constantI S_ 32 1024#32),
    StableHlo.unary main_c_13 main_v36 (broadcastInDim S523776 ![] bcast_S_S523776 : (⟨S_, .i32⟩ : BufTy).Contents (Elt F) → (⟨S523776, .i32⟩ : BufTy).Contents (Elt F)),
    StableHlo.binary main_v31 main_v36 main_v37 (addi : (⟨S523776, .i32⟩ : BufTy).Contents (Elt F) → (⟨S523776, .i32⟩ : BufTy).Contents (Elt F) → (⟨S523776, .i32⟩ : BufTy).Contents (Elt F)),
    StableHlo.ternary main_v35 main_v37 main_v31 main_v38 (select : (⟨S523776, .i1⟩ : BufTy).Contents (Elt F) → (⟨S523776, .i32⟩ : BufTy).Contents (Elt F) → (⟨S523776, .i32⟩ : BufTy).Contents (Elt F) → (⟨S523776, .i32⟩ : BufTy).Contents (Elt F)),
    StableHlo.nullary main_c_14 (constantI S_ 32 0#32),
    StableHlo.unary main_c_14 main_v39 (broadcastInDim S523776 ![] bcast_S_S523776 : (⟨S_, .i32⟩ : BufTy).Contents (Elt F) → (⟨S523776, .i32⟩ : BufTy).Contents (Elt F)),
    StableHlo.binary main_v33 main_v39 main_v40 (cmpi .slt : (⟨S523776, .i32⟩ : BufTy).Contents (Elt F) → (⟨S523776, .i32⟩ : BufTy).Contents (Elt F) → (⟨S523776, .i1⟩ : BufTy).Contents (Elt F)),
    StableHlo.nullary main_c_15 (constantI S_ 32 1024#32),
    StableHlo.unary main_c_15 main_v41 (broadcastInDim S523776 ![] bcast_S_S523776 : (⟨S_, .i32⟩ : BufTy).Contents (Elt F) → (⟨S523776, .i32⟩ : BufTy).Contents (Elt F)) ]
/-- The buffers those operations write, in order. -/
abbrev ops0m_W : List (Ref sig .tc) :=
  [main_c_12, main_v34, main_v35, main_c_13, main_v36, main_v37, main_v38, main_c_14, main_v39, main_v40, main_c_15, main_v41]

/-- Window 0: its 146 operations, in order. -/
abbrev ops0 : List (HloOp τ sig (Elt F)) :=
  ops0a ++ (ops0b ++ (ops0c ++ (ops0d ++ (ops0e ++ (ops0f ++ (ops0g ++ (ops0h ++ (ops0i ++ (ops0j ++ (ops0k ++ (ops0l ++ ops0m)))))))))))

/-- Operations 0–6 of window 1 (of its 146). -/
abbrev ops1a : List (HloOp τ sig (Elt F)) :=
  [ StableHlo.binary main_v33 main_v41 main_v42 (addi : (⟨S523776, .i32⟩ : BufTy).Contents (Elt F) → (⟨S523776, .i32⟩ : BufTy).Contents (Elt F) → (⟨S523776, .i32⟩ : BufTy).Contents (Elt F)),
    StableHlo.ternary main_v40 main_v42 main_v33 main_v43 (select : (⟨S523776, .i1⟩ : BufTy).Contents (Elt F) → (⟨S523776, .i32⟩ : BufTy).Contents (Elt F) → (⟨S523776, .i32⟩ : BufTy).Contents (Elt F) → (⟨S523776, .i32⟩ : BufTy).Contents (Elt F)),
    StableHlo.unary main_v38 main_v44 (broadcastInDim S523776x1 ![0] bcast_S523776_S523776x1_0 : (⟨S523776, .i32⟩ : BufTy).Contents (Elt F) → (⟨S523776x1, .i32⟩ : BufTy).Contents (Elt F)),
    StableHlo.unary main_v43 main_v45 (broadcastInDim S523776x1 ![0] bcast_S523776_S523776x1_0 : (⟨S523776, .i32⟩ : BufTy).Contents (Elt F) → (⟨S523776x1, .i32⟩ : BufTy).Contents (Elt F)),
    StableHlo.binary main_v44 main_v45 main_v46 ((fun a b => concatenate S523776x2 1 [⟨S523776x1, a⟩, ⟨S523776x1, b⟩] concatenates_S523776x1_S523776x1_S523776x2_d1) : (⟨S523776x1, .i32⟩ : BufTy).Contents (Elt F) → (⟨S523776x1, .i32⟩ : BufTy).Contents (Elt F) → (⟨S523776x2, .i32⟩ : BufTy).Contents (Elt F)),
    StableHlo.binary main_v13 main_v46 main_v47 ((fun x i => Host.gather gather_S1024x1024_S523776x2_S523776_n_01_n_n_01_1_11 x i) : (⟨S1024x1024, .f32⟩ : BufTy).Contents (Elt F) → (⟨S523776x2, .i32⟩ : BufTy).Contents (Elt F) → (⟨S523776, .f32⟩ : BufTy).Contents (Elt F)),
    StableHlo.unary main_v47 main_v48 (Host.sqrt : (⟨S523776, .f32⟩ : BufTy).Contents (Elt F) → (⟨S523776, .f32⟩ : BufTy).Contents (Elt F)) ]
/-- The buffers those operations write, in order. -/
abbrev ops1a_W : List (Ref sig .tc) :=
  [main_v42, main_v43, main_v44, main_v45, main_v46, main_v47, main_v48]

/-- Operations 7–25 of window 1 (of its 146). -/
abbrev ops1b : List (HloOp τ sig (Elt F)) :=
  [ StableHlo.binary main_arg1 main_arg1 main_v49 (mulf : (⟨S1024x8192, .f32⟩ : BufTy).Contents (Elt F) → (⟨S1024x8192, .f32⟩ : BufTy).Contents (Elt F) → (⟨S1024x8192, .f32⟩ : BufTy).Contents (Elt F)),
    StableHlo.nullary main_cst_16 (constant S_ .f32 0x00000000#32),
    StableHlo.binary main_v49 main_cst_16 main_v50 ((fun x v => Host.reduceAdd x v reducesTo_S1024x8192_S1024_d1 h_S_) : (⟨S1024x8192, .f32⟩ : BufTy).Contents (Elt F) → (⟨S_, .f32⟩ : BufTy).Contents (Elt F) → (⟨S1024, .f32⟩ : BufTy).Contents (Elt F)),
    StableHlo.unary main_v50 main_v51 (broadcastInDim S1024x1 ![0] bcast_S1024_S1024x1_0 : (⟨S1024, .f32⟩ : BufTy).Contents (Elt F) → (⟨S1024x1, .f32⟩ : BufTy).Contents (Elt F)),
    StableHlo.unary main_v50 main_v52 (broadcastInDim S1x1024 ![1] bcast_S1024_S1x1024_1 : (⟨S1024, .f32⟩ : BufTy).Contents (Elt F) → (⟨S1x1024, .f32⟩ : BufTy).Contents (Elt F)),
    StableHlo.unary main_v51 main_v53 (broadcastInDim S1024x1024 ![0, 1] bcast_S1024x1_S1024x1024_0_1 : (⟨S1024x1, .f32⟩ : BufTy).Contents (Elt F) → (⟨S1024x1024, .f32⟩ : BufTy).Contents (Elt F)),
    StableHlo.unary main_v52 main_v54 (broadcastInDim S1024x1024 ![0, 1] bcast_S1x1024_S1024x1024_0_1 : (⟨S1x1024, .f32⟩ : BufTy).Contents (Elt F) → (⟨S1024x1024, .f32⟩ : BufTy).Contents (Elt F)),
    StableHlo.binary main_v53 main_v54 main_v55 (addf : (⟨S1024x1024, .f32⟩ : BufTy).Contents (Elt F) → (⟨S1024x1024, .f32⟩ : BufTy).Contents (Elt F) → (⟨S1024x1024, .f32⟩ : BufTy).Contents (Elt F)),
    StableHlo.unary main_arg1 main_v56 ((transpose S8192x1024 [1, 0] · transposes_S1024x8192_S8192x1024_1_0) : (⟨S1024x8192, .f32⟩ : BufTy).Contents (Elt F) → (⟨S8192x1024, .f32⟩ : BufTy).Contents (Elt F)),
    StableHlo.binary main_arg1 main_v56 main_v57 ((fun l r => Host.dotGeneral dot_S1024x8192_S8192x1024_S1024x1024_1_0_0_1_n_n none l r) : (⟨S1024x8192, .f32⟩ : BufTy).Contents (Elt F) → (⟨S8192x1024, .f32⟩ : BufTy).Contents (Elt F) → (⟨S1024x1024, .f32⟩ : BufTy).Contents (Elt F)),
    StableHlo.nullary main_cst_17 (constant S_ .f32 0x40000000#32),
    StableHlo.unary main_cst_17 main_v58 (broadcastInDim S1024x1024 ![] bcast_S_S1024x1024 : (⟨S_, .f32⟩ : BufTy).Contents (Elt F) → (⟨S1024x1024, .f32⟩ : BufTy).Contents (Elt F)),
    StableHlo.binary main_v58 main_v57 main_v59 (mulf : (⟨S1024x1024, .f32⟩ : BufTy).Contents (Elt F) → (⟨S1024x1024, .f32⟩ : BufTy).Contents (Elt F) → (⟨S1024x1024, .f32⟩ : BufTy).Contents (Elt F)),
    StableHlo.binary main_v55 main_v59 main_v60 (subf : (⟨S1024x1024, .f32⟩ : BufTy).Contents (Elt F) → (⟨S1024x1024, .f32⟩ : BufTy).Contents (Elt F) → (⟨S1024x1024, .f32⟩ : BufTy).Contents (Elt F)),
    StableHlo.nullary main_cst_18 (constant S_ .f32 0x00000000#32),
    StableHlo.unary main_cst_18 main_v61 (broadcastInDim S1024x1024 ![] bcast_S_S1024x1024 : (⟨S_, .f32⟩ : BufTy).Contents (Elt F) → (⟨S1024x1024, .f32⟩ : BufTy).Contents (Elt F)),
    StableHlo.binary main_v60 main_v61 main_v62 (maximumf : (⟨S1024x1024, .f32⟩ : BufTy).Contents (Elt F) → (⟨S1024x1024, .f32⟩ : BufTy).Contents (Elt F) → (⟨S1024x1024, .f32⟩ : BufTy).Contents (Elt F)),
    StableHlo.nullary main_cst_19 (constant S_ .f32 0x3F800000#32),
    StableHlo.unary main_cst_19 main_v63 (broadcastInDim S1024x1024 ![] bcast_S_S1024x1024 : (⟨S_, .f32⟩ : BufTy).Contents (Elt F) → (⟨S1024x1024, .f32⟩ : BufTy).Contents (Elt F)) ]
/-- The buffers those operations write, in order. -/
abbrev ops1b_W : List (Ref sig .tc) :=
  [main_v49, main_cst_16, main_v50, main_v51, main_v52, main_v53, main_v54, main_v55, main_v56, main_v57, main_cst_17, main_v58, main_v59, main_v60, main_cst_18, main_v61, main_v62, main_cst_19, main_v63]

/-- Operations 26–34 of window 1 (of its 146). -/
abbrev ops1c : List (HloOp τ sig (Elt F)) :=
  [ StableHlo.TRef.nullary main_call8.v0 (iotaInDim S1024x1024 32 0),
    StableHlo.TRef.nullary main_call8.c (constantI S_ 32 0#32),
    StableHlo.TRef.unary main_call8.c main_call8.v1 (broadcastInDim S1024x1024 ![] bcast_S_S1024x1024),
    StableHlo.TRef.binary main_call8.v0 main_call8.v1 main_call8.v2 addi,
    StableHlo.TRef.nullary main_call8.v3 (iotaInDim S1024x1024 32 1),
    StableHlo.TRef.binary main_call8.v2 main_call8.v3 main_call8.v4 (cmpi .sge),
    StableHlo.TRef.nullary main_call8.cst (constant S_ .f32 0x00000000#32),
    StableHlo.TRef.unary main_call8.cst main_call8.v5 (broadcastInDim S1024x1024 ![] bcast_S_S1024x1024),
    StableHlo.TRef.ternary main_call8.v4 main_call8.v5 (.of main_v63 : StableHlo.TRef sig ⟨S1024x1024, .f32⟩) main_call8.v6 select ]
/-- The buffers those operations write, in order. -/
abbrev ops1c_W : List (Ref sig .tc) :=
  [main_call8.v0.ref, main_call8.c.ref, main_call8.v1.ref, main_call8.v2.ref, main_call8.v3.ref, main_call8.v4.ref, main_call8.cst.ref, main_call8.v5.ref, main_call8.v6.ref]

/-- Operations 35–37 of window 1 (of its 146). -/
abbrev ops1d : List (HloOp τ sig (Elt F)) :=
  [ StableHlo.nullary main_cst_20 (constant S_ .f32 0x00000000#32),
    StableHlo.unary main_cst_20 main_v65 (broadcastInDim S1024x1024 ![] bcast_S_S1024x1024 : (⟨S_, .f32⟩ : BufTy).Contents (Elt F) → (⟨S1024x1024, .f32⟩ : BufTy).Contents (Elt F)),
    StableHlo.binary main_v64 main_v65 main_v66 (cmpf .une : (⟨S1024x1024, .f32⟩ : BufTy).Contents (Elt F) → (⟨S1024x1024, .f32⟩ : BufTy).Contents (Elt F) → (⟨S1024x1024, .i1⟩ : BufTy).Contents (Elt F)) ]
/-- The buffers those operations write, in order. -/
abbrev ops1d_W : List (Ref sig .tc) :=
  [main_cst_20, main_v65, main_v66]

/-- Operations 38–42 of window 1 (of its 146). -/
abbrev ops1e : List (HloOp τ sig (Elt F)) :=
  [ StableHlo.TRef.reshape (.of main_v66 : StableHlo.TRef sig ⟨S1024x1024, .i1⟩) main_call9.v0 rfl shapeCasts_S1024x1024_S1048576,
    StableHlo.TRef.unary main_call9.v0 main_call9.v1 (extui 32 · natLt_1_32),
    StableHlo.TRef.nullary main_call9.call0.c (constantI S_ 32 0#32),
    StableHlo.TRef.unary main_call9.call0.c main_call9.call0.v0 (broadcastInDim S_ ![] bcast_S_S_),
    StableHlo.TRef.binary main_call9.v1 main_call9.call0.v0 main_call9.call0.v1 (fun x v => Host.reduceWindow IntOp.addi ![1048576] ![1] ![1048575] ![0] x v reduceWindows_S1048576_S1048576_w1048576s1p1048575_0 h_S_) ]
/-- The buffers those operations write, in order. -/
abbrev ops1e_W : List (Ref sig .tc) :=
  [main_call9.v0.ref, main_call9.v1.ref, main_call9.call0.c.ref, main_call9.call0.v0.ref, main_call9.call0.v1.ref]

/-- Operations 43–45 of window 1 (of its 146). -/
abbrev ops1f : List (HloOp τ sig (Elt F)) :=
  [ StableHlo.nullary main_c_21 (constantI S_ 32 0#32),
    StableHlo.unary main_c_21 main_v68 (broadcastInDim S523776 ![] bcast_S_S523776 : (⟨S_, .i32⟩ : BufTy).Contents (Elt F) → (⟨S523776, .i32⟩ : BufTy).Contents (Elt F)),
    StableHlo.nullary main_c_22 (constantI S_ 32 0#32) ]
/-- The buffers those operations write, in order. -/
abbrev ops1f_W : List (Ref sig .tc) :=
  [main_c_21, main_v68, main_c_22]

/-- Operations 46–48 of window 1 (of its 146). -/
abbrev ops1g : List (HloOp τ sig (Elt F)) :=
  [ StableHlo.TRef.unary (.of main_c_22 : StableHlo.TRef sig ⟨S_, .i32⟩) main_call10.v0 id,
    StableHlo.TRef.unary main_call10.v0 main_call10.v1 (broadcastInDim S1048576 ![] bcast_S_S1048576),
    StableHlo.TRef.binary main_call10.v1 (.of main_v67 : StableHlo.TRef sig ⟨S1048576, .i32⟩) main_call10.v2 maxsi ]
/-- The buffers those operations write, in order. -/
abbrev ops1g_W : List (Ref sig .tc) :=
  [main_call10.v0.ref, main_call10.v1.ref, main_call10.v2.ref]

/-- Operations 49–59 of window 1 (of its 146). -/
abbrev ops1h : List (HloOp τ sig (Elt F)) :=
  [ StableHlo.nullary main_c_23 (constantI S_ 32 0#32),
    StableHlo.unary main_c_23 main_v70 (broadcastInDim S1048576 ![] bcast_S_S1048576 : (⟨S_, .i32⟩ : BufTy).Contents (Elt F) → (⟨S1048576, .i32⟩ : BufTy).Contents (Elt F)),
    StableHlo.binary main_v69 main_v70 main_v71 (cmpi .slt : (⟨S1048576, .i32⟩ : BufTy).Contents (Elt F) → (⟨S1048576, .i32⟩ : BufTy).Contents (Elt F) → (⟨S1048576, .i1⟩ : BufTy).Contents (Elt F)),
    StableHlo.nullary main_c_24 (constantI S_ 32 523776#32),
    StableHlo.unary main_c_24 main_v72 (broadcastInDim S1048576 ![] bcast_S_S1048576 : (⟨S_, .i32⟩ : BufTy).Contents (Elt F) → (⟨S1048576, .i32⟩ : BufTy).Contents (Elt F)),
    StableHlo.binary main_v69 main_v72 main_v73 (addi : (⟨S1048576, .i32⟩ : BufTy).Contents (Elt F) → (⟨S1048576, .i32⟩ : BufTy).Contents (Elt F) → (⟨S1048576, .i32⟩ : BufTy).Contents (Elt F)),
    StableHlo.ternary main_v71 main_v73 main_v69 main_v74 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.unary main_v74 main_v75 (broadcastInDim S1048576x1 ![0] bcast_S1048576_S1048576x1_0 : (⟨S1048576, .i32⟩ : BufTy).Contents (Elt F) → (⟨S1048576x1, .i32⟩ : BufTy).Contents (Elt F)),
    StableHlo.nullary main_c_25 (constantI S_ 32 1#32),
    StableHlo.unary main_c_25 main_v76 (broadcastInDim S1048576 ![] bcast_S_S1048576 : (⟨S_, .i32⟩ : BufTy).Contents (Elt F) → (⟨S1048576, .i32⟩ : BufTy).Contents (Elt F)),
    StableHlo.ternary main_v68 main_v75 main_v76 main_v77 ((fun x i u => Host.scatter scatter_S523776_S1048576x1_S1048576_n_0_0_1 IntOp.addi x i u) : (⟨S523776, .i32⟩ : BufTy).Contents (Elt F) → (⟨S1048576x1, .i32⟩ : BufTy).Contents (Elt F) → (⟨S1048576, .i32⟩ : BufTy).Contents (Elt F) → (⟨S523776, .i32⟩ : BufTy).Contents (Elt F)) ]
/-- The buffers those operations write, in order. -/
abbrev ops1h_W : List (Ref sig .tc) :=
  [main_c_23, main_v70, main_v71, main_c_24, main_v72, main_v73, main_v74, main_v75, main_c_25, main_v76, main_v77]

/-- Operations 60–62 of window 1 (of its 146). -/
abbrev ops1i : List (HloOp τ sig (Elt F)) :=
  [ StableHlo.TRef.nullary main_call11.call0.c (constantI S_ 32 0#32),
    StableHlo.TRef.unary main_call11.call0.c main_call11.call0.v0 (broadcastInDim S_ ![] bcast_S_S_),
    StableHlo.TRef.binary (.of main_v77 : StableHlo.TRef sig ⟨S523776, .i32⟩) main_call11.call0.v0 main_call11.call0.v1 (fun x v => Host.reduceWindow IntOp.addi ![523776] ![1] ![523775] ![0] x v reduceWindows_S523776_S523776_w523776s1p523775_0 h_S_) ]
/-- The buffers those operations write, in order. -/
abbrev ops1i_W : List (Ref sig .tc) :=
  [main_call11.call0.c.ref, main_call11.call0.v0.ref, main_call11.call0.v1.ref]

/-- Operations 63–79 of window 1 (of its 146). -/
abbrev ops1j : List (HloOp τ sig (Elt F)) :=
  [ StableHlo.nullary main_c_26 (constantI S_ 32 1024#32),
    StableHlo.TRef.unary (.of main_c_26 : StableHlo.TRef sig ⟨S_, .i32⟩) main_call12.v0 (broadcastInDim S523776 ![] bcast_S_S523776),
    StableHlo.TRef.binary (.of main_v78 : StableHlo.TRef sig ⟨S523776, .i32⟩) main_call12.v0 main_call12.v1 Host.divsi,
    StableHlo.TRef.unary (.of main_v78 : StableHlo.TRef sig ⟨S523776, .i32⟩) main_call12.v2 signi,
    StableHlo.TRef.unary (.of main_c_26 : StableHlo.TRef sig ⟨S_, .i32⟩) main_call12.v3 signi,
    StableHlo.TRef.unary main_call12.v3 main_call12.v4 (broadcastInDim S523776 ![] bcast_S_S523776),
    StableHlo.TRef.binary main_call12.v2 main_call12.v4 main_call12.v5 (cmpi .ne),
    StableHlo.TRef.unary (.of main_c_26 : StableHlo.TRef sig ⟨S_, .i32⟩) main_call12.v6 (broadcastInDim S523776 ![] bcast_S_S523776),
    StableHlo.TRef.binary (.of main_v78 : StableHlo.TRef sig ⟨S523776, .i32⟩) main_call12.v6 main_call12.v7 Host.remsi,
    StableHlo.TRef.nullary main_call12.c (constantI S_ 32 0#32),
    StableHlo.TRef.unary main_call12.c main_call12.v8 (broadcastInDim S523776 ![] bcast_S_S523776),
    StableHlo.TRef.binary main_call12.v7 main_call12.v8 main_call12.v9 (cmpi .ne),
    StableHlo.TRef.binary main_call12.v5 main_call12.v9 main_call12.v10 andi,
    StableHlo.TRef.nullary main_call12.c_0 (constantI S_ 32 1#32),
    StableHlo.TRef.unary main_call12.c_0 main_call12.v11 (broadcastInDim S523776 ![] bcast_S_S523776),
    StableHlo.TRef.binary main_call12.v1 main_call12.v11 main_call12.v12 subi,
    StableHlo.TRef.ternary main_call12.v10 main_call12.v12 main_call12.v1 main_call12.call0.v0 select ]
/-- The buffers those operations write, in order. -/
abbrev ops1j_W : List (Ref sig .tc) :=
  [main_c_26, main_call12.v0.ref, main_call12.v1.ref, main_call12.v2.ref, main_call12.v3.ref, main_call12.v4.ref, main_call12.v5.ref, main_call12.v6.ref, main_call12.v7.ref, main_call12.c.ref, main_call12.v8.ref, main_call12.v9.ref, main_call12.v10.ref, main_call12.c_0.ref, main_call12.v11.ref, main_call12.v12.ref, main_call12.call0.v0.ref]

/-- Operations 80–101 of window 1 (of its 146). -/
abbrev ops1k : List (HloOp τ sig (Elt F)) :=
  [ StableHlo.nullary main_c_27 (constantI S_ 32 1024#32),
    StableHlo.TRef.unary (.of main_c_27 : StableHlo.TRef sig ⟨S_, .i32⟩) main_call13.v0 id,
    StableHlo.TRef.nullary main_call13.c (constantI S_ 32 0#32),
    StableHlo.TRef.binary main_call13.v0 main_call13.c main_call13.v1 (cmpi .eq),
    StableHlo.TRef.nullary main_call13.c_0 (constantI S_ 32 1#32),
    StableHlo.TRef.ternary main_call13.v1 main_call13.c_0 main_call13.v0 main_call13.call0.v0 select,
    StableHlo.TRef.unary main_call13.call0.v0 main_call13.v3 (broadcastInDim S523776 ![] bcast_S_S523776),
    StableHlo.TRef.binary (.of main_v79 : StableHlo.TRef sig ⟨S523776, .i32⟩) main_call13.v3 main_call13.v4 Host.remsi,
    StableHlo.TRef.nullary main_call13.c_1 (constantI S_ 32 0#32),
    StableHlo.TRef.unary main_call13.c_1 main_call13.v5 (broadcastInDim S523776 ![] bcast_S_S523776),
    StableHlo.TRef.binary main_call13.v4 main_call13.v5 main_call13.v6 (cmpi .ne),
    StableHlo.TRef.nullary main_call13.c_2 (constantI S_ 32 0#32),
    StableHlo.TRef.unary main_call13.c_2 main_call13.v7 (broadcastInDim S523776 ![] bcast_S_S523776),
    StableHlo.TRef.binary main_call13.v4 main_call13.v7 main_call13.v8 (cmpi .slt),
    StableHlo.TRef.nullary main_call13.c_3 (constantI S_ 32 0#32),
    StableHlo.TRef.binary main_call13.call0.v0 main_call13.c_3 main_call13.v9 (cmpi .slt),
    StableHlo.TRef.unary main_call13.v9 main_call13.v10 (broadcastInDim S523776 ![] bcast_S_S523776),
    StableHlo.TRef.binary main_call13.v8 main_call13.v10 main_call13.v11 (cmpi .ne),
    StableHlo.TRef.binary main_call13.v11 main_call13.v6 main_call13.v12 andi,
    StableHlo.TRef.unary main_call13.call0.v0 main_call13.v13 (broadcastInDim S523776 ![] bcast_S_S523776),
    StableHlo.TRef.binary main_call13.v4 main_call13.v13 main_call13.v14 addi,
    StableHlo.TRef.ternary main_call13.v12 main_call13.v14 main_call13.v4 main_call13.v15 select ]
/-- The buffers those operations write, in order. -/
abbrev ops1k_W : List (Ref sig .tc) :=
  [main_c_27, main_call13.v0.ref, main_call13.c.ref, main_call13.v1.ref, main_call13.c_0.ref, main_call13.call0.v0.ref, main_call13.v3.ref, main_call13.v4.ref, main_call13.c_1.ref, main_call13.v5.ref, main_call13.v6.ref, main_call13.c_2.ref, main_call13.v7.ref, main_call13.v8.ref, main_call13.c_3.ref, main_call13.v9.ref, main_call13.v10.ref, main_call13.v11.ref, main_call13.v12.ref, main_call13.v13.ref, main_call13.v14.ref, main_call13.v15.ref]

/-- Operations 102–118 of window 1 (of its 146). -/
abbrev ops1l : List (HloOp τ sig (Elt F)) :=
  [ StableHlo.nullary main_c_28 (constantI S_ 32 1#32),
    StableHlo.TRef.unary (.of main_c_28 : StableHlo.TRef sig ⟨S_, .i32⟩) main_call14.v0 (broadcastInDim S523776 ![] bcast_S_S523776),
    StableHlo.TRef.binary (.of main_v78 : StableHlo.TRef sig ⟨S523776, .i32⟩) main_call14.v0 main_call14.v1 Host.divsi,
    StableHlo.TRef.unary (.of main_v78 : StableHlo.TRef sig ⟨S523776, .i32⟩) main_call14.v2 signi,
    StableHlo.TRef.unary (.of main_c_28 : StableHlo.TRef sig ⟨S_, .i32⟩) main_call14.v3 signi,
    StableHlo.TRef.unary main_call14.v3 main_call14.v4 (broadcastInDim S523776 ![] bcast_S_S523776),
    StableHlo.TRef.binary main_call14.v2 main_call14.v4 main_call14.v5 (cmpi .ne),
    StableHlo.TRef.unary (.of main_c_28 : StableHlo.TRef sig ⟨S_, .i32⟩) main_call14.v6 (broadcastInDim S523776 ![] bcast_S_S523776),
    StableHlo.TRef.binary (.of main_v78 : StableHlo.TRef sig ⟨S523776, .i32⟩) main_call14.v6 main_call14.v7 Host.remsi,
    StableHlo.TRef.nullary main_call14.c (constantI S_ 32 0#32),
    StableHlo.TRef.unary main_call14.c main_call14.v8 (broadcastInDim S523776 ![] bcast_S_S523776),
    StableHlo.TRef.binary main_call14.v7 main_call14.v8 main_call14.v9 (cmpi .ne),
    StableHlo.TRef.binary main_call14.v5 main_call14.v9 main_call14.v10 andi,
    StableHlo.TRef.nullary main_call14.c_0 (constantI S_ 32 1#32),
    StableHlo.TRef.unary main_call14.c_0 main_call14.v11 (broadcastInDim S523776 ![] bcast_S_S523776),
    StableHlo.TRef.binary main_call14.v1 main_call14.v11 main_call14.v12 subi,
    StableHlo.TRef.ternary main_call14.v10 main_call14.v12 main_call14.v1 main_call14.call0.v0 select ]
/-- The buffers those operations write, in order. -/
abbrev ops1l_W : List (Ref sig .tc) :=
  [main_c_28, main_call14.v0.ref, main_call14.v1.ref, main_call14.v2.ref, main_call14.v3.ref, main_call14.v4.ref, main_call14.v5.ref, main_call14.v6.ref, main_call14.v7.ref, main_call14.c.ref, main_call14.v8.ref, main_call14.v9.ref, main_call14.v10.ref, main_call14.c_0.ref, main_call14.v11.ref, main_call14.v12.ref, main_call14.call0.v0.ref]

/-- Operations 119–140 of window 1 (of its 146). -/
abbrev ops1m : List (HloOp τ sig (Elt F)) :=
  [ StableHlo.nullary main_c_29 (constantI S_ 32 1024#32),
    StableHlo.TRef.unary (.of main_c_29 : StableHlo.TRef sig ⟨S_, .i32⟩) main_call15.v0 id,
    StableHlo.TRef.nullary main_call15.c (constantI S_ 32 0#32),
    StableHlo.TRef.binary main_call15.v0 main_call15.c main_call15.v1 (cmpi .eq),
    StableHlo.TRef.nullary main_call15.c_0 (constantI S_ 32 1#32),
    StableHlo.TRef.ternary main_call15.v1 main_call15.c_0 main_call15.v0 main_call15.call0.v0 select,
    StableHlo.TRef.unary main_call15.call0.v0 main_call15.v3 (broadcastInDim S523776 ![] bcast_S_S523776),
    StableHlo.TRef.binary (.of main_v81 : StableHlo.TRef sig ⟨S523776, .i32⟩) main_call15.v3 main_call15.v4 Host.remsi,
    StableHlo.TRef.nullary main_call15.c_1 (constantI S_ 32 0#32),
    StableHlo.TRef.unary main_call15.c_1 main_call15.v5 (broadcastInDim S523776 ![] bcast_S_S523776),
    StableHlo.TRef.binary main_call15.v4 main_call15.v5 main_call15.v6 (cmpi .ne),
    StableHlo.TRef.nullary main_call15.c_2 (constantI S_ 32 0#32),
    StableHlo.TRef.unary main_call15.c_2 main_call15.v7 (broadcastInDim S523776 ![] bcast_S_S523776),
    StableHlo.TRef.binary main_call15.v4 main_call15.v7 main_call15.v8 (cmpi .slt),
    StableHlo.TRef.nullary main_call15.c_3 (constantI S_ 32 0#32),
    StableHlo.TRef.binary main_call15.call0.v0 main_call15.c_3 main_call15.v9 (cmpi .slt),
    StableHlo.TRef.unary main_call15.v9 main_call15.v10 (broadcastInDim S523776 ![] bcast_S_S523776),
    StableHlo.TRef.binary main_call15.v8 main_call15.v10 main_call15.v11 (cmpi .ne),
    StableHlo.TRef.binary main_call15.v11 main_call15.v6 main_call15.v12 andi,
    StableHlo.TRef.unary main_call15.call0.v0 main_call15.v13 (broadcastInDim S523776 ![] bcast_S_S523776),
    StableHlo.TRef.binary main_call15.v4 main_call15.v13 main_call15.v14 addi,
    StableHlo.TRef.ternary main_call15.v12 main_call15.v14 main_call15.v4 main_call15.v15 select ]
/-- The buffers those operations write, in order. -/
abbrev ops1m_W : List (Ref sig .tc) :=
  [main_c_29, main_call15.v0.ref, main_call15.c.ref, main_call15.v1.ref, main_call15.c_0.ref, main_call15.call0.v0.ref, main_call15.v3.ref, main_call15.v4.ref, main_call15.c_1.ref, main_call15.v5.ref, main_call15.v6.ref, main_call15.c_2.ref, main_call15.v7.ref, main_call15.v8.ref, main_call15.c_3.ref, main_call15.v9.ref, main_call15.v10.ref, main_call15.v11.ref, main_call15.v12.ref, main_call15.v13.ref, main_call15.v14.ref, main_call15.v15.ref]

/-- Operations 141–145 of window 1 (of its 146). -/
abbrev ops1n : List (HloOp τ sig (Elt F)) :=
  [ StableHlo.nullary main_c_30 (constantI S_ 32 0#32),
    StableHlo.unary main_c_30 main_v83 (broadcastInDim S523776 ![] bcast_S_S523776 : (⟨S_, .i32⟩ : BufTy).Contents (Elt F) → (⟨S523776, .i32⟩ : BufTy).Contents (Elt F)),
    StableHlo.binary main_v80 main_v83 main_v84 (cmpi .slt : (⟨S523776, .i32⟩ : BufTy).Contents (Elt F) → (⟨S523776, .i32⟩ : BufTy).Contents (Elt F) → (⟨S523776, .i1⟩ : BufTy).Contents (Elt F)),
    StableHlo.nullary main_c_31 (constantI S_ 32 1024#32),
    StableHlo.unary main_c_31 main_v85 (broadcastInDim S523776 ![] bcast_S_S523776 : (⟨S_, .i32⟩ : BufTy).Contents (Elt F) → (⟨S523776, .i32⟩ : BufTy).Contents (Elt F)) ]
/-- The buffers those operations write, in order. -/
abbrev ops1n_W : List (Ref sig .tc) :=
  [main_c_30, main_v83, main_v84, main_c_31, main_v85]

/-- Window 1: its 146 operations, in order. -/
abbrev ops1 : List (HloOp τ sig (Elt F)) :=
  ops1a ++ (ops1b ++ (ops1c ++ (ops1d ++ (ops1e ++ (ops1f ++ (ops1g ++ (ops1h ++ (ops1i ++ (ops1j ++ (ops1k ++ (ops1l ++ (ops1m ++ ops1n))))))))))))

/-- Operations 0–19 of window 2 (of its 20). -/
abbrev ops2 : List (HloOp τ sig (Elt F)) :=
  [ StableHlo.binary main_v80 main_v85 main_v86 (addi : (⟨S523776, .i32⟩ : BufTy).Contents (Elt F) → (⟨S523776, .i32⟩ : BufTy).Contents (Elt F) → (⟨S523776, .i32⟩ : BufTy).Contents (Elt F)),
    StableHlo.ternary main_v84 main_v86 main_v80 main_v87 (select : (⟨S523776, .i1⟩ : BufTy).Contents (Elt F) → (⟨S523776, .i32⟩ : BufTy).Contents (Elt F) → (⟨S523776, .i32⟩ : BufTy).Contents (Elt F) → (⟨S523776, .i32⟩ : BufTy).Contents (Elt F)),
    StableHlo.nullary main_c_32 (constantI S_ 32 0#32),
    StableHlo.unary main_c_32 main_v88 (broadcastInDim S523776 ![] bcast_S_S523776 : (⟨S_, .i32⟩ : BufTy).Contents (Elt F) → (⟨S523776, .i32⟩ : BufTy).Contents (Elt F)),
    StableHlo.binary main_v82 main_v88 main_v89 (cmpi .slt : (⟨S523776, .i32⟩ : BufTy).Contents (Elt F) → (⟨S523776, .i32⟩ : BufTy).Contents (Elt F) → (⟨S523776, .i1⟩ : BufTy).Contents (Elt F)),
    StableHlo.nullary main_c_33 (constantI S_ 32 1024#32),
    StableHlo.unary main_c_33 main_v90 (broadcastInDim S523776 ![] bcast_S_S523776 : (⟨S_, .i32⟩ : BufTy).Contents (Elt F) → (⟨S523776, .i32⟩ : BufTy).Contents (Elt F)),
    StableHlo.binary main_v82 main_v90 main_v91 (addi : (⟨S523776, .i32⟩ : BufTy).Contents (Elt F) → (⟨S523776, .i32⟩ : BufTy).Contents (Elt F) → (⟨S523776, .i32⟩ : BufTy).Contents (Elt F)),
    StableHlo.ternary main_v89 main_v91 main_v82 main_v92 (select : (⟨S523776, .i1⟩ : BufTy).Contents (Elt F) → (⟨S523776, .i32⟩ : BufTy).Contents (Elt F) → (⟨S523776, .i32⟩ : BufTy).Contents (Elt F) → (⟨S523776, .i32⟩ : BufTy).Contents (Elt F)),
    StableHlo.unary main_v87 main_v93 (broadcastInDim S523776x1 ![0] bcast_S523776_S523776x1_0 : (⟨S523776, .i32⟩ : BufTy).Contents (Elt F) → (⟨S523776x1, .i32⟩ : BufTy).Contents (Elt F)),
    StableHlo.unary main_v92 main_v94 (broadcastInDim S523776x1 ![0] bcast_S523776_S523776x1_0 : (⟨S523776, .i32⟩ : BufTy).Contents (Elt F) → (⟨S523776x1, .i32⟩ : BufTy).Contents (Elt F)),
    StableHlo.binary main_v93 main_v94 main_v95 ((fun a b => concatenate S523776x2 1 [⟨S523776x1, a⟩, ⟨S523776x1, b⟩] concatenates_S523776x1_S523776x1_S523776x2_d1) : (⟨S523776x1, .i32⟩ : BufTy).Contents (Elt F) → (⟨S523776x1, .i32⟩ : BufTy).Contents (Elt F) → (⟨S523776x2, .i32⟩ : BufTy).Contents (Elt F)),
    StableHlo.binary main_v62 main_v95 main_v96 ((fun x i => Host.gather gather_S1024x1024_S523776x2_S523776_n_01_n_n_01_1_11 x i) : (⟨S1024x1024, .f32⟩ : BufTy).Contents (Elt F) → (⟨S523776x2, .i32⟩ : BufTy).Contents (Elt F) → (⟨S523776, .f32⟩ : BufTy).Contents (Elt F)),
    StableHlo.unary main_v96 main_v97 (Host.sqrt : (⟨S523776, .f32⟩ : BufTy).Contents (Elt F) → (⟨S523776, .f32⟩ : BufTy).Contents (Elt F)),
    StableHlo.binary main_v48 main_v97 main_v98 (subf : (⟨S523776, .f32⟩ : BufTy).Contents (Elt F) → (⟨S523776, .f32⟩ : BufTy).Contents (Elt F) → (⟨S523776, .f32⟩ : BufTy).Contents (Elt F)),
    StableHlo.binary main_v98 main_v98 main_v99 (mulf : (⟨S523776, .f32⟩ : BufTy).Contents (Elt F) → (⟨S523776, .f32⟩ : BufTy).Contents (Elt F) → (⟨S523776, .f32⟩ : BufTy).Contents (Elt F)),
    StableHlo.nullary main_cst_34 (constant S_ .f32 0x00000000#32),
    StableHlo.binary main_v99 main_cst_34 main_v100 ((fun x v => Host.reduceAdd x v reducesTo_S523776_S_d0 h_S_) : (⟨S523776, .f32⟩ : BufTy).Contents (Elt F) → (⟨S_, .f32⟩ : BufTy).Contents (Elt F) → (⟨S_, .f32⟩ : BufTy).Contents (Elt F)),
    StableHlo.nullary main_cst_35 (constant S_ .f32 0x48FFC000#32),
    StableHlo.binary main_v100 main_cst_35 main_v101 (Host.divf : (⟨S_, .f32⟩ : BufTy).Contents (Elt F) → (⟨S_, .f32⟩ : BufTy).Contents (Elt F) → (⟨S_, .f32⟩ : BufTy).Contents (Elt F)) ]
/-- The buffers those operations write, in order. -/
abbrev ops2_W : List (Ref sig .tc) :=
  [main_v86, main_v87, main_c_32, main_v88, main_v89, main_c_33, main_v90, main_v91, main_v92, main_v93, main_v94, main_v95, main_v96, main_v97, main_v98, main_v99, main_cst_34, main_v100, main_cst_35, main_v101]

/-- The whole program: its 312 operations, in order. -/
abbrev ops : List (HloOp τ sig (Elt F)) :=
  ops0 ++ (ops1 ++ ops2)

end Cert.ReferenceIdeal.HandRun

end
-- ==== Proof.RefRunMain.lean ====
/-
  The reference program IS its line of host operations: @main, with every call of an outlined function read as the
  callee's own steps, is the sequence of the 312 operations listed in the operation table, in order.
-/
import proofs.«169696_j47545287967528_2_alg».proof.Proof.RefRunOps

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## The program is its line of operations

Each window of @main is a chain of sequenced steps in which a call stands for its callee's chain. Unfolding the callees at
their calls and re-associating the sequencing (a chain inside a chain is one chain; a finished callee's empty return is
dropped) leaves exactly the steps of the window's list, in order. -/

set_option maxRecDepth 8192 in
theorem main_part0_eq (c : Dev nD) : main_part0 (F := F) c = seq ops0 := by
  simp only [main_part0, fn_triu.body, fn_cumsum.body, fn_cumsum_0.body, fn_clip.body, fn_cumsum_1.body, fn_cumsum_2.body,
    fn_floor_divide.body, fn_where.body, fn_remainder.body, fn_where_3.body,
    ops0, ops0a, ops0b, ops0c, ops0d, ops0e, ops0f, ops0g, ops0h, ops0i, ops0j, ops0k, ops0l, ops0m,
    List.cons_append, List.nil_append, seq, bind_assoc, pure_bind]
  rfl

set_option maxRecDepth 8192 in
theorem main_part1_eq (c : Dev nD) : main_part1 (F := F) c = seq ops1 := by
  simp only [main_part1, fn_triu.body, fn_cumsum.body, fn_cumsum_0.body, fn_clip.body, fn_cumsum_1.body, fn_cumsum_2.body,
    fn_floor_divide.body, fn_where.body, fn_remainder.body, fn_where_3.body,
    ops1, ops1a, ops1b, ops1c, ops1d, ops1e, ops1f, ops1g, ops1h, ops1i, ops1j, ops1k, ops1l, ops1m, ops1n,
    List.cons_append, List.nil_append, seq, bind_assoc, pure_bind]
  rfl

set_option maxRecDepth 8192 in
theorem main_part2_eq (c : Dev nD) : main_part2 (F := F) c = seq ops2 := rfl

/-- @main runs its three windows in order, and a line run after a line is the two appended. -/
theorem main_eq (c : Dev nD) : main (F := F) c = seq ops :=
  calc main (F := F) c
      = (main_part0 c >>= fun _ => main_part1 c >>= fun _ => main_part2 c) := rfl
    _ = (seq ops0 >>= fun _ => seq ops1 >>= fun _ => seq ops2) := by
        rw [main_part0_eq, main_part1_eq, main_part2_eq]
    _ = seq ops := by
        rw [show (ops : List (HloOp τ sig (Elt F))) = ops0 ++ (ops1 ++ ops2) from rfl, seq_append ops0 (ops1 ++ ops2),
          seq_append ops1 ops2]

end Cert.ReferenceIdeal.HandRun

end
-- ==== Proof.LibAfterSplit.lean ====
/-
  A line of host operations run from given buffer contents is a fold over the line; the fold over a line is the fold
  over any tail of it started from the fold over the matching head.
-/
import Idealize.ShloMosaic.Lib.StableHlo.Run

noncomputable section

namespace Cert.AfterSplit

open Idealize.ShloMosaic Idealize.ShloMosaic.StableHlo

variable {τ : Topo} {sig : RefSig} {Val : EltTy → Type}

theorem after_append (l₁ l₂ : List (HloOp τ sig Val)) (V : Valuation τ sig Val) :
    after (l₁ ++ l₂) V = after l₂ (after l₁ V) := by
  induction l₁ generalizing V with
  | nil => rfl
  | cons op l ih => exact ih _

theorem after_take_drop (l : List (HloOp τ sig Val)) (k : ℕ) (V : Valuation τ sig Val) :
    after l V = after (l.drop k) (after (l.take k) V) := by
  rw [← after_append, List.take_append_drop]

end Cert.AfterSplit

end
-- ==== Proof.RefRunKeeps.lean ====
/-
  Two facts about the line of host operations that its run needs, each proved piece by piece and joined along the
  appends: every operation touches TensorCore buffers only and determines what it writes; and no operation writes either
  of the two argument arrays (every result buffer is a reference other than an argument's).
-/
import proofs.«169696_j47545287967528_2_alg».proof.Proof.RefRunOps
import proofs.«169696_j47545287967528_2_alg».proof.Proof.LibAfterSplit

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## What the run needs of the line

The signature scopes no TensorCore buffer and no semaphore; every operation touches TensorCore buffers only; and every
operation determines what it writes. -/

theorem scopedRefs_eq : (Finset.univ.filter fun b : Ref sig .tc => b.isScoped) = ∅ := by decide
theorem scopedSems_eq : (Finset.univ.filter fun sm : SemLoc sig => sm.isScoped .tc) = ∅ := by decide

section Fresh
variable {τ' : Topo} {sig' : RefSig} {Val : EltTy → Type}
theorem nullary_fresh (y : Ref sig' .tc) (v : y.ty.Contents Val) (hy) :
    (StableHlo.nullary (τ := τ') y v hy).fresh = ∅ := rfl
theorem unary_fresh (x y : Ref sig' .tc) (f : x.ty.Contents Val → y.ty.Contents Val) (hx hy) :
    (StableHlo.unary (τ := τ') x y f hx hy).fresh = ∅ := rfl
theorem binary_fresh (a b y : Ref sig' .tc) (f : a.ty.Contents Val → b.ty.Contents Val → y.ty.Contents Val) (ha hb hy) :
    (StableHlo.binary (τ := τ') a b y f ha hb hy).fresh = ∅ := rfl
theorem ternary_fresh (c a b y : Ref sig' .tc)
    (f : c.ty.Contents Val → a.ty.Contents Val → b.ty.Contents Val → y.ty.Contents Val) (hc ha hb hy) :
    (StableHlo.ternary (τ := τ') c a b y f hc ha hb hy).fresh = ∅ := rfl
theorem reshape_fresh (x y : Ref sig' .tc) (he hn hx hy) :
    (StableHlo.reshape (τ := τ') (Val := Val) x y he hn hx hy).fresh = ∅ := rfl
end Fresh

/-- One piece of the line: its operations touch TensorCore buffers only, and none writes undetermined contents. -/
def Tame (l : List (HloOp τ sig (Elt F))) : Prop :=
  (l.Forall fun op => op.bufs ⊆ tcRefs τ sig) ∧ (l.Forall fun op => op.fresh = ∅)

theorem Tame.append {l₁ l₂ : List (HloOp τ sig (Elt F))} (h₁ : Tame l₁) (h₂ : Tame l₂) : Tame (l₁ ++ l₂) :=
  ⟨List.forall_iff_forall_mem.mpr fun op h => (List.mem_append.mp h).elim
      (List.forall_iff_forall_mem.mp h₁.1 op) (List.forall_iff_forall_mem.mp h₂.1 op),
    List.forall_iff_forall_mem.mpr fun op h => (List.mem_append.mp h).elim
      (List.forall_iff_forall_mem.mp h₁.2 op) (List.forall_iff_forall_mem.mp h₂.2 op)⟩

local macro "tame_piece" p:ident : tactic =>
  `(tactic| (constructor <;>
      simp only [$p:ident, List.Forall, nullary_bufs_sub, unary_bufs_sub, binary_bufs_sub, ternary_bufs_sub, reshape_bufs_sub,
        nullary_fresh, unary_fresh, binary_fresh, ternary_fresh, reshape_fresh, and_self]))

theorem ops0a_tame : Tame (F := F) ops0a := by tame_piece ops0a
theorem ops0b_tame : Tame (F := F) ops0b := by tame_piece ops0b
theorem ops0c_tame : Tame (F := F) ops0c := by tame_piece ops0c
theorem ops0d_tame : Tame (F := F) ops0d := by tame_piece ops0d
theorem ops0e_tame : Tame (F := F) ops0e := by tame_piece ops0e
theorem ops0f_tame : Tame (F := F) ops0f := by tame_piece ops0f
theorem ops0g_tame : Tame (F := F) ops0g := by tame_piece ops0g
theorem ops0h_tame : Tame (F := F) ops0h := by tame_piece ops0h
theorem ops0i_tame : Tame (F := F) ops0i := by tame_piece ops0i
theorem ops0j_tame : Tame (F := F) ops0j := by tame_piece ops0j
theorem ops0k_tame : Tame (F := F) ops0k := by tame_piece ops0k
theorem ops0l_tame : Tame (F := F) ops0l := by tame_piece ops0l
theorem ops0m_tame : Tame (F := F) ops0m := by tame_piece ops0m
theorem ops1a_tame : Tame (F := F) ops1a := by tame_piece ops1a
theorem ops1b_tame : Tame (F := F) ops1b := by tame_piece ops1b
theorem ops1c_tame : Tame (F := F) ops1c := by tame_piece ops1c
theorem ops1d_tame : Tame (F := F) ops1d := by tame_piece ops1d
theorem ops1e_tame : Tame (F := F) ops1e := by tame_piece ops1e
theorem ops1f_tame : Tame (F := F) ops1f := by tame_piece ops1f
theorem ops1g_tame : Tame (F := F) ops1g := by tame_piece ops1g
theorem ops1h_tame : Tame (F := F) ops1h := by tame_piece ops1h
theorem ops1i_tame : Tame (F := F) ops1i := by tame_piece ops1i
theorem ops1j_tame : Tame (F := F) ops1j := by tame_piece ops1j
theorem ops1k_tame : Tame (F := F) ops1k := by tame_piece ops1k
theorem ops1l_tame : Tame (F := F) ops1l := by tame_piece ops1l
theorem ops1m_tame : Tame (F := F) ops1m := by tame_piece ops1m
theorem ops1n_tame : Tame (F := F) ops1n := by tame_piece ops1n
theorem ops2_tame : Tame (F := F) ops2 := by tame_piece ops2

theorem ops_tame : Tame (F := F) ops :=
  (ops0a_tame.append (ops0b_tame.append (ops0c_tame.append (ops0d_tame.append (ops0e_tame.append (ops0f_tame.append (ops0g_tame.append (ops0h_tame.append (ops0i_tame.append (ops0j_tame.append (ops0k_tame.append (ops0l_tame.append ops0m_tame)))))))))))).append
    ((ops1a_tame.append (ops1b_tame.append (ops1c_tame.append (ops1d_tame.append (ops1e_tame.append (ops1f_tame.append (ops1g_tame.append (ops1h_tame.append (ops1i_tame.append (ops1j_tame.append (ops1k_tame.append (ops1l_tame.append (ops1m_tame.append ops1n_tame))))))))))))).append ops2_tame)

theorem ops_sub : (ops : List (HloOp τ sig (Elt F))).Forall fun op => op.bufs ⊆ tcRefs τ sig := ops_tame.1

/-! ## The two argument arrays are written by no operation -/

/-- A buffer holds after the line what it held before it, whatever that was. -/
def Keeps (l : List (HloOp τ sig (Elt F))) (r : Ref sig .tc) : Prop :=
  ∀ V : Valuation τ sig (Elt F), after l V (Proc.devRef .tc r) = V (Proc.devRef .tc r)

theorem Keeps.append {l₁ l₂ : List (HloOp τ sig (Elt F))} {r : Ref sig .tc} (h₁ : Keeps l₁ r) (h₂ : Keeps l₂ r) :
    Keeps (l₁ ++ l₂) r := fun V => by
  rw [Cert.AfterSplit.after_append, h₂, h₁]

/-- Both arguments through one piece: each operation's result buffer is another reference than either argument. -/
def KeepsArgs (l : List (HloOp τ sig (Elt F))) : Prop := Keeps l main_arg0 ∧ Keeps l main_arg1

theorem KeepsArgs.append {l₁ l₂ : List (HloOp τ sig (Elt F))} (h₁ : KeepsArgs l₁) (h₂ : KeepsArgs l₂) :
    KeepsArgs (l₁ ++ l₂) := ⟨h₁.1.append h₂.1, h₁.2.append h₂.2⟩

local macro "keeps_piece" p:ident : tactic =>
  `(tactic| (constructor <;> intro V <;> simp only [$p:ident] <;> after_results_simp))

set_option maxRecDepth 8192 in
theorem ops0a_keeps : KeepsArgs (F := F) ops0a := by keeps_piece ops0a
set_option maxRecDepth 8192 in
theorem ops0b_keeps : KeepsArgs (F := F) ops0b := by keeps_piece ops0b
set_option maxRecDepth 8192 in
theorem ops0c_keeps : KeepsArgs (F := F) ops0c := by keeps_piece ops0c
set_option maxRecDepth 8192 in
theorem ops0d_keeps : KeepsArgs (F := F) ops0d := by keeps_piece ops0d
set_option maxRecDepth 8192 in
theorem ops0e_keeps : KeepsArgs (F := F) ops0e := by keeps_piece ops0e
set_option maxRecDepth 8192 in
theorem ops0f_keeps : KeepsArgs (F := F) ops0f := by keeps_piece ops0f
set_option maxRecDepth 8192 in
theorem ops0g_keeps : KeepsArgs (F := F) ops0g := by keeps_piece ops0g
set_option maxRecDepth 8192 in
theorem ops0h_keeps : KeepsArgs (F := F) ops0h := by keeps_piece ops0h
set_option maxRecDepth 8192 in
theorem ops0i_keeps : KeepsArgs (F := F) ops0i := by keeps_piece ops0i
set_option maxRecDepth 8192 in
theorem ops0j_keeps : KeepsArgs (F := F) ops0j := by keeps_piece ops0j
set_option maxRecDepth 8192 in
theorem ops0k_keeps : KeepsArgs (F := F) ops0k := by keeps_piece ops0k
set_option maxRecDepth 8192 in
theorem ops0l_keeps : KeepsArgs (F := F) ops0l := by keeps_piece ops0l
set_option maxRecDepth 8192 in
theorem ops0m_keeps : KeepsArgs (F := F) ops0m := by keeps_piece ops0m
set_option maxRecDepth 8192 in
theorem ops1a_keeps : KeepsArgs (F := F) ops1a := by keeps_piece ops1a
set_option maxRecDepth 8192 in
theorem ops1b_keeps : KeepsArgs (F := F) ops1b := by keeps_piece ops1b
set_option maxRecDepth 8192 in
theorem ops1c_keeps : KeepsArgs (F := F) ops1c := by keeps_piece ops1c
set_option maxRecDepth 8192 in
theorem ops1d_keeps : KeepsArgs (F := F) ops1d := by keeps_piece ops1d
set_option maxRecDepth 8192 in
theorem ops1e_keeps : KeepsArgs (F := F) ops1e := by keeps_piece ops1e
set_option maxRecDepth 8192 in
theorem ops1f_keeps : KeepsArgs (F := F) ops1f := by keeps_piece ops1f
set_option maxRecDepth 8192 in
theorem ops1g_keeps : KeepsArgs (F := F) ops1g := by keeps_piece ops1g
set_option maxRecDepth 8192 in
theorem ops1h_keeps : KeepsArgs (F := F) ops1h := by keeps_piece ops1h
set_option maxRecDepth 8192 in
theorem ops1i_keeps : KeepsArgs (F := F) ops1i := by keeps_piece ops1i
set_option maxRecDepth 8192 in
theorem ops1j_keeps : KeepsArgs (F := F) ops1j := by keeps_piece ops1j
set_option maxRecDepth 8192 in
theorem ops1k_keeps : KeepsArgs (F := F) ops1k := by keeps_piece ops1k
set_option maxRecDepth 8192 in
theorem ops1l_keeps : KeepsArgs (F := F) ops1l := by keeps_piece ops1l
set_option maxRecDepth 8192 in
theorem ops1m_keeps : KeepsArgs (F := F) ops1m := by keeps_piece ops1m
set_option maxRecDepth 8192 in
theorem ops1n_keeps : KeepsArgs (F := F) ops1n := by keeps_piece ops1n
set_option maxRecDepth 8192 in
theorem ops2_keeps : KeepsArgs (F := F) ops2 := by keeps_piece ops2

theorem ops_keeps : KeepsArgs (F := F) ops :=
  (ops0a_keeps.append (ops0b_keeps.append (ops0c_keeps.append (ops0d_keeps.append (ops0e_keeps.append (ops0f_keeps.append (ops0g_keeps.append (ops0h_keeps.append (ops0i_keeps.append (ops0j_keeps.append (ops0k_keeps.append (ops0l_keeps.append ops0m_keeps)))))))))))).append
    ((ops1a_keeps.append (ops1b_keeps.append (ops1c_keeps.append (ops1d_keeps.append (ops1e_keeps.append (ops1f_keeps.append (ops1g_keeps.append (ops1h_keeps.append (ops1i_keeps.append (ops1j_keeps.append (ops1k_keeps.append (ops1l_keeps.append (ops1m_keeps.append ops1n_keeps))))))))))))).append ops2_keeps)

end Cert.ReferenceIdeal.HandRun

end
-- ==== Proof.RefRun.lean ====
/-
  The reference's run. Its @main is a straight line of host operations (the calls read as their callees' steps), so from
  any memory with zero counters every weakly fair execution terminates with every TensorCore buffer at the fold of the
  line over the launch contents. Read at the result buffer that is the statement below; read at the two argument arrays,
  which no operation writes, it is the frame.
-/
import proofs.«169696_j47545287967528_2_alg».proof.Proof.RefRunMain
import proofs.«169696_j47545287967528_2_alg».proof.Proof.RefRunKeeps
import Idealize.ShloMosaic.PureOps.Ideal

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## The run -/

/-- On every device, for any float values, from any memory with zero counters: every weakly fair execution of @main
    terminates; the result buffer ends at the fold of the line over the launch contents, and the two argument arrays end as
    they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v101) = after ops (fun b => m (c, b)) (Proc.devRef .tc main_v101)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨h c main_v101,
      (h c main_arg0).trans (ops_keeps.1 (launchContents m c)),
      (h c main_arg1).trans (ops_keeps.2 (launchContents m c))⟩)
    (run_seq scopedRefs_eq scopedSems_eq defs main (fun _ => ops) main_eq (fun _ => ops_sub) m ρ
      (fun _ => List.forall_iff_forall_mem.mp ops_tame.2))

/-- The frame at the ideal instance: the program runs and leaves its two argument arrays as they were. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => (h c).2) (run (F := Ideal) m ρ)

end Cert.ReferenceIdeal.HandRun

end
-- ==== Proof.RefTerm.lean ====
import proofs.«169696_j47545287967528_2_alg».proof.ReferenceIdeal

/-!
# The reference program as one pure term

The host program computes, for each of its two inputs `x : [1024, 8192]`, the matrix of
squared row distances `d2[i,j] = max(|x_i|² + |x_j|² − 2·⟨x_i, x_j⟩, 0)`, reads it at the
pairs `(row p, col p)` listed by an index array that the program builds at run time from the
strict upper triangle of a 1024 × 1024 matrix of ones, takes square roots, and returns the mean
over the 523776 pairs of the squared difference of the two inputs' distances.

The index array depends on no input: it is the enumeration, in row-major order, of the
positions `(i, j)` with `i < j`.  It is built by a running count of the mask, a histogram of
the running count and a second running sum (which together invert the running count), followed
by division and remainder by 1024.

Every stage is its own definition, in the order the program computes it.
-/

noncomputable section

namespace Cert.ReferenceIdeal.RefValue

open Idealize.ShloMosaic
open Cert.ReferenceIdeal
open Cert.ReferenceIdeal.Facts₀ Cert.ReferenceIdeal.Facts

variable {F : FTy → Type} [FloatOps F] [Facts]

/-! ## The squared-distance matrix of one input -/

/-- `sq[i] = Σ_d x[i,d]·x[i,d]`. -/
def sq (x : FVec F S1024x8192 .f32) : FVec F S1024 .f32 :=
  Host.reduceAdd (F := F) (mulf (F := F) x x) (constant (F := F) S_ .f32 0x00000000#32)
    reducesTo_S1024x8192_S1024_d1 h_S_

/-- `sq[i] + sq[j]`. -/
def sqSum (x : FVec F S1024x8192 .f32) : FVec F S1024x1024 .f32 :=
  addf (F := F)
    (broadcastInDim S1024x1024 ![0, 1] bcast_S1024x1_S1024x1024_0_1
      (broadcastInDim S1024x1 ![0] bcast_S1024_S1024x1_0 (sq (F := F) x)))
    (broadcastInDim S1024x1024 ![0, 1] bcast_S1x1024_S1024x1024_0_1
      (broadcastInDim S1x1024 ![1] bcast_S1024_S1x1024_1 (sq (F := F) x)))

/-- The Gram matrix `G[i,j] = Σ_d x[i,d]·x[j,d]`. -/
def gram (x : FVec F S1024x8192 .f32) : FVec F S1024x1024 .f32 :=
  Host.dotGeneral (F := F) dot_S1024x8192_S8192x1024_S1024x1024_1_0_0_1_n_n none x
    (transpose S8192x1024 [1, 0] x transposes_S1024x8192_S8192x1024_1_0)

/-- `d2[i,j] = max(sq[i] + sq[j] − 2·G[i,j], 0)`. -/
def d2 (x : FVec F S1024x8192 .f32) : FVec F S1024x1024 .f32 :=
  maximumf (F := F)
    (subf (F := F) (sqSum (F := F) x)
      (mulf (F := F)
        (broadcastInDim S1024x1024 ![] bcast_S_S1024x1024 (constant (F := F) S_ .f32 0x40000000#32))
        (gram (F := F) x)))
    (broadcastInDim S1024x1024 ![] bcast_S_S1024x1024 (constant (F := F) S_ .f32 0x00000000#32))

/-! ## The pair index array (depends on no input) -/

/-- The matrix of ones with its lower triangle and diagonal zeroed. -/
def triuOnes : FVec F S1024x1024 .f32 :=
  select
    (cmpi .sge
      (addi (iotaInDim S1024x1024 32 0)
        (broadcastInDim S1024x1024 ![] bcast_S_S1024x1024 (constantI S_ 32 0#32)))
      (iotaInDim S1024x1024 32 1))
    (broadcastInDim S1024x1024 ![] bcast_S_S1024x1024 (constant (F := F) S_ .f32 0x00000000#32))
    (broadcastInDim S1024x1024 ![] bcast_S_S1024x1024 (constant (F := F) S_ .f32 0x3F800000#32))

/-- The mask of its nonzero entries. -/
def mask : IVec S1024x1024 1 :=
  cmpf (F := F) .une (triuOnes (F := F))
    (broadcastInDim S1024x1024 ![] bcast_S_S1024x1024 (constant (F := F) S_ .f32 0x00000000#32))

/-- The mask flattened, as 32-bit words. -/
def maskWords : IVec S1048576 32 :=
  extui 32 (shapeCast S1048576 (mask (F := F)) shapeCasts_S1024x1024_S1048576) natLt_1_32

/-- The inclusive running sum of the flattened mask. -/
def running : IVec S1048576 32 :=
  Host.reduceWindow IntOp.addi ![1048576] ![1] ![1048575] ![0] (maskWords (F := F))
    (broadcastInDim S_ ![] bcast_S_S_ (constantI S_ 32 0#32))
    reduceWindows_S1048576_S1048576_w1048576s1p1048575_0 h_S_

/-- The running sum clipped below at zero. -/
def clipped : IVec S1048576 32 :=
  maxsi (broadcastInDim S1048576 ![] bcast_S_S1048576 (id (constantI S_ 32 0#32))) (running (F := F))

/-- Negative values wrapped by the number of pairs. -/
def wrapped : IVec S1048576 32 :=
  select
    (cmpi .slt (clipped (F := F)) (broadcastInDim S1048576 ![] bcast_S_S1048576 (constantI S_ 32 0#32)))
    (addi (clipped (F := F)) (broadcastInDim S1048576 ![] bcast_S_S1048576 (constantI S_ 32 523776#32)))
    (clipped (F := F))

/-- The histogram of the running sum: ones added into zeros at those positions. -/
def counts : IVec S523776 32 :=
  Host.scatter scatter_S523776_S1048576x1_S1048576_n_0_0_1 IntOp.addi
    (broadcastInDim S523776 ![] bcast_S_S523776 (constantI S_ 32 0#32))
    (broadcastInDim S1048576x1 ![0] bcast_S1048576_S1048576x1_0 (wrapped (F := F)))
    (broadcastInDim S1048576 ![] bcast_S_S1048576 (constantI S_ 32 1#32))

/-- The running sum of the histogram: the flat position of the `p`-th pair. -/
def flat : IVec S523776 32 :=
  Host.reduceWindow IntOp.addi ![523776] ![1] ![523775] ![0] (counts (F := F))
    (broadcastInDim S_ ![] bcast_S_S_ (constantI S_ 32 0#32))
    reduceWindows_S523776_S523776_w523776s1p523775_0 h_S_

/-- Division rounding toward minus infinity, as the program spells it. -/
def floorDivide (a : IVec S523776 32) (b : IVec S_ 32) : IVec S523776 32 :=
  select
    (andi
      (cmpi .ne (signi a) (broadcastInDim S523776 ![] bcast_S_S523776 (signi b)))
      (cmpi .ne (Host.remsi a (broadcastInDim S523776 ![] bcast_S_S523776 b))
        (broadcastInDim S523776 ![] bcast_S_S523776 (constantI S_ 32 0#32))))
    (subi (Host.divsi a (broadcastInDim S523776 ![] bcast_S_S523776 b))
      (broadcastInDim S523776 ![] bcast_S_S523776 (constantI S_ 32 1#32)))
    (Host.divsi a (broadcastInDim S523776 ![] bcast_S_S523776 b))

/-- The divisor of the remainder, with zero replaced by one. -/
def safeDivisor (b : IVec S_ 32) : IVec S_ 32 :=
  select (cmpi .eq (id b) (constantI S_ 32 0#32)) (constantI S_ 32 1#32) (id b)

/-- Remainder with the sign of the divisor, as the program spells it. -/
def remainder (a : IVec S523776 32) (b : IVec S_ 32) : IVec S523776 32 :=
  select
    (andi
      (cmpi .ne
        (cmpi .slt (Host.remsi a (broadcastInDim S523776 ![] bcast_S_S523776 (safeDivisor b)))
          (broadcastInDim S523776 ![] bcast_S_S523776 (constantI S_ 32 0#32)))
        (broadcastInDim S523776 ![] bcast_S_S523776
          (cmpi .slt (safeDivisor b) (constantI S_ 32 0#32))))
      (cmpi .ne (Host.remsi a (broadcastInDim S523776 ![] bcast_S_S523776 (safeDivisor b)))
        (broadcastInDim S523776 ![] bcast_S_S523776 (constantI S_ 32 0#32))))
    (addi (Host.remsi a (broadcastInDim S523776 ![] bcast_S_S523776 (safeDivisor b)))
      (broadcastInDim S523776 ![] bcast_S_S523776 (safeDivisor b)))
    (Host.remsi a (broadcastInDim S523776 ![] bcast_S_S523776 (safeDivisor b)))

/-- Negative values wrapped by the number of rows. -/
def wrapRows (a : IVec S523776 32) : IVec S523776 32 :=
  select
    (cmpi .slt a (broadcastInDim S523776 ![] bcast_S_S523776 (constantI S_ 32 0#32)))
    (addi a (broadcastInDim S523776 ![] bcast_S_S523776 (constantI S_ 32 1024#32)))
    a

/-- The row of the `p`-th pair, as a word. -/
def rowW : IVec S523776 32 :=
  wrapRows (remainder (floorDivide (flat (F := F)) (constantI S_ 32 1024#32)) (constantI S_ 32 1024#32))

/-- The column of the `p`-th pair, as a word. -/
def colW : IVec S523776 32 :=
  wrapRows (remainder (floorDivide (flat (F := F)) (constantI S_ 32 1#32)) (constantI S_ 32 1024#32))

/-- The two columns side by side: entry `(p, 0)` is the row and `(p, 1)` the column. -/
def pairIndex : IVec S523776x2 32 :=
  concatenate S523776x2 1
    [⟨S523776x1, broadcastInDim S523776x1 ![0] bcast_S523776_S523776x1_0 (rowW (F := F))⟩,
     ⟨S523776x1, broadcastInDim S523776x1 ![0] bcast_S523776_S523776x1_0 (colW (F := F))⟩]
    concatenates_S523776x1_S523776x1_S523776x2_d1

/-! ## The distances at the pairs and the result -/

/-- `half x p = sqrt (d2 x)[row p, col p]`. -/
def half (x : FVec F S1024x8192 .f32) : FVec F S523776 .f32 :=
  Host.sqrt (F := F)
    (Host.gather gather_S1024x1024_S523776x2_S523776_n_01_n_n_01_1_11 (d2 (F := F) x) (pairIndex (F := F)))

/-- The difference of the two inputs' distances at each pair. -/
def diff (x y : FVec F S1024x8192 .f32) : FVec F S523776 .f32 :=
  subf (F := F) (half (F := F) x) (half (F := F) y)

/-- The mean over the pairs of the squared difference. -/
def refTerm (x y : FVec F S1024x8192 .f32) : FVec F S_ .f32 :=
  Host.divf (F := F)
    (Host.reduceAdd (F := F) (mulf (F := F) (diff (F := F) x y) (diff (F := F) x y))
      (constant (F := F) S_ .f32 0x00000000#32) reducesTo_S523776_S_d0 h_S_)
    (constant (F := F) S_ .f32 0x48FFC000#32)

end Cert.ReferenceIdeal.RefValue

end
-- ==== Proof.RefRunStages.lean ====
/-
  The stages by which the reference enumerates the strictly-upper-triangular pairs at run time, each as a function of the
  stage before it — the same operations the program applies, named once so that the two copies of the enumeration (one per
  input) can be read against the same terms. Composed from the matrix of ones they are the flat position of the p-th pair;
  nothing here depends on an input array.
-/
import proofs.«169696_j47545287967528_2_alg».proof.Proof.Gen.ReferenceIdeal
import proofs.«169696_j47545287967528_2_alg».proof.Proof.RefTerm

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.ReferenceIdeal.RefValue

variable {F : FTy → Type} [FloatOps F]

/-- A matrix with its lower triangle and diagonal replaced by zero: entry (i, j) is kept where i < j. -/
def triuOf (a : FVec F S1024x1024 .f32) : FVec F S1024x1024 .f32 :=
  select
    (cmpi .sge
      (addi (iotaInDim S1024x1024 32 0)
        (broadcastInDim S1024x1024 ![] bcast_S_S1024x1024 (constantI S_ 32 0#32)))
      (iotaInDim S1024x1024 32 1))
    (broadcastInDim S1024x1024 ![] bcast_S_S1024x1024 (constant (F := F) S_ .f32 0x00000000#32))
    a

/-- Where a matrix is not zero. -/
def nonzeroOf (a : FVec F S1024x1024 .f32) : IVec S1024x1024 1 :=
  cmpf (F := F) .une a
    (broadcastInDim S1024x1024 ![] bcast_S_S1024x1024 (constant (F := F) S_ .f32 0x00000000#32))

/-- The inclusive running count of a mask read in row-major order. -/
def runningOf (k : IVec S1024x1024 1) : IVec S1048576 32 :=
  Host.reduceWindow IntOp.addi ![1048576] ![1] ![1048575] ![0]
    (extui 32 (shapeCast S1048576 k shapeCasts_S1024x1024_S1048576) natLt_1_32)
    (broadcastInDim S_ ![] bcast_S_S_ (constantI S_ 32 0#32))
    reduceWindows_S1048576_S1048576_w1048576s1p1048575_0 h_S_

/-- A count clipped below at a scalar. -/
def clipOf (z : IVec S_ 32) (r : IVec S1048576 32) : IVec S1048576 32 :=
  maxsi (broadcastInDim S1048576 ![] bcast_S_S1048576 (id z)) r

/-- The histogram of the counts: one added, into the given start, at each count (a negative one wrapped by the number of
    pairs first). -/
def countsOf (start : IVec S523776 32) (c : IVec S1048576 32) : IVec S523776 32 :=
  Host.scatter scatter_S523776_S1048576x1_S1048576_n_0_0_1 IntOp.addi start
    (broadcastInDim S1048576x1 ![0] bcast_S1048576_S1048576x1_0
      (select
        (cmpi .slt c (broadcastInDim S1048576 ![] bcast_S_S1048576 (constantI S_ 32 0#32)))
        (addi c (broadcastInDim S1048576 ![] bcast_S_S1048576 (constantI S_ 32 523776#32)))
        c))
    (broadcastInDim S1048576 ![] bcast_S_S1048576 (constantI S_ 32 1#32))

/-- The inclusive running sum of a histogram. -/
def flatOf (h : IVec S523776 32) : IVec S523776 32 :=
  Host.reduceWindow IntOp.addi ![523776] ![1] ![523775] ![0] h
    (broadcastInDim S_ ![] bcast_S_S_ (constantI S_ 32 0#32))
    reduceWindows_S523776_S523776_w523776s1p523775_0 h_S_

/-- The matrix of ones. -/
def onesMat : FVec F S1024x1024 .f32 :=
  broadcastInDim S1024x1024 ![] bcast_S_S1024x1024 (constant (F := F) S_ .f32 0x3F800000#32)

/-- The stages composed from the matrix of ones are the flat positions of the pairs. -/
theorem flatOf_stages :
    flatOf (countsOf (broadcastInDim S523776 ![] bcast_S_S523776 (constantI S_ 32 0#32))
      (clipOf (constantI S_ 32 0#32) (runningOf (nonzeroOf (F := F) (triuOf onesMat))))) = flat (F := F) := rfl

/-- A negative index wrapped by the number of rows, with the comparison and the shifted value given: the select the
    program ends each index with. -/
theorem wrapRows_eq (a : IVec S523776 32) :
    select (cmpi .slt a (broadcastInDim S523776 ![] bcast_S_S523776 (constantI S_ 32 0#32)))
      (addi a (broadcastInDim S523776 ![] bcast_S_S523776 (constantI S_ 32 1024#32))) a = wrapRows a := rfl

/-- The row of the p-th pair before the wrap of negative values: the flat position's floor quotient by the row length,
    reduced modulo the row length. -/
def rowRaw : IVec S523776 32 :=
  remainder (floorDivide (flat (F := F)) (constantI S_ 32 1024#32)) (constantI S_ 32 1024#32)

/-- The column of the p-th pair before the wrap: the flat position (its floor quotient by one) modulo the row length. -/
def colRaw : IVec S523776 32 :=
  remainder (floorDivide (flat (F := F)) (constantI S_ 32 1#32)) (constantI S_ 32 1024#32)

theorem rowW_eq : rowW (F := F) = wrapRows (rowRaw (F := F)) := rfl
theorem colW_eq : colW (F := F) = wrapRows (colRaw (F := F)) := rfl

/-- A matrix read at the pairs, and the root taken. -/
def atPairs (D : FVec F S1024x1024 .f32) : FVec F S523776 .f32 :=
  Host.sqrt (F := F)
    (Host.gather gather_S1024x1024_S523776x2_S523776_n_01_n_n_01_1_11 D (pairIndex (F := F)))

theorem half_eq (x : FVec F S1024x8192 .f32) : half (F := F) x = atPairs (d2 (F := F) x) := rfl

/-- The mean over the pairs of the squared difference of two vectors of distances. -/
def meanSq (a b : FVec F S523776 .f32) : FVec F S_ .f32 :=
  Host.divf (F := F)
    (Host.reduceAdd (F := F) (mulf (F := F) (subf (F := F) a b) (subf (F := F) a b))
      (constant (F := F) S_ .f32 0x00000000#32) reducesTo_S523776_S_d0 h_S_)
    (constant (F := F) S_ .f32 0x48FFC000#32)

theorem refTerm_eq_meanSq (x y : FVec F S1024x8192 .f32) :
    refTerm (F := F) x y = meanSq (atPairs (d2 (F := F) x)) (atPairs (d2 (F := F) y)) := rfl

end Cert.ReferenceIdeal.HandRun

end
-- ==== Proof.LibTRefRoundTrip.lean ====
/-
  A reusable lemma: a value carried to a buffer's own type and back.

  The operations of an outlined function (a reference's relu, log_softmax, …) name their buffers through typed
  references; a value of the stated type is carried to the buffer's own type when written and carried back when read.
  The two transports are along one equation of buffer types and its reverse, so together they are the identity —
  whatever the reference, and without looking the buffer's type up: substitute the equation.
-/
import Idealize.ShloMosaic.Lib.StableHlo

noncomputable section

namespace Cert.TRefRoundTrip

open Idealize.ShloMosaic Idealize.ShloMosaic.StableHlo

/-- Contents carried to a buffer's own type and back are the contents. -/
theorem ofBuf_toBuf {sg : RefSig} {T : BufTy} {Val : EltTy → Type} (x : TRef sg T) (v : T.Contents Val) :
    x.ofBuf (x.toBuf v) = v := by
  obtain ⟨r, h, h1, h2⟩ := x
  subst h
  rfl

end Cert.TRefRoundTrip

end
-- ==== Proof.RefRunPieces0.lean ====
/-
  What each piece of window 0 of the reference leaves in the buffers later pieces read, as the program's own operations
  applied to what the piece found in the buffers IT reads (whatever those contents were): the clamped squared distances of
  the first input; then, stage by stage, the run-time enumeration of the pairs (mask of the strict upper triangle, running
  count, histogram, running sum, row and column by floor division and remainder); and the buffers each piece writes.
-/
import proofs.«169696_j47545287967528_2_alg».proof.Proof.RefRunOps
import proofs.«169696_j47545287967528_2_alg».proof.Proof.RefRunStages
import proofs.«169696_j47545287967528_2_alg».proof.Proof.LibTRefRoundTrip

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.ReferenceIdeal.RefValue

variable {F : FTy → Type} [FloatOps F]

-- the reductions, the scatter and the gather stay folded while two terms are compared: nothing below looks inside them
attribute [local irreducible] Host.reduceWindow Host.scatter Host.gather

/-- Reads one buffer after one piece: the fold over the piece's literal list is unrolled, each operation's result taken at
    its own result buffer and passed over at every other reference; a typed reference's pair of transports cancels. -/
local macro "read_piece" p:ident : tactic =>
  `(tactic| (simp only [$p:ident]; after_results_simp; all_goals (first | rfl | (simp only [Cert.TRefRoundTrip.ofBuf_toBuf]; rfl))))

/-- The buffers a piece writes are those of its list: every operation writes its one result buffer. -/
local macro "writes_piece" p:ident w:ident : tactic =>
  `(tactic| simp only [$p:ident, $w:ident, List.Forall, nullary_writes, unary_writes, binary_writes, ternary_writes, reshape_writes,
      Finset.singleton_subset_iff, List.mem_toFinset, List.map_cons, List.map_nil, List.mem_cons, true_or, or_true, and_self])

/-! ## Reads -/

set_option maxRecDepth 8192 in
theorem ops0a_v13 (W : Valuation τ sig (Elt F)) :
    after ops0a W (Proc.devRef .tc main_v13)
      = d2 (F := F) (W (Proc.devRef .tc main_arg0)) := by read_piece ops0a

set_option maxRecDepth 8192 in
theorem ops0a_v14 (W : Valuation τ sig (Elt F)) :
    after ops0a W (Proc.devRef .tc main_v14)
      = onesMat (F := F) := by read_piece ops0a

set_option maxRecDepth 8192 in
theorem ops0b_v15 (W : Valuation τ sig (Elt F)) :
    after ops0b W (Proc.devRef .tc main_v15)
      = triuOf (W (Proc.devRef .tc main_v14)) := by read_piece ops0b

set_option maxRecDepth 8192 in
theorem ops0c_v17 (W : Valuation τ sig (Elt F)) :
    after ops0c W (Proc.devRef .tc main_v17)
      = nonzeroOf (F := F) (W (Proc.devRef .tc main_v15)) := by read_piece ops0c

set_option maxRecDepth 8192 in
theorem ops0d_v18 (W : Valuation τ sig (Elt F)) :
    after ops0d W (Proc.devRef .tc main_v18)
      = runningOf (W (Proc.devRef .tc main_v17)) := by read_piece ops0d

set_option maxRecDepth 8192 in
theorem ops0e_v19 (W : Valuation τ sig (Elt F)) :
    after ops0e W (Proc.devRef .tc main_v19)
      = (broadcastInDim S523776 ![] bcast_S_S523776 (constantI S_ 32 0#32)) := by read_piece ops0e

set_option maxRecDepth 8192 in
theorem ops0e_c_4 (W : Valuation τ sig (Elt F)) :
    after ops0e W (Proc.devRef .tc main_c_4)
      = (constantI S_ 32 0#32) := by read_piece ops0e

set_option maxRecDepth 8192 in
theorem ops0f_v20 (W : Valuation τ sig (Elt F)) :
    after ops0f W (Proc.devRef .tc main_v20)
      = clipOf (W (Proc.devRef .tc main_c_4)) (W (Proc.devRef .tc main_v18)) := by read_piece ops0f

set_option maxRecDepth 8192 in
theorem ops0g_v28 (W : Valuation τ sig (Elt F)) :
    after ops0g W (Proc.devRef .tc main_v28)
      = countsOf (W (Proc.devRef .tc main_v19)) (W (Proc.devRef .tc main_v20)) := by read_piece ops0g

set_option maxRecDepth 8192 in
theorem ops0h_v29 (W : Valuation τ sig (Elt F)) :
    after ops0h W (Proc.devRef .tc main_v29)
      = flatOf (W (Proc.devRef .tc main_v28)) := by read_piece ops0h

set_option maxRecDepth 8192 in
theorem ops0i_v30 (W : Valuation τ sig (Elt F)) :
    after ops0i W (Proc.devRef .tc main_v30)
      = floorDivide (W (Proc.devRef .tc main_v29)) (constantI S_ 32 1024#32) := by read_piece ops0i

set_option maxRecDepth 8192 in
theorem ops0j_v31 (W : Valuation τ sig (Elt F)) :
    after ops0j W (Proc.devRef .tc main_v31)
      = remainder (W (Proc.devRef .tc main_v30)) (constantI S_ 32 1024#32) := by read_piece ops0j

set_option maxRecDepth 8192 in
theorem ops0k_v32 (W : Valuation τ sig (Elt F)) :
    after ops0k W (Proc.devRef .tc main_v32)
      = floorDivide (W (Proc.devRef .tc main_v29)) (constantI S_ 32 1#32) := by read_piece ops0k

set_option maxRecDepth 8192 in
theorem ops0l_v33 (W : Valuation τ sig (Elt F)) :
    after ops0l W (Proc.devRef .tc main_v33)
      = remainder (W (Proc.devRef .tc main_v32)) (constantI S_ 32 1024#32) := by read_piece ops0l

set_option maxRecDepth 8192 in
theorem ops0m_v38 (W : Valuation τ sig (Elt F)) :
    after ops0m W (Proc.devRef .tc main_v38)
      = wrapRows (W (Proc.devRef .tc main_v31)) := by read_piece ops0m

set_option maxRecDepth 8192 in
theorem ops0m_v40 (W : Valuation τ sig (Elt F)) :
    after ops0m W (Proc.devRef .tc main_v40)
      = cmpi .slt (W (Proc.devRef .tc main_v33)) (broadcastInDim S523776 ![] bcast_S_S523776 (constantI S_ 32 0#32)) := by read_piece ops0m

set_option maxRecDepth 8192 in
theorem ops0m_v41 (W : Valuation τ sig (Elt F)) :
    after ops0m W (Proc.devRef .tc main_v41)
      = (broadcastInDim S523776 ![] bcast_S_S523776 (constantI S_ 32 1024#32)) := by read_piece ops0m

/-! ## Writes -/

theorem ops0a_writes : (ops0a : List (HloOp τ sig (Elt F))).Forall fun op =>
    op.writes ⊆ (ops0a_W.map (Proc.devRef (τ := τ) .tc)).toFinset := by writes_piece ops0a ops0a_W

theorem ops0b_writes : (ops0b : List (HloOp τ sig (Elt F))).Forall fun op =>
    op.writes ⊆ (ops0b_W.map (Proc.devRef (τ := τ) .tc)).toFinset := by writes_piece ops0b ops0b_W

theorem ops0c_writes : (ops0c : List (HloOp τ sig (Elt F))).Forall fun op =>
    op.writes ⊆ (ops0c_W.map (Proc.devRef (τ := τ) .tc)).toFinset := by writes_piece ops0c ops0c_W

theorem ops0d_writes : (ops0d : List (HloOp τ sig (Elt F))).Forall fun op =>
    op.writes ⊆ (ops0d_W.map (Proc.devRef (τ := τ) .tc)).toFinset := by writes_piece ops0d ops0d_W

theorem ops0e_writes : (ops0e : List (HloOp τ sig (Elt F))).Forall fun op =>
    op.writes ⊆ (ops0e_W.map (Proc.devRef (τ := τ) .tc)).toFinset := by writes_piece ops0e ops0e_W

theorem ops0f_writes : (ops0f : List (HloOp τ sig (Elt F))).Forall fun op =>
    op.writes ⊆ (ops0f_W.map (Proc.devRef (τ := τ) .tc)).toFinset := by writes_piece ops0f ops0f_W

theorem ops0g_writes : (ops0g : List (HloOp τ sig (Elt F))).Forall fun op =>
    op.writes ⊆ (ops0g_W.map (Proc.devRef (τ := τ) .tc)).toFinset := by writes_piece ops0g ops0g_W

theorem ops0h_writes : (ops0h : List (HloOp τ sig (Elt F))).Forall fun op =>
    op.writes ⊆ (ops0h_W.map (Proc.devRef (τ := τ) .tc)).toFinset := by writes_piece ops0h ops0h_W

theorem ops0i_writes : (ops0i : List (HloOp τ sig (Elt F))).Forall fun op =>
    op.writes ⊆ (ops0i_W.map (Proc.devRef (τ := τ) .tc)).toFinset := by writes_piece ops0i ops0i_W

theorem ops0j_writes : (ops0j : List (HloOp τ sig (Elt F))).Forall fun op =>
    op.writes ⊆ (ops0j_W.map (Proc.devRef (τ := τ) .tc)).toFinset := by writes_piece ops0j ops0j_W

theorem ops0k_writes : (ops0k : List (HloOp τ sig (Elt F))).Forall fun op =>
    op.writes ⊆ (ops0k_W.map (Proc.devRef (τ := τ) .tc)).toFinset := by writes_piece ops0k ops0k_W

theorem ops0l_writes : (ops0l : List (HloOp τ sig (Elt F))).Forall fun op =>
    op.writes ⊆ (ops0l_W.map (Proc.devRef (τ := τ) .tc)).toFinset := by writes_piece ops0l ops0l_W

theorem ops0m_writes : (ops0m : List (HloOp τ sig (Elt F))).Forall fun op =>
    op.writes ⊆ (ops0m_W.map (Proc.devRef (τ := τ) .tc)).toFinset := by writes_piece ops0m ops0m_W

end Cert.ReferenceIdeal.HandRun

end
-- ==== Proof.RefRunPieces1.lean ====
/-
  What each piece of windows 1 and 2 of the reference leaves in the buffers later pieces read, as the program's own
  operations applied to what the piece found in the buffers it reads: the first input's distances at the pairs; the clamped
  squared distances of the second input; the second copy of the run-time enumeration of the pairs, stage by stage; and the
  tail — the second input's distances at the pairs, the squared difference, its sum and the division by the number of pairs.
-/
import proofs.«169696_j47545287967528_2_alg».proof.Proof.RefRunOps
import proofs.«169696_j47545287967528_2_alg».proof.Proof.RefRunStages
import proofs.«169696_j47545287967528_2_alg».proof.Proof.LibTRefRoundTrip

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.ReferenceIdeal.RefValue

variable {F : FTy → Type} [FloatOps F]

-- the reductions, the scatter and the gather stay folded while two terms are compared: nothing below looks inside them
attribute [local irreducible] Host.reduceWindow Host.scatter Host.gather

/-- Reads one buffer after one piece: the fold over the piece's literal list is unrolled, each operation's result taken at
    its own result buffer and passed over at every other reference; a typed reference's pair of transports cancels. -/
local macro "read_piece" p:ident : tactic =>
  `(tactic| (simp only [$p:ident]; after_results_simp; all_goals (first | rfl | (simp only [Cert.TRefRoundTrip.ofBuf_toBuf]; rfl))))

/-- The buffers a piece writes are those of its list: every operation writes its one result buffer. -/
local macro "writes_piece" p:ident w:ident : tactic =>
  `(tactic| simp only [$p:ident, $w:ident, List.Forall, nullary_writes, unary_writes, binary_writes, ternary_writes, reshape_writes,
      Finset.singleton_subset_iff, List.mem_toFinset, List.map_cons, List.map_nil, List.mem_cons, true_or, or_true, and_self])

/-! ## Reads -/

set_option maxRecDepth 8192 in
theorem ops1a_v48 (W : Valuation τ sig (Elt F)) :
    after ops1a W (Proc.devRef .tc main_v48)
      = Host.sqrt (F := F)
          (Host.gather gather_S1024x1024_S523776x2_S523776_n_01_n_n_01_1_11 (W (Proc.devRef .tc main_v13))
            (concatenate S523776x2 1
              [⟨S523776x1, broadcastInDim S523776x1 ![0] bcast_S523776_S523776x1_0 (W (Proc.devRef .tc main_v38))⟩,
               ⟨S523776x1, broadcastInDim S523776x1 ![0] bcast_S523776_S523776x1_0 (select (W (Proc.devRef .tc main_v40)) (addi (W (Proc.devRef .tc main_v33)) (W (Proc.devRef .tc main_v41))) (W (Proc.devRef .tc main_v33)))⟩]
              concatenates_S523776x1_S523776x1_S523776x2_d1)) := by read_piece ops1a

set_option maxRecDepth 8192 in
theorem ops1b_v62 (W : Valuation τ sig (Elt F)) :
    after ops1b W (Proc.devRef .tc main_v62)
      = d2 (F := F) (W (Proc.devRef .tc main_arg1)) := by read_piece ops1b

set_option maxRecDepth 8192 in
theorem ops1b_v63 (W : Valuation τ sig (Elt F)) :
    after ops1b W (Proc.devRef .tc main_v63)
      = onesMat (F := F) := by read_piece ops1b

set_option maxRecDepth 8192 in
theorem ops1c_v64 (W : Valuation τ sig (Elt F)) :
    after ops1c W (Proc.devRef .tc main_v64)
      = triuOf (W (Proc.devRef .tc main_v63)) := by read_piece ops1c

set_option maxRecDepth 8192 in
theorem ops1d_v66 (W : Valuation τ sig (Elt F)) :
    after ops1d W (Proc.devRef .tc main_v66)
      = nonzeroOf (F := F) (W (Proc.devRef .tc main_v64)) := by read_piece ops1d

set_option maxRecDepth 8192 in
theorem ops1e_v67 (W : Valuation τ sig (Elt F)) :
    after ops1e W (Proc.devRef .tc main_v67)
      = runningOf (W (Proc.devRef .tc main_v66)) := by read_piece ops1e

set_option maxRecDepth 8192 in
theorem ops1f_v68 (W : Valuation τ sig (Elt F)) :
    after ops1f W (Proc.devRef .tc main_v68)
      = (broadcastInDim S523776 ![] bcast_S_S523776 (constantI S_ 32 0#32)) := by read_piece ops1f

set_option maxRecDepth 8192 in
theorem ops1f_c_22 (W : Valuation τ sig (Elt F)) :
    after ops1f W (Proc.devRef .tc main_c_22)
      = (constantI S_ 32 0#32) := by read_piece ops1f

set_option maxRecDepth 8192 in
theorem ops1g_v69 (W : Valuation τ sig (Elt F)) :
    after ops1g W (Proc.devRef .tc main_v69)
      = clipOf (W (Proc.devRef .tc main_c_22)) (W (Proc.devRef .tc main_v67)) := by read_piece ops1g

set_option maxRecDepth 8192 in
theorem ops1h_v77 (W : Valuation τ sig (Elt F)) :
    after ops1h W (Proc.devRef .tc main_v77)
      = countsOf (W (Proc.devRef .tc main_v68)) (W (Proc.devRef .tc main_v69)) := by read_piece ops1h

set_option maxRecDepth 8192 in
theorem ops1i_v78 (W : Valuation τ sig (Elt F)) :
    after ops1i W (Proc.devRef .tc main_v78)
      = flatOf (W (Proc.devRef .tc main_v77)) := by read_piece ops1i

set_option maxRecDepth 8192 in
theorem ops1j_v79 (W : Valuation τ sig (Elt F)) :
    after ops1j W (Proc.devRef .tc main_v79)
      = floorDivide (W (Proc.devRef .tc main_v78)) (constantI S_ 32 1024#32) := by read_piece ops1j

set_option maxRecDepth 8192 in
theorem ops1k_v80 (W : Valuation τ sig (Elt F)) :
    after ops1k W (Proc.devRef .tc main_v80)
      = remainder (W (Proc.devRef .tc main_v79)) (constantI S_ 32 1024#32) := by read_piece ops1k

set_option maxRecDepth 8192 in
theorem ops1l_v81 (W : Valuation τ sig (Elt F)) :
    after ops1l W (Proc.devRef .tc main_v81)
      = floorDivide (W (Proc.devRef .tc main_v78)) (constantI S_ 32 1#32) := by read_piece ops1l

set_option maxRecDepth 8192 in
theorem ops1m_v82 (W : Valuation τ sig (Elt F)) :
    after ops1m W (Proc.devRef .tc main_v82)
      = remainder (W (Proc.devRef .tc main_v81)) (constantI S_ 32 1024#32) := by read_piece ops1m

set_option maxRecDepth 8192 in
theorem ops1n_v84 (W : Valuation τ sig (Elt F)) :
    after ops1n W (Proc.devRef .tc main_v84)
      = cmpi .slt (W (Proc.devRef .tc main_v80)) (broadcastInDim S523776 ![] bcast_S_S523776 (constantI S_ 32 0#32)) := by read_piece ops1n

set_option maxRecDepth 8192 in
theorem ops1n_v85 (W : Valuation τ sig (Elt F)) :
    after ops1n W (Proc.devRef .tc main_v85)
      = (broadcastInDim S523776 ![] bcast_S_S523776 (constantI S_ 32 1024#32)) := by read_piece ops1n

set_option maxRecDepth 8192 in
theorem ops2_v101 (W : Valuation τ sig (Elt F)) :
    after ops2 W (Proc.devRef .tc main_v101)
      = meanSq (W (Proc.devRef .tc main_v48))
          (Host.sqrt (F := F)
            (Host.gather gather_S1024x1024_S523776x2_S523776_n_01_n_n_01_1_11 (W (Proc.devRef .tc main_v62))
              (concatenate S523776x2 1
                [⟨S523776x1, broadcastInDim S523776x1 ![0] bcast_S523776_S523776x1_0
                    (select (W (Proc.devRef .tc main_v84))
                      (addi (W (Proc.devRef .tc main_v80)) (W (Proc.devRef .tc main_v85))) (W (Proc.devRef .tc main_v80)))⟩,
                 ⟨S523776x1, broadcastInDim S523776x1 ![0] bcast_S523776_S523776x1_0
                    (wrapRows (W (Proc.devRef .tc main_v82)))⟩]
                concatenates_S523776x1_S523776x1_S523776x2_d1))) := by read_piece ops2

/-! ## Writes -/

theorem ops1a_writes : (ops1a : List (HloOp τ sig (Elt F))).Forall fun op =>
    op.writes ⊆ (ops1a_W.map (Proc.devRef (τ := τ) .tc)).toFinset := by writes_piece ops1a ops1a_W

theorem ops1b_writes : (ops1b : List (HloOp τ sig (Elt F))).Forall fun op =>
    op.writes ⊆ (ops1b_W.map (Proc.devRef (τ := τ) .tc)).toFinset := by writes_piece ops1b ops1b_W

theorem ops1c_writes : (ops1c : List (HloOp τ sig (Elt F))).Forall fun op =>
    op.writes ⊆ (ops1c_W.map (Proc.devRef (τ := τ) .tc)).toFinset := by writes_piece ops1c ops1c_W

theorem ops1d_writes : (ops1d : List (HloOp τ sig (Elt F))).Forall fun op =>
    op.writes ⊆ (ops1d_W.map (Proc.devRef (τ := τ) .tc)).toFinset := by writes_piece ops1d ops1d_W

theorem ops1e_writes : (ops1e : List (HloOp τ sig (Elt F))).Forall fun op =>
    op.writes ⊆ (ops1e_W.map (Proc.devRef (τ := τ) .tc)).toFinset := by writes_piece ops1e ops1e_W

theorem ops1f_writes : (ops1f : List (HloOp τ sig (Elt F))).Forall fun op =>
    op.writes ⊆ (ops1f_W.map (Proc.devRef (τ := τ) .tc)).toFinset := by writes_piece ops1f ops1f_W

theorem ops1g_writes : (ops1g : List (HloOp τ sig (Elt F))).Forall fun op =>
    op.writes ⊆ (ops1g_W.map (Proc.devRef (τ := τ) .tc)).toFinset := by writes_piece ops1g ops1g_W

theorem ops1h_writes : (ops1h : List (HloOp τ sig (Elt F))).Forall fun op =>
    op.writes ⊆ (ops1h_W.map (Proc.devRef (τ := τ) .tc)).toFinset := by writes_piece ops1h ops1h_W

theorem ops1i_writes : (ops1i : List (HloOp τ sig (Elt F))).Forall fun op =>
    op.writes ⊆ (ops1i_W.map (Proc.devRef (τ := τ) .tc)).toFinset := by writes_piece ops1i ops1i_W

theorem ops1j_writes : (ops1j : List (HloOp τ sig (Elt F))).Forall fun op =>
    op.writes ⊆ (ops1j_W.map (Proc.devRef (τ := τ) .tc)).toFinset := by writes_piece ops1j ops1j_W

theorem ops1k_writes : (ops1k : List (HloOp τ sig (Elt F))).Forall fun op =>
    op.writes ⊆ (ops1k_W.map (Proc.devRef (τ := τ) .tc)).toFinset := by writes_piece ops1k ops1k_W

theorem ops1l_writes : (ops1l : List (HloOp τ sig (Elt F))).Forall fun op =>
    op.writes ⊆ (ops1l_W.map (Proc.devRef (τ := τ) .tc)).toFinset := by writes_piece ops1l ops1l_W

theorem ops1m_writes : (ops1m : List (HloOp τ sig (Elt F))).Forall fun op =>
    op.writes ⊆ (ops1m_W.map (Proc.devRef (τ := τ) .tc)).toFinset := by writes_piece ops1m ops1m_W

theorem ops1n_writes : (ops1n : List (HloOp τ sig (Elt F))).Forall fun op =>
    op.writes ⊆ (ops1n_W.map (Proc.devRef (τ := τ) .tc)).toFinset := by writes_piece ops1n ops1n_W

theorem ops2_writes : (ops2 : List (HloOp τ sig (Elt F))).Forall fun op =>
    op.writes ⊆ (ops2_W.map (Proc.devRef (τ := τ) .tc)).toFinset := by writes_piece ops2 ops2_W

end Cert.ReferenceIdeal.HandRun

end
-- ==== Proof.RefRunResult.lean ====
/-
  The reference's result as ONE term of its two argument arrays. The line of host operations is walked piece by piece:
  each piece's read says what it leaves in a buffer as the program's own operations applied to what it found, whatever that
  was; a buffer a piece does not write is carried through it; so the facts about the buffers still to be read are pushed
  forward one piece at a time, the contents between two pieces standing as a variable. The run-time enumeration of the
  pairs, which the program performs twice over different buffers, comes out both times as the same closed term.
-/
import proofs.«169696_j47545287967528_2_alg».proof.Proof.RefRun
import proofs.«169696_j47545287967528_2_alg».proof.Proof.RefRunPieces0
import proofs.«169696_j47545287967528_2_alg».proof.Proof.RefRunPieces1
import proofs.«169696_j47545287967528_2_alg».proof.Proof.LibAfterSplit

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.ReferenceIdeal.RefValue

variable {F : FTy → Type} [FloatOps F]

/-- A buffer outside the list of those a piece writes is carried through the piece. -/
theorem kept {l : List (HloOp τ sig (Elt F))} {Wl : List (Ref sig .tc)}
    (hW : l.Forall fun op => op.writes ⊆ (Wl.map (Proc.devRef (τ := τ) .tc)).toFinset) (W : Valuation τ sig (Elt F))
    (r : Ref sig .tc) (hr : r ∉ Wl := by decide) : after l W (Proc.devRef .tc r) = W (Proc.devRef .tc r) :=
  after_of_writes_sub l W hW hr

/-- Window 0, read at the buffers window 1 reads: the first input's clamped squared distances; the pairs' rows (wrapped)
    and columns (not yet wrapped: the wrap's comparison and shift are there, its select is window 1's first operations);
    and the second input, untouched. -/
theorem window0 (V : Valuation τ sig (Elt F)) :
    after ops0 V (Proc.devRef .tc main_v13) = d2 (F := F) (V (Proc.devRef .tc main_arg0))
      ∧ after ops0 V (Proc.devRef .tc main_v38) = wrapRows (rowRaw (F := F))
      ∧ after ops0 V (Proc.devRef .tc main_v33) = colRaw (F := F)
      ∧ after ops0 V (Proc.devRef .tc main_v40) = cmpi .slt (colRaw (F := F)) (broadcastInDim S523776 ![] bcast_S_S523776 (constantI S_ 32 0#32))
      ∧ after ops0 V (Proc.devRef .tc main_v41) = (broadcastInDim S523776 ![] bcast_S_S523776 (constantI S_ 32 1024#32))
      ∧ after ops0 V (Proc.devRef .tc main_arg1) = V (Proc.devRef .tc main_arg1) := by
  simp only [ops0, Cert.AfterSplit.after_append]
  have h_d := ops0a_v13 V
  have h_ones := ops0a_v14 V
  have hA := ops0a_keeps.2 V
  generalize after ops0a V = W1 at h_d h_ones hA ⊢
  have h_triu := (ops0b_v15 W1).trans (congrArg triuOf h_ones)
  replace h_d := (kept ops0b_writes W1 main_v13).trans h_d
  replace hA := (ops0b_keeps.2 W1).trans hA
  generalize after ops0b W1 = W2 at h_triu h_d hA ⊢
  have h_mask := (ops0c_v17 W2).trans (congrArg nonzeroOf h_triu)
  replace h_d := (kept ops0c_writes W2 main_v13).trans h_d
  replace hA := (ops0c_keeps.2 W2).trans hA
  generalize after ops0c W2 = W3 at h_mask h_d hA ⊢
  have h_run := (ops0d_v18 W3).trans (congrArg runningOf h_mask)
  replace h_d := (kept ops0d_writes W3 main_v13).trans h_d
  replace hA := (ops0d_keeps.2 W3).trans hA
  generalize after ops0d W3 = W4 at h_run h_d hA ⊢
  have h_zeros := ops0e_v19 W4
  have h_c := ops0e_c_4 W4
  replace h_d := (kept ops0e_writes W4 main_v13).trans h_d
  replace h_run := (kept ops0e_writes W4 main_v18).trans h_run
  replace hA := (ops0e_keeps.2 W4).trans hA
  generalize after ops0e W4 = W5 at h_zeros h_c h_d h_run hA ⊢
  have h_clip := (ops0f_v20 W5).trans (congrArg₂ clipOf h_c h_run)
  replace h_d := (kept ops0f_writes W5 main_v13).trans h_d
  replace h_zeros := (kept ops0f_writes W5 main_v19).trans h_zeros
  replace hA := (ops0f_keeps.2 W5).trans hA
  generalize after ops0f W5 = W6 at h_clip h_d h_zeros hA ⊢
  have h_counts := (ops0g_v28 W6).trans (congrArg₂ countsOf h_zeros h_clip)
  replace h_d := (kept ops0g_writes W6 main_v13).trans h_d
  replace hA := (ops0g_keeps.2 W6).trans hA
  generalize after ops0g W6 = W7 at h_counts h_d hA ⊢
  have h_flat := ((ops0h_v29 W7).trans (congrArg flatOf h_counts)).trans flatOf_stages
  replace h_d := (kept ops0h_writes W7 main_v13).trans h_d
  replace hA := (ops0h_keeps.2 W7).trans hA
  generalize after ops0h W7 = W8 at h_flat h_d hA ⊢
  have h_q1 := (ops0i_v30 W8).trans (congrArg (floorDivide · (constantI S_ 32 1024#32)) h_flat)
  replace h_d := (kept ops0i_writes W8 main_v13).trans h_d
  replace h_flat := (kept ops0i_writes W8 main_v29).trans h_flat
  replace hA := (ops0i_keeps.2 W8).trans hA
  generalize after ops0i W8 = W9 at h_q1 h_d h_flat hA ⊢
  have h_row := (ops0j_v31 W9).trans (congrArg (remainder · (constantI S_ 32 1024#32)) h_q1)
  replace h_d := (kept ops0j_writes W9 main_v13).trans h_d
  replace h_flat := (kept ops0j_writes W9 main_v29).trans h_flat
  replace hA := (ops0j_keeps.2 W9).trans hA
  generalize after ops0j W9 = W10 at h_row h_d h_flat hA ⊢
  have h_q2 := (ops0k_v32 W10).trans (congrArg (floorDivide · (constantI S_ 32 1#32)) h_flat)
  replace h_d := (kept ops0k_writes W10 main_v13).trans h_d
  replace h_row := (kept ops0k_writes W10 main_v31).trans h_row
  replace hA := (ops0k_keeps.2 W10).trans hA
  generalize after ops0k W10 = W11 at h_q2 h_d h_row hA ⊢
  have h_col := (ops0l_v33 W11).trans (congrArg (remainder · (constantI S_ 32 1024#32)) h_q2)
  replace h_d := (kept ops0l_writes W11 main_v13).trans h_d
  replace h_row := (kept ops0l_writes W11 main_v31).trans h_row
  replace hA := (ops0l_keeps.2 W11).trans hA
  generalize after ops0l W11 = W12 at h_col h_d h_row hA ⊢
  have h38 := (ops0m_v38 W12).trans (congrArg wrapRows h_row)
  have h40 := (ops0m_v40 W12).trans (congrArg (cmpi .slt · (broadcastInDim S523776 ![] bcast_S_S523776 (constantI S_ 32 0#32))) h_col)
  have h41 := ops0m_v41 W12
  replace h_d := (kept ops0m_writes W12 main_v13).trans h_d
  replace h_col := (kept ops0m_writes W12 main_v33).trans h_col
  replace hA := (ops0m_keeps.2 W12).trans hA
  generalize after ops0m W12 = W13 at h38 h40 h41 h_d h_col hA ⊢
  exact ⟨h_d, h38, h_col, h40, h41, hA⟩

/-- Window 1 from contents that hold what window 0 leaves: the first input's distances at the pairs; the second input's
    clamped squared distances; the second copy of the pairs' rows and columns (neither wrapped yet), with the row's
    comparison and shift. -/
theorem window1 (W0 : Valuation τ sig (Elt F)) (D : FVec F S1024x1024 .f32) (Y : FVec F S1024x8192 .f32)
    (e13 : W0 (Proc.devRef .tc main_v13) = D) (e38 : W0 (Proc.devRef .tc main_v38) = wrapRows (rowRaw (F := F)))
    (e33 : W0 (Proc.devRef .tc main_v33) = colRaw (F := F))
    (e40 : W0 (Proc.devRef .tc main_v40) = cmpi .slt (colRaw (F := F)) (broadcastInDim S523776 ![] bcast_S_S523776 (constantI S_ 32 0#32)))
    (e41 : W0 (Proc.devRef .tc main_v41) = (broadcastInDim S523776 ![] bcast_S_S523776 (constantI S_ 32 1024#32)))
    (eA : W0 (Proc.devRef .tc main_arg1) = Y) :
    after ops1 W0 (Proc.devRef .tc main_v48) = atPairs D
      ∧ after ops1 W0 (Proc.devRef .tc main_v62) = d2 (F := F) Y
      ∧ after ops1 W0 (Proc.devRef .tc main_v80) = rowRaw (F := F)
      ∧ after ops1 W0 (Proc.devRef .tc main_v82) = colRaw (F := F)
      ∧ after ops1 W0 (Proc.devRef .tc main_v84) = cmpi .slt (rowRaw (F := F)) (broadcastInDim S523776 ![] bcast_S_S523776 (constantI S_ 32 0#32))
      ∧ after ops1 W0 (Proc.devRef .tc main_v85) = (broadcastInDim S523776 ![] bcast_S_S523776 (constantI S_ 32 1024#32)) := by
  simp only [ops1, Cert.AfterSplit.after_append]
  have h48 : after ops1a W0 (Proc.devRef .tc main_v48) = atPairs D := by
    rw [ops1a_v48, e13, e38, e33, e40, e41]; rfl
  have hA := (ops1a_keeps.2 W0).trans eA
  generalize after ops1a W0 = W1 at h48 hA ⊢
  have h_d := (ops1b_v62 W1).trans (congrArg (d2 (F := F)) hA)
  have h_ones := ops1b_v63 W1
  replace h48 := (kept ops1b_writes W1 main_v48).trans h48
  generalize after ops1b W1 = W2 at h_d h_ones h48 ⊢
  have h_triu := (ops1c_v64 W2).trans (congrArg triuOf h_ones)
  replace h48 := (kept ops1c_writes W2 main_v48).trans h48
  replace h_d := (kept ops1c_writes W2 main_v62).trans h_d
  generalize after ops1c W2 = W3 at h_triu h48 h_d ⊢
  have h_mask := (ops1d_v66 W3).trans (congrArg nonzeroOf h_triu)
  replace h48 := (kept ops1d_writes W3 main_v48).trans h48
  replace h_d := (kept ops1d_writes W3 main_v62).trans h_d
  generalize after ops1d W3 = W4 at h_mask h48 h_d ⊢
  have h_run := (ops1e_v67 W4).trans (congrArg runningOf h_mask)
  replace h48 := (kept ops1e_writes W4 main_v48).trans h48
  replace h_d := (kept ops1e_writes W4 main_v62).trans h_d
  generalize after ops1e W4 = W5 at h_run h48 h_d ⊢
  have h_zeros := ops1f_v68 W5
  have h_c := ops1f_c_22 W5
  replace h48 := (kept ops1f_writes W5 main_v48).trans h48
  replace h_d := (kept ops1f_writes W5 main_v62).trans h_d
  replace h_run := (kept ops1f_writes W5 main_v67).trans h_run
  generalize after ops1f W5 = W6 at h_zeros h_c h48 h_d h_run ⊢
  have h_clip := (ops1g_v69 W6).trans (congrArg₂ clipOf h_c h_run)
  replace h48 := (kept ops1g_writes W6 main_v48).trans h48
  replace h_d := (kept ops1g_writes W6 main_v62).trans h_d
  replace h_zeros := (kept ops1g_writes W6 main_v68).trans h_zeros
  generalize after ops1g W6 = W7 at h_clip h48 h_d h_zeros ⊢
  have h_counts := (ops1h_v77 W7).trans (congrArg₂ countsOf h_zeros h_clip)
  replace h48 := (kept ops1h_writes W7 main_v48).trans h48
  replace h_d := (kept ops1h_writes W7 main_v62).trans h_d
  generalize after ops1h W7 = W8 at h_counts h48 h_d ⊢
  have h_flat := ((ops1i_v78 W8).trans (congrArg flatOf h_counts)).trans flatOf_stages
  replace h48 := (kept ops1i_writes W8 main_v48).trans h48
  replace h_d := (kept ops1i_writes W8 main_v62).trans h_d
  generalize after ops1i W8 = W9 at h_flat h48 h_d ⊢
  have h_q1 := (ops1j_v79 W9).trans (congrArg (floorDivide · (constantI S_ 32 1024#32)) h_flat)
  replace h48 := (kept ops1j_writes W9 main_v48).trans h48
  replace h_d := (kept ops1j_writes W9 main_v62).trans h_d
  replace h_flat := (kept ops1j_writes W9 main_v78).trans h_flat
  generalize after ops1j W9 = W10 at h_q1 h48 h_d h_flat ⊢
  have h_row := (ops1k_v80 W10).trans (congrArg (remainder · (constantI S_ 32 1024#32)) h_q1)
  replace h48 := (kept ops1k_writes W10 main_v48).trans h48
  replace h_d := (kept ops1k_writes W10 main_v62).trans h_d
  replace h_flat := (kept ops1k_writes W10 main_v78).trans h_flat
  generalize after ops1k W10 = W11 at h_row h48 h_d h_flat ⊢
  have h_q2 := (ops1l_v81 W11).trans (congrArg (floorDivide · (constantI S_ 32 1#32)) h_flat)
  replace h48 := (kept ops1l_writes W11 main_v48).trans h48
  replace h_d := (kept ops1l_writes W11 main_v62).trans h_d
  replace h_row := (kept ops1l_writes W11 main_v80).trans h_row
  generalize after ops1l W11 = W12 at h_q2 h48 h_d h_row ⊢
  have h_col := (ops1m_v82 W12).trans (congrArg (remainder · (constantI S_ 32 1024#32)) h_q2)
  replace h48 := (kept ops1m_writes W12 main_v48).trans h48
  replace h_d := (kept ops1m_writes W12 main_v62).trans h_d
  replace h_row := (kept ops1m_writes W12 main_v80).trans h_row
  generalize after ops1m W12 = W13 at h_col h48 h_d h_row ⊢
  have h84 := (ops1n_v84 W13).trans (congrArg (cmpi .slt · (broadcastInDim S523776 ![] bcast_S_S523776 (constantI S_ 32 0#32))) h_row)
  have h85 := ops1n_v85 W13
  replace h48 := (kept ops1n_writes W13 main_v48).trans h48
  replace h_d := (kept ops1n_writes W13 main_v62).trans h_d
  replace h_row := (kept ops1n_writes W13 main_v80).trans h_row
  replace h_col := (kept ops1n_writes W13 main_v82).trans h_col
  generalize after ops1n W13 = W14 at h84 h85 h48 h_d h_row h_col ⊢
  exact ⟨h48, h_d, h_row, h_col, h84, h85⟩

/-- Window 2 from contents that hold what window 1 leaves: the mean over the pairs of the squared difference of the two
    inputs' distances. -/
theorem window2 (W0 : Valuation τ sig (Elt F)) (H : FVec F S523776 .f32) (D : FVec F S1024x1024 .f32)
    (e48 : W0 (Proc.devRef .tc main_v48) = H) (e62 : W0 (Proc.devRef .tc main_v62) = D)
    (e80 : W0 (Proc.devRef .tc main_v80) = rowRaw (F := F)) (e82 : W0 (Proc.devRef .tc main_v82) = colRaw (F := F))
    (e84 : W0 (Proc.devRef .tc main_v84) = cmpi .slt (rowRaw (F := F)) (broadcastInDim S523776 ![] bcast_S_S523776 (constantI S_ 32 0#32)))
    (e85 : W0 (Proc.devRef .tc main_v85) = (broadcastInDim S523776 ![] bcast_S_S523776 (constantI S_ 32 1024#32))) :
    after ops2 W0 (Proc.devRef .tc main_v101) = meanSq H (atPairs D) := by
  rw [ops2_v101, e48, e62, e80, e82, e84, e85]; rfl

/-- The fold of the whole line at the result buffer is the reference term of the two argument arrays. -/
theorem result_eq (V : Valuation τ sig (Elt F)) :
    after ops V (Proc.devRef .tc main_v101)
      = refTerm (F := F) (V (Proc.devRef .tc main_arg0)) (V (Proc.devRef .tc main_arg1)) := by
  obtain ⟨a13, a38, a33, a40, a41, aA⟩ := window0 V
  obtain ⟨b48, b62, b80, b82, b84, b85⟩ := window1 (after ops0 V) _ _ a13 a38 a33 a40 a41 aA
  rw [refTerm_eq_meanSq, show (ops : List (HloOp τ sig (Elt F))) = ops0 ++ (ops1 ++ ops2) from rfl,
    Cert.AfterSplit.after_append, Cert.AfterSplit.after_append]
  exact window2 _ _ _ b48 b62 b80 b82 b84 b85

/-- The run with the result read: every weakly fair execution terminates with the result buffer at the reference term of
    the launch contents of the two argument arrays, which end as they were. -/
theorem run_refTerm (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v101)
          = refTerm (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (result_eq (launchContents m c)), (h c).2⟩) (run m ρ)

end Cert.ReferenceIdeal.HandRun

end
-- ==== Proof.RefPairIndexWords.lean ====
import Idealize.ShloMosaic.Lib.WordArith
import Idealize.ShloMosaic.Lib.Affine
import Idealize.ShloMosaic.Lib.ValueIdx

/-!
# Natural numbers below 2³¹ as 32-bit words

The index arithmetic of the program runs on signed 32-bit words that hold natural numbers far below
2³¹.  On such words a signed comparison with zero is false, a signed maximum with zero and a
"wrap a negative index" select are the identity, signed division and remainder by a positive
number are the quotient and remainder of the naturals, and the sign-correcting selects that turn
truncating division into flooring division do nothing.
-/

namespace Cert.ReferenceIdeal.RefValue

open Idealize.ShloMosaic Idealize.ShloMosaic.ValueIdx

theorem toNat_ofNat_small (n : ℕ) (h : n < 2 ^ 31) : (BitVec.ofNat 32 n).toNat = n := by
  rw [BitVec.toNat_ofNat]; exact Nat.mod_eq_of_lt (by omega)

theorem msb_ofNat_small (n : ℕ) (h : n < 2 ^ 31) : (BitVec.ofNat 32 n).msb = false := by
  rw [BitVec.msb_eq_false_iff_two_mul_lt, toNat_ofNat_small n h]; omega

theorem toInt_ofNat_small' (n : ℕ) (h : n < 2 ^ 31) : (BitVec.ofNat 32 n).toInt = (n : ℤ) :=
  WordArith.toInt_ofNat_small n h

/-- The sign word of a word, as the program's `sign` computes it. -/
def sgn (x : BitVec 32) : BitVec 32 := if x = 0 then 0 else if x.msb then -1 else 1

theorem sgn_ofNat_pos (n : ℕ) (h : n < 2 ^ 31) (h0 : 0 < n) : sgn (BitVec.ofNat 32 n) = 1 := by
  unfold sgn
  have hne : BitVec.ofNat 32 n ≠ 0 := by
    intro he
    have := congrArg BitVec.toNat he
    rw [toNat_ofNat_small n h] at this
    simp at this; omega
  rw [if_neg hne, msb_ofNat_small n h]; rfl

/-- A natural number as a word is not negative. -/
theorem slt_zero_ofNat (n : ℕ) (h : n < 2 ^ 31) : IntOp.cmpi .slt (BitVec.ofNat 32 n) 0#32 = 0#1 := by
  show BitVec.ofBool ((BitVec.ofNat 32 n).slt 0#32) = 0#1
  have : (BitVec.ofNat 32 n).slt 0#32 = false := by
    rw [Bool.eq_false_iff]; intro hlt
    rw [BitVec.slt_iff_toInt_lt, toInt_ofNat_small' n h] at hlt
    have h0 : (0#32 : BitVec 32).toInt = 0 := by decide
    omega
  rw [this]; rfl

/-- The signed maximum of zero and a natural number is the number. -/
theorem maxsi_zero_ofNat (n : ℕ) (h : n < 2 ^ 31) : IntOp.maxsi 0#32 (BitVec.ofNat 32 n) = BitVec.ofNat 32 n := by
  unfold IntOp.maxsi
  have : (BitVec.ofNat 32 n).slt 0#32 = false := by
    rw [Bool.eq_false_iff]; intro hlt
    rw [BitVec.slt_iff_toInt_lt, toInt_ofNat_small' n h] at hlt
    have h0 : (0#32 : BitVec 32).toInt = 0 := by decide
    omega
  rw [this]; rfl

/-- "Add `k` when negative" leaves a natural number alone. -/
theorem wrap_ofNat (n : ℕ) (h : n < 2 ^ 31) (k : BitVec 32) :
    Scalar.select (IntOp.cmpi .slt (BitVec.ofNat 32 n) 0#32) (IntOp.addi (BitVec.ofNat 32 n) k) (BitVec.ofNat 32 n)
      = BitVec.ofNat 32 n := by
  rw [slt_zero_ofNat n h]; exact select_zero _ _

/-- Signed "greater or equal" on two natural numbers. -/
theorem sge_ofNat (a b : ℕ) (ha : a < 2 ^ 31) (hb : b < 2 ^ 31) :
    IntOp.cmpi .sge (BitVec.ofNat 32 a) (BitVec.ofNat 32 b) = if b ≤ a then 1#1 else 0#1 := by
  show BitVec.ofBool ((BitVec.ofNat 32 b).sle (BitVec.ofNat 32 a)) = _
  by_cases hab : b ≤ a
  · rw [if_pos hab]
    have : (BitVec.ofNat 32 b).sle (BitVec.ofNat 32 a) = true := by
      rw [BitVec.sle_iff_toInt_le, toInt_ofNat_small' a ha, toInt_ofNat_small' b hb]; omega
    rw [this]; rfl
  · rw [if_neg hab]
    have : (BitVec.ofNat 32 b).sle (BitVec.ofNat 32 a) = false := by
      rw [Bool.eq_false_iff]; intro hle
      rw [BitVec.sle_iff_toInt_le, toInt_ofNat_small' a ha, toInt_ofNat_small' b hb] at hle; omega
    rw [this]; rfl

/-- Signed division of natural numbers below 2³¹ by a positive one is the quotient. -/
theorem divsi_ofNat (u : ArithUnit) (a d : ℕ) (ha : a < 2 ^ 31) (hd : 0 < d) (hd' : d < 2 ^ 31) :
    IntOp.divsi u (BitVec.ofNat 32 a) (BitVec.ofNat 32 d) = BitVec.ofNat 32 (a / d) := by
  have hpos : 0 < (BitVec.ofNat 32 d).toInt := by rw [toInt_ofNat_small' d hd']; omega
  unfold IntOp.divsi
  rw [if_neg (IntOp.not_corner_of_pos hpos), BitVec.sdiv_eq, msb_ofNat_small a ha, msb_ofNat_small d hd']
  apply BitVec.eq_of_toNat_eq
  have hq : a / d < 2 ^ 31 := lt_of_le_of_lt (Nat.div_le_self a d) ha
  show (BitVec.udiv (BitVec.ofNat 32 a) (BitVec.ofNat 32 d)).toNat = _
  rw [BitVec.udiv_eq, BitVec.toNat_udiv, toNat_ofNat_small a ha, toNat_ofNat_small d hd', toNat_ofNat_small _ hq]

/-- Signed remainder of natural numbers below 2³¹ by a positive one is the remainder. -/
theorem remsi_ofNat (u : ArithUnit) (a d : ℕ) (ha : a < 2 ^ 31) (hd : 0 < d) (hd' : d < 2 ^ 31) :
    IntOp.remsi u (BitVec.ofNat 32 a) (BitVec.ofNat 32 d) = BitVec.ofNat 32 (a % d) := by
  apply BitVec.eq_of_toNat_eq
  have hr : a % d < 2 ^ 31 := lt_of_le_of_lt (Nat.mod_le a d) ha
  rw [IntOp.toNat_remsi u (by rw [toNat_ofNat_small a ha]; omega) d hd (by omega), toNat_ofNat_small a ha,
    toNat_ofNat_small _ hr]

theorem andi_zero_left (c : BitVec 1) : IntOp.andi 0#1 c = 0#1 := by revert c; decide
theorem andi_zero_right (c : BitVec 1) : IntOp.andi c 0#1 = 0#1 := by revert c; decide

/-- Flooring division as the program spells it (truncating quotient, less one when the signs differ and the
    remainder is not zero) is the quotient of the naturals. -/
theorem floorDivide_word (a d : ℕ) (ha : a < 2 ^ 31) (hd : 0 < d) (hd' : d < 2 ^ 31) :
    Scalar.select
        (IntOp.andi (IntOp.cmpi .ne (sgn (BitVec.ofNat 32 a)) (sgn (BitVec.ofNat 32 d)))
          (IntOp.cmpi .ne (IntOp.remsi .host (BitVec.ofNat 32 a) (BitVec.ofNat 32 d)) 0#32))
        (IntOp.subi (IntOp.divsi .host (BitVec.ofNat 32 a) (BitVec.ofNat 32 d)) 1#32)
        (IntOp.divsi .host (BitVec.ofNat 32 a) (BitVec.ofNat 32 d))
      = BitVec.ofNat 32 (a / d) := by
  have hc : IntOp.andi (IntOp.cmpi .ne (sgn (BitVec.ofNat 32 a)) (sgn (BitVec.ofNat 32 d)))
      (IntOp.cmpi .ne (IntOp.remsi .host (BitVec.ofNat 32 a) (BitVec.ofNat 32 d)) 0#32) = 0#1 := by
    rcases Nat.eq_zero_or_pos a with rfl | h0
    · rw [remsi_ofNat .host 0 d ha hd hd', Nat.zero_mod]
      exact andi_zero_right _
    · rw [sgn_ofNat_pos a ha h0, sgn_ofNat_pos d hd' hd]
      exact andi_zero_left _
  rw [hc, select_zero, divsi_ofNat .host a d ha hd hd']

/-- The divisor of the remainder, guarded against zero, is the divisor when it is positive. -/
theorem safeDivisor_word (d : ℕ) (hd : 0 < d) (hd' : d < 2 ^ 31) :
    Scalar.select (IntOp.cmpi .eq (BitVec.ofNat 32 d) 0#32) 1#32 (BitVec.ofNat 32 d) = BitVec.ofNat 32 d := by
  have hne : (BitVec.ofNat 32 d == 0#32) = false := by
    rw [beq_eq_false_iff_ne]
    intro he
    have := congrArg BitVec.toNat he
    rw [toNat_ofNat_small d hd'] at this
    simp at this; omega
  show Scalar.select (BitVec.ofBool (BitVec.ofNat 32 d == 0#32)) _ _ = _
  rw [hne]; exact select_zero _ _

/-- The remainder with the divisor's sign as the program spells it is the remainder of the naturals. -/
theorem remainder_word (a d : ℕ) (ha : a < 2 ^ 31) (hd : 0 < d) (hd' : d < 2 ^ 31) :
    Scalar.select
        (IntOp.andi
          (IntOp.cmpi .ne (IntOp.cmpi .slt (IntOp.remsi .host (BitVec.ofNat 32 a) (BitVec.ofNat 32 d)) 0#32)
            (IntOp.cmpi .slt (BitVec.ofNat 32 d) 0#32))
          (IntOp.cmpi .ne (IntOp.remsi .host (BitVec.ofNat 32 a) (BitVec.ofNat 32 d)) 0#32))
        (IntOp.addi (IntOp.remsi .host (BitVec.ofNat 32 a) (BitVec.ofNat 32 d)) (BitVec.ofNat 32 d))
        (IntOp.remsi .host (BitVec.ofNat 32 a) (BitVec.ofNat 32 d))
      = BitVec.ofNat 32 (a % d) := by
  have hr : a % d < 2 ^ 31 := lt_of_le_of_lt (Nat.mod_le a d) ha
  rw [remsi_ofNat .host a d ha hd hd', slt_zero_ofNat _ hr, slt_zero_ofNat d hd']
  have : IntOp.cmpi .ne (0#1) (0#1) = 0#1 := by decide
  rw [this, andi_zero_left, select_zero]

end Cert.ReferenceIdeal.RefValue
-- ==== Proof.LibCumWindow.lean ====
/-
  CUMULATIVE SCANS ALONG THE LAST AXIS OF A RANK-2 ARRAY, WRITTEN AS A SLIDING WINDOW.

  A running sum / maximum / minimum along axis 1 of an [M, N] array is written as a window reduction with a window
  of 1 × N, stride 1, and N - 1 positions of padding below on axis 1: the window at (b, t) covers columns
  t - (N - 1) … t, of which the negative ones are padding and hold the initial value v. The fold visits the window's
  positions in increasing column order, so it first combines N - 1 - t copies of v (which stay v when f v v = v)
  and then x (b, 0), …, x (b, t) in turn:

      result (b, t) = f (… f (f v (x (b, 0))) (x (b, 1)) …) (x (b, t)).                       (reduceWindow_cum)

  Consequences at 32-bit words:
    * sum of a 0/1-valued row: the number of ones among columns 0 … t                          (cumsum_zero_one)
    * running signed maximum from the least word: an upper bound of x (b, 0 … t) attained at
      one of them                                                                                (cummax_spec)
    * running signed minimum from the greatest word: dually                                     (cummin_spec)
-/
import Idealize.ShloMosaic.PureOps
import Idealize.ShloMosaic.Lib.ValueIdx

namespace Idealize.ShloMosaic.LibCumWindow

open Idealize.ShloMosaic Idealize.ShloMosaic.ValueIdx

/-- A window of shape 1 × N has N positions. -/
theorem window_numel (N : Nat) : (⟨2, ![1, N]⟩ : Shape).numel = N := by
  simp [Shape.numel, Fin.prod_univ_two]

/-- The n-th position of a 1 × N window in row-major order is (0, n). -/
theorem window_pos (N : Nat) (n : Fin (⟨2, ![1, N]⟩ : Shape).numel) :
    (((⟨2, ![1, N]⟩ : Shape).rowMajor.symm n) 0).val = 0 ∧
      (((⟨2, ![1, N]⟩ : Shape).rowMajor.symm n) 1).val = n.val := by
  have key := Shape.rowMajor_val_two (d := ![1, N]) ((⟨2, ![1, N]⟩ : Shape).rowMajor.symm n)
  rw [Equiv.apply_symm_apply] at key
  have h0 : (((⟨2, ![1, N]⟩ : Shape).rowMajor.symm n) 0).val < 1 :=
    (((⟨2, ![1, N]⟩ : Shape).rowMajor.symm n) 0).isLt
  have h0' : (((⟨2, ![1, N]⟩ : Shape).rowMajor.symm n) 0).val = 0 := by omega
  refine ⟨h0', ?_⟩
  rw [h0'] at key
  omega

/-- A left fold whose every step leaves v fixed returns v. -/
theorem foldl_const {α β : Type} (g : α → β → α) (v : α) :
    ∀ l : List β, (∀ m ∈ l, g v m = v) → l.foldl g v = v
  | [], _ => rfl
  | m :: l, h => by
    rw [List.foldl_cons, h m (List.mem_cons_self ..)]
    exact foldl_const g v l fun m' hm' => h m' (List.mem_cons_of_mem _ hm')

/-- The scan along axis 1 written as a 1 × N window padded L = N - 1 below: at (b, t) it is the left fold of f from
    the initial value v over x (b, 0), …, x (b, t), provided f v v = v (the N - 1 - t padding positions that come
    first each combine v with v). -/
theorem reduceWindow_cum {α : Type} {M N L : Nat} (hL : L + 1 = N) (f : α → α → α)
    (x : (⟨2, ![M, N]⟩ : Shape).Idx → α) (init : (⟨0, ![]⟩ : Shape).Idx → α)
    (h : (⟨2, ![M, N]⟩ : Shape).ReduceWindows ![1, N] ![1, 1] ![0, L] ![0, 0] ⟨2, ![M, N]⟩)
    (hu : 0 < (⟨0, ![]⟩ : Shape).numel)
    (hv : f (init ix0) (init ix0) = init ix0) (b : Fin M) (t : Fin N) :
    Host.reduceWindow f ![1, N] ![1, 1] ![0, L] ![0, 0] x init h hu (ix2 b t)
      = (List.range (t.val + 1)).foldl
          (fun r k => f r (if hk : k < N then x (ix2 b ⟨k, hk⟩) else init ix0)) (init ix0) := by
  have hfirst : Shape.Idx.first hu = ix0 := eq_ix0 _
  have htL : t.val ≤ L := by have := t.isLt; omega
  unfold Host.reduceWindow
  simp only [hfirst]
  let g : α → Nat → α := fun r m =>
    f r (if hm : L ≤ t.val + m ∧ t.val + m - L < N then x (ix2 b ⟨t.val + m - L, hm.2⟩) else init ix0)
  refine (List.foldl_ext _ (fun r n => g r n.val) _ (fun r n _ => ?_)).trans ?_
  · obtain ⟨hp0, hp1⟩ := window_pos N n
    show f r _ = f r _
    congr 1
    by_cases hc : L ≤ t.val + n.val ∧ t.val + n.val - L < N
    · rw [dif_pos hc]
      split
      · congr 1
        funext a
        fin_cases a
        · apply Fin.ext
          show b.val * 1 + ((⟨2, ![1, N]⟩ : Shape).rowMajor.symm n 0).val - 0 = b.val
          rw [hp0]; omega
        · apply Fin.ext
          show t.val * 1 + ((⟨2, ![1, N]⟩ : Shape).rowMajor.symm n 1).val - L = t.val + n.val - L
          rw [hp1]; omega
      · rename_i hn
        exfalso; apply hn
        intro a; fin_cases a
        · show 0 ≤ b.val * 1 + ((⟨2, ![1, N]⟩ : Shape).rowMajor.symm n 0).val ∧
            b.val * 1 + ((⟨2, ![1, N]⟩ : Shape).rowMajor.symm n 0).val - 0 < M
          rw [hp0]; have := b.isLt; omega
        · show L ≤ t.val * 1 + ((⟨2, ![1, N]⟩ : Shape).rowMajor.symm n 1).val ∧
            t.val * 1 + ((⟨2, ![1, N]⟩ : Shape).rowMajor.symm n 1).val - L < N
          rw [hp1]; omega
    · rw [dif_neg hc]
      split
      · rename_i hall
        exfalso; apply hc
        have h1 : L ≤ t.val * 1 + ((⟨2, ![1, N]⟩ : Shape).rowMajor.symm n 1).val ∧
            t.val * 1 + ((⟨2, ![1, N]⟩ : Shape).rowMajor.symm n 1).val - L < N := hall 1
        rw [hp1] at h1; omega
      · rfl
  · rw [← List.foldl_map (f := fun n : Fin _ => n.val) (g := g), List.map_coe_finRange_eq_range, window_numel]
    have hr : List.range N = List.range (L - t.val) ++ (List.range (t.val + 1)).map (L - t.val + ·) := by
      rw [← List.range_add]; congr 1; omega
    have hconst : ∀ m ∈ List.range (L - t.val), g (init ix0) m = init ix0 := by
      intro m hm
      have hm' : m < L - t.val := List.mem_range.1 hm
      show f _ (dite _ _ _) = _
      rw [dif_neg (by omega)]; exact hv
    rw [hr, List.foldl_append, foldl_const g _ _ hconst, List.foldl_map]
    refine List.foldl_ext _ _ _ (fun r k hk => ?_)
    have hk' : k < t.val + 1 := List.mem_range.1 hk
    have hkN : k < N := by have := t.isLt; omega
    have e : t.val + (L - t.val + k) - L = k := by omega
    show f r (dite _ _ _) = f r (dite _ _ _)
    rw [dif_pos hkN, dif_pos ⟨by omega, by omega⟩]
    exact congrArg (fun z => f r (x (ix2 b z))) (Fin.ext e)

/-- The running sum of a 0/1-valued sequence counts its ones: after n terms, the number of k < n with y k = 1. -/
theorem foldl_addi_card {N : Nat} (y : Fin N → BitVec 32) (n : Nat) (hn : n ≤ N)
    (h01 : ∀ k : Fin N, k.val < n → y k = 0#32 ∨ y k = 1#32) :
    (List.range n).foldl (fun r k => IntOp.addi r (if hk : k < N then y ⟨k, hk⟩ else 0#32)) 0#32
      = BitVec.ofNat 32 (Finset.univ.filter (fun k : Fin N => k.val < n ∧ y k = 1#32)).card := by
  induction n with
  | zero => simp
  | succ n ih =>
    have hnN : n < N := hn
    rw [List.range_succ, List.foldl_append, ih (by omega) (fun k hk => h01 k (by omega))]
    simp only [List.foldl_cons, List.foldl_nil, dif_pos hnN]
    have hnotin : (⟨n, hnN⟩ : Fin N) ∉ Finset.univ.filter (fun k : Fin N => k.val < n ∧ y k = 1#32) := by
      simp
    rcases h01 ⟨n, hnN⟩ (Nat.lt_succ_self n) with h0 | h1
    · have hset : Finset.univ.filter (fun k : Fin N => k.val < n + 1 ∧ y k = 1#32)
          = Finset.univ.filter (fun k : Fin N => k.val < n ∧ y k = 1#32) := by
        ext k
        simp only [Finset.mem_filter, Finset.mem_univ, true_and]
        constructor
        · rintro ⟨hk, hy⟩
          refine ⟨?_, hy⟩
          rcases Nat.lt_succ_iff_lt_or_eq.1 hk with hlt | heq
          · exact hlt
          · exfalso
            have hkn : k = ⟨n, hnN⟩ := Fin.ext heq
            rw [hkn, h0] at hy
            exact absurd hy (by decide)
        · rintro ⟨hk, hy⟩; exact ⟨by omega, hy⟩
      rw [hset, h0]
      show BitVec.ofNat 32 _ + 0#32 = _
      rw [BitVec.add_zero]
    · have hset : Finset.univ.filter (fun k : Fin N => k.val < n + 1 ∧ y k = 1#32)
          = insert ⟨n, hnN⟩ (Finset.univ.filter (fun k : Fin N => k.val < n ∧ y k = 1#32)) := by
        ext k
        simp only [Finset.mem_insert, Finset.mem_filter, Finset.mem_univ, true_and]
        constructor
        · rintro ⟨hk, hy⟩
          rcases Nat.lt_succ_iff_lt_or_eq.1 hk with hlt | heq
          · exact Or.inr ⟨hlt, hy⟩
          · exact Or.inl (Fin.ext heq)
        · rintro (rfl | ⟨hk, hy⟩)
          · exact ⟨Nat.lt_succ_self n, h1⟩
          · exact ⟨by omega, hy⟩
      rw [hset, Finset.card_insert_of_notMem hnotin, h1, BitVec.ofNat_add]
      rfl

/-- Running sum of a 0/1-valued row: the window scan with + from 0 at (b, t) is the number of columns k ≤ t
    with x (b, k) = 1, as a 32-bit word. -/
theorem cumsum_zero_one {M N L : Nat} (hL : L + 1 = N)
    (x : (⟨2, ![M, N]⟩ : Shape).Idx → BitVec 32) (init : (⟨0, ![]⟩ : Shape).Idx → BitVec 32)
    (h : (⟨2, ![M, N]⟩ : Shape).ReduceWindows ![1, N] ![1, 1] ![0, L] ![0, 0] ⟨2, ![M, N]⟩)
    (hu : 0 < (⟨0, ![]⟩ : Shape).numel) (hinit : init ix0 = 0#32) (b : Fin M) (t : Fin N)
    (h01 : ∀ k : Fin N, k.val ≤ t.val → x (ix2 b k) = 0#32 ∨ x (ix2 b k) = 1#32) :
    Host.reduceWindow IntOp.addi ![1, N] ![1, 1] ![0, L] ![0, 0] x init h hu (ix2 b t)
      = BitVec.ofNat 32
          (Finset.univ.filter (fun k : Fin N => k.val ≤ t.val ∧ x (ix2 b k) = 1#32)).card := by
  rw [reduceWindow_cum hL IntOp.addi x init h hu (by rw [hinit]; rfl) b t, hinit]
  rw [foldl_addi_card (fun k => x (ix2 b k)) (t.val + 1) t.isLt (fun k hk => h01 k (by omega))]
  congr 2
  ext k
  simp [Nat.lt_succ_iff]

/-- No word is below the least signed word, so a signed maximum with it returns the other argument. -/
theorem maxsi_intMin (a : BitVec 32) : IntOp.maxsi 2147483648#32 a = a := by
  unfold IntOp.maxsi
  have hlo := BitVec.le_toInt a
  have hm : (2147483648#32 : BitVec 32).toInt = -2147483648 := by decide
  have hn : ¬ (a.slt 2147483648#32 = true) := by
    rw [BitVec.slt_iff_toInt_lt, hm]; norm_num at hlo; omega
  rw [if_neg hn]

/-- No word is above the greatest signed word, so a signed minimum with it returns the other argument. -/
theorem minsi_intMax (a : BitVec 32) : IntOp.minsi 2147483647#32 a = a := by
  unfold IntOp.minsi
  have hhi := BitVec.toInt_le (x := a)
  have hm : (2147483647#32 : BitVec 32).toInt = 2147483647 := by decide
  have hn : ¬ ((2147483647#32 : BitVec 32).slt a = true) := by
    rw [BitVec.slt_iff_toInt_lt, hm]; norm_num at hhi; omega
  rw [if_neg hn]

/-- The running signed maximum, from the least word, of y 0, …, y n is one of them and is at least each of them. -/
theorem foldl_maxsi_spec {N : Nat} (y : Fin N → BitVec 32) (n : Nat) (hn : n + 1 ≤ N) :
    ∃ k : Fin N, k.val ≤ n ∧
      (List.range (n + 1)).foldl
          (fun r k => IntOp.maxsi r (if hk : k < N then y ⟨k, hk⟩ else 2147483648#32)) 2147483648#32 = y k ∧
      ∀ k' : Fin N, k'.val ≤ n → (y k').toInt ≤ (y k).toInt := by
  induction n with
  | zero =>
    have h0 : 0 < N := hn
    refine ⟨⟨0, h0⟩, le_refl _, ?_, ?_⟩
    · simp only [Nat.zero_add, List.range_one, List.foldl_cons, List.foldl_nil, dif_pos h0]
      exact maxsi_intMin _
    · intro k' hk'
      have hk0 : k' = ⟨0, h0⟩ := Fin.ext (by simpa using hk')
      rw [hk0]
  | succ n ih =>
    have hnN : n + 1 < N := hn
    obtain ⟨k, hk, hr, hdom⟩ := ih (by omega)
    rw [List.range_succ, List.foldl_append, hr]
    simp only [List.foldl_cons, List.foldl_nil, dif_pos hnN]
    by_cases hlt : (y ⟨n + 1, hnN⟩).slt (y k) = true
    · refine ⟨k, by omega, ?_, ?_⟩
      · unfold IntOp.maxsi; rw [if_pos hlt]
      · intro k' hk'
        rcases Nat.lt_or_ge k'.val (n + 1) with hlt' | hge'
        · exact hdom k' (by omega)
        · have hkn : k' = ⟨n + 1, hnN⟩ := Fin.ext (by simp only; omega)
          rw [hkn]; exact le_of_lt (BitVec.slt_iff_toInt_lt.1 hlt)
    · refine ⟨⟨n + 1, hnN⟩, le_refl _, ?_, ?_⟩
      · unfold IntOp.maxsi; rw [if_neg hlt]
      · intro k' hk'
        have hge : (y k).toInt ≤ (y ⟨n + 1, hnN⟩).toInt := by
          rw [BitVec.slt_iff_toInt_lt] at hlt; omega
        rcases Nat.lt_or_ge k'.val (n + 1) with hlt' | hge'
        · exact le_trans (hdom k' (by omega)) hge
        · have hkn : k' = ⟨n + 1, hnN⟩ := Fin.ext (by simp only; omega)
          rw [hkn]

/-- The running signed minimum, from the greatest word, of y 0, …, y n is one of them and is at most each of them. -/
theorem foldl_minsi_spec {N : Nat} (y : Fin N → BitVec 32) (n : Nat) (hn : n + 1 ≤ N) :
    ∃ k : Fin N, k.val ≤ n ∧
      (List.range (n + 1)).foldl
          (fun r k => IntOp.minsi r (if hk : k < N then y ⟨k, hk⟩ else 2147483647#32)) 2147483647#32 = y k ∧
      ∀ k' : Fin N, k'.val ≤ n → (y k).toInt ≤ (y k').toInt := by
  induction n with
  | zero =>
    have h0 : 0 < N := hn
    refine ⟨⟨0, h0⟩, le_refl _, ?_, ?_⟩
    · simp only [Nat.zero_add, List.range_one, List.foldl_cons, List.foldl_nil, dif_pos h0]
      exact minsi_intMax _
    · intro k' hk'
      have hk0 : k' = ⟨0, h0⟩ := Fin.ext (by simpa using hk')
      rw [hk0]
  | succ n ih =>
    have hnN : n + 1 < N := hn
    obtain ⟨k, hk, hr, hdom⟩ := ih (by omega)
    rw [List.range_succ, List.foldl_append, hr]
    simp only [List.foldl_cons, List.foldl_nil, dif_pos hnN]
    by_cases hlt : (y k).slt (y ⟨n + 1, hnN⟩) = true
    · refine ⟨k, by omega, ?_, ?_⟩
      · unfold IntOp.minsi; rw [if_pos hlt]
      · intro k' hk'
        rcases Nat.lt_or_ge k'.val (n + 1) with hlt' | hge'
        · exact hdom k' (by omega)
        · have hkn : k' = ⟨n + 1, hnN⟩ := Fin.ext (by simp only; omega)
          rw [hkn]; exact le_of_lt (BitVec.slt_iff_toInt_lt.1 hlt)
    · refine ⟨⟨n + 1, hnN⟩, le_refl _, ?_, ?_⟩
      · unfold IntOp.minsi; rw [if_neg hlt]
      · intro k' hk'
        have hge : (y ⟨n + 1, hnN⟩).toInt ≤ (y k).toInt := by
          rw [BitVec.slt_iff_toInt_lt] at hlt; omega
        rcases Nat.lt_or_ge k'.val (n + 1) with hlt' | hge'
        · exact le_trans hge (hdom k' (by omega))
        · have hkn : k' = ⟨n + 1, hnN⟩ := Fin.ext (by simp only; omega)
          rw [hkn]

/-- Running signed maximum along a row, from the least word: the window scan at (b, t) is x (b, k) for some column
    k ≤ t, and that value is at least every x (b, k') with k' ≤ t. -/
theorem cummax_attained {M N L : Nat} (hL : L + 1 = N)
    (x : (⟨2, ![M, N]⟩ : Shape).Idx → BitVec 32) (init : (⟨0, ![]⟩ : Shape).Idx → BitVec 32)
    (h : (⟨2, ![M, N]⟩ : Shape).ReduceWindows ![1, N] ![1, 1] ![0, L] ![0, 0] ⟨2, ![M, N]⟩)
    (hu : 0 < (⟨0, ![]⟩ : Shape).numel) (hinit : init ix0 = 2147483648#32) (b : Fin M) (t : Fin N) :
    ∃ k : Fin N, k.val ≤ t.val ∧
      Host.reduceWindow IntOp.maxsi ![1, N] ![1, 1] ![0, L] ![0, 0] x init h hu (ix2 b t) = x (ix2 b k) ∧
      ∀ k' : Fin N, k'.val ≤ t.val → (x (ix2 b k')).toInt ≤ (x (ix2 b k)).toInt := by
  rw [reduceWindow_cum hL IntOp.maxsi x init h hu (by rw [hinit]; exact maxsi_intMin _) b t, hinit]
  exact foldl_maxsi_spec (fun k => x (ix2 b k)) t.val t.isLt

/-- The same, as a bound and an attainment: the running signed maximum at (b, t) is at least every x (b, k), k ≤ t,
    and equals one of them. -/
theorem cummax_spec {M N L : Nat} (hL : L + 1 = N)
    (x : (⟨2, ![M, N]⟩ : Shape).Idx → BitVec 32) (init : (⟨0, ![]⟩ : Shape).Idx → BitVec 32)
    (h : (⟨2, ![M, N]⟩ : Shape).ReduceWindows ![1, N] ![1, 1] ![0, L] ![0, 0] ⟨2, ![M, N]⟩)
    (hu : 0 < (⟨0, ![]⟩ : Shape).numel) (hinit : init ix0 = 2147483648#32) (b : Fin M) (t : Fin N) :
    (∀ k : Fin N, k.val ≤ t.val → (x (ix2 b k)).toInt
        ≤ (Host.reduceWindow IntOp.maxsi ![1, N] ![1, 1] ![0, L] ![0, 0] x init h hu (ix2 b t)).toInt) ∧
      ∃ k : Fin N, k.val ≤ t.val ∧
        Host.reduceWindow IntOp.maxsi ![1, N] ![1, 1] ![0, L] ![0, 0] x init h hu (ix2 b t) = x (ix2 b k) := by
  obtain ⟨k, hk, hr, hdom⟩ := cummax_attained hL x init h hu hinit b t
  rw [hr]
  exact ⟨hdom, k, hk, rfl⟩

/-- Running signed minimum along a row, from the greatest word: the window scan at (b, t) is x (b, k) for some
    column k ≤ t, and that value is at most every x (b, k') with k' ≤ t. -/
theorem cummin_attained {M N L : Nat} (hL : L + 1 = N)
    (x : (⟨2, ![M, N]⟩ : Shape).Idx → BitVec 32) (init : (⟨0, ![]⟩ : Shape).Idx → BitVec 32)
    (h : (⟨2, ![M, N]⟩ : Shape).ReduceWindows ![1, N] ![1, 1] ![0, L] ![0, 0] ⟨2, ![M, N]⟩)
    (hu : 0 < (⟨0, ![]⟩ : Shape).numel) (hinit : init ix0 = 2147483647#32) (b : Fin M) (t : Fin N) :
    ∃ k : Fin N, k.val ≤ t.val ∧
      Host.reduceWindow IntOp.minsi ![1, N] ![1, 1] ![0, L] ![0, 0] x init h hu (ix2 b t) = x (ix2 b k) ∧
      ∀ k' : Fin N, k'.val ≤ t.val → (x (ix2 b k)).toInt ≤ (x (ix2 b k')).toInt := by
  rw [reduceWindow_cum hL IntOp.minsi x init h hu (by rw [hinit]; exact minsi_intMax _) b t, hinit]
  exact foldl_minsi_spec (fun k => x (ix2 b k)) t.val t.isLt

/-- The same, as a bound and an attainment: the running signed minimum at (b, t) is at most every x (b, k), k ≤ t,
    and equals one of them. -/
theorem cummin_spec {M N L : Nat} (hL : L + 1 = N)
    (x : (⟨2, ![M, N]⟩ : Shape).Idx → BitVec 32) (init : (⟨0, ![]⟩ : Shape).Idx → BitVec 32)
    (h : (⟨2, ![M, N]⟩ : Shape).ReduceWindows ![1, N] ![1, 1] ![0, L] ![0, 0] ⟨2, ![M, N]⟩)
    (hu : 0 < (⟨0, ![]⟩ : Shape).numel) (hinit : init ix0 = 2147483647#32) (b : Fin M) (t : Fin N) :
    (∀ k : Fin N, k.val ≤ t.val →
        (Host.reduceWindow IntOp.minsi ![1, N] ![1, 1] ![0, L] ![0, 0] x init h hu (ix2 b t)).toInt
          ≤ (x (ix2 b k)).toInt) ∧
      ∃ k : Fin N, k.val ≤ t.val ∧
        Host.reduceWindow IntOp.minsi ![1, N] ![1, 1] ![0, L] ![0, 0] x init h hu (ix2 b t) = x (ix2 b k) := by
  obtain ⟨k, hk, hr, hdom⟩ := cummin_attained hL x init h hu hinit b t
  rw [hr]
  exact ⟨hdom, k, hk, rfl⟩

end Idealize.ShloMosaic.LibCumWindow
-- ==== Proof.RefPairIndexScan.lean ====
import Idealize.ShloMosaic.PureOps
import Idealize.ShloMosaic.Lib.ValueIdx
import Mathlib.Algebra.BigOperators.Intervals
import proofs.«169696_j47545287967528_2_alg».proof.Proof.LibCumWindow

/-!
# A running sum of a vector written as a sliding window

The inclusive running sum of a vector of length `N` is written as a window reduction with a window of
`N` positions, stride one and `N - 1` positions of padding below: the window at `t` covers the
positions `t - (N - 1), …, t`, of which the negative ones are padding and hold the initial value.
The fold visits the window in increasing order, so it first combines `N - 1 - t` copies of the
initial value and then the entries `0, …, t` in turn.  At 32-bit words holding natural numbers,
with addition from zero, the result is the word of the sum of the numbers.
-/

namespace Cert.ReferenceIdeal.RefValue

open Idealize.ShloMosaic Idealize.ShloMosaic.ValueIdx

/-- A one-axis window of `N` positions has `N` positions. -/
theorem window1_numel (N : Nat) : (⟨1, ![N]⟩ : Shape).numel = N := by
  simp [Shape.numel]

/-- The `n`-th position of a one-axis window is `n`. -/
theorem window1_pos (N : Nat) (n : Fin (⟨1, ![N]⟩ : Shape).numel) :
    (((⟨1, ![N]⟩ : Shape).rowMajor.symm n) 0).val = n.val := by
  have key := Shape.rowMajor_val_one (d := ![N]) ((⟨1, ![N]⟩ : Shape).rowMajor.symm n)
  rw [Equiv.apply_symm_apply] at key
  exact key.symm

/-- The running fold along a vector written as a window of `N` padded `L = N - 1` below: at `t` it is the
    left fold of `f` from the initial value `v` over the entries `0, …, t`, provided `f v v = v`. -/
theorem reduceWindow_cum1 {α : Type} {N L : Nat} (hL : L + 1 = N) (f : α → α → α)
    (x : (⟨1, ![N]⟩ : Shape).Idx → α) (init : (⟨0, ![]⟩ : Shape).Idx → α)
    (h : (⟨1, ![N]⟩ : Shape).ReduceWindows ![N] ![1] ![L] ![0] ⟨1, ![N]⟩)
    (hu : 0 < (⟨0, ![]⟩ : Shape).numel)
    (hv : f (init ix0) (init ix0) = init ix0) (t : Fin N) :
    Host.reduceWindow f ![N] ![1] ![L] ![0] x init h hu (ix1 t)
      = (List.range (t.val + 1)).foldl
          (fun r k => f r (if hk : k < N then x (ix1 ⟨k, hk⟩) else init ix0)) (init ix0) := by
  have hfirst : Shape.Idx.first hu = ix0 := eq_ix0 _
  have htL : t.val ≤ L := by have := t.isLt; omega
  unfold Host.reduceWindow
  simp only [hfirst]
  let g : α → Nat → α := fun r m =>
    f r (if hm : L ≤ t.val + m ∧ t.val + m - L < N then x (ix1 ⟨t.val + m - L, hm.2⟩) else init ix0)
  refine (List.foldl_ext _ (fun r n => g r n.val) _ (fun r n _ => ?_)).trans ?_
  · have hp0 := window1_pos N n
    show f r _ = f r _
    congr 1
    by_cases hc : L ≤ t.val + n.val ∧ t.val + n.val - L < N
    · rw [dif_pos hc]
      split
      · congr 1
        funext a
        fin_cases a
        apply Fin.ext
        show t.val * 1 + ((⟨1, ![N]⟩ : Shape).rowMajor.symm n 0).val - L = t.val + n.val - L
        rw [hp0]; omega
      · rename_i hn
        exfalso; apply hn
        intro a; fin_cases a
        show L ≤ t.val * 1 + ((⟨1, ![N]⟩ : Shape).rowMajor.symm n 0).val ∧
            t.val * 1 + ((⟨1, ![N]⟩ : Shape).rowMajor.symm n 0).val - L < N
        rw [hp0]; omega
    · rw [dif_neg hc]
      split
      · rename_i hall
        exfalso; apply hc
        have h1 : L ≤ t.val * 1 + ((⟨1, ![N]⟩ : Shape).rowMajor.symm n 0).val ∧
            t.val * 1 + ((⟨1, ![N]⟩ : Shape).rowMajor.symm n 0).val - L < N := hall 0
        rw [hp0] at h1; omega
      · rfl
  · rw [← List.foldl_map (f := fun n : Fin _ => n.val) (g := g), List.map_coe_finRange_eq_range, window1_numel]
    have hr : List.range N = List.range (L - t.val) ++ (List.range (t.val + 1)).map (L - t.val + ·) := by
      rw [← List.range_add]; congr 1; omega
    have hconst : ∀ m ∈ List.range (L - t.val), g (init ix0) m = init ix0 := by
      intro m hm
      have hm' : m < L - t.val := List.mem_range.1 hm
      show f _ (dite _ _ _) = _
      rw [dif_neg (by omega)]; exact hv
    rw [hr, List.foldl_append, Idealize.ShloMosaic.LibCumWindow.foldl_const g _ _ hconst, List.foldl_map]
    refine List.foldl_ext _ _ _ (fun r k hk => ?_)
    have hk' : k < t.val + 1 := List.mem_range.1 hk
    have hkN : k < N := by have := t.isLt; omega
    have e : t.val + (L - t.val + k) - L = k := by omega
    show f r (dite _ _ _) = f r (dite _ _ _)
    rw [dif_pos hkN, dif_pos ⟨by omega, by omega⟩]
    exact congrArg (fun z => f r (x (ix1 z))) (Fin.ext e)

/-- Adding up words that hold natural numbers gives the word of their sum. -/
theorem foldl_addi_ofNat {N : Nat} (y : Fin N → BitVec 32) (c : ℕ → ℕ)
    (hy : ∀ k : Fin N, y k = BitVec.ofNat 32 (c k.val)) (n : Nat) (hn : n ≤ N) :
    (List.range n).foldl (fun r k => IntOp.addi r (if hk : k < N then y ⟨k, hk⟩ else 0#32)) 0#32
      = BitVec.ofNat 32 (∑ k ∈ Finset.range n, c k) := by
  induction n with
  | zero => simp
  | succ n ih =>
    have hnN : n < N := hn
    rw [List.range_succ, List.foldl_append, ih (by omega)]
    simp only [List.foldl_cons, List.foldl_nil, dif_pos hnN]
    rw [hy ⟨n, hnN⟩, Finset.sum_range_succ, BitVec.ofNat_add]
    rfl

/-- THE RUNNING SUM OF A VECTOR OF NATURAL NUMBERS, as words: the window scan with + from 0 at `t` is the word of
    the sum of the entries `0, …, t`. -/
theorem cumsum_ofNat {N L : Nat} (hL : L + 1 = N)
    (x : (⟨1, ![N]⟩ : Shape).Idx → BitVec 32) (init : (⟨0, ![]⟩ : Shape).Idx → BitVec 32)
    (h : (⟨1, ![N]⟩ : Shape).ReduceWindows ![N] ![1] ![L] ![0] ⟨1, ![N]⟩)
    (hu : 0 < (⟨0, ![]⟩ : Shape).numel) (hinit : init ix0 = 0#32) (c : ℕ → ℕ)
    (hx : ∀ k : Fin N, x (ix1 k) = BitVec.ofNat 32 (c k.val)) (t : Fin N) :
    Host.reduceWindow IntOp.addi ![N] ![1] ![L] ![0] x init h hu (ix1 t)
      = BitVec.ofNat 32 (∑ k ∈ Finset.range (t.val + 1), c k) := by
  rw [reduceWindow_cum1 hL IntOp.addi x init h hu (by rw [hinit]; rfl) t, hinit]
  exact foldl_addi_ofNat (fun k => x (ix1 k)) c hx (t.val + 1) t.isLt

end Cert.ReferenceIdeal.RefValue
-- ==== Proof.LibSetBitsEnum.lean ====
import Mathlib.Data.Nat.Nth
import Mathlib.Algebra.BigOperators.Intervals
import Mathlib.Algebra.BigOperators.Group.Finset.Basic

/-!
# Enumerating the set bits of a finite 0/1 sequence by two running sums

Let `b` be a predicate on the positions `0, …, L - 1`.  A common way to list the positions where
`b` holds, in increasing order, without any data-dependent control flow is:

* the inclusive running count `c f = #{g ≤ f | b g}`                                  (`runCount`);
* the histogram of the running count, `cnt v = #{f < L | c f = v}`                     (`hist`);
* the inclusive running sum of the histogram, `pos p = ∑ v ≤ p, cnt v`                (`pos`).

Since `c` is non-decreasing and climbs in steps of one, `pos p = #{f < L | c f ≤ p}` is the first
position at which the running count exceeds `p`: the position of the `p`-th set bit, counting from
zero (`pos_eq_nth`).  Hence, for `p` below the number `P` of set bits, `pos p < L`, `b (pos p)`,
and `p ↦ pos p` is a bijection from `{0, …, P - 1}` onto the set positions, so that a sum over `p` of
`h (pos p)` in any commutative monoid is the sum of `h` over the set positions (`sum_pos`).

The second part flattens a square: with `L = N * N` and the bit at `f` saying that the quotient of
`f` by `N` is below its remainder (the strict upper triangle in row-major order), the sum over the
set positions is the double sum over `i < j` (`sum_pos_triangle`), and the number of set bits is
`N * (N - 1) / 2` (`count_triangle`).
-/

open Finset

namespace SetBitsEnum

section Enumerate

variable (b : ℕ → Prop) [DecidablePred b]

/-- The inclusive running count of the set bits: how many `g ≤ f` have `b g`. -/
def runCount (f : ℕ) : ℕ := Nat.count b (f + 1)

/-- The histogram of the running count over the positions below `L`. -/
def hist (L v : ℕ) : ℕ := #{f ∈ range L | runCount b f = v}

/-- The inclusive running sum of the histogram. -/
def pos (L p : ℕ) : ℕ := ∑ v ∈ range (p + 1), hist b L v

theorem runCount_mono : Monotone (runCount b) := fun _ _ h =>
  Nat.count_monotone b (Nat.succ_le_succ h)

/-- The running sum of the histogram counts the positions whose running count is at most `p`. -/
theorem pos_eq_card (L p : ℕ) : pos b L p = #{f ∈ range L | runCount b f ≤ p} := by
  unfold pos hist
  rw [card_eq_sum_card_fiberwise (f := runCount b) (t := range (p + 1))]
  · refine sum_congr rfl fun v hv => ?_
    congr 1
    ext f
    simp only [mem_filter, mem_range] at hv ⊢
    constructor
    · rintro ⟨hf, rfl⟩; exact ⟨⟨hf, by omega⟩, rfl⟩
    · rintro ⟨⟨hf, _⟩, rfl⟩; exact ⟨hf, rfl⟩
  · intro f hf
    simp only [coe_filter, mem_range, Set.mem_setOf_eq] at hf
    simp only [coe_range, Set.mem_Iio]
    omega

/-- Below the number of set bits every index is an admissible argument of `Nat.nth`. -/
theorem lt_card_of_lt_count {L p : ℕ} (hp : p < Nat.count b L) :
    ∀ hf : (Set.ofPred b).Finite, p < #hf.toFinset := fun hf =>
  lt_of_lt_of_le hp (Nat.count_le_card hf L)

/-- The position of the `p`-th set bit lies below `L`. -/
theorem nth_lt {L p : ℕ} (hp : p < Nat.count b L) : Nat.nth b p < L := Nat.nth_lt_of_lt_count hp

/-- For a position below `L`: its running count is at most `p` exactly when it lies before the
    `p`-th set bit. -/
theorem runCount_le_iff {L p : ℕ} (hp : p < Nat.count b L) (f : ℕ) :
    runCount b f ≤ p ↔ f < Nat.nth b p := by
  have hc : Nat.count b (Nat.nth b p) = p := Nat.count_nth (lt_card_of_lt_count b hp)
  have hm : b (Nat.nth b p) := Nat.nth_mem p (lt_card_of_lt_count b hp)
  unfold runCount
  constructor
  · intro h
    by_contra hlt
    have hle : Nat.nth b p + 1 ≤ f + 1 := by omega
    have h1 := Nat.count_monotone b hle
    rw [Nat.count_succ, if_pos hm, hc] at h1
    omega
  · intro h
    have h1 := Nat.count_monotone b (show f + 1 ≤ Nat.nth b p by omega)
    omega

/-- THE SECOND RUNNING SUM LISTS THE SET BITS: `pos p` is the position of the `p`-th set bit. -/
theorem pos_eq_nth {L p : ℕ} (hp : p < Nat.count b L) : pos b L p = Nat.nth b p := by
  rw [pos_eq_card]
  have hlt := nth_lt b hp
  have : ({f ∈ range L | runCount b f ≤ p} : Finset ℕ) = range (Nat.nth b p) := by
    ext f
    simp only [mem_filter, mem_range, runCount_le_iff b hp]
    constructor
    · exact fun h => h.2
    · exact fun h => ⟨by omega, h⟩
  rw [this, card_range]

theorem pos_lt {L p : ℕ} (hp : p < Nat.count b L) : pos b L p < L := by
  rw [pos_eq_nth b hp]; exact nth_lt b hp

theorem pos_mem {L p : ℕ} (hp : p < Nat.count b L) : b (pos b L p) := by
  rw [pos_eq_nth b hp]; exact Nat.nth_mem p (lt_card_of_lt_count b hp)

theorem pos_strictMonoOn (L : ℕ) : StrictMonoOn (pos b L) (Set.Iio (Nat.count b L)) := by
  intro p hp q hq hpq
  simp only [Set.mem_Iio] at hp hq
  rw [pos_eq_nth b hp, pos_eq_nth b hq]
  exact Nat.nth_lt_nth' hpq (lt_card_of_lt_count b hq)

/-- Every set position is listed, at its running count less one. -/
theorem pos_runCount_pred {L f : ℕ} (hf : f < L) (hb : b f) : pos b L (runCount b f - 1) = f := by
  have h1 : runCount b f = Nat.count b f + 1 := by
    unfold runCount; rw [Nat.count_succ, if_pos hb]
  have hlt : Nat.count b f < Nat.count b L := Nat.count_strict_mono hb hf
  rw [h1, Nat.add_sub_cancel, pos_eq_nth b hlt, Nat.nth_count hb]

/-- SUMMING ALONG THE LIST IS SUMMING OVER THE SET POSITIONS, in any commutative monoid. -/
theorem sum_pos {M : Type*} [AddCommMonoid M] (L : ℕ) (h : ℕ → M) :
    ∑ p ∈ range (Nat.count b L), h (pos b L p) = ∑ f ∈ range L with b f, h f := by
  refine sum_nbij' (fun p => Nat.nth b p) (fun f => Nat.count b f) ?_ ?_ ?_ ?_ ?_
  · intro p hp
    have hp' : p < Nat.count b L := mem_range.1 hp
    simp only [mem_filter, mem_range]
    exact ⟨nth_lt b hp', Nat.nth_mem p (lt_card_of_lt_count b hp')⟩
  · intro f hf
    simp only [mem_filter, mem_range] at hf
    exact mem_range.2 (Nat.count_strict_mono hf.2 hf.1)
  · intro p hp
    exact Nat.count_nth (lt_card_of_lt_count b (mem_range.1 hp))
  · intro f hf
    simp only [mem_filter, mem_range] at hf
    exact Nat.nth_count hf.2
  · intro p hp
    rw [pos_eq_nth b (mem_range.1 hp)]

end Enumerate

section Triangle

/-- The bit of the strict upper triangle of an `N × N` square at the row-major position `f`. -/
def upper (N : ℕ) (f : ℕ) : Prop := f / N < f % N

instance (N : ℕ) : DecidablePred (upper N) := fun f => inferInstanceAs (Decidable (f / N < f % N))

/-- A sum over the row-major positions of a square is the double sum over rows and columns. -/
theorem sum_range_square {M : Type*} [AddCommMonoid M] (N : ℕ) (g : ℕ → ℕ → M) :
    ∑ f ∈ range (N * N), g (f / N) (f % N) = ∑ i ∈ range N, ∑ j ∈ range N, g i j := by
  rcases Nat.eq_zero_or_pos N with rfl | hN
  · simp
  rw [← sum_product']
  refine sum_nbij' (fun f => (f / N, f % N)) (fun ij => ij.1 * N + ij.2) ?_ ?_ ?_ ?_ ?_
  · intro f hf
    simp only [mem_range] at hf
    simp only [mem_product, mem_range]
    exact ⟨Nat.div_lt_of_lt_mul hf, Nat.mod_lt _ hN⟩
  · rintro ⟨i, j⟩ hij
    simp only [mem_product, mem_range] at hij
    simp only [mem_range]
    calc i * N + j < i * N + N := by omega
      _ = (i + 1) * N := (Nat.succ_mul i N).symm
      _ ≤ N * N := Nat.mul_le_mul_right N hij.1
  · intro f _
    exact Nat.div_add_mod' f N
  · rintro ⟨i, j⟩ hij
    simp only [mem_product, mem_range] at hij
    have h1 : (i * N + j) / N = i := by
      rw [Nat.add_comm, Nat.add_mul_div_right _ _ hN, Nat.div_eq_of_lt hij.2, Nat.zero_add]
    have h2 : (i * N + j) % N = j := by
      rw [Nat.add_comm, Nat.add_mul_mod_self_right, Nat.mod_eq_of_lt hij.2]
    exact Prod.ext h1 h2
  · intro f _
    rfl

/-- The sum over the set positions of the strict upper triangle is the double sum over `i < j`. -/
theorem sum_upper {M : Type*} [AddCommMonoid M] (N : ℕ) (g : ℕ → ℕ → M) :
    ∑ f ∈ range (N * N) with upper N f, g (f / N) (f % N)
      = ∑ i ∈ range N, ∑ j ∈ range N, if i < j then g i j else 0 := by
  rw [sum_filter]
  exact sum_range_square N fun i j => if i < j then g i j else 0

/-- The strict upper triangle of an `N × N` square has `N * (N - 1) / 2` positions. -/
theorem count_triangle (N : ℕ) : Nat.count (upper N) (N * N) = N * (N - 1) / 2 := by
  rw [Nat.count_eq_card_filter_range, card_eq_sum_ones, sum_upper N fun _ _ => 1]
  have h1 : ∀ i ∈ range N, (∑ j ∈ range N, if i < j then 1 else 0) = N - 1 - i := by
    intro i hi
    have hi' : i < N := mem_range.1 hi
    rw [← card_filter]
    have : ({j ∈ range N | i < j} : Finset ℕ) = Ico (i + 1) N := by
      ext j; simp only [mem_filter, mem_range, mem_Ico]; omega
    rw [this, Nat.card_Ico]; omega
  rw [sum_congr rfl h1, sum_range_reflect (fun i => i) N]
  have := Finset.sum_range_id_mul_two N
  omega

/-- THE TWO RUNNING SUMS ENUMERATE THE STRICT UPPER TRIANGLE: summing `g (row p) (col p)` over the listed pairs
    is the double sum of `g` over `i < j`. -/
theorem sum_pos_triangle {M : Type*} [AddCommMonoid M] (N : ℕ) (g : ℕ → ℕ → M) :
    ∑ p ∈ range (N * (N - 1) / 2), g (pos (upper N) (N * N) p / N) (pos (upper N) (N * N) p % N)
      = ∑ i ∈ range N, ∑ j ∈ range N, if i < j then g i j else 0 := by
  rw [← count_triangle N, sum_pos (upper N) (N * N) fun f => g (f / N) (f % N)]
  exact sum_upper N g

/-- A listed pair has its row below its column, and both below `N`. -/
theorem pos_triangle_spec {N p : ℕ} (hp : p < N * (N - 1) / 2) :
    pos (upper N) (N * N) p < N * N ∧
      pos (upper N) (N * N) p / N < pos (upper N) (N * N) p % N ∧ pos (upper N) (N * N) p % N < N := by
  rw [← count_triangle N] at hp
  have h1 := pos_lt (upper N) hp
  have h2 : upper N (pos (upper N) (N * N) p) := pos_mem (upper N) hp
  have hN : 0 < N := by
    rcases Nat.eq_zero_or_pos N with rfl | h
    · simp at h1
    · exact h
  exact ⟨h1, h2, Nat.mod_lt _ hN⟩

end Triangle

end SetBitsEnum
-- ==== Proof.LibScatterRows.lean ====
/-
  SCATTER-ADD OF ROWS, READ AT AN ENTRY, AT THE IDEAL INSTANCE.

  A StableHLO scatter with an `add` body that adds whole rows `upd : [T, C]` into a matrix `x : [N, C]` at a
  column of scatter indices `idx : [T, 1]` (update window axis 1, inserted window axis 0, scatter axis to
  operand axis `[0]`, index vector on axis 1) has at entry `(v, c)`, over the extended reals, the value
  `x[v, c] + ∑ upd[e, c]` over the edges `e` whose scatter index `idx[e, 0]`, read as a signed integer and
  NOT clamped, is the row `v` (`scatterAdd_rows_apply`): an index outside `[0, N - 1]` lands nowhere.  The
  same scatter of a vector `upd : [T]` into `x : [N]` (no window axis) has at entry `v` the value
  `x[v] + ∑ upd[e]` over the same edges (`scatterAdd_vec_apply`).

  The route: an update entry lands on an operand entry exactly when on every axis its start plus its window
  coordinate is that entry's coordinate (`resultIdx?_eq_some_iff`); on these dimension numbers that says
  "the scatter index is the row, and the column is the same" (`rowsDims_lands_iff`), so the set of update
  entries landing on `(v, c)` is the image of the landing edges under `e ↦ (e, c)`.

  Each theorem is proved first for the record written out with these fields (`rowsDims`, `vecDims`) and
  then stated for ANY record of dimension numbers with these fields.
-/
import Idealize.ShloMosaic.Lib.ValueIdx
import Idealize.ShloMosaic.PureOps.Ideal

noncomputable section

open scoped BigOperators

namespace Cert.ScatterRows

open Idealize.ShloMosaic Idealize.ShloMosaic.ValueIdx

/-- the edges whose scatter index, read signed and NOT clamped, is the row v -/
def landing {T w : ℕ} (idx : IVec ⟨2, ![T, 1]⟩ w) (v : ℕ) : Finset (Fin T) :=
  Finset.univ.filter fun e => (idx (ix2 e (0 : Fin 1))).toInt = (v : ℤ)

/-! ## Where an update entry lands, for any dimension numbers -/

/-- An update entry `j` lands on the operand entry `i` exactly when, on every operand axis, its start plus its
    window coordinate is `i`'s coordinate. -/
theorem resultIdx?_eq_some_iff {s si u : Shape} (d : ScatterDims s si u) {w : ℕ} (j : u.Idx) (idx : IVec si w)
    (i : s.Idx) :
    d.resultIdx? j idx = some i ↔ ∀ a, d.start j idx a + (d.window j a : ℤ) = ((i a).val : ℤ) := by
  unfold ScatterDims.resultIdx?
  constructor
  · intro hs a
    split at hs
    · rename_i h
      have h' := congrArg (fun f => ((f a).val : ℕ)) (Option.some.inj hs)
      simp only at h'
      have := (h a).1
      omega
    · exact absurd hs (by simp)
  · intro hi
    have h : ∀ a, 0 ≤ d.start j idx a + (d.window j a : ℤ) ∧ d.start j idx a + (d.window j a : ℤ) < s.size a := by
      intro a
      have h1 := hi a
      have h2 := (i a).isLt
      constructor <;> omega
    rw [dif_pos h]
    congr 1
    funext a
    refine Fin.ext ?_
    have h1 := hi a
    show (d.start j idx a + (d.window j a : ℤ)).toNat = (i a).val
    omega

/-! ## Rows of a matrix -/

/-- The dimension numbers of a scatter of rows: operand `[N, C]`, scatter indices `[T, 1]`, updates `[T, C]`. -/
abbrev rowsDims (N C T : ℕ) (wf : ScatterDims.WF ⟨2, ![N, C]⟩ ⟨2, ![T, 1]⟩ ⟨2, ![T, C]⟩ [1] [0] [0] 1) :
    ScatterDims ⟨2, ![N, C]⟩ ⟨2, ![T, 1]⟩ ⟨2, ![T, C]⟩ where
  updateWindowDims := [1]
  insertedWindowDims := [0]
  scatterDimsToOperandDims := [0]
  indexVectorDim := 1
  wf := wf

section Rows
variable {N C T w : ℕ} (wf : ScatterDims.WF ⟨2, ![N, C]⟩ ⟨2, ![T, 1]⟩ ⟨2, ![T, C]⟩ [1] [0] [0] 1)

/-- The scatter-indices entry update entry `(e, c')` reads: `(e, 0)`. -/
theorem rowsDims_siIdx (e : Fin T) (c' : Fin C) :
    (rowsDims N C T wf).siIdx (ix2 e c') ⟨List.idxOf (0 : Fin 2) (rowsDims N C T wf).scatterDimsToOperandDims,
      List.idxOf_lt_length_iff.2 (List.mem_singleton.mpr rfl)⟩ = ix2 e (0 : Fin 1) := by
  funext b; refine Fin.ext ?_
  match b with
  | ⟨0, _⟩ => rfl
  | ⟨1, _⟩ => rfl

/-- On the row axis the start is the scatter index read signed … -/
theorem rowsDims_start0 (idx : IVec ⟨2, ![T, 1]⟩ w) (e : Fin T) (c' : Fin C) :
    (rowsDims N C T wf).start (ix2 e c') idx 0 = (idx (ix2 e (0 : Fin 1))).toInt := by
  unfold ScatterDims.start
  rw [dif_pos (show (0 : Fin 2) ∈ (rowsDims N C T wf).scatterDimsToOperandDims from List.mem_singleton.mpr rfl)]
  rw [rowsDims_siIdx wf e c']

/-- … and on the column axis it is `0`. -/
theorem rowsDims_start1 (idx : IVec ⟨2, ![T, 1]⟩ w) (e : Fin T) (c' : Fin C) :
    (rowsDims N C T wf).start (ix2 e c') idx 1 = 0 := by
  unfold ScatterDims.start
  rw [dif_neg (show (1 : Fin 2) ∉ (rowsDims N C T wf).scatterDimsToOperandDims from
    fun h => Nat.one_ne_zero (congrArg Fin.val (List.mem_singleton.mp h)))]

/-- The window coordinate is `0` on the row axis (an inserted axis) … -/
theorem rowsDims_window0 (e : Fin T) (c' : Fin C) : (rowsDims N C T wf).window (ix2 e c') 0 = 0 := rfl

/-- … and the update's column on the column axis. -/
theorem rowsDims_window1 (e : Fin T) (c' : Fin C) : (rowsDims N C T wf).window (ix2 e c') 1 = c'.val := rfl

/-- Update entry `(e, c')` lands on operand entry `(v, c)` exactly when the scatter index of `e`, read signed, is
    `v` and the columns agree. -/
theorem rowsDims_lands_iff (idx : IVec ⟨2, ![T, 1]⟩ w) (e : Fin T) (c' : Fin C) (v : Fin N) (c : Fin C) :
    (rowsDims N C T wf).resultIdx? (ix2 e c') idx = some (ix2 v c)
      ↔ (idx (ix2 e (0 : Fin 1))).toInt = (v.val : ℤ) ∧ c' = c := by
  rw [resultIdx?_eq_some_iff]
  constructor
  · intro h
    have h0 := h 0
    have h1 := h 1
    rw [rowsDims_start0, rowsDims_window0] at h0
    rw [rowsDims_start1, rowsDims_window1] at h1
    refine ⟨?_, Fin.ext ?_⟩
    · have : (((ix2 v c : (⟨2, ![N, C]⟩ : Shape).Idx) 0).val : ℤ) = (v.val : ℤ) := rfl
      omega
    · have : (((ix2 v c : (⟨2, ![N, C]⟩ : Shape).Idx) 1).val : ℤ) = (c.val : ℤ) := rfl
      omega
  · rintro ⟨h0, rfl⟩ a
    match a with
    | ⟨0, _⟩ =>
      show (rowsDims N C T wf).start (ix2 e c') idx 0 + ((rowsDims N C T wf).window (ix2 e c') 0 : ℤ) = (v.val : ℤ)
      rw [rowsDims_start0, rowsDims_window0, h0]; simp
    | ⟨1, _⟩ =>
      show (rowsDims N C T wf).start (ix2 e c') idx 1 + ((rowsDims N C T wf).window (ix2 e c') 1 : ℤ) = (c'.val : ℤ)
      rw [rowsDims_start1, rowsDims_window1]; simp

/-- The update entries landing on `(v, c)` are the entries `(e, c)` of the landing edges `e`. -/
theorem rowsDims_filter_eq (idx : IVec ⟨2, ![T, 1]⟩ w) (v : Fin N) (c : Fin C) :
    (Finset.univ.filter fun j => (rowsDims N C T wf).resultIdx? j idx = some (ix2 v c))
      = (landing idx v.val).map ⟨fun e => (ix2 e c : (⟨2, ![T, C]⟩ : Shape).Idx),
          fun e e' h => congrFun h 0⟩ := by
  ext j
  obtain ⟨e, c', rfl⟩ : ∃ e c', j = ix2 e c' := ⟨j 0, j 1, eq_ix2 j⟩
  simp only [Finset.mem_filter, Finset.mem_univ, true_and, Finset.mem_map, Function.Embedding.coeFn_mk, landing]
  rw [rowsDims_lands_iff]
  constructor
  · rintro ⟨h, rfl⟩
    exact ⟨e, h, rfl⟩
  · rintro ⟨e', h, he⟩
    have h0 : e' = e := congrFun he 0
    have h1 : c = c' := congrFun he 1
    subst h0 h1
    exact ⟨h, rfl⟩

/-- The scatter-add of rows at the written-out record, read at an entry. -/
theorem scatterAdd_rowsDims_apply {φ : FTy} (x : FVec Ideal ⟨2, ![N, C]⟩ φ) (idx : IVec ⟨2, ![T, 1]⟩ w)
    (upd : FVec Ideal ⟨2, ![T, C]⟩ φ) (v : Fin N) (c : Fin C) :
    Host.scatterAdd (rowsDims N C T wf) x idx upd (ix2 v c) = x (ix2 v c) + ∑ e ∈ landing idx v.val, upd (ix2 e c) := by
  show Ideal.hostScatterAdd (rowsDims N C T wf) x idx upd (ix2 v c) = _
  unfold Ideal.hostScatterAdd
  rw [rowsDims_filter_eq wf idx v c, Finset.sum_map]
  rfl

end Rows

/-- THE SCATTER-ADD OF ROWS READ AT `(v, c)`: the operand's entry plus the updates' column-`c` entries over the edges
    landing on row `v`; for any record with these dimension numbers. -/
theorem scatterAdd_rows_apply {N C T w : ℕ} {φ : FTy} (d : ScatterDims ⟨2, ![N, C]⟩ ⟨2, ![T, 1]⟩ ⟨2, ![T, C]⟩)
    (h1 : d.updateWindowDims = [1]) (h2 : d.insertedWindowDims = [0]) (h3 : d.scatterDimsToOperandDims = [0])
    (h4 : d.indexVectorDim = 1)
    (x : FVec Ideal ⟨2, ![N, C]⟩ φ) (idx : IVec ⟨2, ![T, 1]⟩ w) (upd : FVec Ideal ⟨2, ![T, C]⟩ φ)
    (v : Fin N) (c : Fin C) :
    Host.scatterAdd d x idx upd (ix2 v c) = x (ix2 v c) + ∑ e ∈ landing idx v.val, upd (ix2 e c) := by
  obtain ⟨uw, iw, sd, iv, wf⟩ := d
  simp only at h1 h2 h3 h4
  subst h1 h2 h3 h4
  exact scatterAdd_rowsDims_apply wf x idx upd v c

/-! ## Entries of a vector -/

/-- The dimension numbers of the same scatter of a vector: operand `[N]`, scatter indices `[T, 1]`, updates `[T]`. -/
abbrev vecDims (N T : ℕ) (wf : ScatterDims.WF ⟨1, ![N]⟩ ⟨2, ![T, 1]⟩ ⟨1, ![T]⟩ [] [0] [0] 1) :
    ScatterDims ⟨1, ![N]⟩ ⟨2, ![T, 1]⟩ ⟨1, ![T]⟩ where
  updateWindowDims := []
  insertedWindowDims := [0]
  scatterDimsToOperandDims := [0]
  indexVectorDim := 1
  wf := wf

section Vec
variable {N T w : ℕ} (wf : ScatterDims.WF ⟨1, ![N]⟩ ⟨2, ![T, 1]⟩ ⟨1, ![T]⟩ [] [0] [0] 1)

/-- The scatter-indices entry update entry `e` reads: `(e, 0)`. -/
theorem vecDims_siIdx (e : Fin T) :
    (vecDims N T wf).siIdx (ix1 e) ⟨List.idxOf (0 : Fin 1) (vecDims N T wf).scatterDimsToOperandDims,
      List.idxOf_lt_length_iff.2 (List.mem_singleton.mpr rfl)⟩ = ix2 e (0 : Fin 1) := by
  funext b; refine Fin.ext ?_
  match b with
  | ⟨0, _⟩ => rfl
  | ⟨1, _⟩ => rfl

/-- On the one operand axis the start is the scatter index read signed … -/
theorem vecDims_start0 (idx : IVec ⟨2, ![T, 1]⟩ w) (e : Fin T) :
    (vecDims N T wf).start (ix1 e) idx 0 = (idx (ix2 e (0 : Fin 1))).toInt := by
  unfold ScatterDims.start
  rw [dif_pos (show (0 : Fin 1) ∈ (vecDims N T wf).scatterDimsToOperandDims from List.mem_singleton.mpr rfl)]
  rw [vecDims_siIdx wf e]

/-- … and the window coordinate is `0` (an inserted axis). -/
theorem vecDims_window0 (e : Fin T) : (vecDims N T wf).window (ix1 e) 0 = 0 := rfl

/-- Update entry `e` lands on operand entry `v` exactly when its scatter index, read signed, is `v`. -/
theorem vecDims_lands_iff (idx : IVec ⟨2, ![T, 1]⟩ w) (e : Fin T) (v : Fin N) :
    (vecDims N T wf).resultIdx? (ix1 e) idx = some (ix1 v) ↔ (idx (ix2 e (0 : Fin 1))).toInt = (v.val : ℤ) := by
  rw [resultIdx?_eq_some_iff]
  constructor
  · intro h
    have h0 := h 0
    rw [vecDims_start0, vecDims_window0] at h0
    have : (((ix1 v : (⟨1, ![N]⟩ : Shape).Idx) 0).val : ℤ) = (v.val : ℤ) := rfl
    omega
  · intro h0 a
    obtain rfl : a = 0 := Subsingleton.elim _ _
    show (vecDims N T wf).start (ix1 e) idx 0 + ((vecDims N T wf).window (ix1 e) 0 : ℤ) = (v.val : ℤ)
    rw [vecDims_start0, vecDims_window0, h0]; simp

/-- The update entries landing on `v` are the landing edges. -/
theorem vecDims_filter_eq (idx : IVec ⟨2, ![T, 1]⟩ w) (v : Fin N) :
    (Finset.univ.filter fun j => (vecDims N T wf).resultIdx? j idx = some (ix1 v))
      = (landing idx v.val).map ⟨fun e => (ix1 e : (⟨1, ![T]⟩ : Shape).Idx), fun e e' h => congrFun h 0⟩ := by
  ext j
  obtain ⟨e, rfl⟩ : ∃ e, j = ix1 e := ⟨j 0, eq_ix1 j⟩
  simp only [Finset.mem_filter, Finset.mem_univ, true_and, Finset.mem_map, Function.Embedding.coeFn_mk, landing]
  rw [vecDims_lands_iff]
  constructor
  · intro h
    exact ⟨e, h, rfl⟩
  · rintro ⟨e', h, he⟩
    have h0 : e' = e := congrFun he 0
    subst h0
    exact h

/-- The scatter-add of a vector at the written-out record, read at an entry. -/
theorem scatterAdd_vecDims_apply {φ : FTy} (x : FVec Ideal ⟨1, ![N]⟩ φ) (idx : IVec ⟨2, ![T, 1]⟩ w)
    (upd : FVec Ideal ⟨1, ![T]⟩ φ) (v : Fin N) :
    Host.scatterAdd (vecDims N T wf) x idx upd (ix1 v) = x (ix1 v) + ∑ e ∈ landing idx v.val, upd (ix1 e) := by
  show Ideal.hostScatterAdd (vecDims N T wf) x idx upd (ix1 v) = _
  unfold Ideal.hostScatterAdd
  rw [vecDims_filter_eq wf idx v, Finset.sum_map]
  rfl

end Vec

/-- THE SCATTER-ADD OF A VECTOR READ AT `v`: the operand's entry plus the updates over the edges landing on `v`; for
    any record with these dimension numbers. -/
theorem scatterAdd_vec_apply {N T w : ℕ} {φ : FTy} (d : ScatterDims ⟨1, ![N]⟩ ⟨2, ![T, 1]⟩ ⟨1, ![T]⟩)
    (h1 : d.updateWindowDims = []) (h2 : d.insertedWindowDims = [0]) (h3 : d.scatterDimsToOperandDims = [0])
    (h4 : d.indexVectorDim = 1)
    (x : FVec Ideal ⟨1, ![N]⟩ φ) (idx : IVec ⟨2, ![T, 1]⟩ w) (upd : FVec Ideal ⟨1, ![T]⟩ φ) (v : Fin N) :
    Host.scatterAdd d x idx upd (ix1 v) = x (ix1 v) + ∑ e ∈ landing idx v.val, upd (ix1 e) := by
  obtain ⟨uw, iw, sd, iv, wf⟩ := d
  simp only at h1 h2 h3 h4
  subst h1 h2 h3 h4
  exact scatterAdd_vecDims_apply wf x idx upd v

end Cert.ScatterRows

end
-- ==== Proof.LibIntScatter.lean ====
/-
  AN INTEGER SCATTER-ADD OF A VECTOR, READ AT AN ENTRY, AND A DEGREE COUNT.

  A StableHLO scatter whose body adds two integers is printed as the left fold, over the update entries in row-major
  order, of "add the update to the entry its scatter index names, or drop it when the index is outside the operand".
  Integer addition is commutative and associative, so at an entry `g` the fold is the operand's entry plus the sum
  of the updates landing on `g` (`scatter_addi_apply`).  For a vector `upd : [T]` scattered into `x : [N]` at a column
  `idx : [T, 1]` of indices this is `x[v] + ∑ upd[e]` over the edges `e` whose index, read signed, is `v`
  (`scatter_addi_vec_apply`; the landing set is the one the float scatter-add uses).

  Scattering ones into zeros counts the landing edges: the 32-bit word of their number (`count_word`).  Below 2³¹
  that word read as a signed integer is the number itself, so its conversion to a float is, over the extended reals,
  the number (`sitofp_count`), and "the word is greater than zero (signed)" is "the number is positive"
  (`sgt_zero_count`), the same bit as the float comparison of the number against zero (`ogt_zero_count`).
-/
import Mathlib.Data.BitVec
import Idealize.ShloMosaic.Lib.ValueIdx
import Idealize.ShloMosaic.PureOps.Ideal
import proofs.«169696_j47545287967528_2_alg».proof.Proof.LibScatterRows

noncomputable section

open scoped BigOperators

namespace Cert.IntScatter

open Idealize.ShloMosaic Idealize.ShloMosaic.ValueIdx Cert.ScatterRows

/-- A left fold of "add update `n` to the entry it lands on" holds, at entry `g`, the start value plus the
    updates landing on `g`.  The step is any function that adds the update at the landing entry, leaves the other
    entries, and drops an update that lands nowhere. -/
theorem foldl_landing {α S ι : Type} [AddCommMonoid α] [DecidableEq S] (land : ι → Option S) (upd : ι → α)
    (step : (S → α) → ι → (S → α))
    (hs : ∀ r n i, land n = some i → ∀ i', step r n i' = if i' = i then r i + upd n else r i')
    (hn : ∀ r n, land n = none → step r n = r)
    (l : List ι) (x : S → α) (g : S) :
    (l.foldl step x) g = x g + ((l.filter fun n => land n = some g).map upd).sum := by
  induction l generalizing x with
  | nil => simp
  | cons n l ih =>
    rw [List.foldl_cons, ih]
    cases hn' : land n with
    | none => rw [hn _ _ hn']; simp [hn']
    | some i =>
      rw [hs _ _ _ hn' g]
      by_cases hg : g = i
      · subst hg; simp [hn', add_assoc]
      · have hne : ¬ (i = g) := fun h => hg h.symm
        simp [hn', hg, hne]

/-- The sum of a list of the positions `0 … n-1` kept by a predicate is the finite sum over the kept positions. -/
theorem sum_filter_finRange {α : Type} [AddCommMonoid α] (n : ℕ) (p : Fin n → Prop) [DecidablePred p]
    (f : Fin n → α) :
    (((List.finRange n).filter fun k => p k).map f).sum = ∑ k ∈ Finset.univ.filter p, f k := by
  rw [← List.sum_toFinset f ((List.nodup_finRange n).filter _)]
  congr 1
  ext k; simp [List.mem_filter]

/-- AN INTEGER SCATTER-ADD READ AT AN ENTRY: the operand's entry plus the updates whose result index is that entry. -/
theorem scatter_addi_apply {s si u : Shape} {w wi : ℕ} (d : ScatterDims s si u) (x : IVec s w) (idx : IVec si wi)
    (upd : IVec u w) (g : s.Idx) :
    Host.scatter d IntOp.addi x idx upd g
      = x g + ∑ j ∈ Finset.univ.filter (fun j => d.resultIdx? j idx = some g), upd j := by
  unfold Host.scatter IntOp.addi
  refine (foldl_landing (fun n => d.resultIdx? (u.rowMajor.symm n) idx) (fun n => upd (u.rowMajor.symm n)) _ ?_ ?_
    (List.finRange u.numel) x g).trans ?_
  · intro r n i h i'
    simp only [h]
  · intro r n h
    simp only [h]
  congr 1
  rw [sum_filter_finRange u.numel (fun k => d.resultIdx? (u.rowMajor.symm k) idx = some g)
    (fun n => upd (u.rowMajor.symm n))]
  exact Finset.sum_equiv u.rowMajor.symm (by intro k; simp) (by intro k _; rfl)

/-- THE INTEGER SCATTER-ADD OF A VECTOR READ AT `v`: the operand's entry plus the updates over the edges landing on `v`;
    for any record with these dimension numbers. -/
theorem scatter_addi_vec_apply {N T w wi : ℕ} (d : ScatterDims ⟨1, ![N]⟩ ⟨2, ![T, 1]⟩ ⟨1, ![T]⟩)
    (h1 : d.updateWindowDims = []) (h2 : d.insertedWindowDims = [0]) (h3 : d.scatterDimsToOperandDims = [0])
    (h4 : d.indexVectorDim = 1)
    (x : IVec ⟨1, ![N]⟩ w) (idx : IVec ⟨2, ![T, 1]⟩ wi) (upd : IVec ⟨1, ![T]⟩ w) (v : Fin N) :
    Host.scatter d IntOp.addi x idx upd (ix1 v) = x (ix1 v) + ∑ e ∈ landing idx v.val, upd (ix1 e) := by
  obtain ⟨uw, iw, sd, iv, wf⟩ := d
  simp only at h1 h2 h3 h4
  subst h1 h2 h3 h4
  refine (scatter_addi_apply (vecDims N T wf) x idx upd (ix1 v)).trans ?_
  rw [vecDims_filter_eq wf idx v, Finset.sum_map]
  rfl

/-- Ones scattered into zeros: the word of the number of landing edges. -/
theorem count_word {N T wi : ℕ} (d : ScatterDims ⟨1, ![N]⟩ ⟨2, ![T, 1]⟩ ⟨1, ![T]⟩)
    (h1 : d.updateWindowDims = []) (h2 : d.insertedWindowDims = [0]) (h3 : d.scatterDimsToOperandDims = [0])
    (h4 : d.indexVectorDim = 1)
    (x : IVec ⟨1, ![N]⟩ 32) (idx : IVec ⟨2, ![T, 1]⟩ wi) (upd : IVec ⟨1, ![T]⟩ 32)
    (hx : ∀ i, x i = 0#32) (hu : ∀ e, upd e = 1#32) (v : Fin N) :
    Host.scatter d IntOp.addi x idx upd (ix1 v) = BitVec.ofNat 32 (landing idx v.val).card := by
  rw [scatter_addi_vec_apply d h1 h2 h3 h4, hx, Finset.sum_congr rfl (fun e _ => hu (ix1 e)), Finset.sum_const]
  show 0#32 + (landing idx v.val).card • (1 : BitVec 32) = _
  rw [nsmul_one, BitVec.natCast_eq_ofNat]
  simp

/-- A number below 2³¹, as a 32-bit word read signed, is itself. -/
theorem toInt_ofNat_small (n : ℕ) (h : n < 2 ^ 31) : (BitVec.ofNat 32 n).toInt = (n : ℤ) := by
  rw [BitVec.toInt_eq_toNat_cond, BitVec.toNat_ofNat]
  have h32 : (2 : ℕ) ^ 32 = 4294967296 := by norm_num
  have h31 : (2 : ℕ) ^ 31 = 2147483648 := by norm_num
  have hm : n % 2 ^ 32 = n := Nat.mod_eq_of_lt (by omega)
  rw [hm]
  split <;> omega

/-- Its conversion to a float is, over the extended reals, the number. -/
theorem sitofp_count (n : ℕ) (h : n < 2 ^ 31) :
    (FloatOps.sitofp (F := Ideal) .f32 (BitVec.ofNat 32 n) : Ideal .f32) = ((n : ℝ) : EReal) := by
  show (((BitVec.ofNat 32 n).toInt : ℝ) : EReal) = _
  rw [toInt_ofNat_small n h]
  norm_cast

/-- The signed comparison of the word against zero, and the float comparison of the number against zero, are one bit. -/
theorem sgt_zero_count (n : ℕ) (h : n < 2 ^ 31) :
    IntOp.cmpi .sgt (BitVec.ofNat 32 n) 0#32 = Ideal.cmp .ogt ((n : ℝ) : EReal) 0 := by
  show BitVec.ofBool ((0#32).slt (BitVec.ofNat 32 n)) = BitVec.ofBool (decide ((0 : EReal) < ((n : ℝ) : EReal)))
  congr 1
  rw [BitVec.slt_eq_decide, toInt_ofNat_small n h]
  have : (0#32 : BitVec 32).toInt = 0 := by decide
  rw [this]
  have e : ((0 : EReal) < ((n : ℝ) : EReal)) ↔ ((0 : ℤ) < (n : ℤ)) := by
    rw [show (0 : EReal) = ((0 : ℝ) : EReal) from rfl, EReal.coe_lt_coe_iff]
    exact_mod_cast Iff.rfl
  exact (decide_eq_decide.mpr e).symm

end Cert.IntScatter

end
-- ==== Proof.LibHostBroadcasts.lean ====
/-
  Reusable lemmas: how a host program spreads a scalar, a vector or a column over a larger array, read at an entry.

  jnp lowers broadcasting to `broadcast_in_dim` with an explicit map from the operand's axes to the result's:
    a scalar [] to any shape (no axes mapped):      every entry is the scalar;
    a vector [T] to a column [T, 1] (dims [0]):     entry (e, u) is the vector's entry e;
    a column [T, 1] to a matrix [T, C] (dims [0,1]): entry (e, c) is the column's entry (e, 0).
  Generic in the extents and in the element type.
-/
import Idealize.ShloMosaic.Lib.Pipeline.Value
import Idealize.ShloMosaic.Lib.ValueIdx

noncomputable section

namespace Cert.HostBroadcasts

open Idealize.ShloMosaic Idealize.ShloMosaic.ValueIdx

variable {α : Type}

/-- A scalar spread over any shape reads the scalar everywhere. -/
theorem scalar_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 fun a => a.elim0

/-- A vector viewed as a column reads, at (e, u), the vector's entry e. -/
theorem col_apply {T : ℕ} (v : (⟨1, ![T]⟩ : Shape).Idx → α)
    (h : (⟨1, ![T]⟩ : Shape).BroadcastsInDim ⟨2, ![T, 1]⟩ ![0]) (e : Fin T) (u : Fin 1) :
    broadcastInDim ⟨2, ![T, 1]⟩ ![0] h v (ix2 e u) = v (ix1 e) := by
  refine broadcastInDim_apply ![0] h v (ix2 e u) (ix1 e) fun ax => ?_
  match ax with
  | ⟨0, _⟩ =>
    show e.val = if T = 1 then 0 else e.val
    split
    · have := e.isLt; omega
    · rfl

/-- A column repeated along the rows' entries reads, at (e, c), the column's entry (e, 0). -/
theorem col_rows_apply {T C : ℕ} (v : (⟨2, ![T, 1]⟩ : Shape).Idx → α)
    (h : (⟨2, ![T, 1]⟩ : Shape).BroadcastsInDim ⟨2, ![T, C]⟩ ![0, 1]) (e : Fin T) (c : Fin C) :
    broadcastInDim ⟨2, ![T, C]⟩ ![0, 1] h v (ix2 e c) = v (ix2 e (0 : Fin 1)) := by
  refine broadcastInDim_apply ![0, 1] h v (ix2 e c) (ix2 e (0 : Fin 1)) fun ax => ?_
  match ax with
  | ⟨0, _⟩ =>
    show e.val = if T = 1 then 0 else e.val
    split
    · have := e.isLt; omega
    · rfl
  | ⟨1, _⟩ => rfl

end Cert.HostBroadcasts

end
-- ==== Proof.RefPairIndexA.lean ====
import proofs.«169696_j47545287967528_2_alg».proof.Proof.RefTerm
import proofs.«169696_j47545287967528_2_alg».proof.Proof.RefPairIndexWords
import proofs.«169696_j47545287967528_2_alg».proof.Proof.RefPairIndexScan
import proofs.«169696_j47545287967528_2_alg».proof.Proof.LibSetBitsEnum
import proofs.«169696_j47545287967528_2_alg».proof.Proof.LibIntScatter
import proofs.«169696_j47545287967528_2_alg».proof.Proof.LibHostBroadcasts
import Idealize.ShloMosaic.Lib.IdealHost
import Idealize.ShloMosaic.Lib.Pipeline.Value

/-!
# The flat positions of the pairs

Each integer stage of the index computation read at an entry, as the word of a natural number:

* the mask of the strict upper triangle at `(i, j)` is the bit of `i < j`;
* flattened row-major, at `f` it is the bit of `f / 1024 < f % 1024`;
* its inclusive running sum at `f` is the number of set bits among `0, …, f`;
* clipping at zero and wrapping negatives do nothing to it;
* the histogram at `v` is the number of positions whose running sum is `v`;
* the running sum of the histogram at `p` is the flat position of the `p`-th set bit.
-/

noncomputable section

namespace Cert.ReferenceIdeal.RefValue

open Idealize.ShloMosaic Idealize.ShloMosaic.ValueIdx
open Cert.ReferenceIdeal
open Cert.ReferenceIdeal.Facts₀ Cert.ReferenceIdeal.Facts
open SetBitsEnum (upper runCount hist pos)

variable [Facts]

/-- The triangle mask on words: ones above the diagonal survive the select, and one differs from zero. -/
theorem mask_word (a b : ℕ) (ha : a < 2 ^ 31) (hb : b < 2 ^ 31) :
    Ideal.cmp .une
        (Scalar.select (IntOp.cmpi .sge (IntOp.addi (BitVec.ofNat 32 a) 0#32) (BitVec.ofNat 32 b))
          (Ideal.ofBits .f32 0x00000000#32) (Ideal.ofBits .f32 0x3F800000#32))
        (Ideal.ofBits .f32 0x00000000#32)
      = if a < b then 1#1 else 0#1 := by
  have h0 : IntOp.addi (BitVec.ofNat 32 a) 0#32 = BitVec.ofNat 32 a := BitVec.add_zero _
  rw [h0, sge_ofNat a b ha hb, Ideal.ofBits_zero_f32, Ideal.ofBits_one_f32]
  by_cases hab : a < b
  · rw [if_pos hab, if_neg (by omega), select_zero]
    simp [Ideal.cmp]
  · rw [if_neg hab, if_pos (by omega), select_one]
    simp [Ideal.cmp]

/-- The mask at `(i, j)` is the bit of `i < j`. -/
theorem mask_apply (i j : Fin 1024) :
    mask (F := Ideal) (ix2 i j) = if i.val < j.val then 1#1 else 0#1 :=
  mask_word i.val j.val (by have := i.isLt; omega) (by have := j.isLt; omega)

/-- The flattened mask at `f`, as a word. -/
theorem maskWords_apply (f : Fin 1048576) :
    maskWords (F := Ideal) (ix1 f) = BitVec.ofNat 32 (if upper 1024 f.val then 1 else 0) := by
  unfold maskWords
  rw [extui_apply]
  rw [shapeCast_apply (mask (F := Ideal)) shapeCasts_S1024x1024_S1048576 (ix1 f)
    (ix2 ⟨f.val / 1024, by have := f.isLt; omega⟩ ⟨f.val % 1024, by omega⟩)
    (by rw [Shape.rowMajor_val_two, Shape.rowMajor_val_one]
        show f.val / 1024 * 1024 + f.val % 1024 = f.val
        omega)]
  rw [mask_apply]
  show (if f.val / 1024 < f.val % 1024 then 1#1 else 0#1).setWidth 32 = _
  by_cases h : upper 1024 f.val
  · have h' : f.val / 1024 < f.val % 1024 := h
    rw [if_pos h', if_pos h]; rfl
  · have h' : ¬ f.val / 1024 < f.val % 1024 := h
    rw [if_neg h', if_neg h]; rfl

/-- The running count is far below 2³¹. -/
theorem runCount_small (f : ℕ) (hf : f < 1048576) : runCount (upper 1024) f < 2 ^ 31 := by
  have : runCount (upper 1024) f ≤ f + 1 := by unfold runCount; exact Nat.count_le _
  omega

/-- The running sum of the flattened mask at `f` is the number of set bits among `0, …, f`. -/
theorem running_apply (f : Fin 1048576) :
    running (F := Ideal) (ix1 f) = BitVec.ofNat 32 (runCount (upper 1024) f.val) := by
  unfold running
  rw [cumsum_ofNat (N := 1048576) (L := 1048575) rfl (maskWords (F := Ideal)) _ _ _ rfl
    (fun k => if upper 1024 k then 1 else 0) (fun k => maskWords_apply k) f]
  refine congrArg (BitVec.ofNat 32) ?_
  unfold runCount
  rw [Nat.count_eq_card_filter_range, Finset.card_filter]

/-- Clipping below at zero does nothing to it. -/
theorem clipped_apply (f : Fin 1048576) :
    clipped (F := Ideal) (ix1 f) = BitVec.ofNat 32 (runCount (upper 1024) f.val) := by
  show IntOp.maxsi 0#32 (running (F := Ideal) (ix1 f)) = _
  rw [running_apply, maxsi_zero_ofNat _ (runCount_small f.val f.isLt)]

/-- Nor does wrapping negative values. -/
theorem wrapped_apply (f : Fin 1048576) :
    wrapped (F := Ideal) (ix1 f) = BitVec.ofNat 32 (runCount (upper 1024) f.val) := by
  show Scalar.select (IntOp.cmpi .slt (clipped (F := Ideal) (ix1 f)) 0#32)
      (IntOp.addi (clipped (F := Ideal) (ix1 f)) 523776#32) (clipped (F := Ideal) (ix1 f)) = _
  rw [clipped_apply, wrap_ofNat _ (runCount_small f.val f.isLt)]

/-- Counting the entries of `Fin N` with a property of their value is counting below `N`. -/
theorem card_fin_filter (N : ℕ) (q : ℕ → Prop) [DecidablePred q] :
    (Finset.univ.filter fun k : Fin N => q k.val).card = ((Finset.range N).filter q).card := by
  refine Finset.card_bij (fun k _ => k.val) ?_ ?_ ?_
  · intro k hk
    simp only [Finset.mem_filter, Finset.mem_univ, true_and] at hk
    simp only [Finset.mem_filter, Finset.mem_range]
    exact ⟨k.isLt, hk⟩
  · intro k _ k' _ h; exact Fin.ext h
  · intro x hx
    simp only [Finset.mem_filter, Finset.mem_range] at hx
    exact ⟨⟨x, hx.1⟩, by simp only [Finset.mem_filter, Finset.mem_univ, true_and]; exact hx.2, rfl⟩

/-- The histogram at `v`: the number of positions whose running count is `v`. -/
theorem counts_apply (v : Fin 523776) :
    counts (F := Ideal) (ix1 v) = BitVec.ofNat 32 (hist (upper 1024) 1048576 v.val) := by
  unfold counts
  rw [Cert.IntScatter.count_word scatter_S523776_S1048576x1_S1048576_n_0_0_1 rfl rfl rfl rfl
    (broadcastInDim S523776 ![] bcast_S_S523776 (constantI S_ 32 0#32))
    (broadcastInDim S1048576x1 ![0] bcast_S1048576_S1048576x1_0 (wrapped (F := Ideal)))
    (broadcastInDim S1048576 ![] bcast_S_S1048576 (constantI S_ 32 1#32))
    (fun _ => rfl) (fun _ => rfl) v]
  refine congrArg (BitVec.ofNat 32) ?_
  unfold Cert.ScatterRows.landing hist
  rw [← card_fin_filter 1048576 fun f => runCount (upper 1024) f = v.val]
  refine congrArg Finset.card ?_
  ext e
  simp only [Finset.mem_filter, Finset.mem_univ, true_and]
  rw [Cert.HostBroadcasts.col_apply (wrapped (F := Ideal)) bcast_S1048576_S1048576x1_0 e (0 : Fin 1),
    wrapped_apply, toInt_ofNat_small' _ (runCount_small e.val e.isLt)]
  exact Nat.cast_inj

/-- The running sum of the histogram at `p`: the flat position of the `p`-th set bit. -/
theorem flat_apply (p : Fin 523776) :
    flat (F := Ideal) (ix1 p) = BitVec.ofNat 32 (pos (upper 1024) 1048576 p.val) := by
  unfold flat
  rw [cumsum_ofNat (N := 523776) (L := 523775) rfl (counts (F := Ideal)) _ _ _ rfl
    (hist (upper 1024) 1048576) (fun k => counts_apply k) p]
  rfl

end Cert.ReferenceIdeal.RefValue

end
-- ==== Proof.LibConcatCols.lean ====
/-
  A reusable lemma: two matrices with the same number of rows laid side by side, read at an entry.

  The concatenation along axis 1 of an [M, a] array and an [M, b] array into an [M, c] array (c = a + b), at (p, j):
  the left piece at (p, j) when j is below a, the right piece at (p, j - a) otherwise. Generic in M, a, b, c and in the
  element type; the column of the piece is passed with its defining equation, so a use site picks its own spelling.
-/
import Idealize.ShloMosaic.Lib.Pipeline.Value
import Idealize.ShloMosaic.Lib.ValueIdx

noncomputable section

namespace Cert.ConcatCols

open Idealize.ShloMosaic Idealize.ShloMosaic.ValueIdx

variable {α : Type} {M a b c : ℕ}

/-- A column in the left piece: the left piece at the same row and the same column. -/
theorem left_apply (x₁ : (⟨2, ![M, a]⟩ : Shape).Idx → α) (x₂ : (⟨2, ![M, b]⟩ : Shape).Idx → α)
    (h : Shape.Concatenates [⟨2, ![M, a]⟩, ⟨2, ![M, b]⟩] ⟨2, ![M, c]⟩ 1)
    (p : Fin M) (j : Fin c) (k : Fin a) (hk : k.val = j.val) :
    concatenate ⟨2, ![M, c]⟩ 1 [⟨⟨2, ![M, a]⟩, x₁⟩, ⟨⟨2, ![M, b]⟩, x₂⟩] h (ix2 p j) = x₁ (ix2 p k) :=
  concatenate_pair_apply_left 1 x₁ x₂ h (ix2 p j) rfl (ix2 p k)
    (fun d => match d with | ⟨0, _⟩ => rfl | ⟨1, _⟩ => hk)

/-- A column past the left piece: the right piece at the same row, the column less the left piece's width. -/
theorem right_apply (x₁ : (⟨2, ![M, a]⟩ : Shape).Idx → α) (x₂ : (⟨2, ![M, b]⟩ : Shape).Idx → α)
    (h : Shape.Concatenates [⟨2, ![M, a]⟩, ⟨2, ![M, b]⟩] ⟨2, ![M, c]⟩ 1)
    (p : Fin M) (j : Fin c) (k : Fin b) (hk : k.val + a = j.val) :
    concatenate ⟨2, ![M, c]⟩ 1 [⟨⟨2, ![M, a]⟩, x₁⟩, ⟨⟨2, ![M, b]⟩, x₂⟩] h (ix2 p j) = x₂ (ix2 p k) :=
  concatenate_pair_apply_right 1 x₁ x₂ h (ix2 p j) rfl rfl (ix2 p k)
    (fun d hd => match d, hd with
      | ⟨0, _⟩, _ => rfl
      | ⟨1, _⟩, hd => absurd rfl hd) hk

/-- Both cases at once (`hc`: the widths add up): the entry comes from the left piece when its column is below the left
    piece's width, from the right piece otherwise. -/
theorem apply_dite (x₁ : (⟨2, ![M, a]⟩ : Shape).Idx → α) (x₂ : (⟨2, ![M, b]⟩ : Shape).Idx → α)
    (h : Shape.Concatenates [⟨2, ![M, a]⟩, ⟨2, ![M, b]⟩] ⟨2, ![M, c]⟩ 1) (hc : c = a + b)
    (p : Fin M) (j : Fin c) :
    concatenate ⟨2, ![M, c]⟩ 1 [⟨⟨2, ![M, a]⟩, x₁⟩, ⟨⟨2, ![M, b]⟩, x₂⟩] h (ix2 p j)
      = if hj : j.val < a then x₁ (ix2 p ⟨j.val, hj⟩)
        else x₂ (ix2 p ⟨j.val - a, by have := j.isLt; omega⟩) := by
  by_cases hj : j.val < a
  · rw [dif_pos hj]
    exact left_apply x₁ x₂ h p j ⟨j.val, hj⟩ rfl
  · rw [dif_neg hj]
    exact right_apply x₁ x₂ h p j ⟨j.val - a, by have := j.isLt; omega⟩ (by show j.val - a + a = j.val; omega)

end Cert.ConcatCols

end
-- ==== Proof.RefPairIndexB.lean ====
import proofs.«169696_j47545287967528_2_alg».proof.Proof.RefPairIndexA
import proofs.«169696_j47545287967528_2_alg».proof.Proof.LibConcatCols

/-!
# The pairs, and the distances read at them

From the flat position `F p` of the `p`-th pair the program computes its row `F p / 1024` (floor
division, then a remainder by 1024 that does nothing) and its column `F p % 1024` (floor division by
one, then the remainder), wraps negative values (there are none), lays the two columns side by side
and gathers the distance matrix at those pairs.  The gather clamps each coordinate into range, which
does nothing to coordinates that are in range: the result at `p` is the matrix at `(row p, col p)`.
-/

noncomputable section

namespace Cert.ReferenceIdeal.RefValue

open Idealize.ShloMosaic Idealize.ShloMosaic.ValueIdx
open Cert.ReferenceIdeal
open Cert.ReferenceIdeal.Facts₀ Cert.ReferenceIdeal.Facts
open SetBitsEnum (upper runCount hist pos)

/-! ## A gather of single entries of a matrix at a two-column array of (row, column) pairs -/

section Gather
variable {α : Type}

/-- The dimension numbers of that gather: operand `[R, C]`, start indices `[T, 2]`, result `[T]`; both operand
    axes collapsed, the start index's two components naming the row and the column. -/
abbrev pairDims (R C T : ℕ)
    (wf : GatherDims.WF ⟨2, ![R, C]⟩ ⟨2, ![T, 2]⟩ ⟨1, ![T]⟩ [] [0, 1] [] [0, 1] [] 1 ![1, 1]) :
    GatherDims ⟨2, ![R, C]⟩ ⟨2, ![T, 2]⟩ ⟨1, ![T]⟩ where
  offsetDims := []
  collapsedSliceDims := [0, 1]
  operandBatchingDims := []
  startIndicesBatchingDims := []
  startIndexMap := [0, 1]
  indexVectorDim := 1
  sliceSizes := ![1, 1]
  wf := wf

/-- THE GATHER READ AT `p`: when the two components of the `p`-th start index, read signed, are a row `r` and a
    column `c` of the operand, the result is the operand at `(r, c)` (the clamp does nothing in range). -/
theorem gather_pairs_apply {R C T w : ℕ}
    (wf : GatherDims.WF ⟨2, ![R, C]⟩ ⟨2, ![T, 2]⟩ ⟨1, ![T]⟩ [] [0, 1] [] [0, 1] [] 1 ![1, 1])
    (x : (⟨2, ![R, C]⟩ : Shape).Idx → α) (idx : IVec ⟨2, ![T, 2]⟩ w) (p : Fin T) (r : Fin R) (c : Fin C)
    (hr : (idx (ix2 p (0 : Fin 2))).toInt = (r.val : ℤ)) (hc : (idx (ix2 p (1 : Fin 2))).toInt = (c.val : ℤ)) :
    Host.gather (pairDims R C T wf) x idx (ix1 p) = x (ix2 r c) := by
  unfold Host.gather
  congr 1
  funext a
  refine Fin.ext ?_
  show (pairDims R C T wf).start (ix1 p) idx a + (pairDims R C T wf).batchCoord (ix1 p) a
      + (pairDims R C T wf).offCoord (ix1 p) a = _
  rw [GatherDims.batchCoord_eq_zero _ _ _ List.not_mem_nil]
  have hcases : a = (0 : Fin 2) ∨ a = (1 : Fin 2) := by
    rcases a with ⟨v, hv⟩
    have hv' : v < 2 := hv
    interval_cases v
    · left; rfl
    · right; rfl
  rcases hcases with rfl | rfl
  ·
    rw [GatherDims.offCoord_eq_zero _ _ _
      (fun h => ((GatherDims.mem_sKept _ _).mp h).1 (List.mem_cons_self ..))]
    simp only [Nat.add_zero]
    unfold GatherDims.start
    rw [dif_pos (show (0 : Fin 2) ∈ (pairDims R C T wf).startIndexMap from List.mem_cons_self ..)]
    have hsi : (pairDims R C T wf).siIdx (ix1 p) ⟨List.idxOf (0 : Fin 2) (pairDims R C T wf).startIndexMap,
        List.idxOf_lt_length_iff.2 (List.mem_cons_self ..)⟩ = ix2 p (0 : Fin 2) := by
      funext b; refine Fin.ext ?_
      match b with
      | ⟨0, _⟩ => rfl
      | ⟨1, _⟩ => rfl
    rw [hsi, hr]
    show min ((r.val : ℤ)).toNat (R - 1) = r.val
    have := r.isLt
    rw [Int.toNat_natCast]; omega
  ·
    rw [GatherDims.offCoord_eq_zero _ _ _
      (fun h => ((GatherDims.mem_sKept _ _).mp h).1 (List.mem_cons_of_mem _ (List.mem_cons_self ..)))]
    simp only [Nat.add_zero]
    unfold GatherDims.start
    rw [dif_pos (show (1 : Fin 2) ∈ (pairDims R C T wf).startIndexMap from
      List.mem_cons_of_mem _ (List.mem_cons_self ..))]
    have hsi : (pairDims R C T wf).siIdx (ix1 p) ⟨List.idxOf (1 : Fin 2) (pairDims R C T wf).startIndexMap,
        List.idxOf_lt_length_iff.2 (List.mem_cons_of_mem _ (List.mem_cons_self ..))⟩ = ix2 p (1 : Fin 2) := by
      funext b; refine Fin.ext ?_
      match b with
      | ⟨0, _⟩ => rfl
      | ⟨1, _⟩ => rfl
    rw [hsi, hc]
    show min ((c.val : ℤ)).toNat (C - 1) = c.val
    have := c.isLt
    rw [Int.toNat_natCast]; omega

end Gather

variable [Facts]

/-! ## Rows and columns of the pairs -/

/-- The number of pairs, spelled as the count of the strict upper triangle. -/
theorem npairs_eq : 1024 * (1024 - 1) / 2 = 523776 := by norm_num

/-- The flat position of a pair, its row and its column are in range. -/
theorem pos_spec (p : Fin 523776) :
    pos (upper 1024) 1048576 p.val < 1048576 ∧
      pos (upper 1024) 1048576 p.val / 1024 < pos (upper 1024) 1048576 p.val % 1024 ∧
      pos (upper 1024) 1048576 p.val % 1024 < 1024 := by
  have h := SetBitsEnum.pos_triangle_spec (N := 1024) (p := p.val) (by rw [npairs_eq]; exact p.isLt)
  exact h

/-- Floor division by a positive constant, read at an entry holding a natural number. -/
theorem floorDivide_apply (a : IVec S523776 32) (i : S523776.Idx) (A d : ℕ) (ha : a i = BitVec.ofNat 32 A)
    (hA : A < 2 ^ 31) (hd : 0 < d) (hd' : d < 2 ^ 31) :
    floorDivide a (constantI S_ 32 (BitVec.ofNat 32 d)) i = BitVec.ofNat 32 (A / d) := by
  show Scalar.select
      (IntOp.andi (IntOp.cmpi .ne (sgn (a i)) (sgn (BitVec.ofNat 32 d)))
        (IntOp.cmpi .ne (IntOp.remsi .host (a i) (BitVec.ofNat 32 d)) 0#32))
      (IntOp.subi (IntOp.divsi .host (a i) (BitVec.ofNat 32 d)) 1#32)
      (IntOp.divsi .host (a i) (BitVec.ofNat 32 d)) = _
  rw [ha]
  exact floorDivide_word A d hA hd hd'

/-- The remainder by a positive constant, read at an entry holding a natural number. -/
theorem remainder_apply (a : IVec S523776 32) (i : S523776.Idx) (A d : ℕ) (ha : a i = BitVec.ofNat 32 A)
    (hA : A < 2 ^ 31) (hd : 0 < d) (hd' : d < 2 ^ 31) :
    remainder a (constantI S_ 32 (BitVec.ofNat 32 d)) i = BitVec.ofNat 32 (A % d) := by
  have hs : safeDivisor (constantI S_ 32 (BitVec.ofNat 32 d)) = constantI S_ 32 (BitVec.ofNat 32 d) := by
    funext j
    exact safeDivisor_word d hd hd'
  unfold remainder
  rw [hs]
  show Scalar.select
      (IntOp.andi
        (IntOp.cmpi .ne (IntOp.cmpi .slt (IntOp.remsi .host (a i) (BitVec.ofNat 32 d)) 0#32)
          (IntOp.cmpi .slt (BitVec.ofNat 32 d) 0#32))
        (IntOp.cmpi .ne (IntOp.remsi .host (a i) (BitVec.ofNat 32 d)) 0#32))
      (IntOp.addi (IntOp.remsi .host (a i) (BitVec.ofNat 32 d)) (BitVec.ofNat 32 d))
      (IntOp.remsi .host (a i) (BitVec.ofNat 32 d)) = _
  rw [ha]
  exact remainder_word A d hA hd hd'

/-- Wrapping negative values does nothing to an entry holding a natural number. -/
theorem wrapRows_apply (a : IVec S523776 32) (i : S523776.Idx) (A : ℕ) (ha : a i = BitVec.ofNat 32 A)
    (hA : A < 2 ^ 31) : wrapRows a i = BitVec.ofNat 32 A := by
  show Scalar.select (IntOp.cmpi .slt (a i) 0#32) (IntOp.addi (a i) 1024#32) (a i) = _
  rw [ha]
  exact wrap_ofNat A hA _

/-- The row of the `p`-th pair. -/
theorem rowW_apply (p : Fin 523776) :
    rowW (F := Ideal) (ix1 p) = BitVec.ofNat 32 (pos (upper 1024) 1048576 p.val / 1024) := by
  obtain ⟨h1, h2, h3⟩ := pos_spec p
  have hq : pos (upper 1024) 1048576 p.val / 1024 < 1024 := by omega
  unfold rowW
  refine (wrapRows_apply _ (ix1 p) (pos (upper 1024) 1048576 p.val / 1024) ?_ (by omega))
  have e := remainder_apply (floorDivide (flat (F := Ideal)) (constantI S_ 32 1024#32)) (ix1 p)
    (pos (upper 1024) 1048576 p.val / 1024) 1024
    (floorDivide_apply (flat (F := Ideal)) (ix1 p) _ 1024 (flat_apply p) (by omega) (by norm_num) (by norm_num))
    (by omega) (by norm_num) (by norm_num)
  rw [Nat.mod_eq_of_lt hq] at e
  exact e

/-- The column of the `p`-th pair. -/
theorem colW_apply (p : Fin 523776) :
    colW (F := Ideal) (ix1 p) = BitVec.ofNat 32 (pos (upper 1024) 1048576 p.val % 1024) := by
  obtain ⟨h1, h2, h3⟩ := pos_spec p
  unfold colW
  refine (wrapRows_apply _ (ix1 p) (pos (upper 1024) 1048576 p.val % 1024) ?_ (by omega))
  have e := remainder_apply (floorDivide (flat (F := Ideal)) (constantI S_ 32 1#32)) (ix1 p)
    (pos (upper 1024) 1048576 p.val / 1) 1024
    (floorDivide_apply (flat (F := Ideal)) (ix1 p) _ 1 (flat_apply p) (by omega) (by norm_num) (by norm_num))
    (by rw [Nat.div_one]; omega) (by norm_num) (by norm_num)
  rw [Nat.div_one] at e
  exact e

/-- The index array at `(p, 0)` is the row … -/
theorem pairIndex_row (p : Fin 523776) :
    pairIndex (F := Ideal) (ix2 p (0 : Fin 2)) = BitVec.ofNat 32 (pos (upper 1024) 1048576 p.val / 1024) := by
  unfold pairIndex
  rw [Cert.ConcatCols.left_apply _ _ concatenates_S523776x1_S523776x1_S523776x2_d1 p (0 : Fin 2) (0 : Fin 1) rfl,
    Cert.HostBroadcasts.col_apply (rowW (F := Ideal)) bcast_S523776_S523776x1_0 p (0 : Fin 1), rowW_apply]

/-- … and at `(p, 1)` the column. -/
theorem pairIndex_col (p : Fin 523776) :
    pairIndex (F := Ideal) (ix2 p (1 : Fin 2)) = BitVec.ofNat 32 (pos (upper 1024) 1048576 p.val % 1024) := by
  unfold pairIndex
  rw [Cert.ConcatCols.right_apply _ _ concatenates_S523776x1_S523776x1_S523776x2_d1 p (1 : Fin 2) (0 : Fin 1) rfl,
    Cert.HostBroadcasts.col_apply (colW (F := Ideal)) bcast_S523776_S523776x1_0 p (0 : Fin 1), colW_apply]

/-- The row and the column of the `p`-th pair, as indices. -/
def rowOf (p : Fin 523776) : Fin 1024 := ⟨pos (upper 1024) 1048576 p.val / 1024, by
  obtain ⟨h1, h2, h3⟩ := pos_spec p; omega⟩
def colOf (p : Fin 523776) : Fin 1024 := ⟨pos (upper 1024) 1048576 p.val % 1024, (pos_spec p).2.2⟩

/-- THE GATHER AT `p`: any matrix gathered at the pair index reads its entry `(row p, col p)`. -/
theorem gather_pairIndex_apply {α : Type} (x : S1024x1024.Idx → α) (p : Fin 523776) :
    Host.gather gather_S1024x1024_S523776x2_S523776_n_01_n_n_01_1_11 x (pairIndex (F := Ideal)) (ix1 p)
      = x (ix2 (rowOf p) (colOf p)) := by
  refine gather_pairs_apply gather_S1024x1024_S523776x2_S523776_n_01_n_n_01_1_11_wf x (pairIndex (F := Ideal)) p
    (rowOf p) (colOf p) ?_ ?_
  · rw [pairIndex_row, toInt_ofNat_small' _ (by have := (rowOf p).isLt; show _ < 2 ^ 31; unfold rowOf at this; simp only at this; omega)]
    rfl
  · rw [pairIndex_col, toInt_ofNat_small' _ (by have := (pos_spec p).2.2; omega)]
    rfl

end Cert.ReferenceIdeal.RefValue

end
-- ==== Proof.LibDotNN.lean ====
/-
  A reusable lemma: a host matrix product read at an entry.

  A `dot_general` of an [M, K] operand by a [K, N] operand — contracting axis 1 of the left with axis 0 of the right, no
  batch axes — read over the extended reals at the output entry (p, q) is the inner product of row p of the left operand
  with column q of the right one:  (L · R)[p, q] = Σ_{k < K} L[p, k] · R[k, q].
  Generic in the extents M, K, N and in the operands' float formats; the dimension record may be any one that equals the
  plain M×K by K×N record (a printed program's own record does, by unfolding).
-/
import proofs.«169696_j47545287967528_2_alg».proof.Proof.LibMatmulNN
import Idealize.ShloMosaic.PureOps.Ideal.Laws
import Idealize.ShloMosaic.Lib.ValueIdx

noncomputable section

namespace Cert.DotNN

open Idealize.ShloMosaic Idealize.ShloMosaic.ValueIdx

variable {M K N : Nat} {φ₁ φ₂ : FTy}

/-- A host matrix product at entry (p, q): the inner product of row p with column q. -/
theorem dotGeneral_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    Host.dotGeneral D prec lhs rhs (ix2 p q) = ∑ k : Fin K, lhs (ix2 p k) * rhs (ix2 k q) := by
  subst hD
  simp only [Host.dotGeneral]
  rw [Ideal.dotGeneral_apply, ← Equiv.sum_comp (contrEquiv1 (DotDims.plain M K N) K rfl rfl).symm]
  refine Finset.sum_congr rfl fun k _ => ?_
  rw [MatmulNN.lhsIdx_plain, MatmulNN.rhsIdx_plain]

end Cert.DotNN

end
-- ==== Proof.RefFloat.lean ====
import proofs.«169696_j47545287967528_2_alg».proof.Proof.RefPairIndexB
import proofs.«169696_j47545287967528_2_alg».proof.Proof.Spec
import proofs.«169696_j47545287967528_2_alg».proof.Proof.LibDotNN
import Idealize.ShloMosaic.PureOps.Ideal.Laws

/-!
# The distances the reference reads

Over the extended reals, for an input `x` of 1024 rows:

* the row sums of squares are `sq x i = Σ_d x[i,d]·x[i,d]` (a host sum from the initial value zero);
* the product of `x` with its transpose at `(i, j)` is `Σ_d x[i,d]·x[j,d]`;
* the two broadcasts of the row sums add up to `sq x i + sq x j` at `(i, j)`;
* so the cut-off squared distance at `(i, j)` is `max (sq i + sq j − 2·gram i j) 0`, and its gather at the
  `p`-th pair followed by the square root is the distance of rows `row p` and `col p`.
-/

noncomputable section

namespace Cert.ReferenceIdeal.RefValue

open Idealize.ShloMosaic Idealize.ShloMosaic.ValueIdx
open Cert.ReferenceIdeal
open Cert.ReferenceIdeal.Facts₀ Cert.ReferenceIdeal.Facts

variable [Facts]

/-- The row sums of squares. -/
theorem sq_apply (x : FVec Ideal S1024x8192 .f32) (i : Fin 1024) :
    sq (F := Ideal) x (ix1 i) = Cert.PairLoss.sq x i := by
  have h : S1024x8192.Reduces [1] S1024 := by decide
  unfold sq Cert.PairLoss.sq
  show Ideal.hostReduceAdd reducesTo_S1024x8192_S1024_d1 (mulf (F := Ideal) x x)
    (Ideal.ofBits .f32 0x00000000#32) (ix1 i) = _
  rw [Ideal.hostReduceAdd_single reducesTo_S1024x8192_S1024_d1 h, Ideal.ofBits_zero_f32, zero_add]
  refine Finset.sum_congr rfl fun d _ => ?_
  have e : h.lift (ix1 i) d = ix2 i d := funext fun a => Fin.ext (by
    match a with
    | ⟨0, _⟩ => rfl
    | ⟨1, _⟩ => rfl)
  show x (h.lift (ix1 i) d) * x (h.lift (ix1 i) d) = _
  rw [e]
  rfl

/-- The product of the input with its transpose. -/
theorem gram_apply (x : FVec Ideal S1024x8192 .f32) (i j : Fin 1024) :
    gram (F := Ideal) x (ix2 i j) = Cert.PairLoss.gram x i j := by
  unfold gram Cert.PairLoss.gram
  rw [Cert.DotNN.dotGeneral_apply dot_S1024x8192_S8192x1024_S1024x1024_1_0_0_1_n_n rfl none x
    (transpose S8192x1024 [1, 0] x transposes_S1024x8192_S8192x1024_1_0) i j]
  refine Finset.sum_congr rfl fun d _ => ?_
  rw [transpose_apply [1, 0] x transposes_S1024x8192_S8192x1024_1_0 (ix2 d j) (ix2 j d)
    (fun b => match b with
      | ⟨0, _⟩ => rfl
      | ⟨1, _⟩ => rfl)]

/-- The two broadcasts of the row sums, added. -/
theorem sqSum_apply (x : FVec Ideal S1024x8192 .f32) (i j : Fin 1024) :
    sqSum (F := Ideal) x (ix2 i j) = sq (F := Ideal) x (ix1 i) + sq (F := Ideal) x (ix1 j) := by
  unfold sqSum
  rw [addf_apply,
    Cert.HostBroadcasts.col_rows_apply _ bcast_S1024x1_S1024x1024_0_1 i j,
    Cert.HostBroadcasts.col_apply (sq (F := Ideal) x) bcast_S1024_S1024x1_0 i (0 : Fin 1),
    broadcastInDim_apply ![0, 1] bcast_S1x1024_S1024x1024_0_1 _ (ix2 i j) (ix2 (0 : Fin 1) j)
      (fun a => match a with
        | ⟨0, _⟩ => rfl
        | ⟨1, _⟩ => rfl),
    broadcastInDim_apply ![1] bcast_S1024_S1x1024_1 (sq (F := Ideal) x) (ix2 (0 : Fin 1) j) (ix1 j)
      (fun a => match a with
        | ⟨0, _⟩ => rfl)]

/-- The cut-off squared distance. -/
theorem d2_apply (x : FVec Ideal S1024x8192 .f32) (i j : Fin 1024) :
    d2 (F := Ideal) x (ix2 i j) = Cert.PairLoss.d2 x i j := by
  unfold d2 Cert.PairLoss.d2
  rw [maximumf_apply, subf_apply, mulf_apply, sqSum_apply, gram_apply, sq_apply, sq_apply,
    broadcastInDim_scalar_apply, broadcastInDim_scalar_apply, constant_apply, constant_apply]

/-- The host's square root at an index is the extended reals' square root of the entry. -/
theorem hostSqrt_apply {s : Shape} (a : FVec Ideal s .f32) (i : s.Idx) :
    Host.sqrt (F := Ideal) a i = Ideal.sqrt (a i) := rfl

/-- THE DISTANCE AT THE `p`-th PAIR. -/
theorem half_apply (x : FVec Ideal S1024x8192 .f32) (p : Fin 523776) :
    half (F := Ideal) x (ix1 p) = Cert.PairLoss.dist x (rowOf p) (colOf p) := by
  unfold half Cert.PairLoss.dist
  rw [hostSqrt_apply, gather_pairIndex_apply, d2_apply]

end Cert.ReferenceIdeal.RefValue

end
-- ==== Proof.RefValue.lean ====
import proofs.«169696_j47545287967528_2_alg».proof.Proof.RefFloat

/-!
# The reference's value

The reference's result is the pairwise-distance loss of its two inputs: the mean, over the pairs
`i < j` of rows, of the squared difference of the two inputs' row distances.

The program sums the squared differences over the 523776 listed pairs `(row p, col p)`; the list is
the enumeration of the strict upper triangle by two running sums, so the sum over the list is the
double sum over `i < j`.  Only commutativity and associativity of the sum are used.
-/

noncomputable section

namespace Cert.ReferenceIdeal.RefValue

open Idealize.ShloMosaic Idealize.ShloMosaic.ValueIdx
open Cert.ReferenceIdeal
open Cert.ReferenceIdeal.Facts₀ Cert.ReferenceIdeal.Facts
open SetBitsEnum (upper pos)

variable [Facts]

/-- A sum over the indices of a vector is the sum over its coordinate. -/
theorem sum_idx1 {M : Type*} [AddCommMonoid M] {n : ℕ} (f : (⟨1, ![n]⟩ : Shape).Idx → M) :
    ∑ i, f i = ∑ a : Fin n, f (ix1 a) :=
  Fintype.sum_equiv ⟨fun i => i 0, ix1, fun i => (eq_ix1 i).symm, fun _ => rfl⟩ _ _
    (fun i => congrArg f (eq_ix1 i))

/-- A function of two row numbers, extended by zero to all naturals. -/
def ext2 (t : Fin 1024 → Fin 1024 → EReal) (i j : ℕ) : EReal :=
  if h : i < 1024 ∧ j < 1024 then t ⟨i, h.1⟩ ⟨j, h.2⟩ else 0

/-- SUMMING OVER THE LISTED PAIRS IS SUMMING OVER `i < j`. -/
theorem sum_pairs (t : Fin 1024 → Fin 1024 → EReal) :
    ∑ p : Fin 523776, t (rowOf p) (colOf p) = ∑ i : Fin 1024, ∑ j : Fin 1024, if i < j then t i j else 0 := by
  have key := SetBitsEnum.sum_pos_triangle 1024 (ext2 t)
  have e1 : 1024 * (1024 - 1) / 2 = 523776 := by norm_num
  have e2 : 1024 * 1024 = 1048576 := by norm_num
  rw [e1, e2] at key
  have hl : ∑ p : Fin 523776, t (rowOf p) (colOf p)
      = ∑ p ∈ Finset.range 523776,
          ext2 t (pos (upper 1024) 1048576 p / 1024) (pos (upper 1024) 1048576 p % 1024) := by
    rw [← Fin.sum_univ_eq_sum_range
      (fun p => ext2 t (pos (upper 1024) 1048576 p / 1024) (pos (upper 1024) 1048576 p % 1024)) 523776]
    refine Finset.sum_congr rfl fun p _ => ?_
    unfold ext2
    rw [dif_pos ⟨(rowOf p).isLt, (colOf p).isLt⟩]
    rfl
  have hr : ∑ i : Fin 1024, ∑ j : Fin 1024, (if i < j then t i j else 0)
      = ∑ i ∈ Finset.range 1024, ∑ j ∈ Finset.range 1024, if i < j then ext2 t i j else 0 := by
    rw [← Fin.sum_univ_eq_sum_range
      (fun i => ∑ j ∈ Finset.range 1024, if i < j then ext2 t i j else 0) 1024]
    refine Finset.sum_congr rfl fun i _ => ?_
    rw [← Fin.sum_univ_eq_sum_range (fun j => if i.val < j then ext2 t i.val j else 0) 1024]
    refine Finset.sum_congr rfl fun j _ => ?_
    by_cases hij : i < j
    · have hij' : i.val < j.val := hij
      rw [if_pos hij, if_pos hij']
      unfold ext2
      rw [dif_pos ⟨i.isLt, j.isLt⟩]
    · have hij' : ¬ i.val < j.val := hij
      rw [if_neg hij, if_neg hij']
  rw [hl, hr]
  exact key

/-- THE REFERENCE'S RESULT IS THE LOSS of its two inputs. -/
theorem refTerm_eq (x y : FVec Ideal S1024x8192 .f32) :
    refTerm (F := Ideal) x y = fun _ => Cert.PairLoss.loss x y := by
  funext j
  unfold refTerm Cert.PairLoss.loss
  rw [hostDivf_apply, hostReduceAdd_apply, constant_apply, constant_apply]
  refine congrArg (fun s => Ideal.div s (Ideal.ofBits .f32 0x48FFC000#32)) ?_
  rw [Ideal.hostReduceAdd_total reducesTo_S523776_S_d0 (fun b => b.elim0), Ideal.ofBits_zero_f32, zero_add,
    sum_idx1]
  unfold Cert.PairLoss.total
  rw [← sum_pairs (Cert.PairLoss.term x y)]
  refine Finset.sum_congr rfl fun p _ => ?_
  unfold diff Cert.PairLoss.term
  rw [mulf_apply, subf_apply, half_apply, half_apply]

end Cert.ReferenceIdeal.RefValue

end
-- ==== Proof.lean ====
/-
  The pairwise-distance loss: for two arrays of 1024 rows in ℝ^8192, the mean over the 523776 pairs i < j of rows of
  the squared difference between the two arrays' Euclidean row distances ‖x_i − x_j‖, each distance computed as
  √max(‖x_i‖² + ‖x_j‖² − 2⟨x_i, x_j⟩, 0).

  The kernel computes it in two grid regions. The first walks row halves and column tiles, adding each tile's
  contribution to the Gram matrices ⟨x_i, x_j⟩ and to the squared norms ‖x_i‖² of both arrays into blocks that stay
  resident while the tiles run. The second walks bands of 128 rows, forms the squared distance differences of a band
  against all rows, keeps those with i < j by a 0/1 mask, adds their sum into one cell, and divides the cell by the
  number of pairs after the last band. The reference forms the same matrices by whole-array operations, finds the
  pairs i < j at run time — the positions of the set entries of the strictly-upper-triangular 0/1 matrix, enumerated
  by two running sums and a histogram — gathers the distances at those pairs, and takes the mean.

  Over the extended reals both are ONE function of the two arrays (`Cert.PairLoss.loss`): they apply the same
  operations to the same entries and differ only in how finite sums are grouped and ordered — sums of extended reals
  form a commutative monoid, and t·1 = t, t·0 = 0 for every extended real t — and in that the pairs i < j are
  selected by a mask in one and by an enumeration in the other, which is a bijection onto those pairs. No step uses
  that the inputs are finite.

  The three frames: each program is a line of segments (grid regions and host operations) between which the core's
  buffers are held whole at named contents; every weakly fair execution runs through them to the end, and no segment
  writes an argument array. The kernel's idealization rewrote no operation, so there is nothing to preserve.
-/
import proofs.«169696_j47545287967528_2_alg».proof.Defs
import proofs.«169696_j47545287967528_2_alg».proof.Proof.Gen.Kernel
import proofs.«169696_j47545287967528_2_alg».proof.Proof.Gen.KernelIdeal
import proofs.«169696_j47545287967528_2_alg».proof.Proof.Gen.ReferenceIdeal
import proofs.«169696_j47545287967528_2_alg».proof.Proof.Gen.Pre_finite_inputs
import proofs.«169696_j47545287967528_2_alg».proof.Proof.KernelKeeps
import proofs.«169696_j47545287967528_2_alg».proof.Proof.BitsKernelKeeps
import proofs.«169696_j47545287967528_2_alg».proof.Proof.KernelLossResult
import proofs.«169696_j47545287967528_2_alg».proof.Proof.RefRun
import proofs.«169696_j47545287967528_2_alg».proof.Proof.RefRunResult
import proofs.«169696_j47545287967528_2_alg».proof.Proof.RefValue

noncomputable section

namespace Cert.Proof

open Idealize.ShloMosaic Idealize.SL.Sem

/-- The kernel as printed runs to the end and leaves its two argument arrays as launched. -/
theorem frame_kernel : Cert.frame_Kernel (hKernel := Cert.Kernel.Gen.facts) (hPre_finite_inputs := Cert.Pre_finite_inputs.Gen.facts) :=
  fun m ρ _ => Cert.Kernel.Hand.frame (F := Bits) m ρ

/-- So does the kernel read over the extended reals. -/
theorem frame_ideal : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- And the reference: a straight line of host operations, none of which writes an argument. -/
theorem frame_reference : Cert.frame_ReferenceIdeal (hReferenceIdeal := Cert.ReferenceIdeal.Gen.facts) (hPre_finite_inputs := Cert.Pre_finite_inputs.Gen.facts) :=
  fun m ρ _ => Cert.ReferenceIdeal.HandRun.frame m ρ

/-- The idealization rewrote no operation. -/
theorem preserves : Cert.preserves_Kernel_KernelIdeal := trivial

/-- Over the extended reals, from memories agreeing on the two arguments, both programs end with the loss of those
    arguments in their result and the arguments unchanged: the kernel's result cell is the last boundary's contents
    at its result buffer, which is the loss; the reference's result is its composed term, which is the loss. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Hand.W4 (F := Ideal) m ρ c (Proc.devRef .tc Cert.KernelIdeal.main_v4), ?_, ?_⟩
  · exact (θ_run (Cert.KernelIdeal.defs (F := Ideal)) _ _).mono (fun r h c =>
      ⟨h c _ (Cert.KernelIdeal.Hand.mem_uc Cert.KernelIdeal.main_v4 (by decide)),
        (h c _ (Cert.KernelIdeal.Hand.mem_uc Cert.KernelIdeal.main_arg0 (by decide))).trans (Cert.KernelIdeal.Hand.W4_arg0 m ρ c),
        (h c _ (Cert.KernelIdeal.Hand.mem_uc Cert.KernelIdeal.main_arg1 (by decide))).trans (Cert.KernelIdeal.Hand.W4_arg1 m ρ c)⟩)
      (Cert.KernelIdeal.Hand.run (F := Ideal) m ρ)
  · refine (θ_run (Cert.ReferenceIdeal.defs (F := Ideal)) _ _).mono (fun r h c => ⟨(h c).1.trans ?_, (h c).2.1, (h c).2.2⟩)
      (Cert.ReferenceIdeal.HandRun.run_refTerm (F := Ideal) m' ρ')
    show _ = Cert.KernelIdeal.Hand.W4 (F := Ideal) m ρ c (Proc.devRef .tc Cert.KernelIdeal.main_v4)
    rw [Cert.ReferenceIdeal.RefValue.refTerm_eq, Cert.KernelIdeal.HandValue.result m ρ c, (hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
